-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x256x256 : Shape := ⟨4, ![4, 128, 256, 256]⟩
abbrev S4x1x128x128 : Shape := ⟨4, ![4, 1, 128, 128]⟩
abbrev S128x256 : Shape := ⟨2, ![128, 256]⟩
abbrev S_ : Shape := ⟨0, ![]⟩
abbrev S4x1x128x2x128 : Shape := ⟨5, ![4, 1, 128, 2, 128]⟩
abbrev S4x1x256x128 : Shape := ⟨4, ![4, 1, 256, 128]⟩
abbrev S4x1x256x128x2 : Shape := ⟨5, ![4, 1, 256, 128, 2]⟩
abbrev S4x1x256x256 : Shape := ⟨4, ![4, 1, 256, 256]⟩
abbrev S4x1 : Shape := ⟨2, ![4, 1]⟩
abbrev S4x1x1x1 : Shape := ⟨4, ![4, 1, 1, 1]⟩

class Facts : Prop where
  bcast_S_S4x128x256x256 : S_.BroadcastsInDim S4x128x256x256 (![] : Fin 0 → Fin S4x128x256x256.rank)
  reducesTo_S4x128x256x256_S_d0_1_2_3 : S4x128x256x256.ReducesTo [0, 1, 2, 3] S_
  h_S_ : 0 < S_.numel
  bcast_S_S4x1x128x128 : S_.BroadcastsInDim S4x1x128x128 (![] : Fin 0 → Fin S4x1x128x128.rank)
  reducesTo_S4x1x128x128_S_d0_1_2_3 : S4x1x128x128.ReducesTo [0, 1, 2, 3] S_
  bcast_S_S128x256 : S_.BroadcastsInDim S128x256 (![] : Fin 0 → Fin S128x256.rank)
  reducesTo_S128x256_S_d0_1 : S128x256.ReducesTo [0, 1] S_
  bcast_S4x1x128x128_S4x1x128x2x128_0_1_2_4 : S4x1x128x128.BroadcastsInDim S4x1x128x2x128 (![0, 1, 2, 4] : Fin 4 → Fin S4x1x128x2x128.rank)
  shapeCasts_S4x1x128x2x128_S4x1x256x128 : S4x1x128x2x128.ShapeCasts S4x1x256x128
  bcast_S4x1x256x128_S4x1x256x128x2_0_1_2_3 : S4x1x256x128.BroadcastsInDim S4x1x256x128x2 (![0, 1, 2, 3] : Fin 4 → Fin S4x1x256x128x2.rank)
  shapeCasts_S4x1x256x128x2_S4x1x256x256 : S4x1x256x128x2.ShapeCasts S4x1x256x256
  bcast_S_S4x1x256x256 : S_.BroadcastsInDim S4x1x256x256 (![] : Fin 0 → Fin S4x1x256x256.rank)
  reducesTo_S4x1x256x256_S4x1_d2_3 : S4x1x256x256.ReducesTo [2, 3] S4x1
  bcast_S4x1_S4x1x1x1_0_1 : S4x1.BroadcastsInDim S4x1x1x1 (![0, 1] : Fin 2 → Fin S4x1x1x1.rank)
  bcast_S_S4x1x1x1 : S_.BroadcastsInDim S4x1x1x1 (![] : Fin 0 → Fin S4x1x1x1.rank)
  reducesTo_S4x1x1x1_S_d0_1_2_3 : S4x1x1x1.ReducesTo [0, 1, 2, 3] S_

variable [Facts]

def fn_part4 {F : FTy → Type} [FloatOps F] (main_v51 : IVec S_ 1) (main_v67 : IVec S4x1x1x1 1) (main_c_25 : IVec S_ 1) : IVec S_ 1 :=
  let main_v68 : IVec S_ 1 := (fun x v => Host.reduce IntOp.andi x v reducesTo_S4x1x1x1_S_d0_1_2_3 h_S_) main_v67 main_c_25
  let main_v69 : IVec S_ 1 := andi main_v51 main_v68
  main_v69

def fn_part3 {F : FTy → Type} [FloatOps F] (main_arg2 : FVec F S4x1x128x128 .f32) (main_v33 : IVec S_ 1) (main_v50 : IVec S_ 1) : IVec S_ 1 :=
  let main_v51 : IVec S_ 1 := andi main_v33 main_v50
  let main_v52 : FVec F S4x1x128x2x128 .f32 := broadcastInDim S4x1x128x2x128 ![0, 1, 2, 4] bcast_S4x1x128x128_S4x1x128x2x128_0_1_2_4 main_arg2
  let main_v53 : FVec F S4x1x256x128 .f32 := shapeCast S4x1x256x128 main_v52 shapeCasts_S4x1x128x2x128_S4x1x256x128
  let main_v54 : FVec F S4x1x256x128x2 .f32 := broadcastInDim S4x1x256x128x2 ![0, 1, 2, 3] bcast_S4x1x256x128_S4x1x256x128x2_0_1_2_3 main_v53
  let main_v55 : FVec F S4x1x256x256 .f32 := shapeCast S4x1x256x256 main_v54 shapeCasts_S4x1x256x128x2_S4x1x256x256
  let main_cst_19 : FVec F S_ .f32 := constant S_ .f32 0x3F800000#32
  let main_v56 : FVec F S4x1x256x256 .f32 := broadcastInDim S4x1x256x256 ![] bcast_S_S4x1x256x256 main_cst_19
  let main_v57 : FVec F S4x1x256x256 .f32 := subf main_v56 main_v55
  let main_cst_20 : FVec F S_ .f32 := constant S_ .f32 0x00000000#32
  let main_v58 : FVec F S4x1 .f32 := (fun x v => Host.reduceAdd x v reducesTo_S4x1x256x256_S4x1_d2_3 h_S_) main_v55 main_cst_20
  let main_v59 : FVec F S4x1x1x1 .f32 := broadcastInDim S4x1x1x1 ![0, 1] bcast_S4x1_S4x1x1x1_0_1 main_v58
  let main_cst_21 : FVec F S_ .f32 := constant S_ .f32 0x322BCC77#32
  let main_v60 : FVec F S4x1x1x1 .f32 := broadcastInDim S4x1x1x1 ![] bcast_S_S4x1x1x1 main_cst_21
  let main_v61 : FVec F S4x1x1x1 .f32 := addf main_v59 main_v60
  let main_cst_22 : FVec F S_ .f32 := constant S_ .f32 0x00000000#32
  let main_v62 : FVec F S4x1 .f32 := (fun x v => Host.reduceAdd x v reducesTo_S4x1x256x256_S4x1_d2_3 h_S_) main_v57 main_cst_22
  let main_v63 : FVec F S4x1x1x1 .f32 := broadcastInDim S4x1x1x1 ![0, 1] bcast_S4x1_S4x1x1x1_0_1 main_v62
  let main_cst_23 : FVec F S_ .f32 := constant S_ .f32 0x322BCC77#32
  let main_v64 : FVec F S4x1x1x1 .f32 := broadcastInDim S4x1x1x1 ![] bcast_S_S4x1x1x1 main_cst_23
  let main_v65 : FVec F S4x1x1x1 .f32 := addf main_v63 main_v64
  let main_cst_24 : FVec F S_ .f32 := constant S_ .f32 0x00000000#32
  let main_v66 : FVec F S4x1x1x1 .f32 := broadcastInDim S4x1x1x1 ![] bcast_S_S4x1x1x1 main_cst_24
  let main_v67 : IVec S4x1x1x1 1 := cmpf .une main_v65 main_v66
  let main_c_25 : IVec S_ 1 := constantI S_ 1 1#1
  fn_part4 (F := F) main_v51 main_v67 main_c_25

def fn_part2 {F : FTy → Type} [FloatOps F] (main_arg2 : FVec F S4x1x128x128 .f32) (main_v33 : IVec S_ 1) : IVec S_ 1 :=
  let main_v34 : FVec F S4x1x128x2x128 .f32 := broadcastInDim S4x1x128x2x128 ![0, 1, 2, 4] bcast_S4x1x128x128_S4x1x128x2x128_0_1_2_4 main_arg2
  let main_v35 : FVec F S4x1x256x128 .f32 := shapeCast S4x1x256x128 main_v34 shapeCasts_S4x1x128x2x128_S4x1x256x128
  let main_v36 : FVec F S4x1x256x128x2 .f32 := broadcastInDim S4x1x256x128x2 ![0, 1, 2, 3] bcast_S4x1x256x128_S4x1x256x128x2_0_1_2_3 main_v35
  let main_v37 : FVec F S4x1x256x256 .f32 := shapeCast S4x1x256x256 main_v36 shapeCasts_S4x1x256x128x2_S4x1x256x256
  let main_cst_12 : FVec F S_ .f32 := constant S_ .f32 0x3F800000#32
  let main_v38 : FVec F S4x1x256x256 .f32 := broadcastInDim S4x1x256x256 ![] bcast_S_S4x1x256x256 main_cst_12
  let main_v39 : FVec F S4x1x256x256 .f32 := subf main_v38 main_v37
  let main_cst_13 : FVec F S_ .f32 := constant S_ .f32 0x00000000#32
  let main_v40 : FVec F S4x1 .f32 := (fun x v => Host.reduceAdd x v reducesTo_S4x1x256x256_S4x1_d2_3 h_S_) main_v37 main_cst_13
  let main_v41 : FVec F S4x1x1x1 .f32 := broadcastInDim S4x1x1x1 ![0, 1] bcast_S4x1_S4x1x1x1_0_1 main_v40
  let main_cst_14 : FVec F S_ .f32 := constant S_ .f32 0x322BCC77#32
  let main_v42 : FVec F S4x1x1x1 .f32 := broadcastInDim S4x1x1x1 ![] bcast_S_S4x1x1x1 main_cst_14
  let main_v43 : FVec F S4x1x1x1 .f32 := addf main_v41 main_v42
  let main_cst_15 : FVec F S_ .f32 := constant S_ .f32 0x00000000#32
  let main_v44 : FVec F S4x1 .f32 := (fun x v => Host.reduceAdd x v reducesTo_S4x1x256x256_S4x1_d2_3 h_S_) main_v39 main_cst_15
  let main_v45 : FVec F S4x1x1x1 .f32 := broadcastInDim S4x1x1x1 ![0, 1] bcast_S4x1_S4x1x1x1_0_1 main_v44
  let main_cst_16 : FVec F S_ .f32 := constant S_ .f32 0x322BCC77#32
  let main_v46 : FVec F S4x1x1x1 .f32 := broadcastInDim S4x1x1x1 ![] bcast_S_S4x1x1x1 main_cst_16
  let main_v47 : FVec F S4x1x1x1 .f32 := addf main_v45 main_v46
  let main_cst_17 : FVec F S_ .f32 := constant S_ .f32 0x00000000#32
  let main_v48 : FVec F S4x1x1x1 .f32 := broadcastInDim S4x1x1x1 ![] bcast_S_S4x1x1x1 main_cst_17
  let main_v49 : IVec S4x1x1x1 1 := cmpf .une main_v43 main_v48
  let main_c_18 : IVec S_ 1 := constantI S_ 1 1#1
  let main_v50 : IVec S_ 1 := (fun x v => Host.reduce IntOp.andi x v reducesTo_S4x1x1x1_S_d0_1_2_3 h_S_) main_v49 main_c_18
  fn_part3 (F := F) main_arg2 main_v33 main_v50

def fn_part1 {F : FTy → Type} [FloatOps F] (main_arg2 : FVec F S4x1x128x128 .f32) (main_arg4 : FVec F S128x256 .f32) (main_arg5 : FVec F S128x256 .f32) (main_arg6 : FVec F S128x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_v33

def fn {F : FTy → Type} [FloatOps F] (main_arg0 : FVec F S4x128x256x256 .f32) (main_arg1 : FVec F S4x128x256x256 .f32) (main_arg2 : FVec F S4x1x128x128 .f32) (main_arg3 : FVec F S128x256 .f32) (main_arg4 : FVec F S128x256 .f32) (main_arg5 : FVec F S128x256 .f32) (main_arg6 : FVec F S128x256 .f32) : IVec S_ 1 :=
  let main_v0 : FVec F S4x128x256x256 .f32 := Host.absf main_arg0
  let main_cst : FVec F S_ .f32 := constant S_ .f32 0x7F800000#32
  let main_v1 : FVec F S4x128x256x256 .f32 := broadcastInDim S4x128x256x256 ![] bcast_S_S4x128x256x256 main_cst
  let main_v2 : IVec S4x128x256x256 1 := cmpf .olt main_v0 main_v1
  let main_c : IVec S_ 1 := constantI S_ 1 1#1
  let main_v3 : IVec S_ 1 := (fun x v => Host.reduce IntOp.andi x v reducesTo_S4x128x256x256_S_d0_1_2_3 h_S_) main_v2 main_c
  let main_v4 : FVec F S4x128x256x256 .f32 := Host.absf main_arg1
  let main_cst_0 : FVec F S_ .f32 := constant S_ .f32 0x7F800000#32
  let main_v5 : FVec F S4x128x256x256 .f32 := broadcastInDim S4x128x256x256 ![] bcast_S_S4x128x256x256 main_cst_0
  let main_v6 : IVec S4x128x256x256 1 := cmpf .olt main_v4 main_v5
  let main_c_1 : IVec S_ 1 := constantI S_ 1 1#1
  let main_v7 : IVec S_ 1 := (fun x v => Host.reduce IntOp.andi x v reducesTo_S4x128x256x256_S_d0_1_2_3 h_S_) main_v6 main_c_1
  let main_v8 : IVec S_ 1 := andi main_v3 main_v7
  let main_v9 : FVec F S4x1x128x128 .f32 := Host.absf main_arg2
  let main_cst_2 : FVec F S_ .f32 := constant S_ .f32 0x7F800000#32
  let main_v10 : FVec F S4x1x128x128 .f32 := broadcastInDim S4x1x128x128 ![] bcast_S_S4x1x128x128 main_cst_2
  let main_v11 : IVec S4x1x128x128 1 := cmpf .olt main_v9 main_v10
  let main_c_3 : IVec S_ 1 := constantI S_ 1 1#1
  let main_v12 : IVec S_ 1 := (fun x v => Host.reduce IntOp.andi x v reducesTo_S4x1x128x128_S_d0_1_2_3 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg2 main_arg4 main_arg5 main_arg6 main_v13 main_v16
-- ==== Kernel.lean ====
abbrev S4x128x256x256 : Shape := ⟨4, ![4, 128, 256, 256]⟩
abbrev S4x1x128x128 : Shape := ⟨4, ![4, 1, 128, 128]⟩
abbrev S128x256 : Shape := ⟨2, ![128, 256]⟩
abbrev S4x1x128x2x128 : Shape := ⟨5, ![4, 1, 128, 2, 128]⟩
abbrev S4x1x256x128 : Shape := ⟨4, ![4, 1, 256, 128]⟩
abbrev S4x1x256x128x2 : Shape := ⟨5, ![4, 1, 256, 128, 2]⟩
abbrev S4x1x256x256 : Shape := ⟨4, ![4, 1, 256, 256]⟩
abbrev S4x128x1x1 : Shape := ⟨4, ![4, 128, 1, 1]⟩
abbrev S4x128x16x256 : Shape := ⟨4, ![4, 128, 16, 256]⟩
abbrev S4x1x16x256 : Shape := ⟨4, ![4, 1, 16, 256]⟩
abbrev S4x1x1x1 : Shape := ⟨4, ![4, 1, 1, 1]⟩
abbrev S4x1x16 : Shape := ⟨3, ![4, 1, 16]⟩
abbrev S4x1x16x1 : Shape := ⟨4, ![4, 1, 16, 1]⟩
abbrev S4x1x1 : Shape := ⟨3, ![4, 1, 1]⟩
abbrev S4x128x16 : Shape := ⟨3, ![4, 128, 16]⟩
abbrev S4x128x16x1 : Shape := ⟨4, ![4, 128, 16, 1]⟩
abbrev S4x128x1 : Shape := ⟨3, ![4, 128, 1]⟩
abbrev S4x128 : Shape := ⟨2, ![4, 128]⟩
abbrev S4x256 : Shape := ⟨2, ![4, 256]⟩
abbrev S256x128 : Shape := ⟨2, ![256, 128]⟩

abbrev nBuf : Space → Nat
  | .hbm => 44
  | .vmem => 44
  | .smem => 0
  | _ => 0

abbrev bufTy : (tb : Table) → Fin (tcTables nBuf tb) → BufTy
  | .hbm, ⟨0, _⟩ => ⟨S4x128x256x256, .f32⟩
  | .hbm, ⟨1, _⟩ => ⟨S4x128x256x256, .f32⟩
  | .hbm, ⟨2, _⟩ => ⟨S4x1x128x128, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S4x1x128x2x128, .f32⟩
  | .hbm, ⟨8, _⟩ => ⟨S4x1x256x128, .f32⟩
  | .hbm, ⟨9, _⟩ => ⟨S4x1x256x128x2, .f32⟩
  | .hbm, ⟨10, _⟩ => ⟨S4x1x256x256, .f32⟩
  | .hbm, ⟨11, _⟩ => ⟨S4x128x1x1, .f32⟩
  | .hbm, ⟨12, _⟩ => ⟨S4x128x1x1, .f32⟩
  | .hbm, ⟨13, _⟩ => ⟨S4x128x1x1, .f32⟩
  | .hbm, ⟨14, _⟩ => ⟨S4x128x1x1, .f32⟩
  | .hbm, ⟨15, _⟩ => ⟨S4x128x1x1, .f32⟩
  | .hbm, ⟨16, _⟩ => ⟨S4x128x1x1, .f32⟩
  | .hbm, ⟨17, _⟩ => ⟨S4x128x1x1, .f32⟩
  | .hbm, ⟨18, _⟩ => ⟨S4x128x1x1, .f32⟩
  | .hbm, ⟨19, _⟩ => ⟨S4x128, .f32⟩
  | .hbm, ⟨20, _⟩ => ⟨S4x128, .f32⟩
  | .hbm, ⟨21, _⟩ => ⟨S4x256, .f32⟩
  | .hbm, ⟨22, _⟩ => ⟨S256x128, .f32⟩
  | .hbm, ⟨23, _⟩ => ⟨S4x128, .f32⟩
  | .hbm, ⟨24, _⟩ => ⟨S4x128x1x1, .f32⟩
  | .hbm, ⟨25, _⟩ => ⟨S4x128, .f32⟩
  | .hbm, ⟨26, _⟩ => ⟨S4x128, .f32⟩
  | .hbm, ⟨27, _⟩ => ⟨S4x256, .f32⟩
  | .hbm, ⟨28, _⟩ => ⟨S256x128, .f32⟩
  | .hbm, ⟨29, _⟩ => ⟨S4x128, .f32⟩
  | .hbm, ⟨30, _⟩ => ⟨S4x128x1x1, .f32⟩
  | .hbm, ⟨31, _⟩ => ⟨S4x128, .f32⟩
  | .hbm, ⟨32, _⟩ => ⟨S4x128, .f32⟩
  | .hbm, ⟨33, _⟩ => ⟨S4x256, .f32⟩
  | .hbm, ⟨34, _⟩ => ⟨S256x128, .f32⟩
  | .hbm, ⟨35, _⟩ => ⟨S4x128, .f32⟩
  | .hbm, ⟨36, _⟩ => ⟨S4x128x1x1, .f32⟩
  | .hbm, ⟨37, _⟩ => ⟨S4x128, .f32⟩
  | .hbm, ⟨38, _⟩ => ⟨S4x128, .f32⟩
  | .hbm, ⟨39, _⟩ => ⟨S4x256, .f32⟩
  | .hbm, ⟨40, _⟩ => ⟨S256x128, .f32⟩
  | .hbm, ⟨41, _⟩ => ⟨S4x128, .f32⟩
  | .hbm, ⟨42, _⟩ => ⟨S4x128x1x1, .f32⟩
  | .hbm, ⟨43, _⟩ => ⟨S4x128x256x256, .f32⟩
  | .local _ .vmem, ⟨0, _⟩ => ⟨S4x128x16x256, .f32⟩
  | .local _ .vmem, ⟨1, _⟩ => ⟨S4x128x16x256, .f32⟩
  | .local _ .vmem, ⟨2, _⟩ => ⟨S4x128x16x256, .f32⟩
  | .local _ .vmem, ⟨3, _⟩ => ⟨S4x128x16x256, .f32⟩
  | .local _ .vmem, ⟨4, _⟩ => ⟨S4x1x16x256, .f32⟩
  | .local _ .vmem, ⟨5, _⟩ => ⟨S4x1x16x256, .f32⟩
  | .local _ .vmem, ⟨6, _⟩ => ⟨S4x128x1x1, .f32⟩
  | .local _ .vmem, ⟨7, _⟩ => ⟨S4x128x1x1, .f32⟩
  | .local _ .vmem, ⟨8, _⟩ => ⟨S4x128x1x1, .f32⟩
  | .local _ .vmem, ⟨9, _⟩ => ⟨S4x128x1x1, .f32⟩
  | .local _ .vmem, ⟨10, _⟩ => ⟨S4x128x1x1, .f32⟩
  | .local _ .vmem, ⟨11, _⟩ => ⟨S4x128x1x1, .f32⟩
  | .local _ .vmem, ⟨12, _⟩ => ⟨S4x128x1x1, .f32⟩
  | .local _ .vmem, ⟨13, _⟩ => ⟨S4x128x1x1, .f32⟩
  | .local _ .vmem, ⟨14, _⟩ => ⟨S4x1x1x1, .f32⟩
  | .local _ .vmem, ⟨15, _⟩ => ⟨S4x1x1x1, .f32⟩
  | .local _ .vmem, ⟨16, _⟩ => ⟨S4x1x1x1, .f32⟩
  | .local _ .vmem, ⟨17, _⟩ => ⟨S4x1x1x1, .f32⟩
  | .local _ .vmem, ⟨18, _⟩ => ⟨S4x128x1x1, .f32⟩
  | .local _ .vmem, ⟨19, _⟩ => ⟨S4x128x1x1, .f32⟩
  | .local _ .vmem, ⟨20, _⟩ => ⟨S4x128x1x1, .f32⟩
  | .local _ .vmem, ⟨21, _⟩ => ⟨S4x128x1x1, .f32⟩
  | .local _ .vmem, ⟨22, _⟩ => ⟨S4x128x1x1, .f32⟩
  | .local _ .vmem, ⟨23, _⟩ => ⟨S4x128x1x1, .f32⟩
  | .local _ .vmem, ⟨24, _⟩ => ⟨S4x128x1x1, .f32⟩
  | .local _ .vmem, ⟨25, _⟩ => ⟨S4x128x1x1, .f32⟩
  | .local _ .vmem, ⟨26, _⟩ => ⟨S4x128x1x1, .f32⟩
  | .local _ .vmem, ⟨27, _⟩ => ⟨S4x128x1x1, .f32⟩
  | .local _ .vmem, ⟨28, _⟩ => ⟨S4x128x1x1, .f32⟩
  | .local _ .vmem, ⟨29, _⟩ => ⟨S4x128x1x1, .f32⟩
  | .local _ .vmem, ⟨30, _⟩ => ⟨S4x128x16x256, .f32⟩
  | .local _ .vmem, ⟨31, _⟩ => ⟨S4x128x16x256, .f32⟩
  | .local _ .vmem, ⟨32, _⟩ => ⟨S4x1x16x256, .f32⟩
  | .local _ .vmem, ⟨33, _⟩ => ⟨S4x1x16x256, .f32⟩
  | .local _ .vmem, ⟨34, _⟩ => ⟨S4x128x1x1, .f32⟩
  | .local _ .vmem, ⟨35, _⟩ => ⟨S4x128x1x1, .f32⟩
  | .local _ .vmem, ⟨36, _⟩ => ⟨S4x128x1x1, .f32⟩
  | .local _ .vmem, ⟨37, _⟩ => ⟨S4x128x1x1, .f32⟩
  | .local _ .vmem, ⟨38, _⟩ => ⟨S4x128x1x1, .f32⟩
  | .local _ .vmem, ⟨39, _⟩ => ⟨S4x128x1x1, .f32⟩
  | .local _ .vmem, ⟨40, _⟩ => ⟨S4x128x1x1, .f32⟩
  | .local _ .vmem, ⟨41, _⟩ => ⟨S4x128x1x1, .f32⟩
  | .local _ .vmem, ⟨42, _⟩ => ⟨S4x128x16x256, .f32⟩
  | .local _ .vmem, ⟨43, _⟩ => ⟨S4x128x16x256, .f32⟩
  | _, _ => ⟨S4x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_scratch13 : Ref sig .tc := ⟨.vmem, 27, rfl⟩
abbrev cc0_scratch14 : Ref sig .tc := ⟨.vmem, 28, rfl⟩
abbrev cc0_scratch15 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg3_0 : Ref sig .tc := ⟨.vmem, 35, rfl⟩
abbrev cc1_stg4_0 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v187 : BitVec 1 := Scalar.cmpi .eq arg0 c15_i32
  let v188 : BitVec 32 := Scalar.extui v187
  let c0_i32_172 : BitVec 32 := 0#32
  let v189 : BitVec 1 := Scalar.cmpi .ne v188 c0_i32_172
  v189

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x128x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S4x128x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1x16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x128x1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4x128x16x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S4x1x128x128_S4x1x128x2x128_0_1_2_4 : S4x1x128x128.BroadcastsInDim S4x1x128x2x128 (![0, 1, 2, 4] : Fin 4 → Fin S4x1x128x2x128.rank)
  shapeCasts_S4x1x128x2x128_S4x1x256x128 : S4x1x128x2x128.ShapeCasts S4x1x256x128
  bcast_S4x1x256x128_S4x1x256x128x2_0_1_2_3 : S4x1x256x128.BroadcastsInDim S4x1x256x128x2 (![0, 1, 2, 3] : Fin 4 → Fin S4x1x256x128x2.rank)
  shapeCasts_S4x1x256x128x2_S4x1x256x256 : S4x1x256x128x2.ShapeCasts S4x1x256x256
  inb_S4x1x1x1_S4x1x1x1_0_0_0_0 : ∀ a, (![0, 0, 0, 0] : Fin 4 → Nat) a + S4x1x1x1.size a ≤ S4x1x1x1.size a
  h_S4x1x1x1 : 0 < S4x1x1x1.numel
  shapeCasts_S4x1x1x1_S4x1x1x1 : S4x1x1x1.ShapeCasts S4x1x1x1
  inb_S4x128x1x1_S4x128x1x1_0_0_0_0 : ∀ a, (![0, 0, 0, 0] : Fin 4 → Nat) a + S4x128x1x1.size a ≤ S4x128x1x1.size a
  h_S4x128x1x1 : 0 < S4x128x1x1.numel
  shapeCasts_S4x128x1x1_S4x128x1x1 : S4x128x1x1.ShapeCasts S4x128x1x1
  inb_S4x1x16x256_S4x1x16x256_0_0_0_0 : ∀ a, (![0, 0, 0, 0] : Fin 4 → Nat) a + S4x1x16x256.size a ≤ S4x1x16x256.size a
  h_S4x1x16x256 : 0 < S4x1x16x256.numel
  shapeCasts_S4x1x16x256_S4x1x16x256 : S4x1x16x256.ShapeCasts S4x1x16x256
  reduces_S4x1x16x256_S4x1x16 : S4x1x16x256.Reduces [3] S4x1x16
  shapeCasts_S4x1x16_S4x1x16x1 : S4x1x16.ShapeCasts S4x1x16x1
  reduces_S4x1x16x1_S4x1x1 : S4x1x16x1.Reduces [2] S4x1x1
  shapeCasts_S4x1x1_S4x1x1x1 : S4x1x1.ShapeCasts S4x1x1x1
  inb_S4x128x16x256_S4x128x16x256_0_0_0_0 : ∀ a, (![0, 0, 0, 0] : Fin 4 → Nat) a + S4x128x16x256.size a ≤ S4x128x16x256.size a
  h_S4x128x16x256 : 0 < S4x128x16x256.numel
  broadcasts_S4x1x16x256_S4x128x16x256 : S4x1x16x256.Broadcasts S4x128x16x256
  reduces_S4x128x16x256_S4x128x16 : S4x128x16x256.Reduces [3] S4x128x16
  shapeCasts_S4x128x16_S4x128x16x1 : S4x128x16.ShapeCasts S4x128x16x1
  reduces_S4x128x16x1_S4x128x1 : S4x128x16x1.Reduces [2] S4x128x1
  shapeCasts_S4x128x1_S4x128x1x1 : S4x128x1.ShapeCasts S4x128x1x1
  broadcasts_S4x1x1x1_S4x128x1x1 : S4x1x1x1.Broadcasts S4x128x1x1
  shapeCasts_S4x128x1x1_S4x128 : S4x128x1x1.ShapeCasts S4x128
  concatenates_S4x128_S4x128_S4x256_d1 : Shape.Concatenates [S4x128, S4x128] S4x256 1
  transposes_S128x256_S256x128_1_0 : S128x256.Transposes [1, 0] S256x128
  bcast_S4x128_S4x128x1x1_0_1 : S4x128.BroadcastsInDim S4x128x1x1 (![0, 1] : Fin 2 → Fin S4x128x1x1.rank)
  broadcasts_S4x128x1x1_S4x128x16x256 : S4x128x1x1.Broadcasts S4x128x16x256
  dot_S4x256_S256x128_S4x128_1_0_0_1_n_n_wf : DotDims.WF S4x256 S256x128 S4x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x16x256.size a ≤ S4x128x256x256.size a
  hwx0_0 : ∀ i : grid0.Coords, EltTy.bits .f32 = 32 ∨ (Rect.block (s := S4x128x256x256) S4x128x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x16x256.size a ≤ S4x128x256x256.size a
  hwx0_1 : ∀ i : grid0.Coords, EltTy.bits .f32 = 32 ∨ (Rect.block (s := S4x128x256x256) S4x128x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x16x256.size a ≤ S4x1x256x256.size a
  hwx0_2 : ∀ i : grid0.Coords, EltTy.bits .f32 = 32 ∨ (Rect.block (s := S4x1x256x256) S4x1x16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128x1x1.size a ≤ S4x128x1x1.size a
  hwx0_3 : ∀ i : grid0.Coords, EltTy.bits .f32 = 32 ∨ (Rect.block (s := S4x128x1x1) S4x128x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x1x1.size a ≤ S4x128x1x1.size a
  hwx0_4 : ∀ i : grid0.Coords, EltTy.bits .f32 = 32 ∨ (Rect.block (s := S4x128x1x1) S4x128x1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128x1x1.size a ≤ S4x128x1x1.size a
  hwx0_5 : ∀ i : grid0.Coords, EltTy.bits .f32 = 32 ∨ (Rect.block (s := S4x128x1x1) S4x128x1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128x1x1.size a ≤ S4x128x1x1.size a
  hwx0_6 : ∀ i : grid0.Coords, EltTy.bits .f32 = 32 ∨ (Rect.block (s := S4x128x1x1) S4x128x1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128x1x1.size a ≤ S4x128x1x1.size a
  hwx0_7 : ∀ i : grid0.Coords, EltTy.bits .f32 = 32 ∨ (Rect.block (s := S4x128x1x1) S4x128x1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128x1x1.size a ≤ S4x128x1x1.size a
  hwx0_8 : ∀ i : grid0.Coords, EltTy.bits .f32 = 32 ∨ (Rect.block (s := S4x128x1x1) S4x128x1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x128x1x1.size a ≤ S4x128x1x1.size a
  hwx0_9 : ∀ i : grid0.Coords, EltTy.bits .f32 = 32 ∨ (Rect.block (s := S4x128x1x1) S4x128x1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x128x1x1.size a ≤ S4x128x1x1.size a
  hwx0_10 : ∀ i : grid0.Coords, EltTy.bits .f32 = 32 ∨ (Rect.block (s := S4x128x1x1) S4x128x1x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x16x256.size a ≤ S4x128x256x256.size a
  hwx1_0 : ∀ i : grid1.Coords, EltTy.bits .f32 = 32 ∨ (Rect.block (s := S4x128x256x256) S4x128x16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1x16x256.size a ≤ S4x1x256x256.size a
  hwx1_1 : ∀ i : grid1.Coords, EltTy.bits .f32 = 32 ∨ (Rect.block (s := S4x1x256x256) S4x1x16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128x1x1.size a ≤ S4x128x1x1.size a
  hwx1_2 : ∀ i : grid1.Coords, EltTy.bits .f32 = 32 ∨ (Rect.block (s := S4x128x1x1) S4x128x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128x1x1.size a ≤ S4x128x1x1.size a
  hwx1_3 : ∀ i : grid1.Coords, EltTy.bits .f32 = 32 ∨ (Rect.block (s := S4x128x1x1) S4x128x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x1x1.size a ≤ S4x128x1x1.size a
  hwx1_4 : ∀ i : grid1.Coords, EltTy.bits .f32 = 32 ∨ (Rect.block (s := S4x128x1x1) S4x128x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x128x1x1.size a ≤ S4x128x1x1.size a
  hwx1_5 : ∀ i : grid1.Coords, EltTy.bits .f32 = 32 ∨ (Rect.block (s := S4x128x1x1) S4x128x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x128x1x1.size a ≤ S4x128x1x1.size a
  hwx1_6 : ∀ i : grid1.Coords, EltTy.bits .f32 = 32 ∨ (Rect.block (s := S4x128x1x1) S4x128x1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x128x1x1.size a ≤ S4x128x1x1.size a
  hwx1_7 : ∀ i : grid1.Coords, EltTy.bits .f32 = 32 ∨ (Rect.block (s := S4x128x1x1) S4x128x1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x128x1x1.size a ≤ S4x128x1x1.size a
  hwx1_8 : ∀ i : grid1.Coords, EltTy.bits .f32 = 32 ∨ (Rect.block (s := S4x128x1x1) S4x128x1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x128x1x1.size a ≤ S4x128x1x1.size a
  hwx1_9 : ∀ i : grid1.Coords, EltTy.bits .f32 = 32 ∨ (Rect.block (s := S4x128x1x1) S4x128x1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4x128x16x256.size a ≤ S4x128x256x256.size a
  hwx1_10 : ∀ i : grid1.Coords, EltTy.bits .f32 = 32 ∨ (Rect.block (s := S4x128x256x256) S4x128x16x256.size (cc1_transform_10 i) (hinb1_10 i)).WholeWords (EltTy.packing .f32)

variable [Facts₀]

def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf

abbrev win0_0 : Pipeline.Window sig grid0 :=
  Pipeline.Window.ofSpec (Memref.whole main_arg0) S4x128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x1x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S4x128x1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4x128x1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S4x128x1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_3) S4x128x1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_4) S4x128x1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_5) S4x128x1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_6) S4x128x1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_7) S4x128x1x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg0) S4x128x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4x1x16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S4x128x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S4x128x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_4) S4x128x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_5) S4x128x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S4x128x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S4x128x1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S4x128x1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S4x128x1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S4x128x16x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4x128x256x256 : Shape := ⟨4, ![4, 128, 256, 256]⟩
abbrev S4x1x128x128 : Shape := ⟨4, ![4, 1, 128, 128]⟩
abbrev S128x256 : Shape := ⟨2, ![128, 256]⟩
abbrev S4x1x128x2x128 : Shape := ⟨5, ![4, 1, 128, 2, 128]⟩
abbrev S4x1x256x128 : Shape := ⟨4, ![4, 1, 256, 128]⟩
abbrev S4x1x256x128x2 : Shape := ⟨5, ![4, 1, 256, 128, 2]⟩
abbrev S4x1x256x256 : Shape := ⟨4, ![4, 1, 256, 256]⟩
abbrev S_ : Shape := ⟨0, ![]⟩
abbrev S4x1 : Shape := ⟨2, ![4, 1]⟩
abbrev S4x1x1x1 : Shape := ⟨4, ![4, 1, 1, 1]⟩
abbrev S4x128 : Shape := ⟨2, ![4, 128]⟩
abbrev S4x128x1x1 : Shape := ⟨4, ![4, 128, 1, 1]⟩
abbrev S4x256x1x1 : Shape := ⟨4, ![4, 256, 1, 1]⟩
abbrev S4x256 : Shape := ⟨2, ![4, 256]⟩
abbrev S256x128 : Shape := ⟨2, ![256, 128]⟩

abbrev nBuf : Space → Nat
  | .hbm => 155
  | .vmem => 0
  | .smem => 0
  | _ => 0

abbrev hbmTy0_0 (i : Nat) : BufTy := match i % 128 with
  | 0 => ⟨S4x128x256x256, .f32⟩
  | 1 => ⟨S4x128x256x256, .f32⟩
  | 2 => ⟨S4x1x128x128, .f32⟩
  | 3 => ⟨S128x256, .f32⟩
  | 4 => ⟨S128x256, .f32⟩
  | 5 => ⟨S128x256, .f32⟩
  | 6 => ⟨S128x256, .f32⟩
  | 7 => ⟨S4x1x128x2x128, .f32⟩
  | 8 => ⟨S4x1x256x128, .f32⟩
  | 9 => ⟨S4x1x256x128x2, .f32⟩
  | 10 => ⟨S4x1x256x256, .f32⟩
  | 11 => ⟨S_, .f32⟩
  | 12 => ⟨S4x1x256x256, .f32⟩
  | 13 => ⟨S4x1x256x256, .f32⟩
  | 14 => ⟨S_, .f32⟩
  | 15 => ⟨S4x1, .f32⟩
  | 16 => ⟨S4x1x1x1, .f32⟩
  | 17 => ⟨S_, .f32⟩
  | 18 => ⟨S4x1x1x1, .f32⟩
  | 19 => ⟨S4x1x1x1, .f32⟩
  | 20 => ⟨S_, .f32⟩
  | 21 => ⟨S4x1, .f32⟩
  | 22 => ⟨S4x1x1x1, .f32⟩
  | 23 => ⟨S_, .f32⟩
  | 24 => ⟨S4x1x1x1, .f32⟩
  | 25 => ⟨S4x1x1x1, .f32⟩
  | 26 => ⟨S4x128x256x256, .f32⟩
  | 27 => ⟨S4x128x256x256, .f32⟩
  | 28 => ⟨S4x128x256x256, .f32⟩
  | 29 => ⟨S4x128x256x256, .f32⟩
  | 30 => ⟨S4x128x256x256, .f32⟩
  | 31 => ⟨S4x128x256x256, .f32⟩
  | 32 => ⟨S4x128x256x256, .f32⟩
  | 33 => ⟨S4x128x256x256, .f32⟩
  | 34 => ⟨S_, .f32⟩
  | 35 => ⟨S4x128, .f32⟩
  | 36 => ⟨S4x128x1x1, .f32⟩
  | 37 => ⟨S4x128x1x1, .f32⟩
  | 38 => ⟨S4x128x1x1, .f32⟩
  | 39 => ⟨S4x128x256x256, .f32⟩
  | 40 => ⟨S4x128x256x256, .f32⟩
  | 41 => ⟨S4x128x256x256, .f32⟩
  | 42 => ⟨S4x128x256x256, .f32⟩
  | 43 => ⟨S4x128x256x256, .f32⟩
  | 44 => ⟨S_, .f32⟩
  | 45 => ⟨S4x128, .f32⟩
  | 46 => ⟨S4x128x1x1, .f32⟩
  | 47 => ⟨S4x128x1x1, .f32⟩
  | 48 => ⟨S4x128x1x1, .f32⟩
  | 49 => ⟨S_, .f32⟩
  | 50 => ⟨S4x128x1x1, .f32⟩
  | 51 => ⟨S4x128x1x1, .f32⟩
  | 52 => ⟨S_, .f32⟩
  | 53 => ⟨S4x128, .f32⟩
  | 54 => ⟨S4x128x1x1, .f32⟩
  | 55 => ⟨S4x128x1x1, .f32⟩
  | 56 => ⟨S4x128x1x1, .f32⟩
  | 57 => ⟨S4x128x256x256, .f32⟩
  | 58 => ⟨S4x128x256x256, .f32⟩
  | 59 => ⟨S4x128x256x256, .f32⟩
  | 60 => ⟨S4x128x256x256, .f32⟩
  | 61 => ⟨S4x128x256x256, .f32⟩
  | 62 => ⟨S_, .f32⟩
  | 63 => ⟨S4x128, .f32⟩
  | 64 => ⟨S4x128x1x1, .f32⟩
  | 65 => ⟨S4x128x1x1, .f32⟩
  | 66 => ⟨S4x128x1x1, .f32⟩
  | 67 => ⟨S_, .f32⟩
  | 68 => ⟨S4x128x1x1, .f32⟩
  | 69 => ⟨S4x128x1x1, .f32⟩
  | 70 => ⟨S_, .f32⟩
  | 71 => ⟨S4x128, .f32⟩
  | 72 => ⟨S4x128x1x1, .f32⟩
  | 73 => ⟨S4x128x1x1, .f32⟩
  | 74 => ⟨S4x128x1x1, .f32⟩
  | 75 => ⟨S4x128x256x256, .f32⟩
  | 76 => ⟨S4x128x256x256, .f32⟩
  | 77 => ⟨S4x128x256x256, .f32⟩
  | 78 => ⟨S4x128x256x256, .f32⟩
  | 79 => ⟨S4x128x256x256, .f32⟩
  | 80 => ⟨S_, .f32⟩
  | 81 => ⟨S4x128, .f32⟩
  | 82 => ⟨S4x128x1x1, .f32⟩
  | 83 => ⟨S4x128x1x1, .f32⟩
  | 84 => ⟨S4x128x1x1, .f32⟩
  | 85 => ⟨S_, .f32⟩
  | 86 => ⟨S4x128x1x1, .f32⟩
  | 87 => ⟨S4x128x1x1, .f32⟩
  | 88 => ⟨S_, .f32⟩
  | 89 => ⟨S4x128, .f32⟩
  | 90 => ⟨S4x128x1x1, .f32⟩
  | 91 => ⟨S4x128x1x1, .f32⟩
  | 92 => ⟨S4x128x1x1, .f32⟩
  | 93 => ⟨S4x128x256x256, .f32⟩
  | 94 => ⟨S4x128x256x256, .f32⟩
  | 95 => ⟨S4x128x256x256, .f32⟩
  | 96 => ⟨S4x128x256x256, .f32⟩
  | 97 => ⟨S4x128x256x256, .f32⟩
  | 98 => ⟨S_, .f32⟩
  | 99 => ⟨S4x128, .f32⟩
  | 100 => ⟨S4x128x1x1, .f32⟩
  | 101 => ⟨S4x128x1x1, .f32⟩
  | 102 => ⟨S4x128x1x1, .f32⟩
  | 103 => ⟨S_, .f32⟩
  | 104 => ⟨S4x128x1x1, .f32⟩
  | 105 => ⟨S4x128x1x1, .f32⟩
  | 106 => ⟨S4x256x1x1, .f32⟩
  | 107 => ⟨S4x256, .f32⟩
  | 108 => ⟨S256x128, .f32⟩
  | 109 => ⟨S4x128, .f32⟩
  | 110 => ⟨S4x128x1x1, .f32⟩
  | 111 => ⟨S4x256x1x1, .f32⟩
  | 112 => ⟨S4x256, .f32⟩
  | 113 => ⟨S256x128, .f32⟩
  | 114 => ⟨S4x128, .f32⟩
  | 115 => ⟨S4x128x1x1, .f32⟩
  | 116 => ⟨S4x256x1x1, .f32⟩
  | 117 => ⟨S4x256, .f32⟩
  | 118 => ⟨S256x128, .f32⟩
  | 119 => ⟨S4x128, .f32⟩
  | 120 => ⟨S4x128x1x1, .f32⟩
  | 121 => ⟨S4x256x1x1, .f32⟩
  | 122 => ⟨S4x256, .f32⟩
  | 123 => ⟨S256x128, .f32⟩
  | 124 => ⟨S4x128, .f32⟩
  | 125 => ⟨S4x128x1x1, .f32⟩
  | 126 => ⟨S4x128x256x256, .f32⟩
  | 127 => ⟨S4x128x256x256, .f32⟩
  | _ => ⟨S4x128x256x256, .f32⟩

abbrev hbmTy0_1 (i : Nat) : BufTy := match i % 128 with
  | 0 => ⟨S_, .f32⟩
  | 1 => ⟨S4x128x1x1, .f32⟩
  | 2 => ⟨S4x128x1x1, .f32⟩
  | 3 => ⟨S4x128x1x1, .f32⟩
  | 4 => ⟨S4x128x256x256, .f32⟩
  | 5 => ⟨S4x128x256x256, .f32⟩
  | 6 => ⟨S4x128x256x256, .f32⟩
  | 7 => ⟨S4x128x256x256, .f32⟩
  | 8 => ⟨S_, .f32⟩
  | 9 => ⟨S4x128x1x1, .f32⟩
  | 10 => ⟨S4x128x1x1, .f32⟩
  | 11 => ⟨S4x128x1x1, .f32⟩
  | 12 => ⟨S4x128x256x256, .f32⟩
  | 13 => ⟨S4x128x256x256, .f32⟩
  | 14 => ⟨S4x128x256x256, .f32⟩
  | 15 => ⟨S4x128x256x256, .f32⟩
  | 16 => ⟨S4x128x256x256, .f32⟩
  | 17 => ⟨S4x128x256x256, .f32⟩
  | 18 => ⟨S4x128x256x256, .f32⟩
  | 19 => ⟨S4x128x256x256, .f32⟩
  | 20 => ⟨S4x128x256x256, .f32⟩
  | 21 => ⟨S4x128x256x256, .f32⟩
  | 22 => ⟨S4x128x256x256, .f32⟩
  | 23 => ⟨S4x128x256x256, .f32⟩
  | 24 => ⟨S4x128x256x256, .f32⟩
  | 25 => ⟨S4x128x256x256, .f32⟩
  | 26 => ⟨S4x128x256x256, .f32⟩
  | _ => ⟨S4x128x256x256, .f32⟩

abbrev hbmTy (i : Nat) : BufTy := match i / 128 with
  | 0 => hbmTy0_0 i
  | 1 => hbmTy0_1 i
  | _ => ⟨S4x128x256x256, .f32⟩

abbrev bufTy : (tb : Table) → Fin (tcTables nBuf tb) → BufTy
  | .hbm, ⟨i, _⟩ => hbmTy i
  | _, _ => ⟨S4x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_16 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_17 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩

abbrev nD : Nat := 1
abbrev τ : Topo := Topo.v7x

variable {F : FTy → Type} [FloatOps F]

class Facts₀ : Prop where
  bcast_S4x1x128x128_S4x1x128x2x128_0_1_2_4 : S4x1x128x128.BroadcastsInDim S4x1x128x2x128 (![0, 1, 2, 4] : Fin 4 → Fin S4x1x128x2x128.rank)
  shapeCasts_S4x1x128x2x128_S4x1x256x128 : S4x1x128x2x128.ShapeCasts S4x1x256x128
  bcast_S4x1x256x128_S4x1x256x128x2_0_1_2_3 : S4x1x256x128.BroadcastsInDim S4x1x256x128x2 (![0, 1, 2, 3] : Fin 4 → Fin S4x1x256x128x2.rank)
  shapeCasts_S4x1x256x128x2_S4x1x256x256 : S4x1x256x128x2.ShapeCasts S4x1x256x256
  bcast_S_S4x1x256x256 : S_.BroadcastsInDim S4x1x256x256 (![] : Fin 0 → Fin S4x1x256x256.rank)
  reducesTo_S4x1x256x256_S4x1_d2_3 : S4x1x256x256.ReducesTo [2, 3] S4x1
  h_S_ : 0 < S_.numel
  bcast_S4x1_S4x1x1x1_0_1 : S4x1.BroadcastsInDim S4x1x1x1 (![0, 1] : Fin 2 → Fin S4x1x1x1.rank)
  bcast_S_S4x1x1x1 : S_.BroadcastsInDim S4x1x1x1 (![] : Fin 0 → Fin S4x1x1x1.rank)
  bcast_S4x1x256x256_S4x128x256x256_0_1_2_3 : S4x1x256x256.BroadcastsInDim S4x128x256x256 (![0, 1, 2, 3] : Fin 4 → Fin S4x128x256x256.rank)
  reducesTo_S4x128x256x256_S4x128_d2_3 : S4x128x256x256.ReducesTo [2, 3] S4x128
  bcast_S4x128_S4x128x1x1_0_1 : S4x128.BroadcastsInDim S4x128x1x1 (![0, 1] : Fin 2 → Fin S4x128x1x1.rank)
  bcast_S4x1x1x1_S4x128x1x1_0_1_2_3 : S4x1x1x1.BroadcastsInDim S4x128x1x1 (![0, 1, 2, 3] : Fin 4 → Fin S4x128x1x1.rank)
  bcast_S4x128x1x1_S4x128x256x256_0_1_2_3 : S4x128x1x1.BroadcastsInDim S4x128x256x256 (![0, 1, 2, 3] : Fin 4 → Fin S4x128x256x256.rank)
  bcast_S_S4x128x1x1 : S_.BroadcastsInDim S4x128x1x1 (![] : Fin 0 → Fin S4x128x1x1.rank)
  concatenates_S4x128x1x1_S4x128x1x1_S4x256x1x1_d1 : Shape.Concatenates [S4x128x1x1, S4x128x1x1] S4x256x1x1 1
  shapeCasts_S4x256x1x1_S4x256 : S4x256x1x1.ShapeCasts S4x256
  transposes_S128x256_S256x128_1_0 : S128x256.Transposes [1, 0] S256x128
  dot_S4x256_S256x128_S4x128_1_0_0_1_n_n_wf : DotDims.WF S4x256 S256x128 S4x128 [1] [0] [0] [1] [] []

variable [Facts₀]

def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf

class Facts : Prop extends Facts₀ where

variable [Facts]
-- ==== Proof.KReduceShared.lean ====
/-
  What the three control cases of the reduction kernel share: the two conditions of its body decided over the sixteen
  grid points (the first point zeroes the running sums, the last point turns them into means and variances), where the
  eight output windows are idle, the staging and scratch memrefs by name, and the region invariant with the sixteen
  running sums opened as owned buffers.
-/
import proofs.«117659_j43542378447212_2_alg».proof.Proof.Gen.Kernel.Launch
import proofs.«117659_j43542378447212_2_alg».proof.Proof.Gen.Kernel.Skeleton
import proofs.«117659_j43542378447212_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the buffer contents `V` the region is entered with -/

section Blocks

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions -/

/-- "This is the first grid point": the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point": the statistics are computed and stored. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Before the last point output 3 is idle and not written back; at the last point it is live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Before the last point output 4 is idle and not written back; at the last point it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Before the last point output 5 is idle and not written back; at the last point it is live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
/-- Before the last point output 6 is idle and not written back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Before the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Before the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Before the last point output 9 is idle and not written back; at the last point it is live. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Before the last point output 10 is idle and not written back; at the last point it is live. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The memrefs by name -/

abbrev ms0_0 (t : Fin cfg0.N) : Memref sig .tc .vmem S4x128x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x16x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x1x1 .f32 := win0_10.stage (cfg0.slots t 10)
abbrev hs0_10 (t : Fin cfg0.N) : (ms0_10 t).IsWhole := hstage0_10 ((cfg0.slots t 10).cast nbuf0_10)

/-- One staging buffer of output window 3, through which its contents are stated. -/
abbrev VO0_3 : View sig .tc .vmem S4x128x1x1 .f32 := (Memref.whole cc0_stg3_0 : Memref sig .tc .vmem S4x128x1x1 .f32).view
/-- One staging buffer of output window 4, through which its contents are stated. -/
abbrev VO0_4 : View sig .tc .vmem S4x128x1x1 .f32 := (Memref.whole cc0_stg4_0 : Memref sig .tc .vmem S4x128x1x1 .f32).view
/-- One staging buffer of output window 5, through which its contents are stated. -/
abbrev VO0_5 : View sig .tc .vmem S4x128x1x1 .f32 := (Memref.whole cc0_stg5_0 : Memref sig .tc .vmem S4x128x1x1 .f32).view
/-- One staging buffer of output window 6, through which its contents are stated. -/
abbrev VO0_6 : View sig .tc .vmem S4x128x1x1 .f32 := (Memref.whole cc0_stg6_0 : Memref sig .tc .vmem S4x128x1x1 .f32).view
/-- One staging buffer of output window 7, through which its contents are stated. -/
abbrev VO0_7 : View sig .tc .vmem S4x128x1x1 .f32 := (Memref.whole cc0_stg7_0 : Memref sig .tc .vmem S4x128x1x1 .f32).view
/-- One staging buffer of output window 8, through which its contents are stated. -/
abbrev VO0_8 : View sig .tc .vmem S4x128x1x1 .f32 := (Memref.whole cc0_stg8_0 : Memref sig .tc .vmem S4x128x1x1 .f32).view
/-- One staging buffer of output window 9, through which its contents are stated. -/
abbrev VO0_9 : View sig .tc .vmem S4x128x1x1 .f32 := (Memref.whole cc0_stg9_0 : Memref sig .tc .vmem S4x128x1x1 .f32).view
/-- One staging buffer of output window 10, through which its contents are stated. -/
abbrev VO0_10 : View sig .tc .vmem S4x128x1x1 .f32 := (Memref.whole cc0_stg10_0 : Memref sig .tc .vmem S4x128x1x1 .f32).view

/-- Running sum 0: a whole scoped buffer of the kernel's own, and its view. -/
abbrev scM0_0 : Memref sig .tc .vmem S4x1x1x1 .f32 := Memref.whole cc0_scratch0
abbrev VS0_0 : View sig .tc .vmem S4x1x1x1 .f32 := scM0_0.view
/-- Running sum 1: a whole scoped buffer of the kernel's own, and its view. -/
abbrev scM0_1 : Memref sig .tc .vmem S4x1x1x1 .f32 := Memref.whole cc0_scratch1
abbrev VS0_1 : View sig .tc .vmem S4x1x1x1 .f32 := scM0_1.view
/-- Running sum 2: a whole scoped buffer of the kernel's own, and its view. -/
abbrev scM0_2 : Memref sig .tc .vmem S4x1x1x1 .f32 := Memref.whole cc0_scratch2
abbrev VS0_2 : View sig .tc .vmem S4x1x1x1 .f32 := scM0_2.view
/-- Running sum 3: a whole scoped buffer of the kernel's own, and its view. -/
abbrev scM0_3 : Memref sig .tc .vmem S4x1x1x1 .f32 := Memref.whole cc0_scratch3
abbrev VS0_3 : View sig .tc .vmem S4x1x1x1 .f32 := scM0_3.view
/-- Running sum 4: a whole scoped buffer of the kernel's own, and its view. -/
abbrev scM0_4 : Memref sig .tc .vmem S4x128x1x1 .f32 := Memref.whole cc0_scratch4
abbrev VS0_4 : View sig .tc .vmem S4x128x1x1 .f32 := scM0_4.view
/-- Running sum 5: a whole scoped buffer of the kernel's own, and its view. -/
abbrev scM0_5 : Memref sig .tc .vmem S4x128x1x1 .f32 := Memref.whole cc0_scratch5
abbrev VS0_5 : View sig .tc .vmem S4x128x1x1 .f32 := scM0_5.view
/-- Running sum 6: a whole scoped buffer of the kernel's own, and its view. -/
abbrev scM0_6 : Memref sig .tc .vmem S4x128x1x1 .f32 := Memref.whole cc0_scratch6
abbrev VS0_6 : View sig .tc .vmem S4x128x1x1 .f32 := scM0_6.view
/-- Running sum 7: a whole scoped buffer of the kernel's own, and its view. -/
abbrev scM0_7 : Memref sig .tc .vmem S4x128x1x1 .f32 := Memref.whole cc0_scratch7
abbrev VS0_7 : View sig .tc .vmem S4x128x1x1 .f32 := scM0_7.view
/-- Running sum 8: a whole scoped buffer of the kernel's own, and its view. -/
abbrev scM0_8 : Memref sig .tc .vmem S4x128x1x1 .f32 := Memref.whole cc0_scratch8
abbrev VS0_8 : View sig .tc .vmem S4x128x1x1 .f32 := scM0_8.view
/-- Running sum 9: a whole scoped buffer of the kernel's own, and its view. -/
abbrev scM0_9 : Memref sig .tc .vmem S4x128x1x1 .f32 := Memref.whole cc0_scratch9
abbrev VS0_9 : View sig .tc .vmem S4x128x1x1 .f32 := scM0_9.view
/-- Running sum 10: a whole scoped buffer of the kernel's own, and its view. -/
abbrev scM0_10 : Memref sig .tc .vmem S4x128x1x1 .f32 := Memref.whole cc0_scratch10
abbrev VS0_10 : View sig .tc .vmem S4x128x1x1 .f32 := scM0_10.view
/-- Running sum 11: a whole scoped buffer of the kernel's own, and its view. -/
abbrev scM0_11 : Memref sig .tc .vmem S4x128x1x1 .f32 := Memref.whole cc0_scratch11
abbrev VS0_11 : View sig .tc .vmem S4x128x1x1 .f32 := scM0_11.view
/-- Running sum 12: a whole scoped buffer of the kernel's own, and its view. -/
abbrev scM0_12 : Memref sig .tc .vmem S4x128x1x1 .f32 := Memref.whole cc0_scratch12
abbrev VS0_12 : View sig .tc .vmem S4x128x1x1 .f32 := scM0_12.view
/-- Running sum 13: a whole scoped buffer of the kernel's own, and its view. -/
abbrev scM0_13 : Memref sig .tc .vmem S4x128x1x1 .f32 := Memref.whole cc0_scratch13
abbrev VS0_13 : View sig .tc .vmem S4x128x1x1 .f32 := scM0_13.view
/-- Running sum 14: a whole scoped buffer of the kernel's own, and its view. -/
abbrev scM0_14 : Memref sig .tc .vmem S4x128x1x1 .f32 := Memref.whole cc0_scratch14
abbrev VS0_14 : View sig .tc .vmem S4x128x1x1 .f32 := scM0_14.view
/-- Running sum 15: a whole scoped buffer of the kernel's own, and its view. -/
abbrev scM0_15 : Memref sig .tc .vmem S4x128x1x1 .f32 := Memref.whole cc0_scratch15
abbrev VS0_15 : View sig .tc .vmem S4x128x1x1 .f32 := scM0_15.view

/-- The region invariant with the sixteen running sums as memrefs owned at some contents, the other scoped buffers
    unopened and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d))
          ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := by
  unfold Pipeline.ΦA; rw [scopedRest0_split]; simp only [scM0_0, scM0_1, scM0_2, scM0_3, scM0_4, scM0_5, scM0_6, scM0_7, scM0_8, scM0_9, scM0_10, scM0_11, scM0_12, scM0_13, scM0_14, scM0_15, owns_whole]; try rfl

end Cert.Kernel.Hand

end
-- ==== Proof.KReduceRunA.lean ====
/-
  The reduction kernel's whole body at the first grid point: the sixteen running sums are zeroed, then the point's partial sums are added.
  The pieces each buffer ends with are found by the symbolic run and kept as the witness.
-/
import proofs.«117659_j43542378447212_2_alg».proof.Proof.KReduceShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight idle outputs' handed back untouched, the sixteen running
    sums at anything — runs to the continuation holding the inputs as they were and every running sum
    with its pieces written. -/
noncomputable def kernelRun0_A (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (xi3 : Vec F S4x128x1x1 .f32) (xi4 : Vec F S4x128x1x1 .f32) (xi5 : Vec F S4x128x1x1 .f32) (xi6 : Vec F S4x128x1x1 .f32) (xi7 : Vec F S4x128x1x1 .f32) (xi8 : Vec F S4x128x1x1 .f32) (xi9 : Vec F S4x128x1x1 .f32) (xi10 : Vec F S4x128x1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], [], [], [], [], [], [], ?_, ?_, ?_, ?_, ?_, ?_, ?_, ?_, ?_, ?_, ?_, ?_, ?_, ?_, ?_, ?_, fun xi3 xi4 xi5 xi6 xi7 xi8 xi9 xi10 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.Kernel.Hand

end
-- ==== Proof.KReduceRunB.lean ====
/-
  The reduction kernel's whole body at a grid point that is neither first nor last: the point's partial sums are added onto the running sums.
  The pieces each buffer ends with are found by the symbolic run and kept as the witness.
-/
import proofs.«117659_j43542378447212_2_alg».proof.Proof.KReduceShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight idle outputs' handed back untouched, the sixteen running
    sums at what the point before left — runs to the continuation holding the inputs as they were and every running sum
    with its pieces written. -/
noncomputable def kernelRun0_B (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (xi3 : Vec F S4x128x1x1 .f32) (xi4 : Vec F S4x128x1x1 .f32) (xi5 : Vec F S4x128x1x1 .f32) (xi6 : Vec F S4x128x1x1 .f32) (xi7 : Vec F S4x128x1x1 .f32) (xi8 : Vec F S4x128x1x1 .f32) (xi9 : Vec F S4x128x1x1 .f32) (xi10 : Vec F S4x128x1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6 ∗ owns (c : Thread nD τ) arg19 fullShare xs7 ∗ owns (c : Thread nD τ) arg20 fullShare xs8 ∗ owns (c : Thread nD τ) arg21 fullShare xs9 ∗ owns (c : Thread nD τ) arg22 fullShare xs10 ∗ owns (c : Thread nD τ) arg23 fullShare xs11 ∗ owns (c : Thread nD τ) arg24 fullShare xs12 ∗ owns (c : Thread nD τ) arg25 fullShare xs13 ∗ owns (c : Thread nD τ) arg26 fullShare xs14 ∗ owns (c : Thread nD τ) arg27 fullShare xs15
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], [], [], [], [], [], [], ?_, ?_, ?_, ?_, ?_, ?_, ?_, ?_, ?_, ?_, ?_, ?_, ?_, ?_, ?_, ?_, fun xi3 xi4 xi5 xi6 xi7 xi8 xi9 xi10 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩, ⟨%fs12, %hfs12, HS12⟩, ⟨%fs13, %hfs13, HS13⟩, ⟨%fs14, %hfs14, HS14⟩, ⟨%fs15, %hfs15, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5; obtain rfl := harg18.eq_unread hfs6; obtain rfl := harg19.eq_unread hfs7; obtain rfl := harg20.eq_unread hfs8; obtain rfl := harg21.eq_unread hfs9; obtain rfl := harg22.eq_unread hfs10; obtain rfl := harg23.eq_unread hfs11; obtain rfl := harg24.eq_unread hfs12; obtain rfl := harg25.eq_unread hfs13; obtain rfl := harg26.eq_unread hfs14; obtain rfl := harg27.eq_unread hfs15
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.Kernel.Hand

end
-- ==== Proof.KReduceRunC.lean ====
/-
  The reduction kernel's whole body at the last grid point: the point's partial sums are added, then the means and clamped variances are computed from the running sums and stored into the eight outputs.
  The pieces each buffer ends with are found by the symbolic run and kept as the witness.
-/
import proofs.«117659_j43542378447212_2_alg».proof.Proof.KReduceShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight outputs' at anything, the sixteen running
    sums at what the point before left — runs to the continuation holding the inputs as they were, every output with its pieces written and every running sum
    with its pieces written. -/
noncomputable def kernelRun0_C (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6 ∗ owns (c : Thread nD τ) arg19 fullShare xs7 ∗ owns (c : Thread nD τ) arg20 fullShare xs8 ∗ owns (c : Thread nD τ) arg21 fullShare xs9 ∗ owns (c : Thread nD τ) arg22 fullShare xs10 ∗ owns (c : Thread nD τ) arg23 fullShare xs11 ∗ owns (c : Thread nD τ) arg24 fullShare xs12 ∗ owns (c : Thread nD τ) arg25 fullShare xs13 ∗ owns (c : Thread nD τ) arg26 fullShare xs14 ∗ owns (c : Thread nD τ) arg27 fullShare xs15
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, ?_, ?_, ?_, ?_, ?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩, ⟨%fs12, %hfs12, HS12⟩, ⟨%fs13, %hfs13, HS13⟩, ⟨%fs14, %hfs14, HS14⟩, ⟨%fs15, %hfs15, HS15⟩, Hk⟩
    obtain rfl := harg1.eq_unread hf0; obtain rfl := harg2.eq_unread hf1; obtain rfl := harg3.eq_unread hf2; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5; obtain rfl := harg18.eq_unread hfs6; obtain rfl := harg19.eq_unread hfs7; obtain rfl := harg20.eq_unread hfs8; obtain rfl := harg21.eq_unread hfs9; obtain rfl := harg22.eq_unread hfs10; obtain rfl := harg23.eq_unread hfs11; obtain rfl := harg24.eq_unread hfs12; obtain rfl := harg25.eq_unread hfs13; obtain rfl := harg26.eq_unread hfs14; obtain rfl := harg27.eq_unread hfs15
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.Kernel.Hand

end
-- ==== Proof.KReduceCovers.lean ====
/-
  The pieces the reduction kernel's runs leave in each running sum (and, at the last point, in each output) tile the
  buffer: every index is covered by a store, so the buffer's contents after the point do not depend on what it held before.
-/
import proofs.«117659_j43542378447212_2_alg».proof.Proof.KReduceRunA
import proofs.«117659_j43542378447212_2_alg».proof.Proof.KReduceRunB
import proofs.«117659_j43542378447212_2_alg».proof.Proof.KReduceRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover0_A_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.1 S4x1x1x1.size (by sl_kernel_rfl) y

theorem scover0_A_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.1 S4x1x1x1.size (by sl_kernel_rfl) y

theorem scover0_A_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.1 S4x1x1x1.size (by sl_kernel_rfl) y

theorem scover0_A_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.1 S4x1x1x1.size (by sl_kernel_rfl) y

theorem scover0_A_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.1 S4x128x1x1.size (by sl_kernel_rfl) y

theorem scover0_A_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.1 S4x128x1x1.size (by sl_kernel_rfl) y

theorem scover0_A_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.1 S4x128x1x1.size (by sl_kernel_rfl) y

theorem scover0_A_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.1 S4x128x1x1.size (by sl_kernel_rfl) y

theorem scover0_A_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.1 S4x128x1x1.size (by sl_kernel_rfl) y

theorem scover0_A_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.1 S4x128x1x1.size (by sl_kernel_rfl) y

theorem scover0_A_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.1 S4x128x1x1.size (by sl_kernel_rfl) y

theorem scover0_A_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.1 S4x128x1x1.size (by sl_kernel_rfl) y

theorem scover0_A_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.1 S4x128x1x1.size (by sl_kernel_rfl) y

theorem scover0_A_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.1 S4x128x1x1.size (by sl_kernel_rfl) y

theorem scover0_A_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.1 S4x128x1x1.size (by sl_kernel_rfl) y

theorem scover0_A_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.2.1 S4x128x1x1.size (by sl_kernel_rfl) y

theorem scover0_B_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1 S4x1x1x1.size (by sl_kernel_rfl) y

theorem scover0_B_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1 S4x1x1x1.size (by sl_kernel_rfl) y

theorem scover0_B_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1 S4x1x1x1.size (by sl_kernel_rfl) y

theorem scover0_B_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1 S4x1x1x1.size (by sl_kernel_rfl) y

theorem scover0_B_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1 S4x128x1x1.size (by sl_kernel_rfl) y

theorem scover0_B_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1 S4x128x1x1.size (by sl_kernel_rfl) y

theorem scover0_B_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1 S4x128x1x1.size (by sl_kernel_rfl) y

theorem scover0_B_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1 S4x128x1x1.size (by sl_kernel_rfl) y

theorem scover0_B_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1 S4x128x1x1.size (by sl_kernel_rfl) y

theorem scover0_B_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1 S4x128x1x1.size (by sl_kernel_rfl) y

theorem scover0_B_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1 S4x128x1x1.size (by sl_kernel_rfl) y

theorem scover0_B_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1 S4x128x1x1.size (by sl_kernel_rfl) y

theorem scover0_B_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1 S4x128x1x1.size (by sl_kernel_rfl) y

theorem scover0_B_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1 S4x128x1x1.size (by sl_kernel_rfl) y

theorem scover0_B_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1 S4x128x1x1.size (by sl_kernel_rfl) y

theorem scover0_B_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1 S4x128x1x1.size (by sl_kernel_rfl) y

theorem scover0_C_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1 S4x1x1x1.size (by sl_kernel_rfl) y

theorem scover0_C_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1 S4x1x1x1.size (by sl_kernel_rfl) y

theorem scover0_C_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1 S4x1x1x1.size (by sl_kernel_rfl) y

theorem scover0_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1 S4x1x1x1.size (by sl_kernel_rfl) y

theorem scover0_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1 S4x128x1x1.size (by sl_kernel_rfl) y

theorem scover0_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1 S4x128x1x1.size (by sl_kernel_rfl) y

theorem scover0_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1 S4x128x1x1.size (by sl_kernel_rfl) y

theorem scover0_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1 S4x128x1x1.size (by sl_kernel_rfl) y

theorem scover0_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1 S4x128x1x1.size (by sl_kernel_rfl) y

theorem scover0_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1 S4x128x1x1.size (by sl_kernel_rfl) y

theorem scover0_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1 S4x128x1x1.size (by sl_kernel_rfl) y

theorem scover0_C_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1 S4x128x1x1.size (by sl_kernel_rfl) y

theorem scover0_C_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1 S4x128x1x1.size (by sl_kernel_rfl) y

theorem scover0_C_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1 S4x128x1x1.size (by sl_kernel_rfl) y

theorem scover0_C_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1 S4x128x1x1.size (by sl_kernel_rfl) y

theorem scover0_C_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1 S4x128x1x1.size (by sl_kernel_rfl) y

theorem cover0_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).1 S4x128x1x1.size (by sl_kernel_rfl) y

theorem cover0_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.1 S4x128x1x1.size (by sl_kernel_rfl) y

theorem cover0_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.1 S4x128x1x1.size (by sl_kernel_rfl) y

theorem cover0_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.1 S4x128x1x1.size (by sl_kernel_rfl) y

theorem cover0_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.1 S4x128x1x1.size (by sl_kernel_rfl) y

theorem cover0_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.1 S4x128x1x1.size (by sl_kernel_rfl) y

theorem cover0_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.1 S4x128x1x1.size (by sl_kernel_rfl) y

theorem cover0_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.1 S4x128x1x1.size (by sl_kernel_rfl) y

end Cert.Kernel.Hand

end
-- ==== Proof.KReduceRegion.lean ====
/-
  The first kernel region (the masked-statistics reduction) as proof data for the pipeline library: what the sixteen
  running sums and the eight outputs hold after every grid point, by recursion over the points (the first point starts
  the sums, every later point adds onto what the point before left, the last point also computes the outputs); the
  region invariant that carries the running sums from point to point; and the body obligation at every point.
-/
import proofs.«117659_j43542378447212_2_alg».proof.Proof.KReduceCovers

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the eight outputs' staging buffers and of the sixteen running sums after a grid point. -/
structure Pt (F : FTy → Type) [FloatOps F] where
  o3 : Vec F S4x128x1x1 .f32
  o4 : Vec F S4x128x1x1 .f32
  o5 : Vec F S4x128x1x1 .f32
  o6 : Vec F S4x128x1x1 .f32
  o7 : Vec F S4x128x1x1 .f32
  o8 : Vec F S4x128x1x1 .f32
  o9 : Vec F S4x128x1x1 .f32
  o10 : Vec F S4x128x1x1 .f32
  s0 : Vec F S4x1x1x1 .f32
  s1 : Vec F S4x1x1x1 .f32
  s2 : Vec F S4x1x1x1 .f32
  s3 : Vec F S4x1x1x1 .f32
  s4 : Vec F S4x128x1x1 .f32
  s5 : Vec F S4x128x1x1 .f32
  s6 : Vec F S4x128x1x1 .f32
  s7 : Vec F S4x128x1x1 .f32
  s8 : Vec F S4x128x1x1 .f32
  s9 : Vec F S4x128x1x1 .f32
  s10 : Vec F S4x128x1x1 .f32
  s11 : Vec F S4x128x1x1 .f32
  s12 : Vec F S4x128x1x1 .f32
  s13 : Vec F S4x128x1x1 .f32
  s14 : Vec F S4x128x1x1 .f32
  s15 : Vec F S4x128x1x1 .f32

section Region

variable (V : (c : Dev nD) → (b : Ref sig .tc) → Buf (Elt F) ((c : Thread nD τ).loc b))

/-- What the buffers hold after a point of case A: each buffer's pieces read back (over contents that no longer matter). -/
def ptA (c : Dev nD) (t : Fin cfg0.N) (hc0 : cond0_0 (grid0.coords t)) (hc1 : ¬cond0_1 (grid0.coords t)) : Pt F where
  o3 := VO0_3.read (Elt F) (VO0_3.writes (Elt F) VO0_3.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).1)
  o4 := VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.1)
  o5 := VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.1)
  o6 := VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.1)
  o7 := VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.1)
  o8 := VO0_8.read (Elt F) (VO0_8.writes (Elt F) VO0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.1)
  o9 := VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.1)
  o10 := VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.1)
  s0 := VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.1)
  s1 := VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.1)
  s2 := VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.1)
  s3 := VS0_3.read (Elt F) (VS0_3.writes (Elt F) VS0_3.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.1)
  s4 := VS0_4.read (Elt F) (VS0_4.writes (Elt F) VS0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.1)
  s5 := VS0_5.read (Elt F) (VS0_5.writes (Elt F) VS0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.1)
  s6 := VS0_6.read (Elt F) (VS0_6.writes (Elt F) VS0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.1)
  s7 := VS0_7.read (Elt F) (VS0_7.writes (Elt F) VS0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.1)
  s8 := VS0_8.read (Elt F) (VS0_8.writes (Elt F) VS0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.1)
  s9 := VS0_9.read (Elt F) (VS0_9.writes (Elt F) VS0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.1)
  s10 := VS0_10.read (Elt F) (VS0_10.writes (Elt F) VS0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.1)
  s11 := VS0_11.read (Elt F) (VS0_11.writes (Elt F) VS0_11.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.1)
  s12 := VS0_12.read (Elt F) (VS0_12.writes (Elt F) VS0_12.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.1)
  s13 := VS0_13.read (Elt F) (VS0_13.writes (Elt F) VS0_13.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.1)
  s14 := VS0_14.read (Elt F) (VS0_14.writes (Elt F) VS0_14.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.1)
  s15 := VS0_15.read (Elt F) (VS0_15.writes (Elt F) VS0_15.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.2.1)

/-- What the buffers hold after a point of case B: each buffer's pieces read back (over contents that no longer matter). -/
def ptB (c : Dev nD) (t : Fin cfg0.N) (hc0 : ¬cond0_0 (grid0.coords t)) (hc1 : ¬cond0_1 (grid0.coords t)) (p : Pt F) : Pt F where
  o3 := VO0_3.read (Elt F) (VO0_3.writes (Elt F) VO0_3.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
  o4 := VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
  o5 := VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
  o6 := VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
  o7 := VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
  o8 := VO0_8.read (Elt F) (VO0_8.writes (Elt F) VO0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
  o9 := VO0_9.read (Elt F) (VO0_9.writes (Elt F) VO0_9.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
  o10 := VO0_10.read (Elt F) (VO0_10.writes (Elt F) VO0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
  s0 := VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
  s1 := VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
  s2 := VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
  s3 := VS0_3.read (Elt F) (VS0_3.writes (Elt F) VS0_3.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
  s4 := VS0_4.read (Elt F) (VS0_4.writes (Elt F) VS0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
  s5 := VS0_5.read (Elt F) (VS0_5.writes (Elt F) VS0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
  s6 := VS0_6.read (Elt F) (VS0_6.writes (Elt F) VS0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
  s7 := VS0_7.read (Elt F) (VS0_7.writes (Elt F) VS0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
  s8 := VS0_8.read (Elt F) (VS0_8.writes (Elt F) VS0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
  s9 := VS0_9.read (Elt F) (VS0_9.writes (Elt F) VS0_9.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
  s10 := VS0_10.read (Elt F) (VS0_10.writes (Elt F) VS0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
  s11 := VS0_11.read (Elt F) (VS0_11.writes (Elt F) VS0_11.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
  s12 := VS0_12.read (Elt F) (VS0_12.writes (Elt F) VS0_12.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
  s13 := VS0_13.read (Elt F) (VS0_13.writes (Elt F) VS0_13.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
  s14 := VS0_14.read (Elt F) (VS0_14.writes (Elt F) VS0_14.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
  s15 := VS0_15.read (Elt F) (VS0_15.writes (Elt F) VS0_15.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)

/-- What the buffers hold after a point of case C: each buffer's pieces read back (over contents that no longer matter). -/
def ptC (c : Dev nD) (t : Fin cfg0.N) (hc0 : ¬cond0_0 (grid0.coords t)) (hc1 : cond0_1 (grid0.coords t)) (p : Pt F) : Pt F where
  o3 := VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
  o4 := VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
  o5 := VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
  o6 := VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
  o7 := VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
  o8 := VO0_8.read (Elt F) (VO0_8.writes (Elt F) VO0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
  o9 := VO0_9.read (Elt F) (VO0_9.writes (Elt F) VO0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
  o10 := VO0_10.read (Elt F) (VO0_10.writes (Elt F) VO0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
  s0 := VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
  s1 := VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
  s2 := VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
  s3 := VS0_3.read (Elt F) (VS0_3.writes (Elt F) VS0_3.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
  s4 := VS0_4.read (Elt F) (VS0_4.writes (Elt F) VS0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
  s5 := VS0_5.read (Elt F) (VS0_5.writes (Elt F) VS0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
  s6 := VS0_6.read (Elt F) (VS0_6.writes (Elt F) VS0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
  s7 := VS0_7.read (Elt F) (VS0_7.writes (Elt F) VS0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
  s8 := VS0_8.read (Elt F) (VS0_8.writes (Elt F) VS0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
  s9 := VS0_9.read (Elt F) (VS0_9.writes (Elt F) VS0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
  s10 := VS0_10.read (Elt F) (VS0_10.writes (Elt F) VS0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
  s11 := VS0_11.read (Elt F) (VS0_11.writes (Elt F) VS0_11.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
  s12 := VS0_12.read (Elt F) (VS0_12.writes (Elt F) VS0_12.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
  s13 := VS0_13.read (Elt F) (VS0_13.writes (Elt F) VS0_13.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
  s14 := VS0_14.read (Elt F) (VS0_14.writes (Elt F) VS0_14.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
  s15 := VS0_15.read (Elt F) (VS0_15.writes (Elt F) VS0_15.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)

/-- THE ACCUMULATION: the buffers' contents after the body at position `n`. -/
def outsAt0 (c : Dev nD) : (n : ℕ) → n < cfg0.N → Pt F
  | 0, hn => ptA V c ⟨0, hn⟩ ((hcond0_0 ⟨0, hn⟩).mpr rfl) (fun h => absurd (show (0 : ℕ) = 15 from (hcond0_1 ⟨0, hn⟩).mp h) (by decide))
  | n + 1, hn =>
    if h1 : n + 1 = 15 then
      ptC V c ⟨n + 1, hn⟩ (fun h => Nat.succ_ne_zero n ((hcond0_0 ⟨n + 1, hn⟩).mp h)) ((hcond0_1 ⟨n + 1, hn⟩).mpr h1) (outsAt0 c n (Nat.lt_of_succ_lt hn))
    else
      ptB V c ⟨n + 1, hn⟩ (fun h => Nat.succ_ne_zero n ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val = 0) (h1 : ¬t.val = 15) :
    outsAt0 V c t.val t.isLt = ptA V c t ((hcond0_0 t).mpr h0) (fun h => h1 ((hcond0_1 t).mp h)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 15) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = ptC V c t (fun h => h0 ((hcond0_0 t).mp h)) ((hcond0_1 t).mpr h1)
      (outsAt0 V c (t.val - 1) (Nat.lt_of_le_of_lt (Nat.sub_le _ _) t.isLt)) := by
  obtain ⟨n, hn⟩ := t
  cases n with
  | zero => exact absurd rfl h0
  | succ n => exact (dif_pos h1).trans rfl

/-- The region invariant before position `n`: before the first point the scoped rest with the running sums at anything;
    afterwards the running sums at what the point before left, the other scoped buffers unopened, the generator register
    at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ owns (c : Thread nD τ) scM0_7 fullShare (outsAt0 V c n hn).s7 ∗ owns (c : Thread nD τ) scM0_8 fullShare (outsAt0 V c n hn).s8 ∗ owns (c : Thread nD τ) scM0_9 fullShare (outsAt0 V c n hn).s9 ∗ owns (c : Thread nD τ) scM0_10 fullShare (outsAt0 V c n hn).s10 ∗ owns (c : Thread nD τ) scM0_11 fullShare (outsAt0 V c n hn).s11 ∗ owns (c : Thread nD τ) scM0_12 fullShare (outsAt0 V c n hn).s12 ∗ owns (c : Thread nD τ) scM0_13 fullShare (outsAt0 V c n hn).s13 ∗ owns (c : Thread nD τ) scM0_14 fullShare (outsAt0 V c n hn).s14 ∗ owns (c : Thread nD τ) scM0_15 fullShare (outsAt0 V c n hn).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ owns (c : Thread nD τ) scM0_7 fullShare (outsAt0 V c n hn).s7 ∗ owns (c : Thread nD τ) scM0_8 fullShare (outsAt0 V c n hn).s8 ∗ owns (c : Thread nD τ) scM0_9 fullShare (outsAt0 V c n hn).s9 ∗ owns (c : Thread nD τ) scM0_10 fullShare (outsAt0 V c n hn).s10 ∗ owns (c : Thread nD τ) scM0_11 fullShare (outsAt0 V c n hn).s11 ∗ owns (c : Thread nD τ) scM0_12 fullShare (outsAt0 V c n hn).s12 ∗ owns (c : Thread nD τ) scM0_13 fullShare (outsAt0 V c n hn).s13 ∗ owns (c : Thread nD τ) scM0_14 fullShare (outsAt0 V c n hn).s14 ∗ owns (c : Thread nD τ) scM0_15 fullShare (outsAt0 V c n hn).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ owns (c : Thread nD τ) scM0_4 fullShare (outsAt0 V c (n - 1) (by omega)).s4 ∗ owns (c : Thread nD τ) scM0_5 fullShare (outsAt0 V c (n - 1) (by omega)).s5 ∗ owns (c : Thread nD τ) scM0_6 fullShare (outsAt0 V c (n - 1) (by omega)).s6 ∗ owns (c : Thread nD τ) scM0_7 fullShare (outsAt0 V c (n - 1) (by omega)).s7 ∗ owns (c : Thread nD τ) scM0_8 fullShare (outsAt0 V c (n - 1) (by omega)).s8 ∗ owns (c : Thread nD τ) scM0_9 fullShare (outsAt0 V c (n - 1) (by omega)).s9 ∗ owns (c : Thread nD τ) scM0_10 fullShare (outsAt0 V c (n - 1) (by omega)).s10 ∗ owns (c : Thread nD τ) scM0_11 fullShare (outsAt0 V c (n - 1) (by omega)).s11 ∗ owns (c : Thread nD τ) scM0_12 fullShare (outsAt0 V c (n - 1) (by omega)).s12 ∗ owns (c : Thread nD τ) scM0_13 fullShare (outsAt0 V c (n - 1) (by omega)).s13 ∗ owns (c : Thread nD τ) scM0_14 fullShare (outsAt0 V c (n - 1) (by omega)).s14 ∗ owns (c : Thread nD τ) scM0_15 fullShare (outsAt0 V c (n - 1) (by omega)).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := by
  cases n with
  | zero => exact absurd rfl hz
  | succ n => rfl

/-! ## The pipeline's proof data -/

/-- The proof data of the reduction's pipeline on core `c`: the arrays as the region finds them; after the body at point
    `t` each input's buffer at its block and each output's at `outsAt0`'s component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
    | ⟨8, _⟩ => (outsAt0 V c t.val t.isLt).o8
    | ⟨9, _⟩ => (outsAt0 V c t.val t.isLt).o9
    | ⟨10, _⟩ => (outsAt0 V c t.val t.isLt).o10
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  before0_0_of V (dat0 V c) (A_eq0 V c 0) (after0_0 V c) t d
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  before0_1_of V (dat0 V c) (A_eq0 V c 1) (after0_1 V c) t d
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  before0_2_of V (dat0 V c) (A_eq0 V c 2) (after0_2 V c) t d

theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]
theorem after0_10 (c : Dev nD) (t : Fin cfg0.N) : (dat0 V c).after 10 t = (outsAt0 V c t.val t.isLt).o10 := by dsimp only [dat0]

end Region

end Cert.Kernel.Hand

end
-- ==== Proof.KReduceOwnA.lean ====
/-
  Case A of the reduction kernel at a grid point: whatever a running-sum buffer held before, once the run's pieces are
  written over it the buffer reads as the point's contents (the pieces cover the buffer).
-/
import proofs.«117659_j43542378447212_2_alg».proof.Proof.KReduceRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

theorem own_A_0 (c : Dev nD) (t : Fin cfg0.N) (hc0 : cond0_0 (grid0.coords t)) (hc1 : ¬cond0_1 (grid0.coords t)) :
    ∀ es, scM0_0.view.read (Elt F) (scM0_0.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.1)
      = (ptA V c t hc0 hc1).s0 :=
  fun es => (View.read_writes_of_cover scM0_0.view es VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_1 (c : Dev nD) (t : Fin cfg0.N) (hc0 : cond0_0 (grid0.coords t)) (hc1 : ¬cond0_1 (grid0.coords t)) :
    ∀ es, scM0_1.view.read (Elt F) (scM0_1.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.1)
      = (ptA V c t hc0 hc1).s1 :=
  fun es => (View.read_writes_of_cover scM0_1.view es VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_2 (c : Dev nD) (t : Fin cfg0.N) (hc0 : cond0_0 (grid0.coords t)) (hc1 : ¬cond0_1 (grid0.coords t)) :
    ∀ es, scM0_2.view.read (Elt F) (scM0_2.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.1)
      = (ptA V c t hc0 hc1).s2 :=
  fun es => (View.read_writes_of_cover scM0_2.view es VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_3 (c : Dev nD) (t : Fin cfg0.N) (hc0 : cond0_0 (grid0.coords t)) (hc1 : ¬cond0_1 (grid0.coords t)) :
    ∀ es, scM0_3.view.read (Elt F) (scM0_3.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.1)
      = (ptA V c t hc0 hc1).s3 :=
  fun es => (View.read_writes_of_cover scM0_3.view es VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_4 (c : Dev nD) (t : Fin cfg0.N) (hc0 : cond0_0 (grid0.coords t)) (hc1 : ¬cond0_1 (grid0.coords t)) :
    ∀ es, scM0_4.view.read (Elt F) (scM0_4.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.1)
      = (ptA V c t hc0 hc1).s4 :=
  fun es => (View.read_writes_of_cover scM0_4.view es VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_5 (c : Dev nD) (t : Fin cfg0.N) (hc0 : cond0_0 (grid0.coords t)) (hc1 : ¬cond0_1 (grid0.coords t)) :
    ∀ es, scM0_5.view.read (Elt F) (scM0_5.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.1)
      = (ptA V c t hc0 hc1).s5 :=
  fun es => (View.read_writes_of_cover scM0_5.view es VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_6 (c : Dev nD) (t : Fin cfg0.N) (hc0 : cond0_0 (grid0.coords t)) (hc1 : ¬cond0_1 (grid0.coords t)) :
    ∀ es, scM0_6.view.read (Elt F) (scM0_6.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.1)
      = (ptA V c t hc0 hc1).s6 :=
  fun es => (View.read_writes_of_cover scM0_6.view es VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_7 (c : Dev nD) (t : Fin cfg0.N) (hc0 : cond0_0 (grid0.coords t)) (hc1 : ¬cond0_1 (grid0.coords t)) :
    ∀ es, scM0_7.view.read (Elt F) (scM0_7.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.1)
      = (ptA V c t hc0 hc1).s7 :=
  fun es => (View.read_writes_of_cover scM0_7.view es VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_8 (c : Dev nD) (t : Fin cfg0.N) (hc0 : cond0_0 (grid0.coords t)) (hc1 : ¬cond0_1 (grid0.coords t)) :
    ∀ es, scM0_8.view.read (Elt F) (scM0_8.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.1)
      = (ptA V c t hc0 hc1).s8 :=
  fun es => (View.read_writes_of_cover scM0_8.view es VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_9 (c : Dev nD) (t : Fin cfg0.N) (hc0 : cond0_0 (grid0.coords t)) (hc1 : ¬cond0_1 (grid0.coords t)) :
    ∀ es, scM0_9.view.read (Elt F) (scM0_9.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.1)
      = (ptA V c t hc0 hc1).s9 :=
  fun es => (View.read_writes_of_cover scM0_9.view es VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_10 (c : Dev nD) (t : Fin cfg0.N) (hc0 : cond0_0 (grid0.coords t)) (hc1 : ¬cond0_1 (grid0.coords t)) :
    ∀ es, scM0_10.view.read (Elt F) (scM0_10.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.1)
      = (ptA V c t hc0 hc1).s10 :=
  fun es => (View.read_writes_of_cover scM0_10.view es VS0_10 VS0_10.junk _ (scover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_11 (c : Dev nD) (t : Fin cfg0.N) (hc0 : cond0_0 (grid0.coords t)) (hc1 : ¬cond0_1 (grid0.coords t)) :
    ∀ es, scM0_11.view.read (Elt F) (scM0_11.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.1)
      = (ptA V c t hc0 hc1).s11 :=
  fun es => (View.read_writes_of_cover scM0_11.view es VS0_11 VS0_11.junk _ (scover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_12 (c : Dev nD) (t : Fin cfg0.N) (hc0 : cond0_0 (grid0.coords t)) (hc1 : ¬cond0_1 (grid0.coords t)) :
    ∀ es, scM0_12.view.read (Elt F) (scM0_12.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.1)
      = (ptA V c t hc0 hc1).s12 :=
  fun es => (View.read_writes_of_cover scM0_12.view es VS0_12 VS0_12.junk _ (scover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_13 (c : Dev nD) (t : Fin cfg0.N) (hc0 : cond0_0 (grid0.coords t)) (hc1 : ¬cond0_1 (grid0.coords t)) :
    ∀ es, scM0_13.view.read (Elt F) (scM0_13.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.1)
      = (ptA V c t hc0 hc1).s13 :=
  fun es => (View.read_writes_of_cover scM0_13.view es VS0_13 VS0_13.junk _ (scover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_14 (c : Dev nD) (t : Fin cfg0.N) (hc0 : cond0_0 (grid0.coords t)) (hc1 : ¬cond0_1 (grid0.coords t)) :
    ∀ es, scM0_14.view.read (Elt F) (scM0_14.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.1)
      = (ptA V c t hc0 hc1).s14 :=
  fun es => (View.read_writes_of_cover scM0_14.view es VS0_14 VS0_14.junk _ (scover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_15 (c : Dev nD) (t : Fin cfg0.N) (hc0 : cond0_0 (grid0.coords t)) (hc1 : ¬cond0_1 (grid0.coords t)) :
    ∀ es, scM0_15.view.read (Elt F) (scM0_15.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.2.1)
      = (ptA V c t hc0 hc1).s15 :=
  fun es => (View.read_writes_of_cover scM0_15.view es VS0_15 VS0_15.junk _ (scover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

end Own

end Cert.Kernel.Hand

end
-- ==== Proof.KReduceBodyA.lean ====
/-
  The reduction kernel's body obligation at a grid point of case A: the invariant hands the body the sixteen running sums
  at anything (the first point zeroes them), the pipeline the eleven windows' staging buffers; the run leaves the running sums at this
  point's contents (every index of each is covered by a store), the inputs as they were, the idle outputs untouched.
-/
import proofs.«117659_j43542378447212_2_alg».proof.Proof.KReduceOwnA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_A (c : Dev nD) (t : Fin cfg0.N) (h0 : t.val = 0) (h1 : ¬t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Dat.leavesExact_idle (dat0 V c) 3 t (idleAt0_3 t (fun h => h1 ((hcond0_1 t).mp h))) (noFlush0_3 t (fun h => h1 ((hcond0_1 t).mp h)))]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [Dat.leavesExact_idle (dat0 V c) 6 t (idleAt0_6 t (fun h => h1 ((hcond0_1 t).mp h))) (noFlush0_6 t (fun h => h1 ((hcond0_1 t).mp h)))]
  rw [Dat.leavesExact_idle (dat0 V c) 7 t (idleAt0_7 t (fun h => h1 ((hcond0_1 t).mp h))) (noFlush0_7 t (fun h => h1 ((hcond0_1 t).mp h)))]
  rw [Dat.leavesExact_idle (dat0 V c) 8 t (idleAt0_8 t (fun h => h1 ((hcond0_1 t).mp h))) (noFlush0_8 t (fun h => h1 ((hcond0_1 t).mp h)))]
  rw [Dat.leavesExact_idle (dat0 V c) 9 t (idleAt0_9 t (fun h => h1 ((hcond0_1 t).mp h))) (noFlush0_9 t (fun h => h1 ((hcond0_1 t).mp h)))]
  rw [Dat.leavesExact_idle (dat0 V c) 10 t (idleAt0_10 t (fun h => h1 ((hcond0_1 t).mp h))) (noFlush0_10 t (fun h => h1 ((hcond0_1 t).mp h)))]
  rw [PhiS_castSucc V c t, PhiS_zero V c _ _ h0, PhiA0_eq]
  rw [outsAt0_A V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (fun h => h1 ((hcond0_1 t).mp h)) (iblk0 V c 0 t) (iblk0 V c 1 t) (iblk0 V c 2 t)).2.2.2.2.2.2.2.2.2.2.2.2.2.2.2.2.2.2.2.2.2.2.2.2 _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_A_0 V c t ((hcond0_0 t).mpr h0) (fun h => h1 ((hcond0_1 t).mp h)) _
        isplitl [HS1]
        · unfold owns; iexists _; isplitr
          swap; · iexact HS1
          ipureintro; exact own_A_1 V c t ((hcond0_0 t).mpr h0) (fun h => h1 ((hcond0_1 t).mp h)) _
        isplitl [HS2]
        · unfold owns; iexists _; isplitr
          swap; · iexact HS2
          ipureintro; exact own_A_2 V c t ((hcond0_0 t).mpr h0) (fun h => h1 ((hcond0_1 t).mp h)) _
        isplitl [HS3]
        · unfold owns; iexists _; isplitr
          swap; · iexact HS3
          ipureintro; exact own_A_3 V c t ((hcond0_0 t).mpr h0) (fun h => h1 ((hcond0_1 t).mp h)) _
        isplitl [HS4]
        · unfold owns; iexists _; isplitr
          swap; · iexact HS4
          ipureintro; exact own_A_4 V c t ((hcond0_0 t).mpr h0) (fun h => h1 ((hcond0_1 t).mp h)) _
        isplitl [HS5]
        · unfold owns; iexists _; isplitr
          swap; · iexact HS5
          ipureintro; exact own_A_5 V c t ((hcond0_0 t).mpr h0) (fun h => h1 ((hcond0_1 t).mp h)) _
        isplitl [HS6]
        · unfold owns; iexists _; isplitr
          swap; · iexact HS6
          ipureintro; exact own_A_6 V c t ((hcond0_0 t).mpr h0) (fun h => h1 ((hcond0_1 t).mp h)) _
        isplitl [HS7]
        · unfold owns; iexists _; isplitr
          swap; · iexact HS7
          ipureintro; exact own_A_7 V c t ((hcond0_0 t).mpr h0) (fun h => h1 ((hcond0_1 t).mp h)) _
        isplitl [HS8]
        · unfold owns; iexists _; isplitr
          swap; · iexact HS8
          ipureintro; exact own_A_8 V c t ((hcond0_0 t).mpr h0) (fun h => h1 ((hcond0_1 t).mp h)) _
        isplitl [HS9]
        · unfold owns; iexists _; isplitr
          swap; · iexact HS9
          ipureintro; exact own_A_9 V c t ((hcond0_0 t).mpr h0) (fun h => h1 ((hcond0_1 t).mp h)) _
        isplitl [HS10]
        · unfold owns; iexists _; isplitr
          swap; · iexact HS10
          ipureintro; exact own_A_10 V c t ((hcond0_0 t).mpr h0) (fun h => h1 ((hcond0_1 t).mp h)) _
        isplitl [HS11]
        · unfold owns; iexists _; isplitr
          swap; · iexact HS11
          ipureintro; exact own_A_11 V c t ((hcond0_0 t).mpr h0) (fun h => h1 ((hcond0_1 t).mp h)) _
        isplitl [HS12]
        · unfold owns; iexists _; isplitr
          swap; · iexact HS12
          ipureintro; exact own_A_12 V c t ((hcond0_0 t).mpr h0) (fun h => h1 ((hcond0_1 t).mp h)) _
        isplitl [HS13]
        · unfold owns; iexists _; isplitr
          swap; · iexact HS13
          ipureintro; exact own_A_13 V c t ((hcond0_0 t).mpr h0) (fun h => h1 ((hcond0_1 t).mp h)) _
        isplitl [HS14]
        · unfold owns; iexists _; isplitr
          swap; · iexact HS14
          ipureintro; exact own_A_14 V c t ((hcond0_0 t).mpr h0) (fun h => h1 ((hcond0_1 t).mp h)) _
        unfold owns; iexists _; isplitr
        swap; · iexact HS15
        ipureintro; exact own_A_15 V c t ((hcond0_0 t).mpr h0) (fun h => h1 ((hcond0_1 t).mp h)) _
      iexact Hrest
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

end Body

end Cert.Kernel.Hand

end
-- ==== Proof.KReduceOwnB.lean ====
/-
  Case B of the reduction kernel at a grid point: whatever a running-sum buffer held before, once the run's pieces are
  written over it the buffer reads as the point's contents (the pieces cover the buffer).
-/
import proofs.«117659_j43542378447212_2_alg».proof.Proof.KReduceRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

theorem own_B_0 (c : Dev nD) (t : Fin cfg0.N) (hc0 : ¬cond0_0 (grid0.coords t)) (hc1 : ¬cond0_1 (grid0.coords t)) (p : Pt F) :
    ∀ es, scM0_0.view.read (Elt F) (scM0_0.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
      = (ptB V c t hc0 hc1 p).s0 :=
  fun es => (View.read_writes_of_cover scM0_0.view es VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_1 (c : Dev nD) (t : Fin cfg0.N) (hc0 : ¬cond0_0 (grid0.coords t)) (hc1 : ¬cond0_1 (grid0.coords t)) (p : Pt F) :
    ∀ es, scM0_1.view.read (Elt F) (scM0_1.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
      = (ptB V c t hc0 hc1 p).s1 :=
  fun es => (View.read_writes_of_cover scM0_1.view es VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_2 (c : Dev nD) (t : Fin cfg0.N) (hc0 : ¬cond0_0 (grid0.coords t)) (hc1 : ¬cond0_1 (grid0.coords t)) (p : Pt F) :
    ∀ es, scM0_2.view.read (Elt F) (scM0_2.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
      = (ptB V c t hc0 hc1 p).s2 :=
  fun es => (View.read_writes_of_cover scM0_2.view es VS0_2 VS0_2.junk _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_3 (c : Dev nD) (t : Fin cfg0.N) (hc0 : ¬cond0_0 (grid0.coords t)) (hc1 : ¬cond0_1 (grid0.coords t)) (p : Pt F) :
    ∀ es, scM0_3.view.read (Elt F) (scM0_3.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
      = (ptB V c t hc0 hc1 p).s3 :=
  fun es => (View.read_writes_of_cover scM0_3.view es VS0_3 VS0_3.junk _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_4 (c : Dev nD) (t : Fin cfg0.N) (hc0 : ¬cond0_0 (grid0.coords t)) (hc1 : ¬cond0_1 (grid0.coords t)) (p : Pt F) :
    ∀ es, scM0_4.view.read (Elt F) (scM0_4.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
      = (ptB V c t hc0 hc1 p).s4 :=
  fun es => (View.read_writes_of_cover scM0_4.view es VS0_4 VS0_4.junk _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_5 (c : Dev nD) (t : Fin cfg0.N) (hc0 : ¬cond0_0 (grid0.coords t)) (hc1 : ¬cond0_1 (grid0.coords t)) (p : Pt F) :
    ∀ es, scM0_5.view.read (Elt F) (scM0_5.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
      = (ptB V c t hc0 hc1 p).s5 :=
  fun es => (View.read_writes_of_cover scM0_5.view es VS0_5 VS0_5.junk _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_6 (c : Dev nD) (t : Fin cfg0.N) (hc0 : ¬cond0_0 (grid0.coords t)) (hc1 : ¬cond0_1 (grid0.coords t)) (p : Pt F) :
    ∀ es, scM0_6.view.read (Elt F) (scM0_6.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
      = (ptB V c t hc0 hc1 p).s6 :=
  fun es => (View.read_writes_of_cover scM0_6.view es VS0_6 VS0_6.junk _ (scover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_7 (c : Dev nD) (t : Fin cfg0.N) (hc0 : ¬cond0_0 (grid0.coords t)) (hc1 : ¬cond0_1 (grid0.coords t)) (p : Pt F) :
    ∀ es, scM0_7.view.read (Elt F) (scM0_7.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
      = (ptB V c t hc0 hc1 p).s7 :=
  fun es => (View.read_writes_of_cover scM0_7.view es VS0_7 VS0_7.junk _ (scover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_8 (c : Dev nD) (t : Fin cfg0.N) (hc0 : ¬cond0_0 (grid0.coords t)) (hc1 : ¬cond0_1 (grid0.coords t)) (p : Pt F) :
    ∀ es, scM0_8.view.read (Elt F) (scM0_8.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
      = (ptB V c t hc0 hc1 p).s8 :=
  fun es => (View.read_writes_of_cover scM0_8.view es VS0_8 VS0_8.junk _ (scover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_9 (c : Dev nD) (t : Fin cfg0.N) (hc0 : ¬cond0_0 (grid0.coords t)) (hc1 : ¬cond0_1 (grid0.coords t)) (p : Pt F) :
    ∀ es, scM0_9.view.read (Elt F) (scM0_9.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
      = (ptB V c t hc0 hc1 p).s9 :=
  fun es => (View.read_writes_of_cover scM0_9.view es VS0_9 VS0_9.junk _ (scover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_10 (c : Dev nD) (t : Fin cfg0.N) (hc0 : ¬cond0_0 (grid0.coords t)) (hc1 : ¬cond0_1 (grid0.coords t)) (p : Pt F) :
    ∀ es, scM0_10.view.read (Elt F) (scM0_10.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
      = (ptB V c t hc0 hc1 p).s10 :=
  fun es => (View.read_writes_of_cover scM0_10.view es VS0_10 VS0_10.junk _ (scover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_11 (c : Dev nD) (t : Fin cfg0.N) (hc0 : ¬cond0_0 (grid0.coords t)) (hc1 : ¬cond0_1 (grid0.coords t)) (p : Pt F) :
    ∀ es, scM0_11.view.read (Elt F) (scM0_11.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
      = (ptB V c t hc0 hc1 p).s11 :=
  fun es => (View.read_writes_of_cover scM0_11.view es VS0_11 VS0_11.junk _ (scover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_12 (c : Dev nD) (t : Fin cfg0.N) (hc0 : ¬cond0_0 (grid0.coords t)) (hc1 : ¬cond0_1 (grid0.coords t)) (p : Pt F) :
    ∀ es, scM0_12.view.read (Elt F) (scM0_12.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
      = (ptB V c t hc0 hc1 p).s12 :=
  fun es => (View.read_writes_of_cover scM0_12.view es VS0_12 VS0_12.junk _ (scover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_13 (c : Dev nD) (t : Fin cfg0.N) (hc0 : ¬cond0_0 (grid0.coords t)) (hc1 : ¬cond0_1 (grid0.coords t)) (p : Pt F) :
    ∀ es, scM0_13.view.read (Elt F) (scM0_13.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
      = (ptB V c t hc0 hc1 p).s13 :=
  fun es => (View.read_writes_of_cover scM0_13.view es VS0_13 VS0_13.junk _ (scover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_14 (c : Dev nD) (t : Fin cfg0.N) (hc0 : ¬cond0_0 (grid0.coords t)) (hc1 : ¬cond0_1 (grid0.coords t)) (p : Pt F) :
    ∀ es, scM0_14.view.read (Elt F) (scM0_14.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
      = (ptB V c t hc0 hc1 p).s14 :=
  fun es => (View.read_writes_of_cover scM0_14.view es VS0_14 VS0_14.junk _ (scover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_15 (c : Dev nD) (t : Fin cfg0.N) (hc0 : ¬cond0_0 (grid0.coords t)) (hc1 : ¬cond0_1 (grid0.coords t)) (p : Pt F) :
    ∀ es, scM0_15.view.read (Elt F) (scM0_15.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)
      = (ptB V c t hc0 hc1 p).s15 :=
  fun es => (View.read_writes_of_cover scM0_15.view es VS0_15 VS0_15.junk _ (scover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

end Own

end Cert.Kernel.Hand

end
-- ==== Proof.KReduceBodyB.lean ====
/-
  The reduction kernel's body obligation at a grid point of case B: the invariant hands the body the sixteen running sums
  at what the point before left, the pipeline the eleven windows' staging buffers; the run leaves the running sums at this
  point's contents (every index of each is covered by a store), the inputs as they were, the idle outputs untouched.
-/
import proofs.«117659_j43542378447212_2_alg».proof.Proof.KReduceOwnB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_B (c : Dev nD) (t : Fin cfg0.N) (h0 : ¬t.val = 0) (h1 : ¬t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Dat.leavesExact_idle (dat0 V c) 3 t (idleAt0_3 t (fun h => h1 ((hcond0_1 t).mp h))) (noFlush0_3 t (fun h => h1 ((hcond0_1 t).mp h)))]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [Dat.leavesExact_idle (dat0 V c) 6 t (idleAt0_6 t (fun h => h1 ((hcond0_1 t).mp h))) (noFlush0_6 t (fun h => h1 ((hcond0_1 t).mp h)))]
  rw [Dat.leavesExact_idle (dat0 V c) 7 t (idleAt0_7 t (fun h => h1 ((hcond0_1 t).mp h))) (noFlush0_7 t (fun h => h1 ((hcond0_1 t).mp h)))]
  rw [Dat.leavesExact_idle (dat0 V c) 8 t (idleAt0_8 t (fun h => h1 ((hcond0_1 t).mp h))) (noFlush0_8 t (fun h => h1 ((hcond0_1 t).mp h)))]
  rw [Dat.leavesExact_idle (dat0 V c) 9 t (idleAt0_9 t (fun h => h1 ((hcond0_1 t).mp h))) (noFlush0_9 t (fun h => h1 ((hcond0_1 t).mp h)))]
  rw [Dat.leavesExact_idle (dat0 V c) 10 t (idleAt0_10 t (fun h => h1 ((hcond0_1 t).mp h))) (noFlush0_10 t (fun h => h1 ((hcond0_1 t).mp h)))]
  rw [PhiS_castSucc V c t, PhiS_pos V c _ _ h0]
  rw [outsAt0_B V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 (outsAt0 V c (t.val - 1) (Nat.lt_of_le_of_lt (Nat.sub_le _ _) t.isLt)).s4 (outsAt0 V c (t.val - 1) (Nat.lt_of_le_of_lt (Nat.sub_le _ _) t.isLt)).s5 (outsAt0 V c (t.val - 1) (Nat.lt_of_le_of_lt (Nat.sub_le _ _) t.isLt)).s6 (outsAt0 V c (t.val - 1) (Nat.lt_of_le_of_lt (Nat.sub_le _ _) t.isLt)).s7 (outsAt0 V c (t.val - 1) (Nat.lt_of_le_of_lt (Nat.sub_le _ _) t.isLt)).s8 (outsAt0 V c (t.val - 1) (Nat.lt_of_le_of_lt (Nat.sub_le _ _) t.isLt)).s9 (outsAt0 V c (t.val - 1) (Nat.lt_of_le_of_lt (Nat.sub_le _ _) t.isLt)).s10 (outsAt0 V c (t.val - 1) (Nat.lt_of_le_of_lt (Nat.sub_le _ _) t.isLt)).s11 (outsAt0 V c (t.val - 1) (Nat.lt_of_le_of_lt (Nat.sub_le _ _) t.isLt)).s12 (outsAt0 V c (t.val - 1) (Nat.lt_of_le_of_lt (Nat.sub_le _ _) t.isLt)).s13 (outsAt0 V c (t.val - 1) (Nat.lt_of_le_of_lt (Nat.sub_le _ _) t.isLt)).s14 (outsAt0 V c (t.val - 1) (Nat.lt_of_le_of_lt (Nat.sub_le _ _) t.isLt)).s15).2.2.2.2.2.2.2.2.2.2.2.2.2.2.2.2.2.2.2.2.2.2.2.2 _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_B_0 V c t (fun h => h0 ((hcond0_0 t).mp h)) (fun h => h1 ((hcond0_1 t).mp h)) (outsAt0 V c (t.val - 1) (Nat.lt_of_le_of_lt (Nat.sub_le _ _) t.isLt)) _
        isplitl [HS1]
        · unfold owns; iexists _; isplitr
          swap; · iexact HS1
          ipureintro; exact own_B_1 V c t (fun h => h0 ((hcond0_0 t).mp h)) (fun h => h1 ((hcond0_1 t).mp h)) (outsAt0 V c (t.val - 1) (Nat.lt_of_le_of_lt (Nat.sub_le _ _) t.isLt)) _
        isplitl [HS2]
        · unfold owns; iexists _; isplitr
          swap; · iexact HS2
          ipureintro; exact own_B_2 V c t (fun h => h0 ((hcond0_0 t).mp h)) (fun h => h1 ((hcond0_1 t).mp h)) (outsAt0 V c (t.val - 1) (Nat.lt_of_le_of_lt (Nat.sub_le _ _) t.isLt)) _
        isplitl [HS3]
        · unfold owns; iexists _; isplitr
          swap; · iexact HS3
          ipureintro; exact own_B_3 V c t (fun h => h0 ((hcond0_0 t).mp h)) (fun h => h1 ((hcond0_1 t).mp h)) (outsAt0 V c (t.val - 1) (Nat.lt_of_le_of_lt (Nat.sub_le _ _) t.isLt)) _
        isplitl [HS4]
        · unfold owns; iexists _; isplitr
          swap; · iexact HS4
          ipureintro; exact own_B_4 V c t (fun h => h0 ((hcond0_0 t).mp h)) (fun h => h1 ((hcond0_1 t).mp h)) (outsAt0 V c (t.val - 1) (Nat.lt_of_le_of_lt (Nat.sub_le _ _) t.isLt)) _
        isplitl [HS5]
        · unfold owns; iexists _; isplitr
          swap; · iexact HS5
          ipureintro; exact own_B_5 V c t (fun h => h0 ((hcond0_0 t).mp h)) (fun h => h1 ((hcond0_1 t).mp h)) (outsAt0 V c (t.val - 1) (Nat.lt_of_le_of_lt (Nat.sub_le _ _) t.isLt)) _
        isplitl [HS6]
        · unfold owns; iexists _; isplitr
          swap; · iexact HS6
          ipureintro; exact own_B_6 V c t (fun h => h0 ((hcond0_0 t).mp h)) (fun h => h1 ((hcond0_1 t).mp h)) (outsAt0 V c (t.val - 1) (Nat.lt_of_le_of_lt (Nat.sub_le _ _) t.isLt)) _
        isplitl [HS7]
        · unfold owns; iexists _; isplitr
          swap; · iexact HS7
          ipureintro; exact own_B_7 V c t (fun h => h0 ((hcond0_0 t).mp h)) (fun h => h1 ((hcond0_1 t).mp h)) (outsAt0 V c (t.val - 1) (Nat.lt_of_le_of_lt (Nat.sub_le _ _) t.isLt)) _
        isplitl [HS8]
        · unfold owns; iexists _; isplitr
          swap; · iexact HS8
          ipureintro; exact own_B_8 V c t (fun h => h0 ((hcond0_0 t).mp h)) (fun h => h1 ((hcond0_1 t).mp h)) (outsAt0 V c (t.val - 1) (Nat.lt_of_le_of_lt (Nat.sub_le _ _) t.isLt)) _
        isplitl [HS9]
        · unfold owns; iexists _; isplitr
          swap; · iexact HS9
          ipureintro; exact own_B_9 V c t (fun h => h0 ((hcond0_0 t).mp h)) (fun h => h1 ((hcond0_1 t).mp h)) (outsAt0 V c (t.val - 1) (Nat.lt_of_le_of_lt (Nat.sub_le _ _) t.isLt)) _
        isplitl [HS10]
        · unfold owns; iexists _; isplitr
          swap; · iexact HS10
          ipureintro; exact own_B_10 V c t (fun h => h0 ((hcond0_0 t).mp h)) (fun h => h1 ((hcond0_1 t).mp h)) (outsAt0 V c (t.val - 1) (Nat.lt_of_le_of_lt (Nat.sub_le _ _) t.isLt)) _
        isplitl [HS11]
        · unfold owns; iexists _; isplitr
          swap; · iexact HS11
          ipureintro; exact own_B_11 V c t (fun h => h0 ((hcond0_0 t).mp h)) (fun h => h1 ((hcond0_1 t).mp h)) (outsAt0 V c (t.val - 1) (Nat.lt_of_le_of_lt (Nat.sub_le _ _) t.isLt)) _
        isplitl [HS12]
        · unfold owns; iexists _; isplitr
          swap; · iexact HS12
          ipureintro; exact own_B_12 V c t (fun h => h0 ((hcond0_0 t).mp h)) (fun h => h1 ((hcond0_1 t).mp h)) (outsAt0 V c (t.val - 1) (Nat.lt_of_le_of_lt (Nat.sub_le _ _) t.isLt)) _
        isplitl [HS13]
        · unfold owns; iexists _; isplitr
          swap; · iexact HS13
          ipureintro; exact own_B_13 V c t (fun h => h0 ((hcond0_0 t).mp h)) (fun h => h1 ((hcond0_1 t).mp h)) (outsAt0 V c (t.val - 1) (Nat.lt_of_le_of_lt (Nat.sub_le _ _) t.isLt)) _
        isplitl [HS14]
        · unfold owns; iexists _; isplitr
          swap; · iexact HS14
          ipureintro; exact own_B_14 V c t (fun h => h0 ((hcond0_0 t).mp h)) (fun h => h1 ((hcond0_1 t).mp h)) (outsAt0 V c (t.val - 1) (Nat.lt_of_le_of_lt (Nat.sub_le _ _) t.isLt)) _
        unfold owns; iexists _; isplitr
        swap; · iexact HS15
        ipureintro; exact own_B_15 V c t (fun h => h0 ((hcond0_0 t).mp h)) (fun h => h1 ((hcond0_1 t).mp h)) (outsAt0 V c (t.val - 1) (Nat.lt_of_le_of_lt (Nat.sub_le _ _) t.isLt)) _
      iexact Hrest
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

end Body

end Cert.Kernel.Hand

end
-- ==== Proof.KReduceOwnC.lean ====
/-
  Case C of the reduction kernel at a grid point: whatever a running-sum buffer held before, once the run's pieces are
  written over it the buffer reads as the point's contents (the pieces cover the buffer); the same for the eight outputs.
-/
import proofs.«117659_j43542378447212_2_alg».proof.Proof.KReduceRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

set_option maxHeartbeats 4000000 in
theorem own_C_0 (c : Dev nD) (t : Fin cfg0.N) (hc0 : ¬cond0_0 (grid0.coords t)) (hc1 : cond0_1 (grid0.coords t)) (p : Pt F) :
    ∀ es, scM0_0.view.read (Elt F) (scM0_0.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
      = (ptC V c t hc0 hc1 p).s0 :=
  fun es => (View.read_writes_of_cover scM0_0.view es VS0_0 VS0_0.junk _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_1 (c : Dev nD) (t : Fin cfg0.N) (hc0 : ¬cond0_0 (grid0.coords t)) (hc1 : cond0_1 (grid0.coords t)) (p : Pt F) :
    ∀ es, scM0_1.view.read (Elt F) (scM0_1.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
      = (ptC V c t hc0 hc1 p).s1 :=
  fun es => (View.read_writes_of_cover scM0_1.view es VS0_1 VS0_1.junk _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_2 (c : Dev nD) (t : Fin cfg0.N) (hc0 : ¬cond0_0 (grid0.coords t)) (hc1 : cond0_1 (grid0.coords t)) (p : Pt F) :
    ∀ es, scM0_2.view.read (Elt F) (scM0_2.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
      = (ptC V c t hc0 hc1 p).s2 :=
  fun es => (View.read_writes_of_cover scM0_2.view es VS0_2 VS0_2.junk _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_3 (c : Dev nD) (t : Fin cfg0.N) (hc0 : ¬cond0_0 (grid0.coords t)) (hc1 : cond0_1 (grid0.coords t)) (p : Pt F) :
    ∀ es, scM0_3.view.read (Elt F) (scM0_3.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
      = (ptC V c t hc0 hc1 p).s3 :=
  fun es => (View.read_writes_of_cover scM0_3.view es VS0_3 VS0_3.junk _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_4 (c : Dev nD) (t : Fin cfg0.N) (hc0 : ¬cond0_0 (grid0.coords t)) (hc1 : cond0_1 (grid0.coords t)) (p : Pt F) :
    ∀ es, scM0_4.view.read (Elt F) (scM0_4.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
      = (ptC V c t hc0 hc1 p).s4 :=
  fun es => (View.read_writes_of_cover scM0_4.view es VS0_4 VS0_4.junk _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_5 (c : Dev nD) (t : Fin cfg0.N) (hc0 : ¬cond0_0 (grid0.coords t)) (hc1 : cond0_1 (grid0.coords t)) (p : Pt F) :
    ∀ es, scM0_5.view.read (Elt F) (scM0_5.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
      = (ptC V c t hc0 hc1 p).s5 :=
  fun es => (View.read_writes_of_cover scM0_5.view es VS0_5 VS0_5.junk _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_6 (c : Dev nD) (t : Fin cfg0.N) (hc0 : ¬cond0_0 (grid0.coords t)) (hc1 : cond0_1 (grid0.coords t)) (p : Pt F) :
    ∀ es, scM0_6.view.read (Elt F) (scM0_6.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
      = (ptC V c t hc0 hc1 p).s6 :=
  fun es => (View.read_writes_of_cover scM0_6.view es VS0_6 VS0_6.junk _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_7 (c : Dev nD) (t : Fin cfg0.N) (hc0 : ¬cond0_0 (grid0.coords t)) (hc1 : cond0_1 (grid0.coords t)) (p : Pt F) :
    ∀ es, scM0_7.view.read (Elt F) (scM0_7.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
      = (ptC V c t hc0 hc1 p).s7 :=
  fun es => (View.read_writes_of_cover scM0_7.view es VS0_7 VS0_7.junk _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_8 (c : Dev nD) (t : Fin cfg0.N) (hc0 : ¬cond0_0 (grid0.coords t)) (hc1 : cond0_1 (grid0.coords t)) (p : Pt F) :
    ∀ es, scM0_8.view.read (Elt F) (scM0_8.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
      = (ptC V c t hc0 hc1 p).s8 :=
  fun es => (View.read_writes_of_cover scM0_8.view es VS0_8 VS0_8.junk _ (scover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_9 (c : Dev nD) (t : Fin cfg0.N) (hc0 : ¬cond0_0 (grid0.coords t)) (hc1 : cond0_1 (grid0.coords t)) (p : Pt F) :
    ∀ es, scM0_9.view.read (Elt F) (scM0_9.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
      = (ptC V c t hc0 hc1 p).s9 :=
  fun es => (View.read_writes_of_cover scM0_9.view es VS0_9 VS0_9.junk _ (scover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_10 (c : Dev nD) (t : Fin cfg0.N) (hc0 : ¬cond0_0 (grid0.coords t)) (hc1 : cond0_1 (grid0.coords t)) (p : Pt F) :
    ∀ es, scM0_10.view.read (Elt F) (scM0_10.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
      = (ptC V c t hc0 hc1 p).s10 :=
  fun es => (View.read_writes_of_cover scM0_10.view es VS0_10 VS0_10.junk _ (scover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_11 (c : Dev nD) (t : Fin cfg0.N) (hc0 : ¬cond0_0 (grid0.coords t)) (hc1 : cond0_1 (grid0.coords t)) (p : Pt F) :
    ∀ es, scM0_11.view.read (Elt F) (scM0_11.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
      = (ptC V c t hc0 hc1 p).s11 :=
  fun es => (View.read_writes_of_cover scM0_11.view es VS0_11 VS0_11.junk _ (scover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_12 (c : Dev nD) (t : Fin cfg0.N) (hc0 : ¬cond0_0 (grid0.coords t)) (hc1 : cond0_1 (grid0.coords t)) (p : Pt F) :
    ∀ es, scM0_12.view.read (Elt F) (scM0_12.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
      = (ptC V c t hc0 hc1 p).s12 :=
  fun es => (View.read_writes_of_cover scM0_12.view es VS0_12 VS0_12.junk _ (scover0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_13 (c : Dev nD) (t : Fin cfg0.N) (hc0 : ¬cond0_0 (grid0.coords t)) (hc1 : cond0_1 (grid0.coords t)) (p : Pt F) :
    ∀ es, scM0_13.view.read (Elt F) (scM0_13.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
      = (ptC V c t hc0 hc1 p).s13 :=
  fun es => (View.read_writes_of_cover scM0_13.view es VS0_13 VS0_13.junk _ (scover0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_14 (c : Dev nD) (t : Fin cfg0.N) (hc0 : ¬cond0_0 (grid0.coords t)) (hc1 : cond0_1 (grid0.coords t)) (p : Pt F) :
    ∀ es, scM0_14.view.read (Elt F) (scM0_14.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
      = (ptC V c t hc0 hc1 p).s14 :=
  fun es => (View.read_writes_of_cover scM0_14.view es VS0_14 VS0_14.junk _ (scover0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_15 (c : Dev nD) (t : Fin cfg0.N) (hc0 : ¬cond0_0 (grid0.coords t)) (hc1 : cond0_1 (grid0.coords t)) (p : Pt F) :
    ∀ es, scM0_15.view.read (Elt F) (scM0_15.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)
      = (ptC V c t hc0 hc1 p).s15 :=
  fun es => (View.read_writes_of_cover scM0_15.view es VS0_15 VS0_15.junk _ (scover0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_3 (c : Dev nD) (t : Fin cfg0.N) (hc0 : ¬cond0_0 (grid0.coords t)) (hc1 : cond0_1 (grid0.coords t)) (p : Pt F) :
    ∀ es, (ms0_3 t).view.read (Elt F) ((ms0_3 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
      = (ptC V c t hc0 hc1 p).o3 :=
  fun es => (View.read_writes_of_cover (ms0_3 t).view es VO0_3 VO0_3.junk _ (cover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_4 (c : Dev nD) (t : Fin cfg0.N) (hc0 : ¬cond0_0 (grid0.coords t)) (hc1 : cond0_1 (grid0.coords t)) (p : Pt F) :
    ∀ es, (ms0_4 t).view.read (Elt F) ((ms0_4 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
      = (ptC V c t hc0 hc1 p).o4 :=
  fun es => (View.read_writes_of_cover (ms0_4 t).view es VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_5 (c : Dev nD) (t : Fin cfg0.N) (hc0 : ¬cond0_0 (grid0.coords t)) (hc1 : cond0_1 (grid0.coords t)) (p : Pt F) :
    ∀ es, (ms0_5 t).view.read (Elt F) ((ms0_5 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
      = (ptC V c t hc0 hc1 p).o5 :=
  fun es => (View.read_writes_of_cover (ms0_5 t).view es VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_6 (c : Dev nD) (t : Fin cfg0.N) (hc0 : ¬cond0_0 (grid0.coords t)) (hc1 : cond0_1 (grid0.coords t)) (p : Pt F) :
    ∀ es, (ms0_6 t).view.read (Elt F) ((ms0_6 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
      = (ptC V c t hc0 hc1 p).o6 :=
  fun es => (View.read_writes_of_cover (ms0_6 t).view es VO0_6 VO0_6.junk _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_7 (c : Dev nD) (t : Fin cfg0.N) (hc0 : ¬cond0_0 (grid0.coords t)) (hc1 : cond0_1 (grid0.coords t)) (p : Pt F) :
    ∀ es, (ms0_7 t).view.read (Elt F) ((ms0_7 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
      = (ptC V c t hc0 hc1 p).o7 :=
  fun es => (View.read_writes_of_cover (ms0_7 t).view es VO0_7 VO0_7.junk _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_8 (c : Dev nD) (t : Fin cfg0.N) (hc0 : ¬cond0_0 (grid0.coords t)) (hc1 : cond0_1 (grid0.coords t)) (p : Pt F) :
    ∀ es, (ms0_8 t).view.read (Elt F) ((ms0_8 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
      = (ptC V c t hc0 hc1 p).o8 :=
  fun es => (View.read_writes_of_cover (ms0_8 t).view es VO0_8 VO0_8.junk _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_9 (c : Dev nD) (t : Fin cfg0.N) (hc0 : ¬cond0_0 (grid0.coords t)) (hc1 : cond0_1 (grid0.coords t)) (p : Pt F) :
    ∀ es, (ms0_9 t).view.read (Elt F) ((ms0_9 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
      = (ptC V c t hc0 hc1 p).o9 :=
  fun es => (View.read_writes_of_cover (ms0_9 t).view es VO0_9 VO0_9.junk _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_10 (c : Dev nD) (t : Fin cfg0.N) (hc0 : ¬cond0_0 (grid0.coords t)) (hc1 : cond0_1 (grid0.coords t)) (p : Pt F) :
    ∀ es, (ms0_10 t).view.read (Elt F) ((ms0_10 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
      = (ptC V c t hc0 hc1 p).o10 :=
  fun es => (View.read_writes_of_cover (ms0_10 t).view es VO0_10 VO0_10.junk _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

end Own

end Cert.Kernel.Hand

end
-- ==== Proof.KReduceBodyC.lean ====
/-
  The reduction kernel's body obligation at a grid point of case C: the invariant hands the body the sixteen running sums
  at what the point before left, the pipeline the eleven windows' staging buffers; the run leaves the running sums at this
  point's contents (every index of each is covered by a store), the inputs as they were and the eight outputs written.
-/
import proofs.«117659_j43542378447212_2_alg».proof.Proof.KReduceOwnC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_C (c : Dev nD) (t : Fin cfg0.N) (h0 : ¬t.val = 0) (h1 : t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t ((hcond0_1 t).mpr h1)], after0_3]
  rw [show (dat0 V c).leavesExact 4 t = owns (c : Thread nD τ) (ms0_4 t) fullShare ((dat0 V c).after 4 t) from by
    unfold Dat.leavesExact; rw [liveAt0_4 t ((hcond0_1 t).mpr h1)], after0_4]
  rw [show (dat0 V c).leavesExact 5 t = owns (c : Thread nD τ) (ms0_5 t) fullShare ((dat0 V c).after 5 t) from by
    unfold Dat.leavesExact; rw [liveAt0_5 t ((hcond0_1 t).mpr h1)], after0_5]
  rw [show (dat0 V c).leavesExact 6 t = owns (c : Thread nD τ) (ms0_6 t) fullShare ((dat0 V c).after 6 t) from by
    unfold Dat.leavesExact; rw [liveAt0_6 t ((hcond0_1 t).mpr h1)], after0_6]
  rw [show (dat0 V c).leavesExact 7 t = owns (c : Thread nD τ) (ms0_7 t) fullShare ((dat0 V c).after 7 t) from by
    unfold Dat.leavesExact; rw [liveAt0_7 t ((hcond0_1 t).mpr h1)], after0_7]
  rw [show (dat0 V c).leavesExact 8 t = owns (c : Thread nD τ) (ms0_8 t) fullShare ((dat0 V c).after 8 t) from by
    unfold Dat.leavesExact; rw [liveAt0_8 t ((hcond0_1 t).mpr h1)], after0_8]
  rw [show (dat0 V c).leavesExact 9 t = owns (c : Thread nD τ) (ms0_9 t) fullShare ((dat0 V c).after 9 t) from by
    unfold Dat.leavesExact; rw [liveAt0_9 t ((hcond0_1 t).mpr h1)], after0_9]
  rw [show (dat0 V c).leavesExact 10 t = owns (c : Thread nD τ) (ms0_10 t) fullShare ((dat0 V c).after 10 t) from by
    unfold Dat.leavesExact; rw [liveAt0_10 t ((hcond0_1 t).mpr h1)], after0_10]
  rw [PhiS_castSucc V c t, PhiS_pos V c _ _ h0]
  rw [outsAt0_C V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 (outsAt0 V c (t.val - 1) (Nat.lt_of_le_of_lt (Nat.sub_le _ _) t.isLt)).s4 (outsAt0 V c (t.val - 1) (Nat.lt_of_le_of_lt (Nat.sub_le _ _) t.isLt)).s5 (outsAt0 V c (t.val - 1) (Nat.lt_of_le_of_lt (Nat.sub_le _ _) t.isLt)).s6 (outsAt0 V c (t.val - 1) (Nat.lt_of_le_of_lt (Nat.sub_le _ _) t.isLt)).s7 (outsAt0 V c (t.val - 1) (Nat.lt_of_le_of_lt (Nat.sub_le _ _) t.isLt)).s8 (outsAt0 V c (t.val - 1) (Nat.lt_of_le_of_lt (Nat.sub_le _ _) t.isLt)).s9 (outsAt0 V c (t.val - 1) (Nat.lt_of_le_of_lt (Nat.sub_le _ _) t.isLt)).s10 (outsAt0 V c (t.val - 1) (Nat.lt_of_le_of_lt (Nat.sub_le _ _) t.isLt)).s11 (outsAt0 V c (t.val - 1) (Nat.lt_of_le_of_lt (Nat.sub_le _ _) t.isLt)).s12 (outsAt0 V c (t.val - 1) (Nat.lt_of_le_of_lt (Nat.sub_le _ _) t.isLt)).s13 (outsAt0 V c (t.val - 1) (Nat.lt_of_le_of_lt (Nat.sub_le _ _) t.isLt)).s14 (outsAt0 V c (t.val - 1) (Nat.lt_of_le_of_lt (Nat.sub_le _ _) t.isLt)).s15).2.2.2.2.2.2.2.2.2.2.2.2.2.2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_C_0 V c t (fun h => h0 ((hcond0_0 t).mp h)) ((hcond0_1 t).mpr h1) (outsAt0 V c (t.val - 1) (Nat.lt_of_le_of_lt (Nat.sub_le _ _) t.isLt)) _
        isplitl [HS1]
        · unfold owns; iexists _; isplitr
          swap; · iexact HS1
          ipureintro; exact own_C_1 V c t (fun h => h0 ((hcond0_0 t).mp h)) ((hcond0_1 t).mpr h1) (outsAt0 V c (t.val - 1) (Nat.lt_of_le_of_lt (Nat.sub_le _ _) t.isLt)) _
        isplitl [HS2]
        · unfold owns; iexists _; isplitr
          swap; · iexact HS2
          ipureintro; exact own_C_2 V c t (fun h => h0 ((hcond0_0 t).mp h)) ((hcond0_1 t).mpr h1) (outsAt0 V c (t.val - 1) (Nat.lt_of_le_of_lt (Nat.sub_le _ _) t.isLt)) _
        isplitl [HS3]
        · unfold owns; iexists _; isplitr
          swap; · iexact HS3
          ipureintro; exact own_C_3 V c t (fun h => h0 ((hcond0_0 t).mp h)) ((hcond0_1 t).mpr h1) (outsAt0 V c (t.val - 1) (Nat.lt_of_le_of_lt (Nat.sub_le _ _) t.isLt)) _
        isplitl [HS4]
        · unfold owns; iexists _; isplitr
          swap; · iexact HS4
          ipureintro; exact own_C_4 V c t (fun h => h0 ((hcond0_0 t).mp h)) ((hcond0_1 t).mpr h1) (outsAt0 V c (t.val - 1) (Nat.lt_of_le_of_lt (Nat.sub_le _ _) t.isLt)) _
        isplitl [HS5]
        · unfold owns; iexists _; isplitr
          swap; · iexact HS5
          ipureintro; exact own_C_5 V c t (fun h => h0 ((hcond0_0 t).mp h)) ((hcond0_1 t).mpr h1) (outsAt0 V c (t.val - 1) (Nat.lt_of_le_of_lt (Nat.sub_le _ _) t.isLt)) _
        isplitl [HS6]
        · unfold owns; iexists _; isplitr
          swap; · iexact HS6
          ipureintro; exact own_C_6 V c t (fun h => h0 ((hcond0_0 t).mp h)) ((hcond0_1 t).mpr h1) (outsAt0 V c (t.val - 1) (Nat.lt_of_le_of_lt (Nat.sub_le _ _) t.isLt)) _
        isplitl [HS7]
        · unfold owns; iexists _; isplitr
          swap; · iexact HS7
          ipureintro; exact own_C_7 V c t (fun h => h0 ((hcond0_0 t).mp h)) ((hcond0_1 t).mpr h1) (outsAt0 V c (t.val - 1) (Nat.lt_of_le_of_lt (Nat.sub_le _ _) t.isLt)) _
        isplitl [HS8]
        · unfold owns; iexists _; isplitr
          swap; · iexact HS8
          ipureintro; exact own_C_8 V c t (fun h => h0 ((hcond0_0 t).mp h)) ((hcond0_1 t).mpr h1) (outsAt0 V c (t.val - 1) (Nat.lt_of_le_of_lt (Nat.sub_le _ _) t.isLt)) _
        isplitl [HS9]
        · unfold owns; iexists _; isplitr
          swap; · iexact HS9
          ipureintro; exact own_C_9 V c t (fun h => h0 ((hcond0_0 t).mp h)) ((hcond0_1 t).mpr h1) (outsAt0 V c (t.val - 1) (Nat.lt_of_le_of_lt (Nat.sub_le _ _) t.isLt)) _
        isplitl [HS10]
        · unfold owns; iexists _; isplitr
          swap; · iexact HS10
          ipureintro; exact own_C_10 V c t (fun h => h0 ((hcond0_0 t).mp h)) ((hcond0_1 t).mpr h1) (outsAt0 V c (t.val - 1) (Nat.lt_of_le_of_lt (Nat.sub_le _ _) t.isLt)) _
        isplitl [HS11]
        · unfold owns; iexists _; isplitr
          swap; · iexact HS11
          ipureintro; exact own_C_11 V c t (fun h => h0 ((hcond0_0 t).mp h)) ((hcond0_1 t).mpr h1) (outsAt0 V c (t.val - 1) (Nat.lt_of_le_of_lt (Nat.sub_le _ _) t.isLt)) _
        isplitl [HS12]
        · unfold owns; iexists _; isplitr
          swap; · iexact HS12
          ipureintro; exact own_C_12 V c t (fun h => h0 ((hcond0_0 t).mp h)) ((hcond0_1 t).mpr h1) (outsAt0 V c (t.val - 1) (Nat.lt_of_le_of_lt (Nat.sub_le _ _) t.isLt)) _
        isplitl [HS13]
        · unfold owns; iexists _; isplitr
          swap; · iexact HS13
          ipureintro; exact own_C_13 V c t (fun h => h0 ((hcond0_0 t).mp h)) ((hcond0_1 t).mpr h1) (outsAt0 V c (t.val - 1) (Nat.lt_of_le_of_lt (Nat.sub_le _ _) t.isLt)) _
        isplitl [HS14]
        · unfold owns; iexists _; isplitr
          swap; · iexact HS14
          ipureintro; exact own_C_14 V c t (fun h => h0 ((hcond0_0 t).mp h)) ((hcond0_1 t).mpr h1) (outsAt0 V c (t.val - 1) (Nat.lt_of_le_of_lt (Nat.sub_le _ _) t.isLt)) _
        unfold owns; iexists _; isplitr
        swap; · iexact HS15
        ipureintro; exact own_C_15 V c t (fun h => h0 ((hcond0_0 t).mp h)) ((hcond0_1 t).mpr h1) (outsAt0 V c (t.val - 1) (Nat.lt_of_le_of_lt (Nat.sub_le _ _) t.isLt)) _
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact oown_C_3 V c t (fun h => h0 ((hcond0_0 t).mp h)) ((hcond0_1 t).mpr h1) (outsAt0 V c (t.val - 1) (Nat.lt_of_le_of_lt (Nat.sub_le _ _) t.isLt)) _
  isplitl [H4]
  · unfold owns; iexists _; isplitr
    swap; · iexact H4
    ipureintro; exact oown_C_4 V c t (fun h => h0 ((hcond0_0 t).mp h)) ((hcond0_1 t).mpr h1) (outsAt0 V c (t.val - 1) (Nat.lt_of_le_of_lt (Nat.sub_le _ _) t.isLt)) _
  isplitl [H5]
  · unfold owns; iexists _; isplitr
    swap; · iexact H5
    ipureintro; exact oown_C_5 V c t (fun h => h0 ((hcond0_0 t).mp h)) ((hcond0_1 t).mpr h1) (outsAt0 V c (t.val - 1) (Nat.lt_of_le_of_lt (Nat.sub_le _ _) t.isLt)) _
  isplitl [H6]
  · unfold owns; iexists _; isplitr
    swap; · iexact H6
    ipureintro; exact oown_C_6 V c t (fun h => h0 ((hcond0_0 t).mp h)) ((hcond0_1 t).mpr h1) (outsAt0 V c (t.val - 1) (Nat.lt_of_le_of_lt (Nat.sub_le _ _) t.isLt)) _
  isplitl [H7]
  · unfold owns; iexists _; isplitr
    swap; · iexact H7
    ipureintro; exact oown_C_7 V c t (fun h => h0 ((hcond0_0 t).mp h)) ((hcond0_1 t).mpr h1) (outsAt0 V c (t.val - 1) (Nat.lt_of_le_of_lt (Nat.sub_le _ _) t.isLt)) _
  isplitl [H8]
  · unfold owns; iexists _; isplitr
    swap; · iexact H8
    ipureintro; exact oown_C_8 V c t (fun h => h0 ((hcond0_0 t).mp h)) ((hcond0_1 t).mpr h1) (outsAt0 V c (t.val - 1) (Nat.lt_of_le_of_lt (Nat.sub_le _ _) t.isLt)) _
  isplitl [H9]
  · unfold owns; iexists _; isplitr
    swap; · iexact H9
    ipureintro; exact oown_C_9 V c t (fun h => h0 ((hcond0_0 t).mp h)) ((hcond0_1 t).mpr h1) (outsAt0 V c (t.val - 1) (Nat.lt_of_le_of_lt (Nat.sub_le _ _) t.isLt)) _
  unfold owns; iexists _; isplitr
  swap; · iexact H10
  ipureintro; exact oown_C_10 V c t (fun h => h0 ((hcond0_0 t).mp h)) ((hcond0_1 t).mpr h1) (outsAt0 V c (t.val - 1) (Nat.lt_of_le_of_lt (Nat.sub_le _ _) t.isLt)) _

end Body

end Cert.Kernel.Hand

end
-- ==== Proof.KReduceBody.lean ====
/-
  The reduction region's body obligation at every grid point (the three cases joined), and the region invariant's two
  ends: what the launch hands the region is the invariant before the first point, and after the last point the invariant
  gives the scoped buffers back with the running sums' contents forgotten.
-/
import proofs.«117659_j43542378447212_2_alg».proof.Proof.KReduceBodyA
import proofs.«117659_j43542378447212_2_alg».proof.Proof.KReduceBodyB
import proofs.«117659_j43542378447212_2_alg».proof.Proof.KReduceBodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-- The library's body obligation, at every point: the first point, the last point, or one in between. -/
theorem body_obligation0 (c : Dev nD) : BodyObligation (dat0 (F := F) V c) (defs₀ (F := F)) Variants.none () Set.univ := fun t => by
  rw [bigSep_W0, bigSep_W0]
  by_cases h0 : t.val = 0
  · exact sound_body0_A V c t h0 (by omega)
  · by_cases h1 : t.val = 15
    · exact sound_body0_C V c t h0 h1
    · exact sound_body0_B V c t h0 h1

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨⟨HS0, HS1, HS2, HS3, HS4, HS5, HS6, HS7, HS8, HS9, HS10, HS11, HS12, HS13, HS14, HS15⟩, Hrest⟩, Hg⟩
  isplitl [HS0 HS1 HS2 HS3 HS4 HS5 HS6 HS7 HS8 HS9 HS10 HS11 HS12 HS13 HS14 HS15 Hrest]
  · isplitl [HS0 HS1 HS2 HS3 HS4 HS5 HS6 HS7 HS8 HS9 HS10 HS11 HS12 HS13 HS14 HS15]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      iexists _; iexact HS15
    iexact Hrest
  iexact Hg

end Body

end Cert.Kernel.Hand

end
-- ==== Proof.KBlendRegion.lean ====
/-
  The second kernel region (the blend kernel) of the program, at the TensorCore's buffer contents `V` when the region is
  entered: each window's block at a grid point, what the body's one whole-block store leaves in the output window's
  staging buffer as a function of the ten input blocks, the body's triple, the pipeline's proof data and the body
  obligation at every grid point. Generic in the float instance.
-/
import proofs.«117659_j43542378447212_2_alg».proof.Proof.Gen.Kernel.Launch
import proofs.«117659_j43542378447212_2_alg».proof.Proof.Gen.Kernel.Skeleton
import proofs.«117659_j43542378447212_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): an unfetched window's block index
    has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): an unfetched window's block index
    has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): an unfetched window's block index
    has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): an unfetched window's block index
    has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): an unfetched window's block index
    has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s (`hA`) and whose body leaves the block in place (`hafter`): an unfetched window's block index
    has not moved, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s (`hA`) and whose body leaves the block in place (`hafter`): an unfetched window's block index
    has not moved, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s (`hA`) and whose body leaves the block in place (`hafter`): an unfetched window's block index
    has not moved, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s (`hA`) and whose body leaves the block in place (`hafter`): an unfetched window's block index
    has not moved, the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof data
    whose array is `V`'s (`hA`) and whose body leaves the block in place (`hafter`): an unfetched window's block index
    has not moved, the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rA : Rect S4x128x16x256 := Rect.unit (s := S4x128x16x256) ![0, 0, 0, 0] S4x128x16x256.size inb_S4x128x16x256_S4x128x16x256_0_0_0_0
abbrev rM : Rect S4x1x16x256 := Rect.unit (s := S4x1x16x256) ![0, 0, 0, 0] S4x1x16x256.size inb_S4x1x16x256_S4x1x16x256_0_0_0_0
abbrev rS : Rect S4x128x1x1 := Rect.unit (s := S4x128x1x1) ![0, 0, 0, 0] S4x128x1x1.size inb_S4x128x1x1_S4x128x1x1_0_0_0_0

/-! ## What the body leaves in the output window's buffer -/

/-- Window 10's staging buffer after the body, from the input windows' blocks: its one store as a piece over the
    payload of the ten loads (the mask and its complement, the two normalised branches, the four modulation
    statistics in the order the body reads them). -/
def out1_10 (x0 : Vec F S4x128x16x256 .f32) (x1 : Vec F S4x1x16x256 .f32)
    (x2 x3 x4 x5 x6 x7 x8 x9 : Vec F S4x128x1x1 .f32) : Vec F S4x128x16x256 .f32 :=
  View.canon [⟨rA, k1_pay1 (k1_pay2 (View.ld x1 rM)) (k1_pay3 (View.ld x1 rM))
    (k1_pay4 (View.ld x0 rA) (View.ld x1 rM) (View.ld x2 rS) (View.ld x3 rS))
    (k1_pay5 (View.ld x0 rA) (View.ld x1 rM) (View.ld x4 rS) (View.ld x5 rS))
    (View.ld x7 rS) (View.ld x6 rS) (View.ld x9 rS) (View.ld x8 rS)⟩]

/-- The one store is the whole buffer, so it covers it. -/
theorem cover1_10 (p0 : Vec F S4x128x16x256 .f32) (y : S4x128x16x256.Idx) :
    ∃ pc ∈ ([⟨rA, p0⟩] : List (View.Piece (Elt F) S4x128x16x256 .f32)), y ∈ pc.1.set :=
  View.cover_of_tiled [⟨rA, p0⟩] S4x128x16x256.size (by rfl) y

/-! ## The body's triple -/

set_option maxHeartbeats 1000000 in
/-- The kernel body on whole staging memrefs, the inputs' at read contents `xW` and the output's at anything, runs to
    the continuation holding the inputs' as they were and the output's at `out1_10` of the inputs'. -/
theorem sound_kernel1 (c : Dev nD) (E : Set ℕ) (i : grid1.Coords) (arg1 : Memref sig .tc .vmem S4x128x16x256 .f32) (harg1 : arg1.IsWhole) (arg2 : Memref sig .tc .vmem S4x1x16x256 .f32) (harg2 : arg2.IsWhole) (arg3 : Memref sig .tc .vmem S4x128x1x1 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x16x256 .f32) (harg11 : arg11.IsWhole)
    (x0 : Vec F S4x128x16x256 .f32) (x1 : Vec F S4x1x16x256 .f32) (x2 x3 x4 x5 x6 x7 x8 x9 : Vec F S4x128x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__blend_kernel i arg1 harg1 arg2 harg2 arg3 harg3 arg4 harg4 arg5 harg5 arg6 harg6 arg7 harg7 arg8 harg8 arg9 harg9 arg10 harg10 arg11 harg11) K := by
  simp only [cc1__blend_kernel_eq_skeleton]; unfold cc1__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them (`V`); after the body at point `t`
    each input's buffer at its block and the output's at `out1_10` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameRun.lean ====
/-
  The whole program's run: @main is a host stretch (the mask repeated), the reduction region, a second host stretch (the
  four modulations), the blend region. The unscoped buffers' contents at each boundary are a fold from the launch memory:
  a host stretch applies its operations, a region leaves its arrays at what its write-backs leave and every other buffer
  as it found it. Every weakly fair execution terminates with the result buffer at the last boundary's contents and the
  seven argument arrays as launched.
-/
import proofs.«117659_j43542378447212_2_alg».proof.Proof.KReduceBody
import proofs.«117659_j43542378447212_2_alg».proof.Proof.KBlendRegion
import proofs.«117659_j43542378447212_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region invariant's two ends with the scoped rest spelt out. -/
theorem hin0' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec0 c ∗ ∃ r, prngReg c r) : sProp 𝕄) ⊢ (dat0 V c).Φ 0 := by
  have h := hin0 V c; unfold Pipeline.ΦA at h; exact h
theorem hout0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout0 V c; unfold Pipeline.ΦA at h; exact h

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the reduction region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the reduction region's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the blend region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the blend region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ### The arguments end as launched: no host operation writes one and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (E3 m ρ) c).arrAt_in 0 rfl _).trans (A_eq1 (E3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it; its arrays split out of the unscoped buffers and put back at what the pipeline leaves; the generator register
    into the region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : (iprop(Pipeline.scopedRest (Ix := Unit) (Name := ℕ) (U := UR sig nD τ) (Lvl := ℕ) (Val := Elt F) spec0 c ∗ ∃ r, prngReg c r) : sProp 𝕄) ⊢ (pdats m ρ 0 c).Φ 0 := hin0' (E1 m ρ) c
    iintro ⟨Hp, -, Hr⟩
    iapply hh
    isplitl [Hr]; · iexact Hr
    iexact Hp
  hout c := by
    rw [Pipeline.ownSems0_none]
    iintro H
    have hh : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) := hout0' (E1 m ρ) c
    ihave H' := hh $$ H
    icases H' with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator register
    into the region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, with
    the result buffer at the last boundary's contents and the seven argument arrays as launched. -/
theorem run_all : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c)⟩)

end Cert.Kernel.Hand

end
-- ==== Proof.ReduceShared.lean ====
/-
  What the three control cases of the reduction kernel share: the two conditions of its body decided over the sixteen
  grid points (the first point zeroes the running sums, the last point turns them into means and variances), where the
  eight output windows are idle, the staging and scratch memrefs by name, and the region invariant with the sixteen
  running sums opened as owned buffers.
-/
import proofs.«117659_j43542378447212_2_alg».proof.Proof.Gen.KernelIdeal.Launch
import proofs.«117659_j43542378447212_2_alg».proof.Proof.Gen.KernelIdeal.Skeleton
import proofs.«117659_j43542378447212_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the buffer contents `V` the region is entered with -/

section Blocks

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions -/

/-- "This is the first grid point": the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point": the statistics are computed and stored. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Before the last point output 3 is idle and not written back; at the last point it is live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Before the last point output 4 is idle and not written back; at the last point it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Before the last point output 5 is idle and not written back; at the last point it is live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
/-- Before the last point output 6 is idle and not written back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Before the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Before the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Before the last point output 9 is idle and not written back; at the last point it is live. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Before the last point output 10 is idle and not written back; at the last point it is live. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The memrefs by name -/

abbrev ms0_0 (t : Fin cfg0.N) : Memref sig .tc .vmem S4x128x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x16x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x1x1 .f32 := win0_10.stage (cfg0.slots t 10)
abbrev hs0_10 (t : Fin cfg0.N) : (ms0_10 t).IsWhole := hstage0_10 ((cfg0.slots t 10).cast nbuf0_10)

/-- One staging buffer of output window 3, through which its contents are stated. -/
abbrev VO0_3 : View sig .tc .vmem S4x128x1x1 .f32 := (Memref.whole cc0_stg3_0 : Memref sig .tc .vmem S4x128x1x1 .f32).view
/-- One staging buffer of output window 4, through which its contents are stated. -/
abbrev VO0_4 : View sig .tc .vmem S4x128x1x1 .f32 := (Memref.whole cc0_stg4_0 : Memref sig .tc .vmem S4x128x1x1 .f32).view
/-- One staging buffer of output window 5, through which its contents are stated. -/
abbrev VO0_5 : View sig .tc .vmem S4x128x1x1 .f32 := (Memref.whole cc0_stg5_0 : Memref sig .tc .vmem S4x128x1x1 .f32).view
/-- One staging buffer of output window 6, through which its contents are stated. -/
abbrev VO0_6 : View sig .tc .vmem S4x128x1x1 .f32 := (Memref.whole cc0_stg6_0 : Memref sig .tc .vmem S4x128x1x1 .f32).view
/-- One staging buffer of output window 7, through which its contents are stated. -/
abbrev VO0_7 : View sig .tc .vmem S4x128x1x1 .f32 := (Memref.whole cc0_stg7_0 : Memref sig .tc .vmem S4x128x1x1 .f32).view
/-- One staging buffer of output window 8, through which its contents are stated. -/
abbrev VO0_8 : View sig .tc .vmem S4x128x1x1 .f32 := (Memref.whole cc0_stg8_0 : Memref sig .tc .vmem S4x128x1x1 .f32).view
/-- One staging buffer of output window 9, through which its contents are stated. -/
abbrev VO0_9 : View sig .tc .vmem S4x128x1x1 .f32 := (Memref.whole cc0_stg9_0 : Memref sig .tc .vmem S4x128x1x1 .f32).view
/-- One staging buffer of output window 10, through which its contents are stated. -/
abbrev VO0_10 : View sig .tc .vmem S4x128x1x1 .f32 := (Memref.whole cc0_stg10_0 : Memref sig .tc .vmem S4x128x1x1 .f32).view

/-- Running sum 0: a whole scoped buffer of the kernel's own, and its view. -/
abbrev scM0_0 : Memref sig .tc .vmem S4x1x1x1 .f32 := Memref.whole cc0_scratch0
abbrev VS0_0 : View sig .tc .vmem S4x1x1x1 .f32 := scM0_0.view
/-- Running sum 1: a whole scoped buffer of the kernel's own, and its view. -/
abbrev scM0_1 : Memref sig .tc .vmem S4x1x1x1 .f32 := Memref.whole cc0_scratch1
abbrev VS0_1 : View sig .tc .vmem S4x1x1x1 .f32 := scM0_1.view
/-- Running sum 2: a whole scoped buffer of the kernel's own, and its view. -/
abbrev scM0_2 : Memref sig .tc .vmem S4x1x1x1 .f32 := Memref.whole cc0_scratch2
abbrev VS0_2 : View sig .tc .vmem S4x1x1x1 .f32 := scM0_2.view
/-- Running sum 3: a whole scoped buffer of the kernel's own, and its view. -/
abbrev scM0_3 : Memref sig .tc .vmem S4x1x1x1 .f32 := Memref.whole cc0_scratch3
abbrev VS0_3 : View sig .tc .vmem S4x1x1x1 .f32 := scM0_3.view
/-- Running sum 4: a whole scoped buffer of the kernel's own, and its view. -/
abbrev scM0_4 : Memref sig .tc .vmem S4x128x1x1 .f32 := Memref.whole cc0_scratch4
abbrev VS0_4 : View sig .tc .vmem S4x128x1x1 .f32 := scM0_4.view
/-- Running sum 5: a whole scoped buffer of the kernel's own, and its view. -/
abbrev scM0_5 : Memref sig .tc .vmem S4x128x1x1 .f32 := Memref.whole cc0_scratch5
abbrev VS0_5 : View sig .tc .vmem S4x128x1x1 .f32 := scM0_5.view
/-- Running sum 6: a whole scoped buffer of the kernel's own, and its view. -/
abbrev scM0_6 : Memref sig .tc .vmem S4x128x1x1 .f32 := Memref.whole cc0_scratch6
abbrev VS0_6 : View sig .tc .vmem S4x128x1x1 .f32 := scM0_6.view
/-- Running sum 7: a whole scoped buffer of the kernel's own, and its view. -/
abbrev scM0_7 : Memref sig .tc .vmem S4x128x1x1 .f32 := Memref.whole cc0_scratch7
abbrev VS0_7 : View sig .tc .vmem S4x128x1x1 .f32 := scM0_7.view
/-- Running sum 8: a whole scoped buffer of the kernel's own, and its view. -/
abbrev scM0_8 : Memref sig .tc .vmem S4x128x1x1 .f32 := Memref.whole cc0_scratch8
abbrev VS0_8 : View sig .tc .vmem S4x128x1x1 .f32 := scM0_8.view
/-- Running sum 9: a whole scoped buffer of the kernel's own, and its view. -/
abbrev scM0_9 : Memref sig .tc .vmem S4x128x1x1 .f32 := Memref.whole cc0_scratch9
abbrev VS0_9 : View sig .tc .vmem S4x128x1x1 .f32 := scM0_9.view
/-- Running sum 10: a whole scoped buffer of the kernel's own, and its view. -/
abbrev scM0_10 : Memref sig .tc .vmem S4x128x1x1 .f32 := Memref.whole cc0_scratch10
abbrev VS0_10 : View sig .tc .vmem S4x128x1x1 .f32 := scM0_10.view
/-- Running sum 11: a whole scoped buffer of the kernel's own, and its view. -/
abbrev scM0_11 : Memref sig .tc .vmem S4x128x1x1 .f32 := Memref.whole cc0_scratch11
abbrev VS0_11 : View sig .tc .vmem S4x128x1x1 .f32 := scM0_11.view
/-- Running sum 12: a whole scoped buffer of the kernel's own, and its view. -/
abbrev scM0_12 : Memref sig .tc .vmem S4x128x1x1 .f32 := Memref.whole cc0_scratch12
abbrev VS0_12 : View sig .tc .vmem S4x128x1x1 .f32 := scM0_12.view
/-- Running sum 13: a whole scoped buffer of the kernel's own, and its view. -/
abbrev scM0_13 : Memref sig .tc .vmem S4x128x1x1 .f32 := Memref.whole cc0_scratch13
abbrev VS0_13 : View sig .tc .vmem S4x128x1x1 .f32 := scM0_13.view
/-- Running sum 14: a whole scoped buffer of the kernel's own, and its view. -/
abbrev scM0_14 : Memref sig .tc .vmem S4x128x1x1 .f32 := Memref.whole cc0_scratch14
abbrev VS0_14 : View sig .tc .vmem S4x128x1x1 .f32 := scM0_14.view
/-- Running sum 15: a whole scoped buffer of the kernel's own, and its view. -/
abbrev scM0_15 : Memref sig .tc .vmem S4x128x1x1 .f32 := Memref.whole cc0_scratch15
abbrev VS0_15 : View sig .tc .vmem S4x128x1x1 .f32 := scM0_15.view

/-- The region invariant with the sixteen running sums as memrefs owned at some contents, the other scoped buffers
    unopened and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d))
          ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := by
  unfold Pipeline.ΦA; rw [scopedRest0_split]; simp only [scM0_0, scM0_1, scM0_2, scM0_3, scM0_4, scM0_5, scM0_6, scM0_7, scM0_8, scM0_9, scM0_10, scM0_11, scM0_12, scM0_13, scM0_14, scM0_15, owns_whole]; try rfl

end Cert.KernelIdeal.Hand

end
-- ==== Proof.ReduceRunA.lean ====
/-
  The reduction kernel's whole body at the first grid point: the sixteen running sums are zeroed, then the point's partial sums are added.
  The pieces each buffer ends with are found by the symbolic run and kept as the witness.
-/
import proofs.«117659_j43542378447212_2_alg».proof.Proof.ReduceShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight idle outputs' handed back untouched, the sixteen running
    sums at anything — runs to the continuation holding the inputs as they were and every running sum
    with its pieces written. -/
noncomputable def kernelRun0_A (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (xi3 : Vec F S4x128x1x1 .f32) (xi4 : Vec F S4x128x1x1 .f32) (xi5 : Vec F S4x128x1x1 .f32) (xi6 : Vec F S4x128x1x1 .f32) (xi7 : Vec F S4x128x1x1 .f32) (xi8 : Vec F S4x128x1x1 .f32) (xi9 : Vec F S4x128x1x1 .f32) (xi10 : Vec F S4x128x1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], [], [], [], [], [], [], ?_, ?_, ?_, ?_, ?_, ?_, ?_, ?_, ?_, ?_, ?_, ?_, ?_, ?_, ?_, ?_, fun xi3 xi4 xi5 xi6 xi7 xi8 xi9 xi10 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.KernelIdeal.Hand

end
-- ==== Proof.ReduceRunB.lean ====
/-
  The reduction kernel's whole body at a grid point that is neither first nor last: the point's partial sums are added onto the running sums.
  The pieces each buffer ends with are found by the symbolic run and kept as the witness.
-/
import proofs.«117659_j43542378447212_2_alg».proof.Proof.ReduceShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight idle outputs' handed back untouched, the sixteen running
    sums at what the point before left — runs to the continuation holding the inputs as they were and every running sum
    with its pieces written. -/
noncomputable def kernelRun0_B (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (xi3 : Vec F S4x128x1x1 .f32) (xi4 : Vec F S4x128x1x1 .f32) (xi5 : Vec F S4x128x1x1 .f32) (xi6 : Vec F S4x128x1x1 .f32) (xi7 : Vec F S4x128x1x1 .f32) (xi8 : Vec F S4x128x1x1 .f32) (xi9 : Vec F S4x128x1x1 .f32) (xi10 : Vec F S4x128x1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6 ∗ owns (c : Thread nD τ) arg19 fullShare xs7 ∗ owns (c : Thread nD τ) arg20 fullShare xs8 ∗ owns (c : Thread nD τ) arg21 fullShare xs9 ∗ owns (c : Thread nD τ) arg22 fullShare xs10 ∗ owns (c : Thread nD τ) arg23 fullShare xs11 ∗ owns (c : Thread nD τ) arg24 fullShare xs12 ∗ owns (c : Thread nD τ) arg25 fullShare xs13 ∗ owns (c : Thread nD τ) arg26 fullShare xs14 ∗ owns (c : Thread nD τ) arg27 fullShare xs15
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], [], [], [], [], [], [], ?_, ?_, ?_, ?_, ?_, ?_, ?_, ?_, ?_, ?_, ?_, ?_, ?_, ?_, ?_, ?_, fun xi3 xi4 xi5 xi6 xi7 xi8 xi9 xi10 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩, ⟨%fs12, %hfs12, HS12⟩, ⟨%fs13, %hfs13, HS13⟩, ⟨%fs14, %hfs14, HS14⟩, ⟨%fs15, %hfs15, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5; obtain rfl := harg18.eq_unread hfs6; obtain rfl := harg19.eq_unread hfs7; obtain rfl := harg20.eq_unread hfs8; obtain rfl := harg21.eq_unread hfs9; obtain rfl := harg22.eq_unread hfs10; obtain rfl := harg23.eq_unread hfs11; obtain rfl := harg24.eq_unread hfs12; obtain rfl := harg25.eq_unread hfs13; obtain rfl := harg26.eq_unread hfs14; obtain rfl := harg27.eq_unread hfs15
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.KernelIdeal.Hand

end
-- ==== Proof.ReduceRunC.lean ====
/-
  The reduction kernel's whole body at the last grid point: the point's partial sums are added, then the means and clamped variances are computed from the running sums and stored into the eight outputs.
  The pieces each buffer ends with are found by the symbolic run and kept as the witness.
-/
import proofs.«117659_j43542378447212_2_alg».proof.Proof.ReduceShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body on whole memrefs — the three inputs' staging buffers at their contents, the eight outputs' at anything, the sixteen running
    sums at what the point before left — runs to the continuation holding the inputs as they were, every output with its pieces written and every running sum
    with its pieces written. -/
noncomputable def kernelRun0_C (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    Σ' (L3 : List (View.Piece (Elt F) S4x128x1x1 .f32)) (L4 : List (View.Piece (Elt F) S4x128x1x1 .f32)) (L5 : List (View.Piece (Elt F) S4x128x1x1 .f32)) (L6 : List (View.Piece (Elt F) S4x128x1x1 .f32)) (L7 : List (View.Piece (Elt F) S4x128x1x1 .f32)) (L8 : List (View.Piece (Elt F) S4x128x1x1 .f32)) (L9 : List (View.Piece (Elt F) S4x128x1x1 .f32)) (L10 : List (View.Piece (Elt F) S4x128x1x1 .f32)) (LS0 : List (View.Piece (Elt F) S4x1x1x1 .f32)) (LS1 : List (View.Piece (Elt F) S4x1x1x1 .f32)) (LS2 : List (View.Piece (Elt F) S4x1x1x1 .f32)) (LS3 : List (View.Piece (Elt F) S4x1x1x1 .f32)) (LS4 : List (View.Piece (Elt F) S4x128x1x1 .f32)) (LS5 : List (View.Piece (Elt F) S4x128x1x1 .f32)) (LS6 : List (View.Piece (Elt F) S4x128x1x1 .f32)) (LS7 : List (View.Piece (Elt F) S4x128x1x1 .f32)) (LS8 : List (View.Piece (Elt F) S4x128x1x1 .f32)) (LS9 : List (View.Piece (Elt F) S4x128x1x1 .f32)) (LS10 : List (View.Piece (Elt F) S4x128x1x1 .f32)) (LS11 : List (View.Piece (Elt F) S4x128x1x1 .f32)) (LS12 : List (View.Piece (Elt F) S4x128x1x1 .f32)) (LS13 : List (View.Piece (Elt F) S4x128x1x1 .f32)) (LS14 : List (View.Piece (Elt F) S4x128x1x1 .f32)), { LS15 : List (View.Piece (Elt F) S4x128x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6 ∗ owns (c : Thread nD τ) arg19 fullShare xs7 ∗ owns (c : Thread nD τ) arg20 fullShare xs8 ∗ owns (c : Thread nD τ) arg21 fullShare xs9 ∗ owns (c : Thread nD τ) arg22 fullShare xs10 ∗ owns (c : Thread nD τ) arg23 fullShare xs11 ∗ owns (c : Thread nD τ) arg24 fullShare xs12 ∗ owns (c : Thread nD τ) arg25 fullShare xs13 ∗ owns (c : Thread nD τ) arg26 fullShare xs14 ∗ owns (c : Thread nD τ) arg27 fullShare xs15
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ f, arg18.view.loc (c : Thread nD τ) ↦[arg18.view.set]{fullShare} arg18.view.writes (Elt F) f LS6) ∗ (∃ f, arg19.view.loc (c : Thread nD τ) ↦[arg19.view.set]{fullShare} arg19.view.writes (Elt F) f LS7) ∗ (∃ f, arg20.view.loc (c : Thread nD τ) ↦[arg20.view.set]{fullShare} arg20.view.writes (Elt F) f LS8) ∗ (∃ f, arg21.view.loc (c : Thread nD τ) ↦[arg21.view.set]{fullShare} arg21.view.writes (Elt F) f LS9) ∗ (∃ f, arg22.view.loc (c : Thread nD τ) ↦[arg22.view.set]{fullShare} arg22.view.writes (Elt F) f LS10) ∗ (∃ f, arg23.view.loc (c : Thread nD τ) ↦[arg23.view.set]{fullShare} arg23.view.writes (Elt F) f LS11) ∗ (∃ f, arg24.view.loc (c : Thread nD τ) ↦[arg24.view.set]{fullShare} arg24.view.writes (Elt F) f LS12) ∗ (∃ f, arg25.view.loc (c : Thread nD τ) ↦[arg25.view.set]{fullShare} arg25.view.writes (Elt F) f LS13) ∗ (∃ f, arg26.view.loc (c : Thread nD τ) ↦[arg26.view.set]{fullShare} arg26.view.writes (Elt F) f LS14) ∗ (∃ f, arg27.view.loc (c : Thread nD τ) ↦[arg27.view.set]{fullShare} arg27.view.writes (Elt F) f LS15)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, ?_, ?_, ?_, ?_, ?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩, ⟨%fs12, %hfs12, HS12⟩, ⟨%fs13, %hfs13, HS13⟩, ⟨%fs14, %hfs14, HS14⟩, ⟨%fs15, %hfs15, HS15⟩, Hk⟩
    obtain rfl := harg1.eq_unread hf0; obtain rfl := harg2.eq_unread hf1; obtain rfl := harg3.eq_unread hf2; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5; obtain rfl := harg18.eq_unread hfs6; obtain rfl := harg19.eq_unread hfs7; obtain rfl := harg20.eq_unread hfs8; obtain rfl := harg21.eq_unread hfs9; obtain rfl := harg22.eq_unread hfs10; obtain rfl := harg23.eq_unread hfs11; obtain rfl := harg24.eq_unread hfs12; obtain rfl := harg25.eq_unread hfs13; obtain rfl := harg26.eq_unread hfs14; obtain rfl := harg27.eq_unread hfs15
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15

end Cert.KernelIdeal.Hand

end
-- ==== Proof.ReduceCovers.lean ====
/-
  The pieces the reduction kernel's runs leave in each running sum (and, at the last point, in each output) tile the
  buffer: every index is covered by a store, so the buffer's contents after the point do not depend on what it held before.
-/
import proofs.«117659_j43542378447212_2_alg».proof.Proof.ReduceRunA
import proofs.«117659_j43542378447212_2_alg».proof.Proof.ReduceRunB
import proofs.«117659_j43542378447212_2_alg».proof.Proof.ReduceRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover0_A_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.1 S4x1x1x1.size (by sl_kernel_rfl) y

theorem scover0_A_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.1 S4x1x1x1.size (by sl_kernel_rfl) y

theorem scover0_A_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.1 S4x1x1x1.size (by sl_kernel_rfl) y

theorem scover0_A_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.1 S4x1x1x1.size (by sl_kernel_rfl) y

theorem scover0_A_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.1 S4x128x1x1.size (by sl_kernel_rfl) y

theorem scover0_A_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.1 S4x128x1x1.size (by sl_kernel_rfl) y

theorem scover0_A_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.1 S4x128x1x1.size (by sl_kernel_rfl) y

theorem scover0_A_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.1 S4x128x1x1.size (by sl_kernel_rfl) y

theorem scover0_A_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.1 S4x128x1x1.size (by sl_kernel_rfl) y

theorem scover0_A_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.1 S4x128x1x1.size (by sl_kernel_rfl) y

theorem scover0_A_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.1 S4x128x1x1.size (by sl_kernel_rfl) y

theorem scover0_A_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.1 S4x128x1x1.size (by sl_kernel_rfl) y

theorem scover0_A_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.1 S4x128x1x1.size (by sl_kernel_rfl) y

theorem scover0_A_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.1 S4x128x1x1.size (by sl_kernel_rfl) y

theorem scover0_A_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.1 S4x128x1x1.size (by sl_kernel_rfl) y

theorem scover0_A_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) (y : S4x128x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.2.1 S4x128x1x1.size (by sl_kernel_rfl) y

theorem scover0_B_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1 S4x1x1x1.size (by sl_kernel_rfl) y

theorem scover0_B_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1 S4x1x1x1.size (by sl_kernel_rfl) y

theorem scover0_B_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1 S4x1x1x1.size (by sl_kernel_rfl) y

theorem scover0_B_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1 S4x1x1x1.size (by sl_kernel_rfl) y

theorem scover0_B_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1 S4x128x1x1.size (by sl_kernel_rfl) y

theorem scover0_B_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1 S4x128x1x1.size (by sl_kernel_rfl) y

theorem scover0_B_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1 S4x128x1x1.size (by sl_kernel_rfl) y

theorem scover0_B_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1 S4x128x1x1.size (by sl_kernel_rfl) y

theorem scover0_B_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1 S4x128x1x1.size (by sl_kernel_rfl) y

theorem scover0_B_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1 S4x128x1x1.size (by sl_kernel_rfl) y

theorem scover0_B_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1 S4x128x1x1.size (by sl_kernel_rfl) y

theorem scover0_B_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1 S4x128x1x1.size (by sl_kernel_rfl) y

theorem scover0_B_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1 S4x128x1x1.size (by sl_kernel_rfl) y

theorem scover0_B_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1 S4x128x1x1.size (by sl_kernel_rfl) y

theorem scover0_B_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1 S4x128x1x1.size (by sl_kernel_rfl) y

theorem scover0_B_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1 S4x128x1x1.size (by sl_kernel_rfl) y

theorem scover0_C_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1 S4x1x1x1.size (by sl_kernel_rfl) y

theorem scover0_C_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1 S4x1x1x1.size (by sl_kernel_rfl) y

theorem scover0_C_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1 S4x1x1x1.size (by sl_kernel_rfl) y

theorem scover0_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x1x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1 S4x1x1x1.size (by sl_kernel_rfl) y

theorem scover0_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1 S4x128x1x1.size (by sl_kernel_rfl) y

theorem scover0_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1 S4x128x1x1.size (by sl_kernel_rfl) y

theorem scover0_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1 S4x128x1x1.size (by sl_kernel_rfl) y

theorem scover0_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1 S4x128x1x1.size (by sl_kernel_rfl) y

theorem scover0_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1 S4x128x1x1.size (by sl_kernel_rfl) y

theorem scover0_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1 S4x128x1x1.size (by sl_kernel_rfl) y

theorem scover0_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1 S4x128x1x1.size (by sl_kernel_rfl) y

theorem scover0_C_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1 S4x128x1x1.size (by sl_kernel_rfl) y

theorem scover0_C_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1 S4x128x1x1.size (by sl_kernel_rfl) y

theorem scover0_C_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1 S4x128x1x1.size (by sl_kernel_rfl) y

theorem scover0_C_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1 S4x128x1x1.size (by sl_kernel_rfl) y

theorem scover0_C_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1 S4x128x1x1.size (by sl_kernel_rfl) y

theorem cover0_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).1 S4x128x1x1.size (by sl_kernel_rfl) y

theorem cover0_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.1 S4x128x1x1.size (by sl_kernel_rfl) y

theorem cover0_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.1 S4x128x1x1.size (by sl_kernel_rfl) y

theorem cover0_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.1 S4x128x1x1.size (by sl_kernel_rfl) y

theorem cover0_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.1 S4x128x1x1.size (by sl_kernel_rfl) y

theorem cover0_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.1 S4x128x1x1.size (by sl_kernel_rfl) y

theorem cover0_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.1 S4x128x1x1.size (by sl_kernel_rfl) y

theorem cover0_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) (y : S4x128x1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.1 S4x128x1x1.size (by sl_kernel_rfl) y

end Cert.KernelIdeal.Hand

end
-- ==== Proof.ReduceRegion.lean ====
/-
  The first kernel region (the masked-statistics reduction) as proof data for the pipeline library: what the sixteen
  running sums and the eight outputs hold after every grid point, by recursion over the points (the first point starts
  the sums, every later point adds onto what the point before left, the last point also computes the outputs); the
  region invariant that carries the running sums from point to point; and the body obligation at every point.
-/
import proofs.«117659_j43542378447212_2_alg».proof.Proof.ReduceCovers

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the eight outputs' staging buffers and of the sixteen running sums after a grid point. -/
structure Pt (F : FTy → Type) [FloatOps F] where
  o3 : Vec F S4x128x1x1 .f32
  o4 : Vec F S4x128x1x1 .f32
  o5 : Vec F S4x128x1x1 .f32
  o6 : Vec F S4x128x1x1 .f32
  o7 : Vec F S4x128x1x1 .f32
  o8 : Vec F S4x128x1x1 .f32
  o9 : Vec F S4x128x1x1 .f32
  o10 : Vec F S4x128x1x1 .f32
  s0 : Vec F S4x1x1x1 .f32
  s1 : Vec F S4x1x1x1 .f32
  s2 : Vec F S4x1x1x1 .f32
  s3 : Vec F S4x1x1x1 .f32
  s4 : Vec F S4x128x1x1 .f32
  s5 : Vec F S4x128x1x1 .f32
  s6 : Vec F S4x128x1x1 .f32
  s7 : Vec F S4x128x1x1 .f32
  s8 : Vec F S4x128x1x1 .f32
  s9 : Vec F S4x128x1x1 .f32
  s10 : Vec F S4x128x1x1 .f32
  s11 : Vec F S4x128x1x1 .f32
  s12 : Vec F S4x128x1x1 .f32
  s13 : Vec F S4x128x1x1 .f32
  s14 : Vec F S4x128x1x1 .f32
  s15 : Vec F S4x128x1x1 .f32

section Region

variable (V : (c : Dev nD) → (b : Ref sig .tc) → Buf (Elt F) ((c : Thread nD τ).loc b))

/-- What the buffers hold after a point of case A: each buffer's pieces read back (over contents that no longer matter). -/
def ptA (c : Dev nD) (t : Fin cfg0.N) (hc0 : cond0_0 (grid0.coords t)) (hc1 : ¬cond0_1 (grid0.coords t)) : Pt F where
  o3 := VO0_3.read (Elt F) (VO0_3.writes (Elt F) VO0_3.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).1)
  o4 := VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.1)
  o5 := VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.1)
  o6 := VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.1)
  o7 := VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.1)
  o8 := VO0_8.read (Elt F) (VO0_8.writes (Elt F) VO0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.1)
  o9 := VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.1)
  o10 := VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.1)
  s0 := VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.1)
  s1 := VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.1)
  s2 := VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.1)
  s3 := VS0_3.read (Elt F) (VS0_3.writes (Elt F) VS0_3.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.1)
  s4 := VS0_4.read (Elt F) (VS0_4.writes (Elt F) VS0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.1)
  s5 := VS0_5.read (Elt F) (VS0_5.writes (Elt F) VS0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.1)
  s6 := VS0_6.read (Elt F) (VS0_6.writes (Elt F) VS0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.1)
  s7 := VS0_7.read (Elt F) (VS0_7.writes (Elt F) VS0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.1)
  s8 := VS0_8.read (Elt F) (VS0_8.writes (Elt F) VS0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.1)
  s9 := VS0_9.read (Elt F) (VS0_9.writes (Elt F) VS0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.1)
  s10 := VS0_10.read (Elt F) (VS0_10.writes (Elt F) VS0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.1)
  s11 := VS0_11.read (Elt F) (VS0_11.writes (Elt F) VS0_11.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.1)
  s12 := VS0_12.read (Elt F) (VS0_12.writes (Elt F) VS0_12.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.1)
  s13 := VS0_13.read (Elt F) (VS0_13.writes (Elt F) VS0_13.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.1)
  s14 := VS0_14.read (Elt F) (VS0_14.writes (Elt F) VS0_14.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.1)
  s15 := VS0_15.read (Elt F) (VS0_15.writes (Elt F) VS0_15.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.2.1)

/-- What the buffers hold after a point of case B: each buffer's pieces read back (over contents that no longer matter). -/
def ptB (c : Dev nD) (t : Fin cfg0.N) (hc0 : ¬cond0_0 (grid0.coords t)) (hc1 : ¬cond0_1 (grid0.coords t)) (p : Pt F) : Pt F where
  o3 := VO0_3.read (Elt F) (VO0_3.writes (Elt F) VO0_3.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
  o4 := VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
  o5 := VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
  o6 := VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
  o7 := VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
  o8 := VO0_8.read (Elt F) (VO0_8.writes (Elt F) VO0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
  o9 := VO0_9.read (Elt F) (VO0_9.writes (Elt F) VO0_9.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
  o10 := VO0_10.read (Elt F) (VO0_10.writes (Elt F) VO0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
  s0 := VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
  s1 := VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
  s2 := VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
  s3 := VS0_3.read (Elt F) (VS0_3.writes (Elt F) VS0_3.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
  s4 := VS0_4.read (Elt F) (VS0_4.writes (Elt F) VS0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
  s5 := VS0_5.read (Elt F) (VS0_5.writes (Elt F) VS0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
  s6 := VS0_6.read (Elt F) (VS0_6.writes (Elt F) VS0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
  s7 := VS0_7.read (Elt F) (VS0_7.writes (Elt F) VS0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
  s8 := VS0_8.read (Elt F) (VS0_8.writes (Elt F) VS0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
  s9 := VS0_9.read (Elt F) (VS0_9.writes (Elt F) VS0_9.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
  s10 := VS0_10.read (Elt F) (VS0_10.writes (Elt F) VS0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
  s11 := VS0_11.read (Elt F) (VS0_11.writes (Elt F) VS0_11.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
  s12 := VS0_12.read (Elt F) (VS0_12.writes (Elt F) VS0_12.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
  s13 := VS0_13.read (Elt F) (VS0_13.writes (Elt F) VS0_13.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
  s14 := VS0_14.read (Elt F) (VS0_14.writes (Elt F) VS0_14.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
  s15 := VS0_15.read (Elt F) (VS0_15.writes (Elt F) VS0_15.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)

/-- What the buffers hold after a point of case C: each buffer's pieces read back (over contents that no longer matter). -/
def ptC (c : Dev nD) (t : Fin cfg0.N) (hc0 : ¬cond0_0 (grid0.coords t)) (hc1 : cond0_1 (grid0.coords t)) (p : Pt F) : Pt F where
  o3 := VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
  o4 := VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
  o5 := VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
  o6 := VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
  o7 := VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
  o8 := VO0_8.read (Elt F) (VO0_8.writes (Elt F) VO0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
  o9 := VO0_9.read (Elt F) (VO0_9.writes (Elt F) VO0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
  o10 := VO0_10.read (Elt F) (VO0_10.writes (Elt F) VO0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
  s0 := VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
  s1 := VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
  s2 := VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
  s3 := VS0_3.read (Elt F) (VS0_3.writes (Elt F) VS0_3.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
  s4 := VS0_4.read (Elt F) (VS0_4.writes (Elt F) VS0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
  s5 := VS0_5.read (Elt F) (VS0_5.writes (Elt F) VS0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
  s6 := VS0_6.read (Elt F) (VS0_6.writes (Elt F) VS0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
  s7 := VS0_7.read (Elt F) (VS0_7.writes (Elt F) VS0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
  s8 := VS0_8.read (Elt F) (VS0_8.writes (Elt F) VS0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
  s9 := VS0_9.read (Elt F) (VS0_9.writes (Elt F) VS0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
  s10 := VS0_10.read (Elt F) (VS0_10.writes (Elt F) VS0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
  s11 := VS0_11.read (Elt F) (VS0_11.writes (Elt F) VS0_11.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
  s12 := VS0_12.read (Elt F) (VS0_12.writes (Elt F) VS0_12.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
  s13 := VS0_13.read (Elt F) (VS0_13.writes (Elt F) VS0_13.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
  s14 := VS0_14.read (Elt F) (VS0_14.writes (Elt F) VS0_14.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
  s15 := VS0_15.read (Elt F) (VS0_15.writes (Elt F) VS0_15.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)

/-- THE ACCUMULATION: the buffers' contents after the body at position `n`. -/
def outsAt0 (c : Dev nD) : (n : ℕ) → n < cfg0.N → Pt F
  | 0, hn => ptA V c ⟨0, hn⟩ ((hcond0_0 ⟨0, hn⟩).mpr rfl) (fun h => absurd (show (0 : ℕ) = 15 from (hcond0_1 ⟨0, hn⟩).mp h) (by decide))
  | n + 1, hn =>
    if h1 : n + 1 = 15 then
      ptC V c ⟨n + 1, hn⟩ (fun h => Nat.succ_ne_zero n ((hcond0_0 ⟨n + 1, hn⟩).mp h)) ((hcond0_1 ⟨n + 1, hn⟩).mpr h1) (outsAt0 c n (Nat.lt_of_succ_lt hn))
    else
      ptB V c ⟨n + 1, hn⟩ (fun h => Nat.succ_ne_zero n ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val = 0) (h1 : ¬t.val = 15) :
    outsAt0 V c t.val t.isLt = ptA V c t ((hcond0_0 t).mpr h0) (fun h => h1 ((hcond0_1 t).mp h)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 15) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = ptC V c t (fun h => h0 ((hcond0_0 t).mp h)) ((hcond0_1 t).mpr h1)
      (outsAt0 V c (t.val - 1) (Nat.lt_of_le_of_lt (Nat.sub_le _ _) t.isLt)) := by
  obtain ⟨n, hn⟩ := t
  cases n with
  | zero => exact absurd rfl h0
  | succ n => exact (dif_pos h1).trans rfl

/-- The region invariant before position `n`: before the first point the scoped rest with the running sums at anything;
    afterwards the running sums at what the point before left, the other scoped buffers unopened, the generator register
    at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ owns (c : Thread nD τ) scM0_7 fullShare (outsAt0 V c n hn).s7 ∗ owns (c : Thread nD τ) scM0_8 fullShare (outsAt0 V c n hn).s8 ∗ owns (c : Thread nD τ) scM0_9 fullShare (outsAt0 V c n hn).s9 ∗ owns (c : Thread nD τ) scM0_10 fullShare (outsAt0 V c n hn).s10 ∗ owns (c : Thread nD τ) scM0_11 fullShare (outsAt0 V c n hn).s11 ∗ owns (c : Thread nD τ) scM0_12 fullShare (outsAt0 V c n hn).s12 ∗ owns (c : Thread nD τ) scM0_13 fullShare (outsAt0 V c n hn).s13 ∗ owns (c : Thread nD τ) scM0_14 fullShare (outsAt0 V c n hn).s14 ∗ owns (c : Thread nD τ) scM0_15 fullShare (outsAt0 V c n hn).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ owns (c : Thread nD τ) scM0_7 fullShare (outsAt0 V c n hn).s7 ∗ owns (c : Thread nD τ) scM0_8 fullShare (outsAt0 V c n hn).s8 ∗ owns (c : Thread nD τ) scM0_9 fullShare (outsAt0 V c n hn).s9 ∗ owns (c : Thread nD τ) scM0_10 fullShare (outsAt0 V c n hn).s10 ∗ owns (c : Thread nD τ) scM0_11 fullShare (outsAt0 V c n hn).s11 ∗ owns (c : Thread nD τ) scM0_12 fullShare (outsAt0 V c n hn).s12 ∗ owns (c : Thread nD τ) scM0_13 fullShare (outsAt0 V c n hn).s13 ∗ owns (c : Thread nD τ) scM0_14 fullShare (outsAt0 V c n hn).s14 ∗ owns (c : Thread nD τ) scM0_15 fullShare (outsAt0 V c n hn).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ owns (c : Thread nD τ) scM0_4 fullShare (outsAt0 V c (n - 1) (by omega)).s4 ∗ owns (c : Thread nD τ) scM0_5 fullShare (outsAt0 V c (n - 1) (by omega)).s5 ∗ owns (c : Thread nD τ) scM0_6 fullShare (outsAt0 V c (n - 1) (by omega)).s6 ∗ owns (c : Thread nD τ) scM0_7 fullShare (outsAt0 V c (n - 1) (by omega)).s7 ∗ owns (c : Thread nD τ) scM0_8 fullShare (outsAt0 V c (n - 1) (by omega)).s8 ∗ owns (c : Thread nD τ) scM0_9 fullShare (outsAt0 V c (n - 1) (by omega)).s9 ∗ owns (c : Thread nD τ) scM0_10 fullShare (outsAt0 V c (n - 1) (by omega)).s10 ∗ owns (c : Thread nD τ) scM0_11 fullShare (outsAt0 V c (n - 1) (by omega)).s11 ∗ owns (c : Thread nD τ) scM0_12 fullShare (outsAt0 V c (n - 1) (by omega)).s12 ∗ owns (c : Thread nD τ) scM0_13 fullShare (outsAt0 V c (n - 1) (by omega)).s13 ∗ owns (c : Thread nD τ) scM0_14 fullShare (outsAt0 V c (n - 1) (by omega)).s14 ∗ owns (c : Thread nD τ) scM0_15 fullShare (outsAt0 V c (n - 1) (by omega)).s15) ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]) ∗ (∃ r, prngReg c r)) := by
  cases n with
  | zero => exact absurd rfl hz
  | succ n => rfl

/-! ## The pipeline's proof data -/

/-- The proof data of the reduction's pipeline on core `c`: the arrays as the region finds them; after the body at point
    `t` each input's buffer at its block and each output's at `outsAt0`'s component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
    | ⟨8, _⟩ => (outsAt0 V c t.val t.isLt).o8
    | ⟨9, _⟩ => (outsAt0 V c t.val t.isLt).o9
    | ⟨10, _⟩ => (outsAt0 V c t.val t.isLt).o10
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  before0_0_of V (dat0 V c) (A_eq0 V c 0) (after0_0 V c) t d
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  before0_1_of V (dat0 V c) (A_eq0 V c 1) (after0_1 V c) t d
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  before0_2_of V (dat0 V c) (A_eq0 V c 2) (after0_2 V c) t d

theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]
theorem after0_10 (c : Dev nD) (t : Fin cfg0.N) : (dat0 V c).after 10 t = (outsAt0 V c t.val t.isLt).o10 := by dsimp only [dat0]

end Region

end Cert.KernelIdeal.Hand

end
-- ==== Proof.ReduceOwnA.lean ====
/-
  Case A of the reduction kernel at a grid point: whatever a running-sum buffer held before, once the run's pieces are
  written over it the buffer reads as the point's contents (the pieces cover the buffer).
-/
import proofs.«117659_j43542378447212_2_alg».proof.Proof.ReduceRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

theorem own_A_0 (c : Dev nD) (t : Fin cfg0.N) (hc0 : cond0_0 (grid0.coords t)) (hc1 : ¬cond0_1 (grid0.coords t)) :
    ∀ es, scM0_0.view.read (Elt F) (scM0_0.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.1)
      = (ptA V c t hc0 hc1).s0 :=
  fun es => (View.read_writes_of_cover scM0_0.view es VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_1 (c : Dev nD) (t : Fin cfg0.N) (hc0 : cond0_0 (grid0.coords t)) (hc1 : ¬cond0_1 (grid0.coords t)) :
    ∀ es, scM0_1.view.read (Elt F) (scM0_1.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.1)
      = (ptA V c t hc0 hc1).s1 :=
  fun es => (View.read_writes_of_cover scM0_1.view es VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_2 (c : Dev nD) (t : Fin cfg0.N) (hc0 : cond0_0 (grid0.coords t)) (hc1 : ¬cond0_1 (grid0.coords t)) :
    ∀ es, scM0_2.view.read (Elt F) (scM0_2.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.1)
      = (ptA V c t hc0 hc1).s2 :=
  fun es => (View.read_writes_of_cover scM0_2.view es VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_3 (c : Dev nD) (t : Fin cfg0.N) (hc0 : cond0_0 (grid0.coords t)) (hc1 : ¬cond0_1 (grid0.coords t)) :
    ∀ es, scM0_3.view.read (Elt F) (scM0_3.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.1)
      = (ptA V c t hc0 hc1).s3 :=
  fun es => (View.read_writes_of_cover scM0_3.view es VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_4 (c : Dev nD) (t : Fin cfg0.N) (hc0 : cond0_0 (grid0.coords t)) (hc1 : ¬cond0_1 (grid0.coords t)) :
    ∀ es, scM0_4.view.read (Elt F) (scM0_4.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.1)
      = (ptA V c t hc0 hc1).s4 :=
  fun es => (View.read_writes_of_cover scM0_4.view es VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_5 (c : Dev nD) (t : Fin cfg0.N) (hc0 : cond0_0 (grid0.coords t)) (hc1 : ¬cond0_1 (grid0.coords t)) :
    ∀ es, scM0_5.view.read (Elt F) (scM0_5.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.1)
      = (ptA V c t hc0 hc1).s5 :=
  fun es => (View.read_writes_of_cover scM0_5.view es VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_6 (c : Dev nD) (t : Fin cfg0.N) (hc0 : cond0_0 (grid0.coords t)) (hc1 : ¬cond0_1 (grid0.coords t)) :
    ∀ es, scM0_6.view.read (Elt F) (scM0_6.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.1)
      = (ptA V c t hc0 hc1).s6 :=
  fun es => (View.read_writes_of_cover scM0_6.view es VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_7 (c : Dev nD) (t : Fin cfg0.N) (hc0 : cond0_0 (grid0.coords t)) (hc1 : ¬cond0_1 (grid0.coords t)) :
    ∀ es, scM0_7.view.read (Elt F) (scM0_7.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.1)
      = (ptA V c t hc0 hc1).s7 :=
  fun es => (View.read_writes_of_cover scM0_7.view es VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_8 (c : Dev nD) (t : Fin cfg0.N) (hc0 : cond0_0 (grid0.coords t)) (hc1 : ¬cond0_1 (grid0.coords t)) :
    ∀ es, scM0_8.view.read (Elt F) (scM0_8.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.1)
      = (ptA V c t hc0 hc1).s8 :=
  fun es => (View.read_writes_of_cover scM0_8.view es VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_9 (c : Dev nD) (t : Fin cfg0.N) (hc0 : cond0_0 (grid0.coords t)) (hc1 : ¬cond0_1 (grid0.coords t)) :
    ∀ es, scM0_9.view.read (Elt F) (scM0_9.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.1)
      = (ptA V c t hc0 hc1).s9 :=
  fun es => (View.read_writes_of_cover scM0_9.view es VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_10 (c : Dev nD) (t : Fin cfg0.N) (hc0 : cond0_0 (grid0.coords t)) (hc1 : ¬cond0_1 (grid0.coords t)) :
    ∀ es, scM0_10.view.read (Elt F) (scM0_10.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.1)
      = (ptA V c t hc0 hc1).s10 :=
  fun es => (View.read_writes_of_cover scM0_10.view es VS0_10 VS0_10.junk _ (scover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_11 (c : Dev nD) (t : Fin cfg0.N) (hc0 : cond0_0 (grid0.coords t)) (hc1 : ¬cond0_1 (grid0.coords t)) :
    ∀ es, scM0_11.view.read (Elt F) (scM0_11.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.1)
      = (ptA V c t hc0 hc1).s11 :=
  fun es => (View.read_writes_of_cover scM0_11.view es VS0_11 VS0_11.junk _ (scover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_12 (c : Dev nD) (t : Fin cfg0.N) (hc0 : cond0_0 (grid0.coords t)) (hc1 : ¬cond0_1 (grid0.coords t)) :
    ∀ es, scM0_12.view.read (Elt F) (scM0_12.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.1)
      = (ptA V c t hc0 hc1).s12 :=
  fun es => (View.read_writes_of_cover scM0_12.view es VS0_12 VS0_12.junk _ (scover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_13 (c : Dev nD) (t : Fin cfg0.N) (hc0 : cond0_0 (grid0.coords t)) (hc1 : ¬cond0_1 (grid0.coords t)) :
    ∀ es, scM0_13.view.read (Elt F) (scM0_13.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.1)
      = (ptA V c t hc0 hc1).s13 :=
  fun es => (View.read_writes_of_cover scM0_13.view es VS0_13 VS0_13.junk _ (scover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_14 (c : Dev nD) (t : Fin cfg0.N) (hc0 : cond0_0 (grid0.coords t)) (hc1 : ¬cond0_1 (grid0.coords t)) :
    ∀ es, scM0_14.view.read (Elt F) (scM0_14.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.1)
      = (ptA V c t hc0 hc1).s14 :=
  fun es => (View.read_writes_of_cover scM0_14.view es VS0_14 VS0_14.junk _ (scover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

theorem own_A_15 (c : Dev nD) (t : Fin cfg0.N) (hc0 : cond0_0 (grid0.coords t)) (hc1 : ¬cond0_1 (grid0.coords t)) :
    ∀ es, scM0_15.view.read (Elt F) (scM0_15.view.writes (Elt F) es (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)).2.2.2.2.2.2.2.2.2.2.2.2.2.2.2.2.2.2.2.2.2.2.2.1)
      = (ptA V c t hc0 hc1).s15 :=
  fun es => (View.read_writes_of_cover scM0_15.view es VS0_15 VS0_15.junk _ (scover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t))).trans rfl

end Own

end Cert.KernelIdeal.Hand

end
-- ==== Proof.ReduceBodyA.lean ====
/-
  The reduction kernel's body obligation at a grid point of case A: the invariant hands the body the sixteen running sums
  at anything (the first point zeroes them), the pipeline the eleven windows' staging buffers; the run leaves the running sums at this
  point's contents (every index of each is covered by a store), the inputs as they were, the idle outputs untouched.
-/
import proofs.«117659_j43542378447212_2_alg».proof.Proof.ReduceOwnA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_A (c : Dev nD) (t : Fin cfg0.N) (h0 : t.val = 0) (h1 : ¬t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Dat.leavesExact_idle (dat0 V c) 3 t (idleAt0_3 t (fun h => h1 ((hcond0_1 t).mp h))) (noFlush0_3 t (fun h => h1 ((hcond0_1 t).mp h)))]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [Dat.leavesExact_idle (dat0 V c) 6 t (idleAt0_6 t (fun h => h1 ((hcond0_1 t).mp h))) (noFlush0_6 t (fun h => h1 ((hcond0_1 t).mp h)))]
  rw [Dat.leavesExact_idle (dat0 V c) 7 t (idleAt0_7 t (fun h => h1 ((hcond0_1 t).mp h))) (noFlush0_7 t (fun h => h1 ((hcond0_1 t).mp h)))]
  rw [Dat.leavesExact_idle (dat0 V c) 8 t (idleAt0_8 t (fun h => h1 ((hcond0_1 t).mp h))) (noFlush0_8 t (fun h => h1 ((hcond0_1 t).mp h)))]
  rw [Dat.leavesExact_idle (dat0 V c) 9 t (idleAt0_9 t (fun h => h1 ((hcond0_1 t).mp h))) (noFlush0_9 t (fun h => h1 ((hcond0_1 t).mp h)))]
  rw [Dat.leavesExact_idle (dat0 V c) 10 t (idleAt0_10 t (fun h => h1 ((hcond0_1 t).mp h))) (noFlush0_10 t (fun h => h1 ((hcond0_1 t).mp h)))]
  rw [PhiS_castSucc V c t, PhiS_zero V c _ _ h0, PhiA0_eq]
  rw [outsAt0_A V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (fun h => h1 ((hcond0_1 t).mp h)) (iblk0 V c 0 t) (iblk0 V c 1 t) (iblk0 V c 2 t)).2.2.2.2.2.2.2.2.2.2.2.2.2.2.2.2.2.2.2.2.2.2.2.2 _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_A_0 V c t ((hcond0_0 t).mpr h0) (fun h => h1 ((hcond0_1 t).mp h)) _
        isplitl [HS1]
        · unfold owns; iexists _; isplitr
          swap; · iexact HS1
          ipureintro; exact own_A_1 V c t ((hcond0_0 t).mpr h0) (fun h => h1 ((hcond0_1 t).mp h)) _
        isplitl [HS2]
        · unfold owns; iexists _; isplitr
          swap; · iexact HS2
          ipureintro; exact own_A_2 V c t ((hcond0_0 t).mpr h0) (fun h => h1 ((hcond0_1 t).mp h)) _
        isplitl [HS3]
        · unfold owns; iexists _; isplitr
          swap; · iexact HS3
          ipureintro; exact own_A_3 V c t ((hcond0_0 t).mpr h0) (fun h => h1 ((hcond0_1 t).mp h)) _
        isplitl [HS4]
        · unfold owns; iexists _; isplitr
          swap; · iexact HS4
          ipureintro; exact own_A_4 V c t ((hcond0_0 t).mpr h0) (fun h => h1 ((hcond0_1 t).mp h)) _
        isplitl [HS5]
        · unfold owns; iexists _; isplitr
          swap; · iexact HS5
          ipureintro; exact own_A_5 V c t ((hcond0_0 t).mpr h0) (fun h => h1 ((hcond0_1 t).mp h)) _
        isplitl [HS6]
        · unfold owns; iexists _; isplitr
          swap; · iexact HS6
          ipureintro; exact own_A_6 V c t ((hcond0_0 t).mpr h0) (fun h => h1 ((hcond0_1 t).mp h)) _
        isplitl [HS7]
        · unfold owns; iexists _; isplitr
          swap; · iexact HS7
          ipureintro; exact own_A_7 V c t ((hcond0_0 t).mpr h0) (fun h => h1 ((hcond0_1 t).mp h)) _
        isplitl [HS8]
        · unfold owns; iexists _; isplitr
          swap; · iexact HS8
          ipureintro; exact own_A_8 V c t ((hcond0_0 t).mpr h0) (fun h => h1 ((hcond0_1 t).mp h)) _
        isplitl [HS9]
        · unfold owns; iexists _; isplitr
          swap; · iexact HS9
          ipureintro; exact own_A_9 V c t ((hcond0_0 t).mpr h0) (fun h => h1 ((hcond0_1 t).mp h)) _
        isplitl [HS10]
        · unfold owns; iexists _; isplitr
          swap; · iexact HS10
          ipureintro; exact own_A_10 V c t ((hcond0_0 t).mpr h0) (fun h => h1 ((hcond0_1 t).mp h)) _
        isplitl [HS11]
        · unfold owns; iexists _; isplitr
          swap; · iexact HS11
          ipureintro; exact own_A_11 V c t ((hcond0_0 t).mpr h0) (fun h => h1 ((hcond0_1 t).mp h)) _
        isplitl [HS12]
        · unfold owns; iexists _; isplitr
          swap; · iexact HS12
          ipureintro; exact own_A_12 V c t ((hcond0_0 t).mpr h0) (fun h => h1 ((hcond0_1 t).mp h)) _
        isplitl [HS13]
        · unfold owns; iexists _; isplitr
          swap; · iexact HS13
          ipureintro; exact own_A_13 V c t ((hcond0_0 t).mpr h0) (fun h => h1 ((hcond0_1 t).mp h)) _
        isplitl [HS14]
        · unfold owns; iexists _; isplitr
          swap; · iexact HS14
          ipureintro; exact own_A_14 V c t ((hcond0_0 t).mpr h0) (fun h => h1 ((hcond0_1 t).mp h)) _
        unfold owns; iexists _; isplitr
        swap; · iexact HS15
        ipureintro; exact own_A_15 V c t ((hcond0_0 t).mpr h0) (fun h => h1 ((hcond0_1 t).mp h)) _
      iexact Hrest
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

end Body

end Cert.KernelIdeal.Hand

end
-- ==== Proof.ReduceOwnB.lean ====
/-
  Case B of the reduction kernel at a grid point: whatever a running-sum buffer held before, once the run's pieces are
  written over it the buffer reads as the point's contents (the pieces cover the buffer).
-/
import proofs.«117659_j43542378447212_2_alg».proof.Proof.ReduceRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

theorem own_B_0 (c : Dev nD) (t : Fin cfg0.N) (hc0 : ¬cond0_0 (grid0.coords t)) (hc1 : ¬cond0_1 (grid0.coords t)) (p : Pt F) :
    ∀ es, scM0_0.view.read (Elt F) (scM0_0.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
      = (ptB V c t hc0 hc1 p).s0 :=
  fun es => (View.read_writes_of_cover scM0_0.view es VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_1 (c : Dev nD) (t : Fin cfg0.N) (hc0 : ¬cond0_0 (grid0.coords t)) (hc1 : ¬cond0_1 (grid0.coords t)) (p : Pt F) :
    ∀ es, scM0_1.view.read (Elt F) (scM0_1.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
      = (ptB V c t hc0 hc1 p).s1 :=
  fun es => (View.read_writes_of_cover scM0_1.view es VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_2 (c : Dev nD) (t : Fin cfg0.N) (hc0 : ¬cond0_0 (grid0.coords t)) (hc1 : ¬cond0_1 (grid0.coords t)) (p : Pt F) :
    ∀ es, scM0_2.view.read (Elt F) (scM0_2.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
      = (ptB V c t hc0 hc1 p).s2 :=
  fun es => (View.read_writes_of_cover scM0_2.view es VS0_2 VS0_2.junk _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_3 (c : Dev nD) (t : Fin cfg0.N) (hc0 : ¬cond0_0 (grid0.coords t)) (hc1 : ¬cond0_1 (grid0.coords t)) (p : Pt F) :
    ∀ es, scM0_3.view.read (Elt F) (scM0_3.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
      = (ptB V c t hc0 hc1 p).s3 :=
  fun es => (View.read_writes_of_cover scM0_3.view es VS0_3 VS0_3.junk _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_4 (c : Dev nD) (t : Fin cfg0.N) (hc0 : ¬cond0_0 (grid0.coords t)) (hc1 : ¬cond0_1 (grid0.coords t)) (p : Pt F) :
    ∀ es, scM0_4.view.read (Elt F) (scM0_4.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
      = (ptB V c t hc0 hc1 p).s4 :=
  fun es => (View.read_writes_of_cover scM0_4.view es VS0_4 VS0_4.junk _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_5 (c : Dev nD) (t : Fin cfg0.N) (hc0 : ¬cond0_0 (grid0.coords t)) (hc1 : ¬cond0_1 (grid0.coords t)) (p : Pt F) :
    ∀ es, scM0_5.view.read (Elt F) (scM0_5.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
      = (ptB V c t hc0 hc1 p).s5 :=
  fun es => (View.read_writes_of_cover scM0_5.view es VS0_5 VS0_5.junk _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_6 (c : Dev nD) (t : Fin cfg0.N) (hc0 : ¬cond0_0 (grid0.coords t)) (hc1 : ¬cond0_1 (grid0.coords t)) (p : Pt F) :
    ∀ es, scM0_6.view.read (Elt F) (scM0_6.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
      = (ptB V c t hc0 hc1 p).s6 :=
  fun es => (View.read_writes_of_cover scM0_6.view es VS0_6 VS0_6.junk _ (scover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_7 (c : Dev nD) (t : Fin cfg0.N) (hc0 : ¬cond0_0 (grid0.coords t)) (hc1 : ¬cond0_1 (grid0.coords t)) (p : Pt F) :
    ∀ es, scM0_7.view.read (Elt F) (scM0_7.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
      = (ptB V c t hc0 hc1 p).s7 :=
  fun es => (View.read_writes_of_cover scM0_7.view es VS0_7 VS0_7.junk _ (scover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_8 (c : Dev nD) (t : Fin cfg0.N) (hc0 : ¬cond0_0 (grid0.coords t)) (hc1 : ¬cond0_1 (grid0.coords t)) (p : Pt F) :
    ∀ es, scM0_8.view.read (Elt F) (scM0_8.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
      = (ptB V c t hc0 hc1 p).s8 :=
  fun es => (View.read_writes_of_cover scM0_8.view es VS0_8 VS0_8.junk _ (scover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_9 (c : Dev nD) (t : Fin cfg0.N) (hc0 : ¬cond0_0 (grid0.coords t)) (hc1 : ¬cond0_1 (grid0.coords t)) (p : Pt F) :
    ∀ es, scM0_9.view.read (Elt F) (scM0_9.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
      = (ptB V c t hc0 hc1 p).s9 :=
  fun es => (View.read_writes_of_cover scM0_9.view es VS0_9 VS0_9.junk _ (scover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_10 (c : Dev nD) (t : Fin cfg0.N) (hc0 : ¬cond0_0 (grid0.coords t)) (hc1 : ¬cond0_1 (grid0.coords t)) (p : Pt F) :
    ∀ es, scM0_10.view.read (Elt F) (scM0_10.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
      = (ptB V c t hc0 hc1 p).s10 :=
  fun es => (View.read_writes_of_cover scM0_10.view es VS0_10 VS0_10.junk _ (scover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_11 (c : Dev nD) (t : Fin cfg0.N) (hc0 : ¬cond0_0 (grid0.coords t)) (hc1 : ¬cond0_1 (grid0.coords t)) (p : Pt F) :
    ∀ es, scM0_11.view.read (Elt F) (scM0_11.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
      = (ptB V c t hc0 hc1 p).s11 :=
  fun es => (View.read_writes_of_cover scM0_11.view es VS0_11 VS0_11.junk _ (scover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_12 (c : Dev nD) (t : Fin cfg0.N) (hc0 : ¬cond0_0 (grid0.coords t)) (hc1 : ¬cond0_1 (grid0.coords t)) (p : Pt F) :
    ∀ es, scM0_12.view.read (Elt F) (scM0_12.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
      = (ptB V c t hc0 hc1 p).s12 :=
  fun es => (View.read_writes_of_cover scM0_12.view es VS0_12 VS0_12.junk _ (scover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_13 (c : Dev nD) (t : Fin cfg0.N) (hc0 : ¬cond0_0 (grid0.coords t)) (hc1 : ¬cond0_1 (grid0.coords t)) (p : Pt F) :
    ∀ es, scM0_13.view.read (Elt F) (scM0_13.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
      = (ptB V c t hc0 hc1 p).s13 :=
  fun es => (View.read_writes_of_cover scM0_13.view es VS0_13 VS0_13.junk _ (scover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_14 (c : Dev nD) (t : Fin cfg0.N) (hc0 : ¬cond0_0 (grid0.coords t)) (hc1 : ¬cond0_1 (grid0.coords t)) (p : Pt F) :
    ∀ es, scM0_14.view.read (Elt F) (scM0_14.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
      = (ptB V c t hc0 hc1 p).s14 :=
  fun es => (View.read_writes_of_cover scM0_14.view es VS0_14 VS0_14.junk _ (scover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

theorem own_B_15 (c : Dev nD) (t : Fin cfg0.N) (hc0 : ¬cond0_0 (grid0.coords t)) (hc1 : ¬cond0_1 (grid0.coords t)) (p : Pt F) :
    ∀ es, scM0_15.view.read (Elt F) (scM0_15.view.writes (Elt F) es (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)
      = (ptB V c t hc0 hc1 p).s15 :=
  fun es => (View.read_writes_of_cover scM0_15.view es VS0_15 VS0_15.junk _ (scover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

end Own

end Cert.KernelIdeal.Hand

end
-- ==== Proof.ReduceBodyB.lean ====
/-
  The reduction kernel's body obligation at a grid point of case B: the invariant hands the body the sixteen running sums
  at what the point before left, the pipeline the eleven windows' staging buffers; the run leaves the running sums at this
  point's contents (every index of each is covered by a store), the inputs as they were, the idle outputs untouched.
-/
import proofs.«117659_j43542378447212_2_alg».proof.Proof.ReduceOwnB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_B (c : Dev nD) (t : Fin cfg0.N) (h0 : ¬t.val = 0) (h1 : ¬t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Dat.leavesExact_idle (dat0 V c) 3 t (idleAt0_3 t (fun h => h1 ((hcond0_1 t).mp h))) (noFlush0_3 t (fun h => h1 ((hcond0_1 t).mp h)))]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [Dat.leavesExact_idle (dat0 V c) 6 t (idleAt0_6 t (fun h => h1 ((hcond0_1 t).mp h))) (noFlush0_6 t (fun h => h1 ((hcond0_1 t).mp h)))]
  rw [Dat.leavesExact_idle (dat0 V c) 7 t (idleAt0_7 t (fun h => h1 ((hcond0_1 t).mp h))) (noFlush0_7 t (fun h => h1 ((hcond0_1 t).mp h)))]
  rw [Dat.leavesExact_idle (dat0 V c) 8 t (idleAt0_8 t (fun h => h1 ((hcond0_1 t).mp h))) (noFlush0_8 t (fun h => h1 ((hcond0_1 t).mp h)))]
  rw [Dat.leavesExact_idle (dat0 V c) 9 t (idleAt0_9 t (fun h => h1 ((hcond0_1 t).mp h))) (noFlush0_9 t (fun h => h1 ((hcond0_1 t).mp h)))]
  rw [Dat.leavesExact_idle (dat0 V c) 10 t (idleAt0_10 t (fun h => h1 ((hcond0_1 t).mp h))) (noFlush0_10 t (fun h => h1 ((hcond0_1 t).mp h)))]
  rw [PhiS_castSucc V c t, PhiS_pos V c _ _ h0]
  rw [outsAt0_B V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 (outsAt0 V c (t.val - 1) (Nat.lt_of_le_of_lt (Nat.sub_le _ _) t.isLt)).s4 (outsAt0 V c (t.val - 1) (Nat.lt_of_le_of_lt (Nat.sub_le _ _) t.isLt)).s5 (outsAt0 V c (t.val - 1) (Nat.lt_of_le_of_lt (Nat.sub_le _ _) t.isLt)).s6 (outsAt0 V c (t.val - 1) (Nat.lt_of_le_of_lt (Nat.sub_le _ _) t.isLt)).s7 (outsAt0 V c (t.val - 1) (Nat.lt_of_le_of_lt (Nat.sub_le _ _) t.isLt)).s8 (outsAt0 V c (t.val - 1) (Nat.lt_of_le_of_lt (Nat.sub_le _ _) t.isLt)).s9 (outsAt0 V c (t.val - 1) (Nat.lt_of_le_of_lt (Nat.sub_le _ _) t.isLt)).s10 (outsAt0 V c (t.val - 1) (Nat.lt_of_le_of_lt (Nat.sub_le _ _) t.isLt)).s11 (outsAt0 V c (t.val - 1) (Nat.lt_of_le_of_lt (Nat.sub_le _ _) t.isLt)).s12 (outsAt0 V c (t.val - 1) (Nat.lt_of_le_of_lt (Nat.sub_le _ _) t.isLt)).s13 (outsAt0 V c (t.val - 1) (Nat.lt_of_le_of_lt (Nat.sub_le _ _) t.isLt)).s14 (outsAt0 V c (t.val - 1) (Nat.lt_of_le_of_lt (Nat.sub_le _ _) t.isLt)).s15).2.2.2.2.2.2.2.2.2.2.2.2.2.2.2.2.2.2.2.2.2.2.2.2 _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_B_0 V c t (fun h => h0 ((hcond0_0 t).mp h)) (fun h => h1 ((hcond0_1 t).mp h)) (outsAt0 V c (t.val - 1) (Nat.lt_of_le_of_lt (Nat.sub_le _ _) t.isLt)) _
        isplitl [HS1]
        · unfold owns; iexists _; isplitr
          swap; · iexact HS1
          ipureintro; exact own_B_1 V c t (fun h => h0 ((hcond0_0 t).mp h)) (fun h => h1 ((hcond0_1 t).mp h)) (outsAt0 V c (t.val - 1) (Nat.lt_of_le_of_lt (Nat.sub_le _ _) t.isLt)) _
        isplitl [HS2]
        · unfold owns; iexists _; isplitr
          swap; · iexact HS2
          ipureintro; exact own_B_2 V c t (fun h => h0 ((hcond0_0 t).mp h)) (fun h => h1 ((hcond0_1 t).mp h)) (outsAt0 V c (t.val - 1) (Nat.lt_of_le_of_lt (Nat.sub_le _ _) t.isLt)) _
        isplitl [HS3]
        · unfold owns; iexists _; isplitr
          swap; · iexact HS3
          ipureintro; exact own_B_3 V c t (fun h => h0 ((hcond0_0 t).mp h)) (fun h => h1 ((hcond0_1 t).mp h)) (outsAt0 V c (t.val - 1) (Nat.lt_of_le_of_lt (Nat.sub_le _ _) t.isLt)) _
        isplitl [HS4]
        · unfold owns; iexists _; isplitr
          swap; · iexact HS4
          ipureintro; exact own_B_4 V c t (fun h => h0 ((hcond0_0 t).mp h)) (fun h => h1 ((hcond0_1 t).mp h)) (outsAt0 V c (t.val - 1) (Nat.lt_of_le_of_lt (Nat.sub_le _ _) t.isLt)) _
        isplitl [HS5]
        · unfold owns; iexists _; isplitr
          swap; · iexact HS5
          ipureintro; exact own_B_5 V c t (fun h => h0 ((hcond0_0 t).mp h)) (fun h => h1 ((hcond0_1 t).mp h)) (outsAt0 V c (t.val - 1) (Nat.lt_of_le_of_lt (Nat.sub_le _ _) t.isLt)) _
        isplitl [HS6]
        · unfold owns; iexists _; isplitr
          swap; · iexact HS6
          ipureintro; exact own_B_6 V c t (fun h => h0 ((hcond0_0 t).mp h)) (fun h => h1 ((hcond0_1 t).mp h)) (outsAt0 V c (t.val - 1) (Nat.lt_of_le_of_lt (Nat.sub_le _ _) t.isLt)) _
        isplitl [HS7]
        · unfold owns; iexists _; isplitr
          swap; · iexact HS7
          ipureintro; exact own_B_7 V c t (fun h => h0 ((hcond0_0 t).mp h)) (fun h => h1 ((hcond0_1 t).mp h)) (outsAt0 V c (t.val - 1) (Nat.lt_of_le_of_lt (Nat.sub_le _ _) t.isLt)) _
        isplitl [HS8]
        · unfold owns; iexists _; isplitr
          swap; · iexact HS8
          ipureintro; exact own_B_8 V c t (fun h => h0 ((hcond0_0 t).mp h)) (fun h => h1 ((hcond0_1 t).mp h)) (outsAt0 V c (t.val - 1) (Nat.lt_of_le_of_lt (Nat.sub_le _ _) t.isLt)) _
        isplitl [HS9]
        · unfold owns; iexists _; isplitr
          swap; · iexact HS9
          ipureintro; exact own_B_9 V c t (fun h => h0 ((hcond0_0 t).mp h)) (fun h => h1 ((hcond0_1 t).mp h)) (outsAt0 V c (t.val - 1) (Nat.lt_of_le_of_lt (Nat.sub_le _ _) t.isLt)) _
        isplitl [HS10]
        · unfold owns; iexists _; isplitr
          swap; · iexact HS10
          ipureintro; exact own_B_10 V c t (fun h => h0 ((hcond0_0 t).mp h)) (fun h => h1 ((hcond0_1 t).mp h)) (outsAt0 V c (t.val - 1) (Nat.lt_of_le_of_lt (Nat.sub_le _ _) t.isLt)) _
        isplitl [HS11]
        · unfold owns; iexists _; isplitr
          swap; · iexact HS11
          ipureintro; exact own_B_11 V c t (fun h => h0 ((hcond0_0 t).mp h)) (fun h => h1 ((hcond0_1 t).mp h)) (outsAt0 V c (t.val - 1) (Nat.lt_of_le_of_lt (Nat.sub_le _ _) t.isLt)) _
        isplitl [HS12]
        · unfold owns; iexists _; isplitr
          swap; · iexact HS12
          ipureintro; exact own_B_12 V c t (fun h => h0 ((hcond0_0 t).mp h)) (fun h => h1 ((hcond0_1 t).mp h)) (outsAt0 V c (t.val - 1) (Nat.lt_of_le_of_lt (Nat.sub_le _ _) t.isLt)) _
        isplitl [HS13]
        · unfold owns; iexists _; isplitr
          swap; · iexact HS13
          ipureintro; exact own_B_13 V c t (fun h => h0 ((hcond0_0 t).mp h)) (fun h => h1 ((hcond0_1 t).mp h)) (outsAt0 V c (t.val - 1) (Nat.lt_of_le_of_lt (Nat.sub_le _ _) t.isLt)) _
        isplitl [HS14]
        · unfold owns; iexists _; isplitr
          swap; · iexact HS14
          ipureintro; exact own_B_14 V c t (fun h => h0 ((hcond0_0 t).mp h)) (fun h => h1 ((hcond0_1 t).mp h)) (outsAt0 V c (t.val - 1) (Nat.lt_of_le_of_lt (Nat.sub_le _ _) t.isLt)) _
        unfold owns; iexists _; isplitr
        swap; · iexact HS15
        ipureintro; exact own_B_15 V c t (fun h => h0 ((hcond0_0 t).mp h)) (fun h => h1 ((hcond0_1 t).mp h)) (outsAt0 V c (t.val - 1) (Nat.lt_of_le_of_lt (Nat.sub_le _ _) t.isLt)) _
      iexact Hrest
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

end Body

end Cert.KernelIdeal.Hand

end
-- ==== Proof.ReduceOwnC.lean ====
/-
  Case C of the reduction kernel at a grid point: whatever a running-sum buffer held before, once the run's pieces are
  written over it the buffer reads as the point's contents (the pieces cover the buffer); the same for the eight outputs.
-/
import proofs.«117659_j43542378447212_2_alg».proof.Proof.ReduceRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Own

variable (V : (c : Dev nD) → (b : Ref sig .tc) → Buf (Elt F) ((c : Thread nD τ).loc b))

set_option maxHeartbeats 4000000 in
theorem own_C_0 (c : Dev nD) (t : Fin cfg0.N) (hc0 : ¬cond0_0 (grid0.coords t)) (hc1 : cond0_1 (grid0.coords t)) (p : Pt F) :
    ∀ es, scM0_0.view.read (Elt F) (scM0_0.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.1)
      = (ptC V c t hc0 hc1 p).s0 :=
  fun es => (View.read_writes_of_cover scM0_0.view es VS0_0 VS0_0.junk _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_1 (c : Dev nD) (t : Fin cfg0.N) (hc0 : ¬cond0_0 (grid0.coords t)) (hc1 : cond0_1 (grid0.coords t)) (p : Pt F) :
    ∀ es, scM0_1.view.read (Elt F) (scM0_1.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.1)
      = (ptC V c t hc0 hc1 p).s1 :=
  fun es => (View.read_writes_of_cover scM0_1.view es VS0_1 VS0_1.junk _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_2 (c : Dev nD) (t : Fin cfg0.N) (hc0 : ¬cond0_0 (grid0.coords t)) (hc1 : cond0_1 (grid0.coords t)) (p : Pt F) :
    ∀ es, scM0_2.view.read (Elt F) (scM0_2.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.1)
      = (ptC V c t hc0 hc1 p).s2 :=
  fun es => (View.read_writes_of_cover scM0_2.view es VS0_2 VS0_2.junk _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_3 (c : Dev nD) (t : Fin cfg0.N) (hc0 : ¬cond0_0 (grid0.coords t)) (hc1 : cond0_1 (grid0.coords t)) (p : Pt F) :
    ∀ es, scM0_3.view.read (Elt F) (scM0_3.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.1)
      = (ptC V c t hc0 hc1 p).s3 :=
  fun es => (View.read_writes_of_cover scM0_3.view es VS0_3 VS0_3.junk _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_4 (c : Dev nD) (t : Fin cfg0.N) (hc0 : ¬cond0_0 (grid0.coords t)) (hc1 : cond0_1 (grid0.coords t)) (p : Pt F) :
    ∀ es, scM0_4.view.read (Elt F) (scM0_4.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.1)
      = (ptC V c t hc0 hc1 p).s4 :=
  fun es => (View.read_writes_of_cover scM0_4.view es VS0_4 VS0_4.junk _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_5 (c : Dev nD) (t : Fin cfg0.N) (hc0 : ¬cond0_0 (grid0.coords t)) (hc1 : cond0_1 (grid0.coords t)) (p : Pt F) :
    ∀ es, scM0_5.view.read (Elt F) (scM0_5.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.1)
      = (ptC V c t hc0 hc1 p).s5 :=
  fun es => (View.read_writes_of_cover scM0_5.view es VS0_5 VS0_5.junk _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_6 (c : Dev nD) (t : Fin cfg0.N) (hc0 : ¬cond0_0 (grid0.coords t)) (hc1 : cond0_1 (grid0.coords t)) (p : Pt F) :
    ∀ es, scM0_6.view.read (Elt F) (scM0_6.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.1)
      = (ptC V c t hc0 hc1 p).s6 :=
  fun es => (View.read_writes_of_cover scM0_6.view es VS0_6 VS0_6.junk _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_7 (c : Dev nD) (t : Fin cfg0.N) (hc0 : ¬cond0_0 (grid0.coords t)) (hc1 : cond0_1 (grid0.coords t)) (p : Pt F) :
    ∀ es, scM0_7.view.read (Elt F) (scM0_7.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.1)
      = (ptC V c t hc0 hc1 p).s7 :=
  fun es => (View.read_writes_of_cover scM0_7.view es VS0_7 VS0_7.junk _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_8 (c : Dev nD) (t : Fin cfg0.N) (hc0 : ¬cond0_0 (grid0.coords t)) (hc1 : cond0_1 (grid0.coords t)) (p : Pt F) :
    ∀ es, scM0_8.view.read (Elt F) (scM0_8.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.1)
      = (ptC V c t hc0 hc1 p).s8 :=
  fun es => (View.read_writes_of_cover scM0_8.view es VS0_8 VS0_8.junk _ (scover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_9 (c : Dev nD) (t : Fin cfg0.N) (hc0 : ¬cond0_0 (grid0.coords t)) (hc1 : cond0_1 (grid0.coords t)) (p : Pt F) :
    ∀ es, scM0_9.view.read (Elt F) (scM0_9.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.1)
      = (ptC V c t hc0 hc1 p).s9 :=
  fun es => (View.read_writes_of_cover scM0_9.view es VS0_9 VS0_9.junk _ (scover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_10 (c : Dev nD) (t : Fin cfg0.N) (hc0 : ¬cond0_0 (grid0.coords t)) (hc1 : cond0_1 (grid0.coords t)) (p : Pt F) :
    ∀ es, scM0_10.view.read (Elt F) (scM0_10.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.1)
      = (ptC V c t hc0 hc1 p).s10 :=
  fun es => (View.read_writes_of_cover scM0_10.view es VS0_10 VS0_10.junk _ (scover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_11 (c : Dev nD) (t : Fin cfg0.N) (hc0 : ¬cond0_0 (grid0.coords t)) (hc1 : cond0_1 (grid0.coords t)) (p : Pt F) :
    ∀ es, scM0_11.view.read (Elt F) (scM0_11.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.1)
      = (ptC V c t hc0 hc1 p).s11 :=
  fun es => (View.read_writes_of_cover scM0_11.view es VS0_11 VS0_11.junk _ (scover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_12 (c : Dev nD) (t : Fin cfg0.N) (hc0 : ¬cond0_0 (grid0.coords t)) (hc1 : cond0_1 (grid0.coords t)) (p : Pt F) :
    ∀ es, scM0_12.view.read (Elt F) (scM0_12.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.1)
      = (ptC V c t hc0 hc1 p).s12 :=
  fun es => (View.read_writes_of_cover scM0_12.view es VS0_12 VS0_12.junk _ (scover0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_13 (c : Dev nD) (t : Fin cfg0.N) (hc0 : ¬cond0_0 (grid0.coords t)) (hc1 : cond0_1 (grid0.coords t)) (p : Pt F) :
    ∀ es, scM0_13.view.read (Elt F) (scM0_13.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.1)
      = (ptC V c t hc0 hc1 p).s13 :=
  fun es => (View.read_writes_of_cover scM0_13.view es VS0_13 VS0_13.junk _ (scover0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_14 (c : Dev nD) (t : Fin cfg0.N) (hc0 : ¬cond0_0 (grid0.coords t)) (hc1 : cond0_1 (grid0.coords t)) (p : Pt F) :
    ∀ es, scM0_14.view.read (Elt F) (scM0_14.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.1)
      = (ptC V c t hc0 hc1 p).s14 :=
  fun es => (View.read_writes_of_cover scM0_14.view es VS0_14 VS0_14.junk _ (scover0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem own_C_15 (c : Dev nD) (t : Fin cfg0.N) (hc0 : ¬cond0_0 (grid0.coords t)) (hc1 : cond0_1 (grid0.coords t)) (p : Pt F) :
    ∀ es, scM0_15.view.read (Elt F) (scM0_15.view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.2.2.2.2.2.2.2.2.2.2.2.2.2.2.2.2.1)
      = (ptC V c t hc0 hc1 p).s15 :=
  fun es => (View.read_writes_of_cover scM0_15.view es VS0_15 VS0_15.junk _ (scover0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_3 (c : Dev nD) (t : Fin cfg0.N) (hc0 : ¬cond0_0 (grid0.coords t)) (hc1 : cond0_1 (grid0.coords t)) (p : Pt F) :
    ∀ es, (ms0_3 t).view.read (Elt F) ((ms0_3 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).1)
      = (ptC V c t hc0 hc1 p).o3 :=
  fun es => (View.read_writes_of_cover (ms0_3 t).view es VO0_3 VO0_3.junk _ (cover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_4 (c : Dev nD) (t : Fin cfg0.N) (hc0 : ¬cond0_0 (grid0.coords t)) (hc1 : cond0_1 (grid0.coords t)) (p : Pt F) :
    ∀ es, (ms0_4 t).view.read (Elt F) ((ms0_4 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.1)
      = (ptC V c t hc0 hc1 p).o4 :=
  fun es => (View.read_writes_of_cover (ms0_4 t).view es VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_5 (c : Dev nD) (t : Fin cfg0.N) (hc0 : ¬cond0_0 (grid0.coords t)) (hc1 : cond0_1 (grid0.coords t)) (p : Pt F) :
    ∀ es, (ms0_5 t).view.read (Elt F) ((ms0_5 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.1)
      = (ptC V c t hc0 hc1 p).o5 :=
  fun es => (View.read_writes_of_cover (ms0_5 t).view es VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_6 (c : Dev nD) (t : Fin cfg0.N) (hc0 : ¬cond0_0 (grid0.coords t)) (hc1 : cond0_1 (grid0.coords t)) (p : Pt F) :
    ∀ es, (ms0_6 t).view.read (Elt F) ((ms0_6 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.1)
      = (ptC V c t hc0 hc1 p).o6 :=
  fun es => (View.read_writes_of_cover (ms0_6 t).view es VO0_6 VO0_6.junk _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_7 (c : Dev nD) (t : Fin cfg0.N) (hc0 : ¬cond0_0 (grid0.coords t)) (hc1 : cond0_1 (grid0.coords t)) (p : Pt F) :
    ∀ es, (ms0_7 t).view.read (Elt F) ((ms0_7 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.1)
      = (ptC V c t hc0 hc1 p).o7 :=
  fun es => (View.read_writes_of_cover (ms0_7 t).view es VO0_7 VO0_7.junk _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_8 (c : Dev nD) (t : Fin cfg0.N) (hc0 : ¬cond0_0 (grid0.coords t)) (hc1 : cond0_1 (grid0.coords t)) (p : Pt F) :
    ∀ es, (ms0_8 t).view.read (Elt F) ((ms0_8 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.1)
      = (ptC V c t hc0 hc1 p).o8 :=
  fun es => (View.read_writes_of_cover (ms0_8 t).view es VO0_8 VO0_8.junk _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_9 (c : Dev nD) (t : Fin cfg0.N) (hc0 : ¬cond0_0 (grid0.coords t)) (hc1 : cond0_1 (grid0.coords t)) (p : Pt F) :
    ∀ es, (ms0_9 t).view.read (Elt F) ((ms0_9 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.1)
      = (ptC V c t hc0 hc1 p).o9 :=
  fun es => (View.read_writes_of_cover (ms0_9 t).view es VO0_9 VO0_9.junk _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

set_option maxHeartbeats 4000000 in
theorem oown_C_10 (c : Dev nD) (t : Fin cfg0.N) (hc0 : ¬cond0_0 (grid0.coords t)) (hc1 : cond0_1 (grid0.coords t)) (p : Pt F) :
    ∀ es, (ms0_10 t).view.read (Elt F) ((ms0_10 t).view.writes (Elt F) es (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15).2.2.2.2.2.2.2.1)
      = (ptC V c t hc0 hc1 p).o10 :=
  fun es => (View.read_writes_of_cover (ms0_10 t).view es VO0_10 VO0_10.junk _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15)).trans rfl

end Own

end Cert.KernelIdeal.Hand

end
-- ==== Proof.ReduceBodyC.lean ====
/-
  The reduction kernel's body obligation at a grid point of case C: the invariant hands the body the sixteen running sums
  at what the point before left, the pipeline the eleven windows' staging buffers; the run leaves the running sums at this
  point's contents (every index of each is covered by a store), the inputs as they were and the eight outputs written.
-/
import proofs.«117659_j43542378447212_2_alg».proof.Proof.ReduceOwnC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 16000000 in
theorem sound_body0_C (c : Dev nD) (t : Fin cfg0.N) (h0 : ¬t.val = 0) (h1 : t.val = 15) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d))
      ∗ (∃ d, owns (c : Thread nD τ) (ms0_7 t) fullShare ((dat0 V c).before 7 t d))
      ∗ (∃ d, owns (c : Thread nD τ) (ms0_8 t) fullShare ((dat0 V c).before 8 t d))
      ∗ (∃ d, owns (c : Thread nD τ) (ms0_9 t) fullShare ((dat0 V c).before 9 t d))
      ∗ (∃ d, owns (c : Thread nD τ) (ms0_10 t) fullShare ((dat0 V c).before 10 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t)) := by
  unfold bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t ((hcond0_1 t).mpr h1)], after0_3]
  rw [show (dat0 V c).leavesExact 4 t = owns (c : Thread nD τ) (ms0_4 t) fullShare ((dat0 V c).after 4 t) from by
    unfold Dat.leavesExact; rw [liveAt0_4 t ((hcond0_1 t).mpr h1)], after0_4]
  rw [show (dat0 V c).leavesExact 5 t = owns (c : Thread nD τ) (ms0_5 t) fullShare ((dat0 V c).after 5 t) from by
    unfold Dat.leavesExact; rw [liveAt0_5 t ((hcond0_1 t).mpr h1)], after0_5]
  rw [show (dat0 V c).leavesExact 6 t = owns (c : Thread nD τ) (ms0_6 t) fullShare ((dat0 V c).after 6 t) from by
    unfold Dat.leavesExact; rw [liveAt0_6 t ((hcond0_1 t).mpr h1)], after0_6]
  rw [show (dat0 V c).leavesExact 7 t = owns (c : Thread nD τ) (ms0_7 t) fullShare ((dat0 V c).after 7 t) from by
    unfold Dat.leavesExact; rw [liveAt0_7 t ((hcond0_1 t).mpr h1)], after0_7]
  rw [show (dat0 V c).leavesExact 8 t = owns (c : Thread nD τ) (ms0_8 t) fullShare ((dat0 V c).after 8 t) from by
    unfold Dat.leavesExact; rw [liveAt0_8 t ((hcond0_1 t).mpr h1)], after0_8]
  rw [show (dat0 V c).leavesExact 9 t = owns (c : Thread nD τ) (ms0_9 t) fullShare ((dat0 V c).after 9 t) from by
    unfold Dat.leavesExact; rw [liveAt0_9 t ((hcond0_1 t).mpr h1)], after0_9]
  rw [show (dat0 V c).leavesExact 10 t = owns (c : Thread nD τ) (ms0_10 t) fullShare ((dat0 V c).after 10 t) from by
    unfold Dat.leavesExact; rw [liveAt0_10 t ((hcond0_1 t).mpr h1)], after0_10]
  rw [PhiS_castSucc V c t, PhiS_pos V c _ _ h0]
  rw [outsAt0_C V c t h0 h1]
  iintro ⟨⟨⟨⟨HS0, HS1, HS2, HS3, HS4, HS5, HS6, HS7, HS8, HS9, HS10, HS11, HS12, HS13, HS14, HS15⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 (outsAt0 V c (t.val - 1) (Nat.lt_of_le_of_lt (Nat.sub_le _ _) t.isLt)).s4 (outsAt0 V c (t.val - 1) (Nat.lt_of_le_of_lt (Nat.sub_le _ _) t.isLt)).s5 (outsAt0 V c (t.val - 1) (Nat.lt_of_le_of_lt (Nat.sub_le _ _) t.isLt)).s6 (outsAt0 V c (t.val - 1) (Nat.lt_of_le_of_lt (Nat.sub_le _ _) t.isLt)).s7 (outsAt0 V c (t.val - 1) (Nat.lt_of_le_of_lt (Nat.sub_le _ _) t.isLt)).s8 (outsAt0 V c (t.val - 1) (Nat.lt_of_le_of_lt (Nat.sub_le _ _) t.isLt)).s9 (outsAt0 V c (t.val - 1) (Nat.lt_of_le_of_lt (Nat.sub_le _ _) t.isLt)).s10 (outsAt0 V c (t.val - 1) (Nat.lt_of_le_of_lt (Nat.sub_le _ _) t.isLt)).s11 (outsAt0 V c (t.val - 1) (Nat.lt_of_le_of_lt (Nat.sub_le _ _) t.isLt)).s12 (outsAt0 V c (t.val - 1) (Nat.lt_of_le_of_lt (Nat.sub_le _ _) t.isLt)).s13 (outsAt0 V c (t.val - 1) (Nat.lt_of_le_of_lt (Nat.sub_le _ _) t.isLt)).s14 (outsAt0 V c (t.val - 1) (Nat.lt_of_le_of_lt (Nat.sub_le _ _) t.isLt)).s15).2.2.2.2.2.2.2.2.2.2.2.2.2.2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩⟩
  isplitl [HS0 HS1 HS2 HS3 HS4 HS5 HS6 HS7 HS8 HS9 HS10 HS11 HS12 HS13 HS14 HS15 Hrest Hg]
  · isplitl [HS0 HS1 HS2 HS3 HS4 HS5 HS6 HS7 HS8 HS9 HS10 HS11 HS12 HS13 HS14 HS15 Hrest]
    · isplitl [HS0 HS1 HS2 HS3 HS4 HS5 HS6 HS7 HS8 HS9 HS10 HS11 HS12 HS13 HS14 HS15]
      · isplitl [HS0]
        · unfold owns; iexists _; isplitr
          swap; · iexact HS0
          ipureintro; exact own_C_0 V c t (fun h => h0 ((hcond0_0 t).mp h)) ((hcond0_1 t).mpr h1) (outsAt0 V c (t.val - 1) (Nat.lt_of_le_of_lt (Nat.sub_le _ _) t.isLt)) _
        isplitl [HS1]
        · unfold owns; iexists _; isplitr
          swap; · iexact HS1
          ipureintro; exact own_C_1 V c t (fun h => h0 ((hcond0_0 t).mp h)) ((hcond0_1 t).mpr h1) (outsAt0 V c (t.val - 1) (Nat.lt_of_le_of_lt (Nat.sub_le _ _) t.isLt)) _
        isplitl [HS2]
        · unfold owns; iexists _; isplitr
          swap; · iexact HS2
          ipureintro; exact own_C_2 V c t (fun h => h0 ((hcond0_0 t).mp h)) ((hcond0_1 t).mpr h1) (outsAt0 V c (t.val - 1) (Nat.lt_of_le_of_lt (Nat.sub_le _ _) t.isLt)) _
        isplitl [HS3]
        · unfold owns; iexists _; isplitr
          swap; · iexact HS3
          ipureintro; exact own_C_3 V c t (fun h => h0 ((hcond0_0 t).mp h)) ((hcond0_1 t).mpr h1) (outsAt0 V c (t.val - 1) (Nat.lt_of_le_of_lt (Nat.sub_le _ _) t.isLt)) _
        isplitl [HS4]
        · unfold owns; iexists _; isplitr
          swap; · iexact HS4
          ipureintro; exact own_C_4 V c t (fun h => h0 ((hcond0_0 t).mp h)) ((hcond0_1 t).mpr h1) (outsAt0 V c (t.val - 1) (Nat.lt_of_le_of_lt (Nat.sub_le _ _) t.isLt)) _
        isplitl [HS5]
        · unfold owns; iexists _; isplitr
          swap; · iexact HS5
          ipureintro; exact own_C_5 V c t (fun h => h0 ((hcond0_0 t).mp h)) ((hcond0_1 t).mpr h1) (outsAt0 V c (t.val - 1) (Nat.lt_of_le_of_lt (Nat.sub_le _ _) t.isLt)) _
        isplitl [HS6]
        · unfold owns; iexists _; isplitr
          swap; · iexact HS6
          ipureintro; exact own_C_6 V c t (fun h => h0 ((hcond0_0 t).mp h)) ((hcond0_1 t).mpr h1) (outsAt0 V c (t.val - 1) (Nat.lt_of_le_of_lt (Nat.sub_le _ _) t.isLt)) _
        isplitl [HS7]
        · unfold owns; iexists _; isplitr
          swap; · iexact HS7
          ipureintro; exact own_C_7 V c t (fun h => h0 ((hcond0_0 t).mp h)) ((hcond0_1 t).mpr h1) (outsAt0 V c (t.val - 1) (Nat.lt_of_le_of_lt (Nat.sub_le _ _) t.isLt)) _
        isplitl [HS8]
        · unfold owns; iexists _; isplitr
          swap; · iexact HS8
          ipureintro; exact own_C_8 V c t (fun h => h0 ((hcond0_0 t).mp h)) ((hcond0_1 t).mpr h1) (outsAt0 V c (t.val - 1) (Nat.lt_of_le_of_lt (Nat.sub_le _ _) t.isLt)) _
        isplitl [HS9]
        · unfold owns; iexists _; isplitr
          swap; · iexact HS9
          ipureintro; exact own_C_9 V c t (fun h => h0 ((hcond0_0 t).mp h)) ((hcond0_1 t).mpr h1) (outsAt0 V c (t.val - 1) (Nat.lt_of_le_of_lt (Nat.sub_le _ _) t.isLt)) _
        isplitl [HS10]
        · unfold owns; iexists _; isplitr
          swap; · iexact HS10
          ipureintro; exact own_C_10 V c t (fun h => h0 ((hcond0_0 t).mp h)) ((hcond0_1 t).mpr h1) (outsAt0 V c (t.val - 1) (Nat.lt_of_le_of_lt (Nat.sub_le _ _) t.isLt)) _
        isplitl [HS11]
        · unfold owns; iexists _; isplitr
          swap; · iexact HS11
          ipureintro; exact own_C_11 V c t (fun h => h0 ((hcond0_0 t).mp h)) ((hcond0_1 t).mpr h1) (outsAt0 V c (t.val - 1) (Nat.lt_of_le_of_lt (Nat.sub_le _ _) t.isLt)) _
        isplitl [HS12]
        · unfold owns; iexists _; isplitr
          swap; · iexact HS12
          ipureintro; exact own_C_12 V c t (fun h => h0 ((hcond0_0 t).mp h)) ((hcond0_1 t).mpr h1) (outsAt0 V c (t.val - 1) (Nat.lt_of_le_of_lt (Nat.sub_le _ _) t.isLt)) _
        isplitl [HS13]
        · unfold owns; iexists _; isplitr
          swap; · iexact HS13
          ipureintro; exact own_C_13 V c t (fun h => h0 ((hcond0_0 t).mp h)) ((hcond0_1 t).mpr h1) (outsAt0 V c (t.val - 1) (Nat.lt_of_le_of_lt (Nat.sub_le _ _) t.isLt)) _
        isplitl [HS14]
        · unfold owns; iexists _; isplitr
          swap; · iexact HS14
          ipureintro; exact own_C_14 V c t (fun h => h0 ((hcond0_0 t).mp h)) ((hcond0_1 t).mpr h1) (outsAt0 V c (t.val - 1) (Nat.lt_of_le_of_lt (Nat.sub_le _ _) t.isLt)) _
        unfold owns; iexists _; isplitr
        swap; · iexact HS15
        ipureintro; exact own_C_15 V c t (fun h => h0 ((hcond0_0 t).mp h)) ((hcond0_1 t).mpr h1) (outsAt0 V c (t.val - 1) (Nat.lt_of_le_of_lt (Nat.sub_le _ _) t.isLt)) _
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact oown_C_3 V c t (fun h => h0 ((hcond0_0 t).mp h)) ((hcond0_1 t).mpr h1) (outsAt0 V c (t.val - 1) (Nat.lt_of_le_of_lt (Nat.sub_le _ _) t.isLt)) _
  isplitl [H4]
  · unfold owns; iexists _; isplitr
    swap; · iexact H4
    ipureintro; exact oown_C_4 V c t (fun h => h0 ((hcond0_0 t).mp h)) ((hcond0_1 t).mpr h1) (outsAt0 V c (t.val - 1) (Nat.lt_of_le_of_lt (Nat.sub_le _ _) t.isLt)) _
  isplitl [H5]
  · unfold owns; iexists _; isplitr
    swap; · iexact H5
    ipureintro; exact oown_C_5 V c t (fun h => h0 ((hcond0_0 t).mp h)) ((hcond0_1 t).mpr h1) (outsAt0 V c (t.val - 1) (Nat.lt_of_le_of_lt (Nat.sub_le _ _) t.isLt)) _
  isplitl [H6]
  · unfold owns; iexists _; isplitr
    swap; · iexact H6
    ipureintro; exact oown_C_6 V c t (fun h => h0 ((hcond0_0 t).mp h)) ((hcond0_1 t).mpr h1) (outsAt0 V c (t.val - 1) (Nat.lt_of_le_of_lt (Nat.sub_le _ _) t.isLt)) _
  isplitl [H7]
  · unfold owns; iexists _; isplitr
    swap; · iexact H7
    ipureintro; exact oown_C_7 V c t (fun h => h0 ((hcond0_0 t).mp h)) ((hcond0_1 t).mpr h1) (outsAt0 V c (t.val - 1) (Nat.lt_of_le_of_lt (Nat.sub_le _ _) t.isLt)) _
  isplitl [H8]
  · unfold owns; iexists _; isplitr
    swap; · iexact H8
    ipureintro; exact oown_C_8 V c t (fun h => h0 ((hcond0_0 t).mp h)) ((hcond0_1 t).mpr h1) (outsAt0 V c (t.val - 1) (Nat.lt_of_le_of_lt (Nat.sub_le _ _) t.isLt)) _
  isplitl [H9]
  · unfold owns; iexists _; isplitr
    swap; · iexact H9
    ipureintro; exact oown_C_9 V c t (fun h => h0 ((hcond0_0 t).mp h)) ((hcond0_1 t).mpr h1) (outsAt0 V c (t.val - 1) (Nat.lt_of_le_of_lt (Nat.sub_le _ _) t.isLt)) _
  unfold owns; iexists _; isplitr
  swap; · iexact H10
  ipureintro; exact oown_C_10 V c t (fun h => h0 ((hcond0_0 t).mp h)) ((hcond0_1 t).mpr h1) (outsAt0 V c (t.val - 1) (Nat.lt_of_le_of_lt (Nat.sub_le _ _) t.isLt)) _

end Body

end Cert.KernelIdeal.Hand

end
-- ==== Proof.ReduceBody.lean ====
/-
  The reduction region's body obligation at every grid point (the three cases joined), and the region invariant's two
  ends: what the launch hands the region is the invariant before the first point, and after the last point the invariant
  gives the scoped buffers back with the running sums' contents forgotten.
-/
import proofs.«117659_j43542378447212_2_alg».proof.Proof.ReduceBodyA
import proofs.«117659_j43542378447212_2_alg».proof.Proof.ReduceBodyB
import proofs.«117659_j43542378447212_2_alg».proof.Proof.ReduceBodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-- The library's body obligation, at every point: the first point, the last point, or one in between. -/
theorem body_obligation0 (c : Dev nD) : BodyObligation (dat0 (F := F) V c) (defs₀ (F := F)) Variants.none () Set.univ := fun t => by
  rw [bigSep_W0, bigSep_W0]
  by_cases h0 : t.val = 0
  · exact sound_body0_A V c t h0 (by omega)
  · by_cases h1 : t.val = 15
    · exact sound_body0_C V c t h0 h1
    · exact sound_body0_B V c t h0 h1

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨⟨HS0, HS1, HS2, HS3, HS4, HS5, HS6, HS7, HS8, HS9, HS10, HS11, HS12, HS13, HS14, HS15⟩, Hrest⟩, Hg⟩
  isplitl [HS0 HS1 HS2 HS3 HS4 HS5 HS6 HS7 HS8 HS9 HS10 HS11 HS12 HS13 HS14 HS15 Hrest]
  · isplitl [HS0 HS1 HS2 HS3 HS4 HS5 HS6 HS7 HS8 HS9 HS10 HS11 HS12 HS13 HS14 HS15]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      iexists _; iexact HS15
    iexact Hrest
  iexact Hg

end Body

end Cert.KernelIdeal.Hand

end
-- ==== Proof.BlendRegion.lean ====
/-
  The second kernel region (the blend kernel) of the program, at the TensorCore's buffer contents `V` when the region is
  entered: each window's block at a grid point, what the body's one whole-block store leaves in the output window's
  staging buffer as a function of the ten input blocks, the body's triple, the pipeline's proof data and the body
  obligation at every grid point. Generic in the float instance.
-/
import proofs.«117659_j43542378447212_2_alg».proof.Proof.Gen.KernelIdeal.Launch
import proofs.«117659_j43542378447212_2_alg».proof.Proof.Gen.KernelIdeal.Skeleton
import proofs.«117659_j43542378447212_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): an unfetched window's block index
    has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): an unfetched window's block index
    has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): an unfetched window's block index
    has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): an unfetched window's block index
    has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): an unfetched window's block index
    has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s (`hA`) and whose body leaves the block in place (`hafter`): an unfetched window's block index
    has not moved, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s (`hA`) and whose body leaves the block in place (`hafter`): an unfetched window's block index
    has not moved, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s (`hA`) and whose body leaves the block in place (`hafter`): an unfetched window's block index
    has not moved, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s (`hA`) and whose body leaves the block in place (`hafter`): an unfetched window's block index
    has not moved, the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof data
    whose array is `V`'s (`hA`) and whose body leaves the block in place (`hafter`): an unfetched window's block index
    has not moved, the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rA : Rect S4x128x16x256 := Rect.unit (s := S4x128x16x256) ![0, 0, 0, 0] S4x128x16x256.size inb_S4x128x16x256_S4x128x16x256_0_0_0_0
abbrev rM : Rect S4x1x16x256 := Rect.unit (s := S4x1x16x256) ![0, 0, 0, 0] S4x1x16x256.size inb_S4x1x16x256_S4x1x16x256_0_0_0_0
abbrev rS : Rect S4x128x1x1 := Rect.unit (s := S4x128x1x1) ![0, 0, 0, 0] S4x128x1x1.size inb_S4x128x1x1_S4x128x1x1_0_0_0_0

/-! ## What the body leaves in the output window's buffer -/

/-- Window 10's staging buffer after the body, from the input windows' blocks: its one store as a piece over the
    payload of the ten loads (the mask and its complement, the two normalised branches, the four modulation
    statistics in the order the body reads them). -/
def out1_10 (x0 : Vec F S4x128x16x256 .f32) (x1 : Vec F S4x1x16x256 .f32)
    (x2 x3 x4 x5 x6 x7 x8 x9 : Vec F S4x128x1x1 .f32) : Vec F S4x128x16x256 .f32 :=
  View.canon [⟨rA, k1_pay1 (k1_pay2 (View.ld x1 rM)) (k1_pay3 (View.ld x1 rM))
    (k1_pay4 (View.ld x0 rA) (View.ld x1 rM) (View.ld x2 rS) (View.ld x3 rS))
    (k1_pay5 (View.ld x0 rA) (View.ld x1 rM) (View.ld x4 rS) (View.ld x5 rS))
    (View.ld x7 rS) (View.ld x6 rS) (View.ld x9 rS) (View.ld x8 rS)⟩]

/-- The one store is the whole buffer, so it covers it. -/
theorem cover1_10 (p0 : Vec F S4x128x16x256 .f32) (y : S4x128x16x256.Idx) :
    ∃ pc ∈ ([⟨rA, p0⟩] : List (View.Piece (Elt F) S4x128x16x256 .f32)), y ∈ pc.1.set :=
  View.cover_of_tiled [⟨rA, p0⟩] S4x128x16x256.size (by rfl) y

/-! ## The body's triple -/

set_option maxHeartbeats 1000000 in
/-- The kernel body on whole staging memrefs, the inputs' at read contents `xW` and the output's at anything, runs to
    the continuation holding the inputs' as they were and the output's at `out1_10` of the inputs'. -/
theorem sound_kernel1 (c : Dev nD) (E : Set ℕ) (i : grid1.Coords) (arg1 : Memref sig .tc .vmem S4x128x16x256 .f32) (harg1 : arg1.IsWhole) (arg2 : Memref sig .tc .vmem S4x1x16x256 .f32) (harg2 : arg2.IsWhole) (arg3 : Memref sig .tc .vmem S4x128x1x1 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x16x256 .f32) (harg11 : arg11.IsWhole)
    (x0 : Vec F S4x128x16x256 .f32) (x1 : Vec F S4x1x16x256 .f32) (x2 x3 x4 x5 x6 x7 x8 x9 : Vec F S4x128x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__blend_kernel i arg1 harg1 arg2 harg2 arg3 harg3 arg4 harg4 arg5 harg5 arg6 harg6 arg7 harg7 arg8 harg8 arg9 harg9 arg10 harg10 arg11 harg11) K := by
  simp only [cc1__blend_kernel_eq_skeleton]; unfold cc1__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them (`V`); after the body at point `t`
    each input's buffer at its block and the output's at `out1_10` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameRun.lean ====
/-
  The whole program's run: @main is a host stretch (the mask repeated), the reduction region, a second host stretch (the
  four modulations), the blend region. The unscoped buffers' contents at each boundary are a fold from the launch memory:
  a host stretch applies its operations, a region leaves its arrays at what its write-backs leave and every other buffer
  as it found it. Every weakly fair execution terminates with the result buffer at the last boundary's contents and the
  seven argument arrays as launched.
-/
import proofs.«117659_j43542378447212_2_alg».proof.Proof.ReduceBody
import proofs.«117659_j43542378447212_2_alg».proof.Proof.BlendRegion
import proofs.«117659_j43542378447212_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region invariant's two ends with the scoped rest spelt out. -/
theorem hin0' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec0 c ∗ ∃ r, prngReg c r) : sProp 𝕄) ⊢ (dat0 V c).Φ 0 := by
  have h := hin0 V c; unfold Pipeline.ΦA at h; exact h
theorem hout0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout0 V c; unfold Pipeline.ΦA at h; exact h

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the reduction region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the reduction region's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the blend region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the blend region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ### The arguments end as launched: no host operation writes one and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (E3 m ρ) c).arrAt_in 0 rfl _).trans (A_eq1 (E3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it; its arrays split out of the unscoped buffers and put back at what the pipeline leaves; the generator register
    into the region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : (iprop(Pipeline.scopedRest (Ix := Unit) (Name := ℕ) (U := UR sig nD τ) (Lvl := ℕ) (Val := Elt F) spec0 c ∗ ∃ r, prngReg c r) : sProp 𝕄) ⊢ (pdats m ρ 0 c).Φ 0 := hin0' (E1 m ρ) c
    iintro ⟨Hp, -, Hr⟩
    iapply hh
    isplitl [Hr]; · iexact Hr
    iexact Hp
  hout c := by
    rw [Pipeline.ownSems0_none]
    iintro H
    have hh : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) := hout0' (E1 m ρ) c
    ihave H' := hh $$ H
    icases H' with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator register
    into the region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, with
    the result buffer at the last boundary's contents and the seven argument arrays as launched. -/
theorem run_all : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c)⟩)

end Cert.KernelIdeal.Hand

end
-- ==== Proof.Spec.lean ====
/-
  The masked adaptive-instance-normalisation layer as one function of its argument arrays, on the extended reals.

  For a soft mask `m` (one value per batch entry and pixel; `om = 1 - m`), a feature array `x` and a weight `g` (either
  `m` or `om`) with divisor `n = (sum of g over the pixels) + eps`:
    mean x g n = (sum of x * g) / n
  and the variance of the re-masked deviations, written in two ways:
    * `varDev`  — the sum of ((x * g - mean) * g)^2, divided by n, clamped at 0 (deviations first, then squares);
    * `varMom`  — (sum x^2 g^4 - 2 mean (sum x g^3) + mean^2 (sum g^2)) / n, clamped at 0 (the same square expanded
                   into three sums of monomials that do not mention the mean).
  The layer `layer var` normalises `x1 * g` by these statistics, modulates by a linear map of the concatenated statistics
  of `x1` and `x2`, and blends the masked and unmasked branches by `m` and `om`.
-/
import Idealize.ShloMosaic.PureOps.Ideal

noncomputable section

namespace Cert.MaskedAdaIN

open Idealize.ShloMosaic

/-- A feature array [4, 128, 256, 256], a mask [4, 256, 256] (one channel), a weight matrix [128, 256], per-channel statistics. -/
abbrev Feat : Type := Fin 4 → Fin 128 → Fin 256 → Fin 256 → EReal
abbrev Mask : Type := Fin 4 → Fin 256 → Fin 256 → EReal
abbrev Wgt : Type := Fin 128 → Fin 256 → EReal
abbrev Stat : Type := Fin 4 → Fin 128 → EReal

/-- The f32 words of 1e-8 (as rounded), 1 and 2, read at the extended reals. -/
def eps : EReal := Ideal.ofBits .f32 0x322BCC77#32
def one : EReal := Ideal.ofBits .f32 0x3F800000#32
def two : EReal := Ideal.ofBits .f32 0x40000000#32

/-- The complementary mask. -/
def om (m : Mask) : Mask := fun b h w => one - m b h w

/-- The sum over the pixels of one batch entry. -/
def pix (f : Fin 256 → Fin 256 → EReal) : EReal := ∑ h : Fin 256, ∑ w : Fin 256, f h w

/-- The divisor of a weight: its sum over the pixels plus eps. -/
def cnt (g : Mask) (b : Fin 4) : EReal := pix (g b) + eps

/-- The weighted mean of a channel. -/
def mean (x : Feat) (g : Mask) (b : Fin 4) (c : Fin 128) : EReal :=
  Ideal.div (pix fun h w => x b c h w * g b h w) (cnt g b)

/-- The variance as the mean square of the re-masked deviations, clamped at zero. -/
def varDev (x : Feat) (g : Mask) (b : Fin 4) (c : Fin 128) : EReal :=
  max (Ideal.div (pix fun h w =>
      ((x b c h w * g b h w - mean x g b c) * g b h w) * ((x b c h w * g b h w - mean x g b c) * g b h w)) (cnt g b)) 0

/-- The same variance from three sums of monomials, clamped at zero. -/
def varMom (x : Feat) (g : Mask) (b : Fin 4) (c : Fin 128) : EReal :=
  max (Ideal.div
      ((pix fun h w => (x b c h w * x b c h w) * ((g b h w * g b h w) * (g b h w * g b h w)))
        - (two * mean x g b c) * (pix fun h w => x b c h w * ((g b h w * g b h w) * g b h w))
        + (mean x g b c * mean x g b c) * (pix fun h w => g b h w * g b h w))
      (cnt g b)) 0

/-- The two statistics of a batch entry side by side: entry `k < 128` from the first, `k - 128` from the second. -/
def side (a a' : Stat) (b : Fin 4) (k : Fin 256) : EReal :=
  if h : k.val < 128 then a b ⟨k.val, h⟩ else a' b ⟨k.val - 128, by omega⟩

/-- The modulation: the concatenated statistics against the rows of a weight matrix. -/
def modulate (wt : Wgt) (a a' : Stat) (b : Fin 4) (j : Fin 128) : EReal :=
  ∑ k : Fin 256, side a a' b k * wt j k

/-- One branch: normalise `x1 * g`, scale and shift by the modulated statistics. -/
def branch (var : Feat → Mask → Stat) (x1 x2 : Feat) (g : Mask) (wMean wVar : Wgt) : Feat := fun b c h w =>
  ((x1 b c h w * g b h w - mean x1 g b c) * Ideal.rsqrt (var x1 g b c + eps)) * modulate wVar (var x1 g) (var x2 g) b c
    + modulate wMean (mean x1 g) (mean x2 g) b c

/-- The layer, for a choice `var` of the variance's spelling. -/
def layer (var : Feat → Mask → Stat) (x1 x2 : Feat) (m : Mask) (wInMean wInVar wOutMean wOutVar : Wgt) : Feat := fun b c h w =>
  branch var x1 x2 m wInMean wInVar b c h w * m b h w + branch var x1 x2 (om m) wOutMean wOutVar b c h w * om m b h w

end Cert.MaskedAdaIN

end
-- ==== Proof.BlendSpec.lean ====
/-
  The layer's last step as a function of its ten operands: the feature array, the mask, the four statistics of the
  feature array and the four modulated statistics. `layer` is this step at the statistics and their modulations.
-/
import proofs.«117659_j43542378447212_2_alg».proof.Proof.Spec

noncomputable section

namespace Cert.MaskedAdaIN

open Idealize.ShloMosaic

/-- Normalise, scale and shift each branch, blend by the mask and its complement. -/
def blend (x : Feat) (m : Mask) (meanIn varIn meanOut varOut adaMeanIn adaVarIn adaMeanOut adaVarOut : Stat) : Feat := fun b c h w =>
  (((x b c h w * m b h w - meanIn b c) * Ideal.rsqrt (varIn b c + eps)) * adaVarIn b c + adaMeanIn b c) * m b h w
    + (((x b c h w * om m b h w - meanOut b c) * Ideal.rsqrt (varOut b c + eps)) * adaVarOut b c + adaMeanOut b c) * om m b h w

theorem layer_eq_blend (var : Feat → Mask → Stat) (x1 x2 : Feat) (m : Mask) (wInMean wInVar wOutMean wOutVar : Wgt) :
    layer var x1 x2 m wInMean wInVar wOutMean wOutVar
      = blend x1 m (mean x1 m) (var x1 m) (mean x1 (om m)) (var x1 (om m))
          (modulate wInMean (mean x1 m) (mean x2 m)) (modulate wInVar (var x1 m) (var x2 m))
          (modulate wOutMean (mean x1 (om m)) (mean x2 (om m))) (modulate wOutVar (var x1 (om m)) (var x2 (om m))) := rfl

end Cert.MaskedAdaIN

end
-- ==== Proof.Arrays.lean ====
/-
  Arrays as functions of their coordinates: the feature, mask, weight and statistics arrays of the layer read at literal
  coordinates, and the mask repeated twice along each spatial axis as the host spells it (a broadcast into a new unit-2
  axis and a reshape that merges it, once per spatial axis).
-/
import Idealize.ShloMosaic.Lib.ValueIdx
import Idealize.ShloMosaic.PureOps.Ideal
import proofs.«117659_j43542378447212_2_alg».proof.Proof.Spec

noncomputable section

namespace Cert.MaskedAdaIN

open Idealize.ShloMosaic Idealize.ShloMosaic.ValueIdx

abbrev SFeat : Shape := ⟨4, ![4, 128, 256, 256]⟩
abbrev SMaskIn : Shape := ⟨4, ![4, 1, 128, 128]⟩
abbrev SRepA : Shape := ⟨5, ![4, 1, 128, 2, 128]⟩
abbrev SRepB : Shape := ⟨4, ![4, 1, 256, 128]⟩
abbrev SRepC : Shape := ⟨5, ![4, 1, 256, 128, 2]⟩
abbrev SMask : Shape := ⟨4, ![4, 1, 256, 256]⟩
abbrev SWgt : Shape := ⟨2, ![128, 256]⟩
abbrev SStat : Shape := ⟨4, ![4, 128, 1, 1]⟩

/-- A feature array at (batch, channel, row, column). -/
def featOf (a : FVec Ideal SFeat .f32) : Feat := fun b c h w => a (ix4 b c h w)
/-- A one-channel mask array at (batch, row, column). -/
def maskOf (u : FVec Ideal SMask .f32) : Mask := fun b h w => u (ix4 b (0 : Fin 1) h w)
/-- A weight matrix at (output channel, concatenated statistic). -/
def wgtOf (a : FVec Ideal SWgt .f32) : Wgt := fun j k => a (ix2 j k)
/-- A keepdims statistics array [4, 128, 1, 1] at (batch, channel). -/
def statOf (a : FVec Ideal SStat .f32) : Stat := fun b c => a (ix4 b c (0 : Fin 1) (0 : Fin 1))

/-- The mask with every entry repeated twice along each spatial axis, as the host computes it: broadcast into a new axis
    of extent 2 after the row axis, merge it into the rows; the same after the column axis. -/
def rep {F : FTy → Type} [FloatOps F]
    (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask)
    (mask : FVec F SMaskIn .f32) : FVec F SMask .f32 :=
  shapeCast SMask (broadcastInDim SRepC ![0, 1, 2, 3] h3 (shapeCast SRepB (broadcastInDim SRepA ![0, 1, 2, 4] h1 mask) h2)) h4

end Cert.MaskedAdaIN

end
-- ==== Proof.BlendValue.lean ====
/-
  The blend region's output array at the extended reals: what the body's one store leaves at an index of its block, as
  the layer's last step over the ten input blocks read at that index; each input block read off its array where the
  output's block says; and so the output array after the region, index by index, as that step of the ten arrays the
  region finds.
-/
import proofs.«117659_j43542378447212_2_alg».proof.Proof.BlendRegion
import proofs.«117659_j43542378447212_2_alg».proof.Proof.BlendSpec
import proofs.«117659_j43542378447212_2_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.MaskedAdaIN
open Idealize.ShloMosaic Idealize.ShloMosaic.TcCoe Idealize.ShloMosaic.ValueIdx Idealize.SL.Sem
open Idealize.ShloMosaic.Pipeline (Dat)

/-! ## The body's payload at an index of the block -/

theorem blend_zero4 : (![0, 0, 0, 0] : Fin 4 → Nat) = fun _ => 0 := funext fun a => by fin_cases a <;> rfl

/-- A per-(batch, channel) statistic broadcast over a block reads, at (b, c, r, w), the statistic at (b, c). -/
theorem blend_bcastStat_apply {α : Type} (v : S4x128x1x1.Idx → α) (h : S4x128x1x1.Broadcasts S4x128x16x256)
    (b : Fin 4) (c : Fin 128) (r : Fin 16) (w : Fin 256) :
    broadcastTo S4x128x16x256 v h (ix4 b c r w) = v (ix4 b c (0 : Fin 1) (0 : Fin 1)) := by
  refine broadcastTo_apply v h (ix4 b c r w) (ix4 b c (0 : Fin 1) (0 : Fin 1)) fun ax => ?_
  match ax with
  | ⟨0, _⟩ => rfl
  | ⟨1, _⟩ => rfl
  | ⟨2, _⟩ => rfl
  | ⟨3, _⟩ => rfl

/-- The one-channel mask broadcast over the channels reads, at (b, c, r, w), the mask at (b, r, w). -/
theorem blend_bcastMask_apply {α : Type} (v : S4x1x16x256.Idx → α) (h : S4x1x16x256.Broadcasts S4x128x16x256)
    (b : Fin 4) (c : Fin 128) (r : Fin 16) (w : Fin 256) :
    broadcastTo S4x128x16x256 v h (ix4 b c r w) = v (ix4 b (0 : Fin 1) r w) := by
  refine broadcastTo_apply v h (ix4 b c r w) (ix4 b (0 : Fin 1) r w) fun ax => ?_
  match ax with
  | ⟨0, _⟩ => rfl
  | ⟨1, _⟩ => rfl
  | ⟨2, _⟩ => rfl
  | ⟨3, _⟩ => rfl

/-- A reciprocal square root of a vector at an index is that of the element. -/
theorem blend_rsqrt_apply {s : Shape} {φ : FTy} (a : FVec Ideal s φ) (i : s.Idx) : rsqrt a i = Ideal.rsqrt (a i) := rfl

/-- What the body stores at (b, c, r, w) of its block: both branches normalised, scaled and shifted by the statistics
    at (b, c), blended by the mask at (b, r, w) and its complement. -/
theorem out1_10_apply (x0 : Vec Ideal S4x128x16x256 .f32) (x1 : Vec Ideal S4x1x16x256 .f32)
    (x2 x3 x4 x5 x6 x7 x8 x9 : Vec Ideal S4x128x1x1 .f32) (b : Fin 4) (c : Fin 128) (r : Fin 16) (w : Fin 256) :
    out1_10 (F := Ideal) x0 x1 x2 x3 x4 x5 x6 x7 x8 x9 (ix4 b c r w)
      = (((x0 (ix4 b c r w) * x1 (ix4 b (0 : Fin 1) r w) - x2 (ix4 b c (0 : Fin 1) (0 : Fin 1)))
              * Ideal.rsqrt (x3 (ix4 b c (0 : Fin 1) (0 : Fin 1)) + eps)) * x7 (ix4 b c (0 : Fin 1) (0 : Fin 1))
            + x6 (ix4 b c (0 : Fin 1) (0 : Fin 1))) * x1 (ix4 b (0 : Fin 1) r w)
        + (((x0 (ix4 b c r w) * (one - x1 (ix4 b (0 : Fin 1) r w)) - x4 (ix4 b c (0 : Fin 1) (0 : Fin 1)))
              * Ideal.rsqrt (x5 (ix4 b c (0 : Fin 1) (0 : Fin 1)) + eps)) * x9 (ix4 b c (0 : Fin 1) (0 : Fin 1))
            + x8 (ix4 b c (0 : Fin 1) (0 : Fin 1))) * (one - x1 (ix4 b (0 : Fin 1) r w)) := by
  unfold out1_10
  rw [View.canon_unit_zero blend_zero4]
  simp only [View.ld_unit_zero (S := S4x128x16x256) blend_zero4, View.ld_unit_zero (S := S4x1x16x256) blend_zero4,
    View.ld_unit_zero (S := S4x128x1x1) blend_zero4]
  unfold k1_pay1 k1_pay4 k1_pay5 k1_pay3 k1_pay2
  simp only [shapeCast_self, mulf_apply, addf_apply, subf_apply, blend_rsqrt_apply, blend_bcastStat_apply, blend_bcastMask_apply,
    broadcast_apply]
  rfl

/-! ## The index maps, decided over the grid -/

/-- The feature, mask and output windows move along the rows with the grid point; the statistics' windows stay. -/
theorem idx_facts1 : ∀ t : Fin cfg1.N,
    (win1_0.index t (0 : Fin 4) = 0 ∧ win1_0.index t (1 : Fin 4) = 0 ∧ win1_0.index t (2 : Fin 4) = t.val ∧ win1_0.index t (3 : Fin 4) = 0)
    ∧ (win1_1.index t (0 : Fin 4) = 0 ∧ win1_1.index t (1 : Fin 4) = 0 ∧ win1_1.index t (2 : Fin 4) = t.val ∧ win1_1.index t (3 : Fin 4) = 0)
    ∧ (win1_10.index t (0 : Fin 4) = 0 ∧ win1_10.index t (1 : Fin 4) = 0 ∧ win1_10.index t (2 : Fin 4) = t.val ∧ win1_10.index t (3 : Fin 4) = 0)
    ∧ (win1_2.index t (0 : Fin 4) = 0 ∧ win1_2.index t (1 : Fin 4) = 0 ∧ win1_2.index t (2 : Fin 4) = 0 ∧ win1_2.index t (3 : Fin 4) = 0)
    ∧ (win1_3.index t (0 : Fin 4) = 0 ∧ win1_3.index t (1 : Fin 4) = 0 ∧ win1_3.index t (2 : Fin 4) = 0 ∧ win1_3.index t (3 : Fin 4) = 0)
    ∧ (win1_4.index t (0 : Fin 4) = 0 ∧ win1_4.index t (1 : Fin 4) = 0 ∧ win1_4.index t (2 : Fin 4) = 0 ∧ win1_4.index t (3 : Fin 4) = 0)
    ∧ (win1_5.index t (0 : Fin 4) = 0 ∧ win1_5.index t (1 : Fin 4) = 0 ∧ win1_5.index t (2 : Fin 4) = 0 ∧ win1_5.index t (3 : Fin 4) = 0)
    ∧ (win1_6.index t (0 : Fin 4) = 0 ∧ win1_6.index t (1 : Fin 4) = 0 ∧ win1_6.index t (2 : Fin 4) = 0 ∧ win1_6.index t (3 : Fin 4) = 0)
    ∧ (win1_7.index t (0 : Fin 4) = 0 ∧ win1_7.index t (1 : Fin 4) = 0 ∧ win1_7.index t (2 : Fin 4) = 0 ∧ win1_7.index t (3 : Fin 4) = 0)
    ∧ (win1_8.index t (0 : Fin 4) = 0 ∧ win1_8.index t (1 : Fin 4) = 0 ∧ win1_8.index t (2 : Fin 4) = 0 ∧ win1_8.index t (3 : Fin 4) = 0)
    ∧ (win1_9.index t (0 : Fin 4) = 0 ∧ win1_9.index t (1 : Fin 4) = 0 ∧ win1_9.index t (2 : Fin 4) = 0 ∧ win1_9.index t (3 : Fin 4) = 0) :=
  (by decide +kernel : ∀ t : Fin grid1.N, _)

theorem blend_point_lt (t : Fin cfg1.N) : t.val < 16 := lt_of_lt_of_eq t.isLt N_1

/-! ## Each input block read off its array -/

variable (V : (c : Dev nD) → (b : Ref sig .tc) → Buf (Elt Ideal) ((c : Thread nD τ).loc b))

/-- The feature window's block at point `t` is rows 16 t … 16 t + 15 of the feature array. -/
theorem iblk1_0_apply (c : Dev nD) (t : Fin cfg1.N) (b : Fin 4) (ch : Fin 128) (r : Fin 16) (w : Fin 256) (h : Fin 256)
    (hh : h.val = 16 * t.val + r.val) :
    (iblk1 V c 0 t : Vec Ideal S4x128x16x256 .f32) (ix4 b ch r w) = (V c main_arg0 : S4x128x256x256.Idx → EReal) (ix4 b ch h w) := by
  obtain ⟨⟨e0, e1, e2, e3⟩, -⟩ := idx_facts1 t
  unfold iblk1
  rw [View.read_apply]
  show V c main_arg0 _ = V c main_arg0 _
  congr 1
  funext a
  apply Fin.ext
  match a with
  | ⟨0, _⟩ => show win1_0.index t (0 : Fin 4) * 4 + 1 * b.val = b.val; rw [e0]; omega
  | ⟨1, _⟩ => show win1_0.index t (1 : Fin 4) * 128 + 1 * ch.val = ch.val; rw [e1]; omega
  | ⟨2, _⟩ => show win1_0.index t (2 : Fin 4) * 16 + 1 * r.val = h.val; rw [e2, hh]; omega
  | ⟨3, _⟩ => show win1_0.index t (3 : Fin 4) * 256 + 1 * w.val = w.val; rw [e3]; omega

/-- The mask window's block at point `t` is rows 16 t … 16 t + 15 of the mask. -/
theorem iblk1_1_apply (c : Dev nD) (t : Fin cfg1.N) (b : Fin 4) (r : Fin 16) (w : Fin 256) (h : Fin 256)
    (hh : h.val = 16 * t.val + r.val) :
    (iblk1 V c 1 t : Vec Ideal S4x1x16x256 .f32) (ix4 b (0 : Fin 1) r w) = (V c main_v3 : S4x1x256x256.Idx → EReal) (ix4 b (0 : Fin 1) h w) := by
  obtain ⟨-, ⟨e0, e1, e2, e3⟩, -⟩ := idx_facts1 t
  unfold iblk1
  rw [View.read_apply]
  show V c main_v3 _ = V c main_v3 _
  congr 1
  funext a
  apply Fin.ext
  match a with
  | ⟨0, _⟩ => show win1_1.index t (0 : Fin 4) * 4 + 1 * b.val = b.val; rw [e0]; omega
  | ⟨1, _⟩ => show win1_1.index t (1 : Fin 4) * 1 + 1 * (0 : Fin 1).val = (0 : Fin 1).val; rw [e1]; omega
  | ⟨2, _⟩ => show win1_1.index t (2 : Fin 4) * 16 + 1 * r.val = h.val; rw [e2, hh]; omega
  | ⟨3, _⟩ => show win1_1.index t (3 : Fin 4) * 256 + 1 * w.val = w.val; rw [e3]; omega

/-- Window 2's block at every point is its whole statistics array. -/
theorem iblk1_2_eq (c : Dev nD) (t : Fin cfg1.N) :
    (iblk1 V c 2 t : Vec Ideal S4x128x1x1 .f32) = (V c main_v4_0 : S4x128x1x1.Idx → EReal) := by
  obtain ⟨-, -, -, ⟨e0, e1, e2, e3⟩, -⟩ := idx_facts1 t
  funext j
  unfold iblk1
  rw [View.read_apply]
  show V c main_v4_0 _ = V c main_v4_0 j
  congr 1
  funext a
  apply Fin.ext
  match a with
  | ⟨0, _⟩ => show win1_2.index t (0 : Fin 4) * 4 + 1 * (j 0).val = (j 0).val; rw [e0]; omega
  | ⟨1, _⟩ => show win1_2.index t (1 : Fin 4) * 128 + 1 * (j 1).val = (j 1).val; rw [e1]; omega
  | ⟨2, _⟩ => show win1_2.index t (2 : Fin 4) * 1 + 1 * (j 2).val = (j 2).val; rw [e2]; omega
  | ⟨3, _⟩ => show win1_2.index t (3 : Fin 4) * 1 + 1 * (j 3).val = (j 3).val; rw [e3]; omega

/-- Window 3's block at every point is its whole statistics array. -/
theorem iblk1_3_eq (c : Dev nD) (t : Fin cfg1.N) :
    (iblk1 V c 3 t : Vec Ideal S4x128x1x1 .f32) = (V c main_v4_1 : S4x128x1x1.Idx → EReal) := by
  obtain ⟨-, -, -, -, ⟨e0, e1, e2, e3⟩, -⟩ := idx_facts1 t
  funext j
  unfold iblk1
  rw [View.read_apply]
  show V c main_v4_1 _ = V c main_v4_1 j
  congr 1
  funext a
  apply Fin.ext
  match a with
  | ⟨0, _⟩ => show win1_3.index t (0 : Fin 4) * 4 + 1 * (j 0).val = (j 0).val; rw [e0]; omega
  | ⟨1, _⟩ => show win1_3.index t (1 : Fin 4) * 128 + 1 * (j 1).val = (j 1).val; rw [e1]; omega
  | ⟨2, _⟩ => show win1_3.index t (2 : Fin 4) * 1 + 1 * (j 2).val = (j 2).val; rw [e2]; omega
  | ⟨3, _⟩ => show win1_3.index t (3 : Fin 4) * 1 + 1 * (j 3).val = (j 3).val; rw [e3]; omega

/-- Window 4's block at every point is its whole statistics array. -/
theorem iblk1_4_eq (c : Dev nD) (t : Fin cfg1.N) :
    (iblk1 V c 4 t : Vec Ideal S4x128x1x1 .f32) = (V c main_v4_4 : S4x128x1x1.Idx → EReal) := by
  obtain ⟨-, -, -, -, -, ⟨e0, e1, e2, e3⟩, -⟩ := idx_facts1 t
  funext j
  unfold iblk1
  rw [View.read_apply]
  show V c main_v4_4 _ = V c main_v4_4 j
  congr 1
  funext a
  apply Fin.ext
  match a with
  | ⟨0, _⟩ => show win1_4.index t (0 : Fin 4) * 4 + 1 * (j 0).val = (j 0).val; rw [e0]; omega
  | ⟨1, _⟩ => show win1_4.index t (1 : Fin 4) * 128 + 1 * (j 1).val = (j 1).val; rw [e1]; omega
  | ⟨2, _⟩ => show win1_4.index t (2 : Fin 4) * 1 + 1 * (j 2).val = (j 2).val; rw [e2]; omega
  | ⟨3, _⟩ => show win1_4.index t (3 : Fin 4) * 1 + 1 * (j 3).val = (j 3).val; rw [e3]; omega

/-- Window 5's block at every point is its whole statistics array. -/
theorem iblk1_5_eq (c : Dev nD) (t : Fin cfg1.N) :
    (iblk1 V c 5 t : Vec Ideal S4x128x1x1 .f32) = (V c main_v4_5 : S4x128x1x1.Idx → EReal) := by
  obtain ⟨-, -, -, -, -, -, ⟨e0, e1, e2, e3⟩, -⟩ := idx_facts1 t
  funext j
  unfold iblk1
  rw [View.read_apply]
  show V c main_v4_5 _ = V c main_v4_5 j
  congr 1
  funext a
  apply Fin.ext
  match a with
  | ⟨0, _⟩ => show win1_5.index t (0 : Fin 4) * 4 + 1 * (j 0).val = (j 0).val; rw [e0]; omega
  | ⟨1, _⟩ => show win1_5.index t (1 : Fin 4) * 128 + 1 * (j 1).val = (j 1).val; rw [e1]; omega
  | ⟨2, _⟩ => show win1_5.index t (2 : Fin 4) * 1 + 1 * (j 2).val = (j 2).val; rw [e2]; omega
  | ⟨3, _⟩ => show win1_5.index t (3 : Fin 4) * 1 + 1 * (j 3).val = (j 3).val; rw [e3]; omega

/-- Window 6's block at every point is its whole statistics array. -/
theorem iblk1_6_eq (c : Dev nD) (t : Fin cfg1.N) :
    (iblk1 V c 6 t : Vec Ideal S4x128x1x1 .f32) = (V c main_v10 : S4x128x1x1.Idx → EReal) := by
  obtain ⟨-, -, -, -, -, -, -, ⟨e0, e1, e2, e3⟩, -⟩ := idx_facts1 t
  funext j
  unfold iblk1
  rw [View.read_apply]
  show V c main_v10 _ = V c main_v10 j
  congr 1
  funext a
  apply Fin.ext
  match a with
  | ⟨0, _⟩ => show win1_6.index t (0 : Fin 4) * 4 + 1 * (j 0).val = (j 0).val; rw [e0]; omega
  | ⟨1, _⟩ => show win1_6.index t (1 : Fin 4) * 128 + 1 * (j 1).val = (j 1).val; rw [e1]; omega
  | ⟨2, _⟩ => show win1_6.index t (2 : Fin 4) * 1 + 1 * (j 2).val = (j 2).val; rw [e2]; omega
  | ⟨3, _⟩ => show win1_6.index t (3 : Fin 4) * 1 + 1 * (j 3).val = (j 3).val; rw [e3]; omega

/-- Window 7's block at every point is its whole statistics array. -/
theorem iblk1_7_eq (c : Dev nD) (t : Fin cfg1.N) :
    (iblk1 V c 7 t : Vec Ideal S4x128x1x1 .f32) = (V c main_v16 : S4x128x1x1.Idx → EReal) := by
  obtain ⟨-, -, -, -, -, -, -, -, ⟨e0, e1, e2, e3⟩, -⟩ := idx_facts1 t
  funext j
  unfold iblk1
  rw [View.read_apply]
  show V c main_v16 _ = V c main_v16 j
  congr 1
  funext a
  apply Fin.ext
  match a with
  | ⟨0, _⟩ => show win1_7.index t (0 : Fin 4) * 4 + 1 * (j 0).val = (j 0).val; rw [e0]; omega
  | ⟨1, _⟩ => show win1_7.index t (1 : Fin 4) * 128 + 1 * (j 1).val = (j 1).val; rw [e1]; omega
  | ⟨2, _⟩ => show win1_7.index t (2 : Fin 4) * 1 + 1 * (j 2).val = (j 2).val; rw [e2]; omega
  | ⟨3, _⟩ => show win1_7.index t (3 : Fin 4) * 1 + 1 * (j 3).val = (j 3).val; rw [e3]; omega

/-- Window 8's block at every point is its whole statistics array. -/
theorem iblk1_8_eq (c : Dev nD) (t : Fin cfg1.N) :
    (iblk1 V c 8 t : Vec Ideal S4x128x1x1 .f32) = (V c main_v22 : S4x128x1x1.Idx → EReal) := by
  obtain ⟨-, -, -, -, -, -, -, -, -, ⟨e0, e1, e2, e3⟩, -⟩ := idx_facts1 t
  funext j
  unfold iblk1
  rw [View.read_apply]
  show V c main_v22 _ = V c main_v22 j
  congr 1
  funext a
  apply Fin.ext
  match a with
  | ⟨0, _⟩ => show win1_8.index t (0 : Fin 4) * 4 + 1 * (j 0).val = (j 0).val; rw [e0]; omega
  | ⟨1, _⟩ => show win1_8.index t (1 : Fin 4) * 128 + 1 * (j 1).val = (j 1).val; rw [e1]; omega
  | ⟨2, _⟩ => show win1_8.index t (2 : Fin 4) * 1 + 1 * (j 2).val = (j 2).val; rw [e2]; omega
  | ⟨3, _⟩ => show win1_8.index t (3 : Fin 4) * 1 + 1 * (j 3).val = (j 3).val; rw [e3]; omega

/-- Window 9's block at every point is its whole statistics array. -/
theorem iblk1_9_eq (c : Dev nD) (t : Fin cfg1.N) :
    (iblk1 V c 9 t : Vec Ideal S4x128x1x1 .f32) = (V c main_v28 : S4x128x1x1.Idx → EReal) := by
  obtain ⟨-, -, -, -, -, -, -, -, -, -, ⟨e0, e1, e2, e3⟩⟩ := idx_facts1 t
  funext j
  unfold iblk1
  rw [View.read_apply]
  show V c main_v28 _ = V c main_v28 j
  congr 1
  funext a
  apply Fin.ext
  match a with
  | ⟨0, _⟩ => show win1_9.index t (0 : Fin 4) * 4 + 1 * (j 0).val = (j 0).val; rw [e0]; omega
  | ⟨1, _⟩ => show win1_9.index t (1 : Fin 4) * 128 + 1 * (j 1).val = (j 1).val; rw [e1]; omega
  | ⟨2, _⟩ => show win1_9.index t (2 : Fin 4) * 1 + 1 * (j 2).val = (j 2).val; rw [e2]; omega
  | ⟨3, _⟩ => show win1_9.index t (3 : Fin 4) * 1 + 1 * (j 3).val = (j 3).val; rw [e3]; omega

/-- An index of the output block at point `t` lies at rows 16 t … 16 t + 15 of the output array. -/
theorem emb1_10_apply (t : Fin cfg1.N) (b : Fin 4) (ch : Fin 128) (r : Fin 16) (w : Fin 256) (h : Fin 256)
    (hh : h.val = 16 * t.val + r.val) :
    ((cfg1.win 10).blk t).view.emb (ix4 b ch r w : S4x128x16x256.Idx) = (ix4 b ch h w : S4x128x256x256.Idx) := by
  obtain ⟨-, -, ⟨e0, e1, e2, e3⟩, -⟩ := idx_facts1 t
  funext a
  apply Fin.ext
  match a with
  | ⟨0, _⟩ => show win1_10.index t (0 : Fin 4) * 4 + 1 * b.val = b.val; rw [e0]; omega
  | ⟨1, _⟩ => show win1_10.index t (1 : Fin 4) * 128 + 1 * ch.val = ch.val; rw [e1]; omega
  | ⟨2, _⟩ => show win1_10.index t (2 : Fin 4) * 16 + 1 * r.val = h.val; rw [e2, hh]; omega
  | ⟨3, _⟩ => show win1_10.index t (3 : Fin 4) * 256 + 1 * w.val = w.val; rw [e3]; omega

/-! ## From blocks to the array -/

/-- The output array as one function of the ten arrays the region finds: the layer's last step, index by index. -/
def blendArr (c : Dev nD) : S4x128x256x256.Idx → EReal := fun i =>
  blend (featOf (V c main_arg0)) (maskOf (V c main_v3)) (statOf (V c main_v4_0)) (statOf (V c main_v4_1)) (statOf (V c main_v4_4)) (statOf (V c main_v4_5))
      (statOf (V c main_v10)) (statOf (V c main_v16)) (statOf (V c main_v22)) (statOf (V c main_v28)) (i 0) (i 1) (i 2) (i 3)

/-- What point `t` writes back is block `t` of that function. -/
theorem flushed1_10_eq (c : Dev nD) (t : Fin cfg1.N) :
    (dat1 (F := Ideal) V c).flushed 10 t = ((cfg1.win 10).blk t).view.read (Elt Ideal) (blendArr V c) := by
  show (cfg1.win 10).cut (grid1.coords t) ((dat1 V c).after 10 t) = _
  rw [after1_10]
  have key : ∀ j : S4x128x16x256.Idx,
      out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j
        = blendArr V c (((cfg1.win 10).blk t).view.emb j) := by
    intro j
    obtain ⟨b, ch, r, w, rfl⟩ : ∃ b ch r w, j = ix4 b ch r w := ⟨_, _, _, _, eq_ix4 j⟩
    have ht := blend_point_lt t
    have hr : r.val < 16 := r.isLt
    obtain ⟨h, hh⟩ : ∃ h : Fin 256, h.val = 16 * t.val + r.val := ⟨⟨16 * t.val + r.val, by omega⟩, rfl⟩
    refine (out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) b ch r w).trans ?_
    rw [iblk1_0_apply V c t b ch r w h hh, iblk1_1_apply V c t b r w h hh,
      iblk1_2_eq V c t, iblk1_3_eq V c t, iblk1_4_eq V c t, iblk1_5_eq V c t, iblk1_6_eq V c t, iblk1_7_eq V c t, iblk1_8_eq V c t, iblk1_9_eq V c t,
      emb1_10_apply t b ch r w h hh]
    rfl
  funext j
  exact key j

/-- An index of the output array is in point `t`'s block iff each coordinate is in the block's range on its axis. -/
theorem mem_blk1_10 (t : Fin cfg1.N) (i : S4x128x256x256.Idx) :
    i ∈ ((cfg1.win 10).blk t).view.set ↔ ∀ a : Fin 4, win1_10.index t a * S4x128x16x256.size a ≤ (i a).val ∧ (i a).val < win1_10.index t a * S4x128x16x256.size a + S4x128x16x256.size a := by
  show i ∈ ((View.whole main_v29).slice (win1_10.rect t)).set ↔ _
  rw [View.set_slice_whole, Rect.mem_set_unit]
  exact Iff.rfl

/-- Every index of the output array is in the block of the point its row falls in: row `h` in point `h / 16`'s. -/
theorem covered1_10 (i : S4x128x256x256.Idx) :
    ∃ t : Fin cfg1.N, (cfg1.win 10).flush t = true ∧ i ∈ ((cfg1.win 10).blk t).view.set := by
  have h0 : (i 0).val < 4 := (i 0).isLt
  have h1 : (i 1).val < 128 := (i 1).isLt
  have h2 : (i 2).val < 256 := (i 2).isLt
  have h3 : (i 3).val < 256 := (i 3).isLt
  obtain ⟨t, ht⟩ : ∃ t : Fin cfg1.N, t.val = (i 2).val / 16 :=
    ⟨⟨(i 2).val / 16, by rw [show cfg1.N = 16 from N_1]; omega⟩, rfl⟩
  obtain ⟨-, -, ⟨e0, e1, e2, e3⟩, -⟩ := idx_facts1 t
  refine ⟨t, flush1_10 t, ?_⟩
  rw [mem_blk1_10]
  intro a
  match a with
  | ⟨0, _⟩ => show win1_10.index t (0 : Fin 4) * 4 ≤ (i 0).val ∧ (i 0).val < win1_10.index t (0 : Fin 4) * 4 + 4; rw [e0]; omega
  | ⟨1, _⟩ => show win1_10.index t (1 : Fin 4) * 128 ≤ (i 1).val ∧ (i 1).val < win1_10.index t (1 : Fin 4) * 128 + 128; rw [e1]; omega
  | ⟨2, _⟩ => show win1_10.index t (2 : Fin 4) * 16 ≤ (i 2).val ∧ (i 2).val < win1_10.index t (2 : Fin 4) * 16 + 16; rw [e2, ht]; omega
  | ⟨3, _⟩ => show win1_10.index t (3 : Fin 4) * 256 ≤ (i 3).val ∧ (i 3).val < win1_10.index t (3 : Fin 4) * 256 + 256; rw [e3]; omega

/-- The output array after the region, index by index: the layer's last step of the ten arrays the region finds. -/
theorem blend_arr (c : Dev nD) (i : S4x128x256x256.Idx) :
    (dat1 (F := Ideal) V c).arrAt 10 cfg1.N i
      = blend (featOf (V c main_arg0)) (maskOf (V c main_v3)) (statOf (V c main_v4_0)) (statOf (V c main_v4_1)) (statOf (V c main_v4_4)) (statOf (V c main_v4_5))
      (statOf (V c main_v10)) (statOf (V c main_v16)) (statOf (V c main_v22)) (statOf (V c main_v28)) (i 0) (i 1) (i 2) (i 3) :=
  congrFun ((dat1 (F := Ideal) V c).arrAt_eq_of_cover 10 (blendArr V c) (fun t _ => flushed1_10_eq V c t) covered1_10) i

end Cert.KernelIdeal.Hand

end
-- ==== Proof.HostModulate.lean ====
/-
  The kernel program's host stretches read at an index.

  Between its two kernel regions the program computes four modulations: two per-channel statistics arrays [4, 128, 1, 1]
  are flattened to [4, 128], joined along the channel axis to [4, 256], contracted against a transposed weight matrix
  [128, 256] and put back in keepdims form. At (batch b, channel j) that is the sum over k < 256 of (the first array at k,
  or the second at k - 128) times the weight at (j, k) — Spec's `modulate`. Before the first region it repeats the
  input mask twice along each spatial axis — Arrays' `rep`.
-/
import proofs.«117659_j43542378447212_2_alg».proof.Proof.Gen.KernelIdeal.Launch
import proofs.«117659_j43542378447212_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.MaskedAdaIN Idealize.ShloMosaic Idealize.ShloMosaic.ValueIdx

/-- The modulation chain of the host stretch over any two statistics arrays and a weight matrix. -/
def modArr (a a' : FVec Ideal S4x128x1x1 .f32) (wt : FVec Ideal S128x256 .f32) : FVec Ideal S4x128x1x1 .f32 :=
  broadcastInDim S4x128x1x1 ![0, 1] bcast_S4x128_S4x128x1x1_0_1
    (Host.dotGeneral (F := Ideal) dot_S4x256_S256x128_S4x128_1_0_0_1_n_n none
      (concatenate S4x256 1 [⟨S4x128, shapeCast S4x128 a shapeCasts_S4x128x1x1_S4x128⟩,
        ⟨S4x128, shapeCast S4x128 a' shapeCasts_S4x128x1x1_S4x128⟩] concatenates_S4x128_S4x128_S4x256_d1)
      (transpose S256x128 [1, 0] wt transposes_S128x256_S256x128_1_0))

/-! The operand indices of the contraction at output (b, j) and contraction coordinate k: (b, k) and (k, j). -/

theorem lhs_0 (i : S4x128.Idx) (q : dot_S4x256_S256x128_S4x128_1_0_0_1_n_n.contr.Idx) :
    (dot_S4x256_S256x128_S4x128_1_0_0_1_n_n.lhsIdx i q 0).val = (i 0).val := by
  unfold DotDims.lhsIdx
  rw [dif_neg (show ¬(0 : Fin S4x256.rank) ∈ dot_S4x256_S256x128_S4x128_1_0_0_1_n_n.lhsBatch by decide), dif_pos (show (0 : Fin S4x256.rank) ∈ dot_S4x256_S256x128_S4x128_1_0_0_1_n_n.lhsNonContracting by decide)]
  rfl
theorem lhs_1 (i : S4x128.Idx) (q : dot_S4x256_S256x128_S4x128_1_0_0_1_n_n.contr.Idx) :
    (dot_S4x256_S256x128_S4x128_1_0_0_1_n_n.lhsIdx i q 1).val = (q ⟨0, by decide⟩).val :=
  dot_S4x256_S256x128_S4x128_1_0_0_1_n_n.lhsIdx_val_of_single rfl i q
theorem rhs_0 (i : S4x128.Idx) (q : dot_S4x256_S256x128_S4x128_1_0_0_1_n_n.contr.Idx) :
    (dot_S4x256_S256x128_S4x128_1_0_0_1_n_n.rhsIdx i q 0).val = (q ⟨0, by decide⟩).val :=
  dot_S4x256_S256x128_S4x128_1_0_0_1_n_n.rhsIdx_val_of_single rfl i q
theorem rhs_1 (i : S4x128.Idx) (q : dot_S4x256_S256x128_S4x128_1_0_0_1_n_n.contr.Idx) :
    (dot_S4x256_S256x128_S4x128_1_0_0_1_n_n.rhsIdx i q 1).val = (i 1).val := by
  unfold DotDims.rhsIdx
  rw [dif_neg (show ¬(1 : Fin S256x128.rank) ∈ dot_S4x256_S256x128_S4x128_1_0_0_1_n_n.rhsBatch by decide), dif_pos (show (1 : Fin S256x128.rank) ∈ dot_S4x256_S256x128_S4x128_1_0_0_1_n_n.rhsNonContracting by decide)]
  rfl

/-- A keepdims statistics array flattened to [4, 128], at (b, c). -/
theorem flat_at (a : FVec Ideal S4x128x1x1 .f32) (b : Fin 4) (c : Fin 128) :
    shapeCast S4x128 a shapeCasts_S4x128x1x1_S4x128 (ix2 b c) = statOf a b c :=
  shapeCast_apply a shapeCasts_S4x128x1x1_S4x128 (ix2 b c) (ix4 b c 0 0)
    (by rewrite [Shape.rowMajor_val_four, Shape.rowMajor_val_two]; show ((b.val * 128 + c.val) * 1 + 0) * 1 + 0 = b.val * 128 + c.val; omega)

/-- The modulation chain read at (batch, output channel): the concatenated statistics against a row of the weights. -/
theorem modulate_at (a a' : FVec Ideal S4x128x1x1 .f32) (wt : FVec Ideal S128x256 .f32) (b : Fin 4) (j : Fin 128) :
    modArr a a' wt (ix4 b j 0 0) = modulate (wgtOf wt) (statOf a) (statOf a') b j := by
  unfold modArr
  rw [broadcastInDim_apply _ bcast_S4x128_S4x128x1x1_0_1 _ (ix4 b j 0 0) (ix2 b j) (fun c => match c with
    | ⟨0, _⟩ => by show b.val = if (4 : Nat) = 1 then 0 else b.val; rw [if_neg (by decide)]
    | ⟨1, _⟩ => by show j.val = if (128 : Nat) = 1 then 0 else j.val; rw [if_neg (by decide)])]
  simp only [Host.dotGeneral]
  rw [Ideal.dotGeneral_apply, ← Equiv.sum_comp (ValueIdx.contrEquiv1 dot_S4x256_S256x128_S4x128_1_0_0_1_n_n 256 rfl rfl).symm]
  unfold modulate
  refine Finset.sum_congr rfl fun k _ => ?_
  have hk := ValueIdx.contrEquiv1_symm_val dot_S4x256_S256x128_S4x128_1_0_0_1_n_n 256 rfl rfl k
  have el : dot_S4x256_S256x128_S4x128_1_0_0_1_n_n.lhsIdx (ix2 b j) ((ValueIdx.contrEquiv1 dot_S4x256_S256x128_S4x128_1_0_0_1_n_n 256 rfl rfl).symm k) = ix2 b k := funext fun c => Fin.ext (by
    match c with
    | ⟨0, _⟩ => exact lhs_0 _ _
    | ⟨1, _⟩ => exact (lhs_1 _ _).trans hk)
  have er : dot_S4x256_S256x128_S4x128_1_0_0_1_n_n.rhsIdx (ix2 b j) ((ValueIdx.contrEquiv1 dot_S4x256_S256x128_S4x128_1_0_0_1_n_n 256 rfl rfl).symm k) = ix2 k j := funext fun c => Fin.ext (by
    match c with
    | ⟨0, _⟩ => exact (rhs_0 _ _).trans hk
    | ⟨1, _⟩ => exact rhs_1 _ _)
  rw [el, er]
  -- the transposed weights at (k, j) are the weights at (j, k)
  rw [transpose_apply [1, 0] wt transposes_S128x256_S256x128_1_0 (ix2 k j) (ix2 j k) (fun c => match c with
    | ⟨0, _⟩ => rfl
    | ⟨1, _⟩ => rfl)]
  refine congrArg (· * wt (ix2 j k)) ?_
  unfold side
  by_cases hlt : k.val < 128
  · rw [dif_pos hlt, ← flat_at a b ⟨k.val, hlt⟩]
    exact concatenate_pair_apply_left 1 _ _ concatenates_S4x128_S4x128_S4x256_d1 (ix2 b k) rfl
      (ix2 b ⟨k.val, hlt⟩) (fun c => match c with
        | ⟨0, _⟩ => rfl
        | ⟨1, _⟩ => rfl)
  · rw [dif_neg hlt, ← flat_at a' b ⟨k.val - 128, by omega⟩]
    exact concatenate_pair_apply_right 1 _ _ concatenates_S4x128_S4x128_S4x256_d1 (ix2 b k) rfl rfl
      (ix2 b ⟨k.val - 128, by omega⟩) (fun c hc => match c, hc with
        | ⟨0, _⟩, _ => rfl
        | ⟨1, _⟩, hc => absurd rfl hc)
      (by show (k.val - 128) + 128 = k.val; omega)

/-! ### The four modulations of the second host stretch, from any contents of the buffers -/

theorem host1_v10_eq (W : Valuation τ sig (Elt Ideal)) :
    (StableHlo.after (hostOps1 (F := Ideal)) W (Proc.devRef .tc main_v10) : FVec Ideal S4x128x1x1 .f32)
      = modArr (W (Proc.devRef .tc main_v4_0)) (W (Proc.devRef .tc main_v4_2)) (W (Proc.devRef .tc main_arg3)) := by
  show StableHlo.after hostOps1 W (Proc.devRef .tc main_v10) = _
  after_results_simp
  rfl
theorem host1_v10 (W : Valuation τ sig (Elt Ideal)) (b : Fin 4) (j : Fin 128) :
    (StableHlo.after (hostOps1 (F := Ideal)) W (Proc.devRef .tc main_v10) : FVec Ideal S4x128x1x1 .f32) (ix4 b j 0 0)
      = modulate (wgtOf (W (Proc.devRef .tc main_arg3) : FVec Ideal S128x256 .f32))
          (statOf (W (Proc.devRef .tc main_v4_0) : FVec Ideal S4x128x1x1 .f32))
          (statOf (W (Proc.devRef .tc main_v4_2) : FVec Ideal S4x128x1x1 .f32)) b j := by
  rw [host1_v10_eq W]
  exact modulate_at _ _ _ b j

theorem host1_v16_eq (W : Valuation τ sig (Elt Ideal)) :
    (StableHlo.after (hostOps1 (F := Ideal)) W (Proc.devRef .tc main_v16) : FVec Ideal S4x128x1x1 .f32)
      = modArr (W (Proc.devRef .tc main_v4_1)) (W (Proc.devRef .tc main_v4_3)) (W (Proc.devRef .tc main_arg4)) := by
  show StableHlo.after hostOps1 W (Proc.devRef .tc main_v16) = _
  after_results_simp
  rfl
theorem host1_v16 (W : Valuation τ sig (Elt Ideal)) (b : Fin 4) (j : Fin 128) :
    (StableHlo.after (hostOps1 (F := Ideal)) W (Proc.devRef .tc main_v16) : FVec Ideal S4x128x1x1 .f32) (ix4 b j 0 0)
      = modulate (wgtOf (W (Proc.devRef .tc main_arg4) : FVec Ideal S128x256 .f32))
          (statOf (W (Proc.devRef .tc main_v4_1) : FVec Ideal S4x128x1x1 .f32))
          (statOf (W (Proc.devRef .tc main_v4_3) : FVec Ideal S4x128x1x1 .f32)) b j := by
  rw [host1_v16_eq W]
  exact modulate_at _ _ _ b j

theorem host1_v22_eq (W : Valuation τ sig (Elt Ideal)) :
    (StableHlo.after (hostOps1 (F := Ideal)) W (Proc.devRef .tc main_v22) : FVec Ideal S4x128x1x1 .f32)
      = modArr (W (Proc.devRef .tc main_v4_4)) (W (Proc.devRef .tc main_v4_6)) (W (Proc.devRef .tc main_arg5)) := by
  show StableHlo.after hostOps1 W (Proc.devRef .tc main_v22) = _
  after_results_simp
  rfl
theorem host1_v22 (W : Valuation τ sig (Elt Ideal)) (b : Fin 4) (j : Fin 128) :
    (StableHlo.after (hostOps1 (F := Ideal)) W (Proc.devRef .tc main_v22) : FVec Ideal S4x128x1x1 .f32) (ix4 b j 0 0)
      = modulate (wgtOf (W (Proc.devRef .tc main_arg5) : FVec Ideal S128x256 .f32))
          (statOf (W (Proc.devRef .tc main_v4_4) : FVec Ideal S4x128x1x1 .f32))
          (statOf (W (Proc.devRef .tc main_v4_6) : FVec Ideal S4x128x1x1 .f32)) b j := by
  rw [host1_v22_eq W]
  exact modulate_at _ _ _ b j

theorem host1_v28_eq (W : Valuation τ sig (Elt Ideal)) :
    (StableHlo.after (hostOps1 (F := Ideal)) W (Proc.devRef .tc main_v28) : FVec Ideal S4x128x1x1 .f32)
      = modArr (W (Proc.devRef .tc main_v4_5)) (W (Proc.devRef .tc main_v4_7)) (W (Proc.devRef .tc main_arg6)) := by
  show StableHlo.after hostOps1 W (Proc.devRef .tc main_v28) = _
  after_results_simp
  rfl
theorem host1_v28 (W : Valuation τ sig (Elt Ideal)) (b : Fin 4) (j : Fin 128) :
    (StableHlo.after (hostOps1 (F := Ideal)) W (Proc.devRef .tc main_v28) : FVec Ideal S4x128x1x1 .f32) (ix4 b j 0 0)
      = modulate (wgtOf (W (Proc.devRef .tc main_arg6) : FVec Ideal S128x256 .f32))
          (statOf (W (Proc.devRef .tc main_v4_5) : FVec Ideal S4x128x1x1 .f32))
          (statOf (W (Proc.devRef .tc main_v4_7) : FVec Ideal S4x128x1x1 .f32)) b j := by
  rw [host1_v28_eq W]
  exact modulate_at _ _ _ b j

/-- The first host stretch leaves the repeated mask in its last buffer. -/
theorem host0_v3 (W : Valuation τ sig (Elt Ideal))
    (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask) :
    (StableHlo.after (hostOps0 (F := Ideal)) W (Proc.devRef .tc main_v3) : FVec Ideal S4x1x256x256 .f32)
      = rep (F := Ideal) h1 h2 h3 h4 (W (Proc.devRef .tc main_arg2) : FVec Ideal S4x1x128x128 .f32) := by
  show StableHlo.after hostOps0 W (Proc.devRef .tc main_v3) = _
  after_results
  rfl

end Cert.KernelIdeal.Hand
end
-- ==== Proof.ReducePiecesA.lean ====
/-
  What each buffer of the reduction kernel holds after one grid point, read back from the writes the point's run found:
  the first grid point, where every running sum is zeroed before the block's partial sum is added, so the old value is the zero constant.

  Every buffer concerned is written once, whole, at offset zero, so reading it after the writes gives the stored value
  itself, as a term over the loaded mask block, the loaded feature blocks and the old values of the running sums.
-/
import proofs.«117659_j43542378447212_2_alg».proof.Proof.ReduceCovers
import Idealize.ShloMosaic.PureOps.Ideal.Laws
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store at offset zero covers the whole buffer. -/
theorem hz4 : (![0, 0, 0, 0] : Fin 4 → Nat) = fun _ => 0 := funext fun a => by fin_cases a <;> rfl

/-! ## The zero payloads the first grid point stores into the running sums -/

theorem k0_pay4_zero (i : S4x1x1x1.Idx) : k0_pay4 (F := Ideal) i = 0 := by
  unfold k0_pay4; rw [shapeCast_self]; exact Ideal.ofBits_zero_f32

theorem k0_pay5_zero (i : S4x1x1x1.Idx) : k0_pay5 (F := Ideal) i = 0 := by
  unfold k0_pay5; rw [shapeCast_self]; exact Ideal.ofBits_zero_f32

theorem k0_pay6_zero (i : S4x1x1x1.Idx) : k0_pay6 (F := Ideal) i = 0 := by
  unfold k0_pay6; rw [shapeCast_self]; exact Ideal.ofBits_zero_f32

theorem k0_pay7_zero (i : S4x1x1x1.Idx) : k0_pay7 (F := Ideal) i = 0 := by
  unfold k0_pay7; rw [shapeCast_self]; exact Ideal.ofBits_zero_f32

theorem k0_pay8_zero (i : S4x128x1x1.Idx) : k0_pay8 (F := Ideal) i = 0 := by
  unfold k0_pay8; rw [shapeCast_self]; exact Ideal.ofBits_zero_f32

theorem k0_pay9_zero (i : S4x128x1x1.Idx) : k0_pay9 (F := Ideal) i = 0 := by
  unfold k0_pay9; rw [shapeCast_self]; exact Ideal.ofBits_zero_f32

theorem k0_pay10_zero (i : S4x128x1x1.Idx) : k0_pay10 (F := Ideal) i = 0 := by
  unfold k0_pay10; rw [shapeCast_self]; exact Ideal.ofBits_zero_f32

theorem k0_pay11_zero (i : S4x128x1x1.Idx) : k0_pay11 (F := Ideal) i = 0 := by
  unfold k0_pay11; rw [shapeCast_self]; exact Ideal.ofBits_zero_f32

theorem k0_pay12_zero (i : S4x128x1x1.Idx) : k0_pay12 (F := Ideal) i = 0 := by
  unfold k0_pay12; rw [shapeCast_self]; exact Ideal.ofBits_zero_f32

theorem k0_pay13_zero (i : S4x128x1x1.Idx) : k0_pay13 (F := Ideal) i = 0 := by
  unfold k0_pay13; rw [shapeCast_self]; exact Ideal.ofBits_zero_f32

theorem k0_pay14_zero (i : S4x128x1x1.Idx) : k0_pay14 (F := Ideal) i = 0 := by
  unfold k0_pay14; rw [shapeCast_self]; exact Ideal.ofBits_zero_f32

theorem k0_pay15_zero (i : S4x128x1x1.Idx) : k0_pay15 (F := Ideal) i = 0 := by
  unfold k0_pay15; rw [shapeCast_self]; exact Ideal.ofBits_zero_f32

theorem k0_pay27_zero (i : S4x128x1x1.Idx) : k0_pay27 (F := Ideal) i = 0 := by
  unfold k0_pay27; rw [shapeCast_self]; exact Ideal.ofBits_zero_f32

theorem k0_pay28_zero (i : S4x128x1x1.Idx) : k0_pay28 (F := Ideal) i = 0 := by
  unfold k0_pay28; rw [shapeCast_self]; exact Ideal.ofBits_zero_f32

theorem k0_pay29_zero (i : S4x128x1x1.Idx) : k0_pay29 (F := Ideal) i = 0 := by
  unfold k0_pay29; rw [shapeCast_self]; exact Ideal.ofBits_zero_f32

theorem k0_pay30_zero (i : S4x128x1x1.Idx) : k0_pay30 (F := Ideal) i = 0 := by
  unfold k0_pay30; rw [shapeCast_self]; exact Ideal.ofBits_zero_f32

/-! ## The first grid point: the running sums start from zero -/

set_option maxHeartbeats 4000000 in
theorem sread_A_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.1) = k0_pay39 x2 (k0_pay4 (F := F)) := by
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.1) = k0_pay41 (k0_pay40 x2 (k0_pay5 (F := F))) := by
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.1) = k0_pay42 (k0_pay33 x2) (k0_pay6 (F := F)) := by
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.1) = k0_pay43 (k0_pay36 x2) (k0_pay7 (F := F)) := by
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.1) = k0_pay45 (k0_pay8 (F := F)) (k0_pay44 (k0_pay31 x2) x0) := by
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.1) = k0_pay46 (k0_pay32 x2) x0 (k0_pay9 (F := F)) := by
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.1) = k0_pay47 (k0_pay34 x2) x0 (k0_pay10 (F := F)) := by
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_7.read (Elt F) (VS0_7.writes (Elt F) VS0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.1) = k0_pay49 (k0_pay11 (F := F)) (k0_pay48 (k0_pay37 x2) x0) := by
  rw [View.read_writes_eq_canon _ _ _ (scover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_8.read (Elt F) (VS0_8.writes (Elt F) VS0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.1) = k0_pay50 (k0_pay35 x2) x0 (k0_pay12 (F := F)) := by
  rw [View.read_writes_eq_canon _ _ _ (scover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_9.read (Elt F) (VS0_9.writes (Elt F) VS0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.1) = k0_pay51 (k0_pay38 x2) x0 (k0_pay13 (F := F)) := by
  rw [View.read_writes_eq_canon _ _ _ (scover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_10.read (Elt F) (VS0_10.writes (Elt F) VS0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.1) = k0_pay52 (k0_pay31 x2) x1 (k0_pay14 (F := F)) := by
  rw [View.read_writes_eq_canon _ _ _ (scover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_11.read (Elt F) (VS0_11.writes (Elt F) VS0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.1) = k0_pay53 (k0_pay32 x2) x1 (k0_pay15 (F := F)) := by
  rw [View.read_writes_eq_canon _ _ _ (scover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_12.read (Elt F) (VS0_12.writes (Elt F) VS0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.1) = k0_pay55 (k0_pay27 (F := F)) (k0_pay54 (k0_pay34 x2) x1) := by
  rw [View.read_writes_eq_canon _ _ _ (scover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_13.read (Elt F) (VS0_13.writes (Elt F) VS0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.1) = k0_pay56 (k0_pay37 x2) x1 (k0_pay28 (F := F)) := by
  rw [View.read_writes_eq_canon _ _ _ (scover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_14.read (Elt F) (VS0_14.writes (Elt F) VS0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.1) = k0_pay57 (k0_pay35 x2) x1 (k0_pay29 (F := F)) := by
  rw [View.read_writes_eq_canon _ _ _ (scover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_A_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : cond0_0 i) (hc1 : ¬cond0_1 i)
    (x0 x1 : Vec F S4x128x16x256 .f32) (x2 : Vec F S4x1x16x256 .f32) :
    VS0_15.read (Elt F) (VS0_15.writes (Elt F) VS0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2).2.2.2.2.2.2.2.2.2.2.2.2.2.2.2.2.2.2.2.2.2.2.2.1) = k0_pay1 (k0_pay38 x2) x1 (k0_pay30 (F := F)) := by
  rw [View.read_writes_eq_canon _ _ _ (scover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2)]
  unfold kernelRun0_A
  dsimp only
  sl_unfold_words
  rw [View.canon_cons_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

end Cert.KernelIdeal.Hand

end
-- ==== Proof.ReducePiecesB.lean ====
/-
  What each buffer of the reduction kernel holds after one grid point, read back from the writes the point's run found:
  a grid point that is neither first nor last: each running sum is its old value plus the block's partial sum.

  Every buffer concerned is written once, whole, at offset zero, so reading it after the writes gives the stored value
  itself, as a term over the loaded mask block, the loaded feature blocks and the old values of the running sums.
-/
import proofs.«117659_j43542378447212_2_alg».proof.Proof.ReducePiecesA
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A middle grid point -/

set_option maxHeartbeats 4000000 in
theorem sread_B_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1) = k0_pay39 x2 xs0 := by
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1) = k0_pay41 (k0_pay40 x2 xs1) := by
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1) = k0_pay42 (k0_pay33 x2) xs2 := by
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1) = k0_pay43 (k0_pay36 x2) xs3 := by
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1) = k0_pay45 xs4 (k0_pay44 (k0_pay31 x2) x0) := by
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1) = k0_pay46 (k0_pay32 x2) x0 xs5 := by
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1) = k0_pay47 (k0_pay34 x2) x0 xs6 := by
  rw [View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_7.read (Elt F) (VS0_7.writes (Elt F) VS0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1) = k0_pay49 xs7 (k0_pay48 (k0_pay37 x2) x0) := by
  rw [View.read_writes_eq_canon _ _ _ (scover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_8.read (Elt F) (VS0_8.writes (Elt F) VS0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1) = k0_pay50 (k0_pay35 x2) x0 xs8 := by
  rw [View.read_writes_eq_canon _ _ _ (scover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_9.read (Elt F) (VS0_9.writes (Elt F) VS0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1) = k0_pay51 (k0_pay38 x2) x0 xs9 := by
  rw [View.read_writes_eq_canon _ _ _ (scover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_10.read (Elt F) (VS0_10.writes (Elt F) VS0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1) = k0_pay52 (k0_pay31 x2) x1 xs10 := by
  rw [View.read_writes_eq_canon _ _ _ (scover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_11.read (Elt F) (VS0_11.writes (Elt F) VS0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1) = k0_pay53 (k0_pay32 x2) x1 xs11 := by
  rw [View.read_writes_eq_canon _ _ _ (scover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_12.read (Elt F) (VS0_12.writes (Elt F) VS0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1) = k0_pay55 xs12 (k0_pay54 (k0_pay34 x2) x1) := by
  rw [View.read_writes_eq_canon _ _ _ (scover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_13.read (Elt F) (VS0_13.writes (Elt F) VS0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1) = k0_pay56 (k0_pay37 x2) x1 xs13 := by
  rw [View.read_writes_eq_canon _ _ _ (scover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_14.read (Elt F) (VS0_14.writes (Elt F) VS0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1) = k0_pay57 (k0_pay35 x2) x1 xs14 := by
  rw [View.read_writes_eq_canon _ _ _ (scover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_B_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : ¬cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_15.read (Elt F) (VS0_15.writes (Elt F) VS0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1) = k0_pay1 (k0_pay38 x2) x1 xs15 := by
  rw [View.read_writes_eq_canon _ _ _ (scover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_B
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

end Cert.KernelIdeal.Hand

end
-- ==== Proof.ReducePiecesC.lean ====
/-
  What each buffer of the reduction kernel holds after one grid point, read back from the writes the point's run found:
  the last grid point: the running sums as at a middle point, and the eight statistics outputs computed from the sums as just updated.

  Every buffer concerned is written once, whole, at offset zero, so reading it after the writes gives the stored value
  itself, as a term over the loaded mask block, the loaded feature blocks and the old values of the running sums.
-/
import proofs.«117659_j43542378447212_2_alg».proof.Proof.ReducePiecesA
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The last grid point: the running sums, then the statistics computed from them -/

set_option maxHeartbeats 4000000 in
theorem sread_C_0 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.1) = k0_pay39 x2 xs0 := by
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_1 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.1) = k0_pay41 (k0_pay40 x2 xs1) := by
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_2 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.1) = k0_pay42 (k0_pay33 x2) xs2 := by
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.1) = k0_pay43 (k0_pay36 x2) xs3 := by
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.1) = k0_pay45 xs4 (k0_pay44 (k0_pay31 x2) x0) := by
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.1) = k0_pay46 (k0_pay32 x2) x0 xs5 := by
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.1) = k0_pay47 (k0_pay34 x2) x0 xs6 := by
  rw [View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_7.read (Elt F) (VS0_7.writes (Elt F) VS0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.1) = k0_pay49 xs7 (k0_pay48 (k0_pay37 x2) x0) := by
  rw [View.read_writes_eq_canon _ _ _ (scover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_8.read (Elt F) (VS0_8.writes (Elt F) VS0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.1) = k0_pay50 (k0_pay35 x2) x0 xs8 := by
  rw [View.read_writes_eq_canon _ _ _ (scover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_9.read (Elt F) (VS0_9.writes (Elt F) VS0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.1) = k0_pay51 (k0_pay38 x2) x0 xs9 := by
  rw [View.read_writes_eq_canon _ _ _ (scover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_10.read (Elt F) (VS0_10.writes (Elt F) VS0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.1) = k0_pay52 (k0_pay31 x2) x1 xs10 := by
  rw [View.read_writes_eq_canon _ _ _ (scover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_11 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_11.read (Elt F) (VS0_11.writes (Elt F) VS0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.1) = k0_pay53 (k0_pay32 x2) x1 xs11 := by
  rw [View.read_writes_eq_canon _ _ _ (scover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_12 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_12.read (Elt F) (VS0_12.writes (Elt F) VS0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.1) = k0_pay55 xs12 (k0_pay54 (k0_pay34 x2) x1) := by
  rw [View.read_writes_eq_canon _ _ _ (scover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_13 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_13.read (Elt F) (VS0_13.writes (Elt F) VS0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.1) = k0_pay56 (k0_pay37 x2) x1 xs13 := by
  rw [View.read_writes_eq_canon _ _ _ (scover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_14 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_14.read (Elt F) (VS0_14.writes (Elt F) VS0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.1) = k0_pay57 (k0_pay35 x2) x1 xs14 := by
  rw [View.read_writes_eq_canon _ _ _ (scover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem sread_C_15 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VS0_15.read (Elt F) (VS0_15.writes (Elt F) VS0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.2.2.2.2.2.2.2.2.2.2.2.2.2.2.2.2.1) = k0_pay1 (k0_pay38 x2) x1 xs15 := by
  rw [View.read_writes_eq_canon _ _ _ (scover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_3 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_3.read (Elt F) (VO0_3.writes (Elt F) VO0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).1) = k0_pay18 (k0_pay39 x2 xs0) (k0_pay45 xs4 (k0_pay44 (k0_pay31 x2) x0)) := by
  rw [View.read_writes_eq_canon _ _ _ (cover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_4 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.1) = k0_pay21 (k0_pay20 (k0_pay39 x2 xs0) (k0_pay45 xs4 (k0_pay44 (k0_pay31 x2) x0)) (k0_pay50 (k0_pay35 x2) x0 xs8) (k0_pay47 (k0_pay34 x2) x0 xs6) (k0_pay42 (k0_pay33 x2) xs2)) := by
  rw [View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_5 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.1) = k0_pay23 (k0_pay16 (k0_pay39 x2 xs0)) (k0_pay52 (k0_pay31 x2) x1 xs10) := by
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_6 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.1) = k0_pay2 (k0_pay25 (k0_pay16 (k0_pay39 x2 xs0)) (k0_pay23 (k0_pay16 (k0_pay39 x2 xs0)) (k0_pay52 (k0_pay31 x2) x1 xs10)) (k0_pay57 (k0_pay35 x2) x1 xs14) (k0_pay55 xs12 (k0_pay54 (k0_pay34 x2) x1)) (k0_pay42 (k0_pay33 x2) xs2)) := by
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_7 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.1) = k0_pay19 (k0_pay41 (k0_pay40 x2 xs1)) (k0_pay46 (k0_pay32 x2) x0 xs5) := by
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_8 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.1) = k0_pay22 (k0_pay17 (k0_pay41 (k0_pay40 x2 xs1))) (k0_pay19 (k0_pay41 (k0_pay40 x2 xs1)) (k0_pay46 (k0_pay32 x2) x0 xs5)) (k0_pay51 (k0_pay38 x2) x0 xs9) (k0_pay49 xs7 (k0_pay48 (k0_pay37 x2) x0)) (k0_pay43 (k0_pay36 x2) xs3) := by
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_9 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.1) = k0_pay24 (k0_pay17 (k0_pay41 (k0_pay40 x2 xs1))) (k0_pay53 (k0_pay32 x2) x1 xs11) := by
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

set_option maxHeartbeats 4000000 in
theorem oread_C_10 (c : Dev nD) (i : grid0.Coords) (arg1 : Memref sig .tc .vmem S4x128x16x256 .f32) (harg1 : arg1.IsWhole) (arg2 : Memref sig .tc .vmem S4x128x16x256 .f32) (harg2 : arg2.IsWhole) (arg3 : Memref sig .tc .vmem S4x1x16x256 .f32) (harg3 : arg3.IsWhole) (arg4 : Memref sig .tc .vmem S4x128x1x1 .f32) (harg4 : arg4.IsWhole) (arg5 : Memref sig .tc .vmem S4x128x1x1 .f32) (harg5 : arg5.IsWhole) (arg6 : Memref sig .tc .vmem S4x128x1x1 .f32) (harg6 : arg6.IsWhole) (arg7 : Memref sig .tc .vmem S4x128x1x1 .f32) (harg7 : arg7.IsWhole) (arg8 : Memref sig .tc .vmem S4x128x1x1 .f32) (harg8 : arg8.IsWhole) (arg9 : Memref sig .tc .vmem S4x128x1x1 .f32) (harg9 : arg9.IsWhole) (arg10 : Memref sig .tc .vmem S4x128x1x1 .f32) (harg10 : arg10.IsWhole) (arg11 : Memref sig .tc .vmem S4x128x1x1 .f32) (harg11 : arg11.IsWhole) (arg12 : Memref sig .tc .vmem S4x1x1x1 .f32) (harg12 : arg12.IsWhole) (arg13 : Memref sig .tc .vmem S4x1x1x1 .f32) (harg13 : arg13.IsWhole) (arg14 : Memref sig .tc .vmem S4x1x1x1 .f32) (harg14 : arg14.IsWhole) (arg15 : Memref sig .tc .vmem S4x1x1x1 .f32) (harg15 : arg15.IsWhole) (arg16 : Memref sig .tc .vmem S4x128x1x1 .f32) (harg16 : arg16.IsWhole) (arg17 : Memref sig .tc .vmem S4x128x1x1 .f32) (harg17 : arg17.IsWhole) (arg18 : Memref sig .tc .vmem S4x128x1x1 .f32) (harg18 : arg18.IsWhole) (arg19 : Memref sig .tc .vmem S4x128x1x1 .f32) (harg19 : arg19.IsWhole) (arg20 : Memref sig .tc .vmem S4x128x1x1 .f32) (harg20 : arg20.IsWhole) (arg21 : Memref sig .tc .vmem S4x128x1x1 .f32) (harg21 : arg21.IsWhole) (arg22 : Memref sig .tc .vmem S4x128x1x1 .f32) (harg22 : arg22.IsWhole) (arg23 : Memref sig .tc .vmem S4x128x1x1 .f32) (harg23 : arg23.IsWhole) (arg24 : Memref sig .tc .vmem S4x128x1x1 .f32) (harg24 : arg24.IsWhole) (arg25 : Memref sig .tc .vmem S4x128x1x1 .f32) (harg25 : arg25.IsWhole) (arg26 : Memref sig .tc .vmem S4x128x1x1 .f32) (harg26 : arg26.IsWhole) (arg27 : Memref sig .tc .vmem S4x128x1x1 .f32) (harg27 : arg27.IsWhole) (hc0 : ¬cond0_0 i) (hc1 : cond0_1 i)
    (x0 x1 : Vec F S4x128x16x256 .f32) (x2 : Vec F S4x1x16x256 .f32) (xs0 : Vec F S4x1x1x1 .f32) (xs1 : Vec F S4x1x1x1 .f32) (xs2 : Vec F S4x1x1x1 .f32) (xs3 : Vec F S4x1x1x1 .f32) (xs4 : Vec F S4x128x1x1 .f32) (xs5 : Vec F S4x128x1x1 .f32) (xs6 : Vec F S4x128x1x1 .f32) (xs7 : Vec F S4x128x1x1 .f32) (xs8 : Vec F S4x128x1x1 .f32) (xs9 : Vec F S4x128x1x1 .f32) (xs10 : Vec F S4x128x1x1 .f32) (xs11 : Vec F S4x128x1x1 .f32) (xs12 : Vec F S4x128x1x1 .f32) (xs13 : Vec F S4x128x1x1 .f32) (xs14 : Vec F S4x128x1x1 .f32) (xs15 : Vec F S4x128x1x1 .f32) :
    VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15).2.2.2.2.2.2.2.1) = k0_pay3 (k0_pay26 (k0_pay17 (k0_pay41 (k0_pay40 x2 xs1))) (k0_pay53 (k0_pay32 x2) x1 xs11) (k0_pay1 (k0_pay38 x2) x1 xs15) (k0_pay56 (k0_pay37 x2) x1 xs13) (k0_pay43 (k0_pay36 x2) xs3)) := by
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 xs0 xs1 xs2 xs3 xs4 xs5 xs6 xs7 xs8 xs9 xs10 xs11 xs12 xs13 xs14 xs15)]
  unfold kernelRun0_C
  dsimp only
  sl_unfold_words
  rw [View.canon_unit_zero hz4]
  simp only [View.readCov_unit_zero (S := S4x1x1x1) _ hz4, View.readCov_unit_zero (S := S4x128x1x1) _ hz4, View.readAt_eq_ld, harg1.read_unread, harg2.read_unread, harg3.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S4x128x16x256) hz4, View.ld_unit_zero (S := S4x1x16x256) hz4, View.ld_unit_zero (S := S4x1x1x1) hz4, View.ld_unit_zero (S := S4x128x1x1) hz4]

end Cert.KernelIdeal.Hand

end
-- ==== Proof.ReducePieces.lean ====
/-
  What each buffer of the reduction kernel holds after one grid point — first, middle and last — gathered from the three
  modules that read the buffers back.
-/
import proofs.«117659_j43542378447212_2_alg».proof.Proof.ReducePiecesA
import proofs.«117659_j43542378447212_2_alg».proof.Proof.ReducePiecesB
import proofs.«117659_j43542378447212_2_alg».proof.Proof.ReducePiecesC
-- ==== Proof.ReducePointsA.lean ====
/-
  The sixteen running sums after the first grid point of the reduction, as the stored terms over the point's three blocks
  and the zero splats the sums are started with.
-/
import proofs.«117659_j43542378447212_2_alg».proof.Proof.ReduceRegion
import proofs.«117659_j43542378447212_2_alg».proof.Proof.ReducePieces

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- Running sum 0 after a first point. -/
theorem ptA_s0 (c : Dev nD) (t : Fin cfg0.N) (hc0 : cond0_0 (grid0.coords t)) (hc1 : ¬cond0_1 (grid0.coords t)) :
    (ptA V c t hc0 hc1).s0 = k0_pay39 (iblk0 V c 2 t) (k0_pay4 (F := Ideal)) :=
  sread_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 1 after a first point. -/
theorem ptA_s1 (c : Dev nD) (t : Fin cfg0.N) (hc0 : cond0_0 (grid0.coords t)) (hc1 : ¬cond0_1 (grid0.coords t)) :
    (ptA V c t hc0 hc1).s1 = k0_pay41 (k0_pay40 (iblk0 V c 2 t) (k0_pay5 (F := Ideal))) :=
  sread_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 2 after a first point. -/
theorem ptA_s2 (c : Dev nD) (t : Fin cfg0.N) (hc0 : cond0_0 (grid0.coords t)) (hc1 : ¬cond0_1 (grid0.coords t)) :
    (ptA V c t hc0 hc1).s2 = k0_pay42 (k0_pay33 (iblk0 V c 2 t)) (k0_pay6 (F := Ideal)) :=
  sread_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 3 after a first point. -/
theorem ptA_s3 (c : Dev nD) (t : Fin cfg0.N) (hc0 : cond0_0 (grid0.coords t)) (hc1 : ¬cond0_1 (grid0.coords t)) :
    (ptA V c t hc0 hc1).s3 = k0_pay43 (k0_pay36 (iblk0 V c 2 t)) (k0_pay7 (F := Ideal)) :=
  sread_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 4 after a first point. -/
theorem ptA_s4 (c : Dev nD) (t : Fin cfg0.N) (hc0 : cond0_0 (grid0.coords t)) (hc1 : ¬cond0_1 (grid0.coords t)) :
    (ptA V c t hc0 hc1).s4 = k0_pay45 (k0_pay8 (F := Ideal)) (k0_pay44 (k0_pay31 (iblk0 V c 2 t)) (iblk0 V c 0 t)) :=
  sread_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 5 after a first point. -/
theorem ptA_s5 (c : Dev nD) (t : Fin cfg0.N) (hc0 : cond0_0 (grid0.coords t)) (hc1 : ¬cond0_1 (grid0.coords t)) :
    (ptA V c t hc0 hc1).s5 = k0_pay46 (k0_pay32 (iblk0 V c 2 t)) (iblk0 V c 0 t) (k0_pay9 (F := Ideal)) :=
  sread_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 6 after a first point. -/
theorem ptA_s6 (c : Dev nD) (t : Fin cfg0.N) (hc0 : cond0_0 (grid0.coords t)) (hc1 : ¬cond0_1 (grid0.coords t)) :
    (ptA V c t hc0 hc1).s6 = k0_pay47 (k0_pay34 (iblk0 V c 2 t)) (iblk0 V c 0 t) (k0_pay10 (F := Ideal)) :=
  sread_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 7 after a first point. -/
theorem ptA_s7 (c : Dev nD) (t : Fin cfg0.N) (hc0 : cond0_0 (grid0.coords t)) (hc1 : ¬cond0_1 (grid0.coords t)) :
    (ptA V c t hc0 hc1).s7 = k0_pay49 (k0_pay11 (F := Ideal)) (k0_pay48 (k0_pay37 (iblk0 V c 2 t)) (iblk0 V c 0 t)) :=
  sread_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 8 after a first point. -/
theorem ptA_s8 (c : Dev nD) (t : Fin cfg0.N) (hc0 : cond0_0 (grid0.coords t)) (hc1 : ¬cond0_1 (grid0.coords t)) :
    (ptA V c t hc0 hc1).s8 = k0_pay50 (k0_pay35 (iblk0 V c 2 t)) (iblk0 V c 0 t) (k0_pay12 (F := Ideal)) :=
  sread_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 9 after a first point. -/
theorem ptA_s9 (c : Dev nD) (t : Fin cfg0.N) (hc0 : cond0_0 (grid0.coords t)) (hc1 : ¬cond0_1 (grid0.coords t)) :
    (ptA V c t hc0 hc1).s9 = k0_pay51 (k0_pay38 (iblk0 V c 2 t)) (iblk0 V c 0 t) (k0_pay13 (F := Ideal)) :=
  sread_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 10 after a first point. -/
theorem ptA_s10 (c : Dev nD) (t : Fin cfg0.N) (hc0 : cond0_0 (grid0.coords t)) (hc1 : ¬cond0_1 (grid0.coords t)) :
    (ptA V c t hc0 hc1).s10 = k0_pay52 (k0_pay31 (iblk0 V c 2 t)) (iblk0 V c 1 t) (k0_pay14 (F := Ideal)) :=
  sread_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 11 after a first point. -/
theorem ptA_s11 (c : Dev nD) (t : Fin cfg0.N) (hc0 : cond0_0 (grid0.coords t)) (hc1 : ¬cond0_1 (grid0.coords t)) :
    (ptA V c t hc0 hc1).s11 = k0_pay53 (k0_pay32 (iblk0 V c 2 t)) (iblk0 V c 1 t) (k0_pay15 (F := Ideal)) :=
  sread_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 12 after a first point. -/
theorem ptA_s12 (c : Dev nD) (t : Fin cfg0.N) (hc0 : cond0_0 (grid0.coords t)) (hc1 : ¬cond0_1 (grid0.coords t)) :
    (ptA V c t hc0 hc1).s12 = k0_pay55 (k0_pay27 (F := Ideal)) (k0_pay54 (k0_pay34 (iblk0 V c 2 t)) (iblk0 V c 1 t)) :=
  sread_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 13 after a first point. -/
theorem ptA_s13 (c : Dev nD) (t : Fin cfg0.N) (hc0 : cond0_0 (grid0.coords t)) (hc1 : ¬cond0_1 (grid0.coords t)) :
    (ptA V c t hc0 hc1).s13 = k0_pay56 (k0_pay37 (iblk0 V c 2 t)) (iblk0 V c 1 t) (k0_pay28 (F := Ideal)) :=
  sread_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 14 after a first point. -/
theorem ptA_s14 (c : Dev nD) (t : Fin cfg0.N) (hc0 : cond0_0 (grid0.coords t)) (hc1 : ¬cond0_1 (grid0.coords t)) :
    (ptA V c t hc0 hc1).s14 = k0_pay57 (k0_pay35 (iblk0 V c 2 t)) (iblk0 V c 1 t) (k0_pay29 (F := Ideal)) :=
  sread_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

/-- Running sum 15 after a first point. -/
theorem ptA_s15 (c : Dev nD) (t : Fin cfg0.N) (hc0 : cond0_0 (grid0.coords t)) (hc1 : ¬cond0_1 (grid0.coords t)) :
    (ptA V c t hc0 hc1).s15 = k0_pay1 (k0_pay38 (iblk0 V c 2 t)) (iblk0 V c 1 t) (k0_pay30 (F := Ideal)) :=
  sread_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t)

end Cert.KernelIdeal.Hand

end
-- ==== Proof.ReducePointsB.lean ====
/-
  The sixteen running sums after a middle grid point of the reduction, as the stored terms over the point's three blocks
  and the sums the point before left.
-/
import proofs.«117659_j43542378447212_2_alg».proof.Proof.ReduceRegion
import proofs.«117659_j43542378447212_2_alg».proof.Proof.ReducePieces

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- Running sum 0 after a middle point. -/
theorem ptB_s0 (c : Dev nD) (t : Fin cfg0.N) (hc0 : ¬cond0_0 (grid0.coords t)) (hc1 : ¬cond0_1 (grid0.coords t)) (p : Pt Ideal) :
    (ptB V c t hc0 hc1 p).s0 = k0_pay39 (iblk0 V c 2 t) p.s0 :=
  sread_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 1 after a middle point. -/
theorem ptB_s1 (c : Dev nD) (t : Fin cfg0.N) (hc0 : ¬cond0_0 (grid0.coords t)) (hc1 : ¬cond0_1 (grid0.coords t)) (p : Pt Ideal) :
    (ptB V c t hc0 hc1 p).s1 = k0_pay41 (k0_pay40 (iblk0 V c 2 t) p.s1) :=
  sread_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 2 after a middle point. -/
theorem ptB_s2 (c : Dev nD) (t : Fin cfg0.N) (hc0 : ¬cond0_0 (grid0.coords t)) (hc1 : ¬cond0_1 (grid0.coords t)) (p : Pt Ideal) :
    (ptB V c t hc0 hc1 p).s2 = k0_pay42 (k0_pay33 (iblk0 V c 2 t)) p.s2 :=
  sread_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 3 after a middle point. -/
theorem ptB_s3 (c : Dev nD) (t : Fin cfg0.N) (hc0 : ¬cond0_0 (grid0.coords t)) (hc1 : ¬cond0_1 (grid0.coords t)) (p : Pt Ideal) :
    (ptB V c t hc0 hc1 p).s3 = k0_pay43 (k0_pay36 (iblk0 V c 2 t)) p.s3 :=
  sread_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 4 after a middle point. -/
theorem ptB_s4 (c : Dev nD) (t : Fin cfg0.N) (hc0 : ¬cond0_0 (grid0.coords t)) (hc1 : ¬cond0_1 (grid0.coords t)) (p : Pt Ideal) :
    (ptB V c t hc0 hc1 p).s4 = k0_pay45 p.s4 (k0_pay44 (k0_pay31 (iblk0 V c 2 t)) (iblk0 V c 0 t)) :=
  sread_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 5 after a middle point. -/
theorem ptB_s5 (c : Dev nD) (t : Fin cfg0.N) (hc0 : ¬cond0_0 (grid0.coords t)) (hc1 : ¬cond0_1 (grid0.coords t)) (p : Pt Ideal) :
    (ptB V c t hc0 hc1 p).s5 = k0_pay46 (k0_pay32 (iblk0 V c 2 t)) (iblk0 V c 0 t) p.s5 :=
  sread_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 6 after a middle point. -/
theorem ptB_s6 (c : Dev nD) (t : Fin cfg0.N) (hc0 : ¬cond0_0 (grid0.coords t)) (hc1 : ¬cond0_1 (grid0.coords t)) (p : Pt Ideal) :
    (ptB V c t hc0 hc1 p).s6 = k0_pay47 (k0_pay34 (iblk0 V c 2 t)) (iblk0 V c 0 t) p.s6 :=
  sread_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 7 after a middle point. -/
theorem ptB_s7 (c : Dev nD) (t : Fin cfg0.N) (hc0 : ¬cond0_0 (grid0.coords t)) (hc1 : ¬cond0_1 (grid0.coords t)) (p : Pt Ideal) :
    (ptB V c t hc0 hc1 p).s7 = k0_pay49 p.s7 (k0_pay48 (k0_pay37 (iblk0 V c 2 t)) (iblk0 V c 0 t)) :=
  sread_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 8 after a middle point. -/
theorem ptB_s8 (c : Dev nD) (t : Fin cfg0.N) (hc0 : ¬cond0_0 (grid0.coords t)) (hc1 : ¬cond0_1 (grid0.coords t)) (p : Pt Ideal) :
    (ptB V c t hc0 hc1 p).s8 = k0_pay50 (k0_pay35 (iblk0 V c 2 t)) (iblk0 V c 0 t) p.s8 :=
  sread_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 9 after a middle point. -/
theorem ptB_s9 (c : Dev nD) (t : Fin cfg0.N) (hc0 : ¬cond0_0 (grid0.coords t)) (hc1 : ¬cond0_1 (grid0.coords t)) (p : Pt Ideal) :
    (ptB V c t hc0 hc1 p).s9 = k0_pay51 (k0_pay38 (iblk0 V c 2 t)) (iblk0 V c 0 t) p.s9 :=
  sread_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 10 after a middle point. -/
theorem ptB_s10 (c : Dev nD) (t : Fin cfg0.N) (hc0 : ¬cond0_0 (grid0.coords t)) (hc1 : ¬cond0_1 (grid0.coords t)) (p : Pt Ideal) :
    (ptB V c t hc0 hc1 p).s10 = k0_pay52 (k0_pay31 (iblk0 V c 2 t)) (iblk0 V c 1 t) p.s10 :=
  sread_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 11 after a middle point. -/
theorem ptB_s11 (c : Dev nD) (t : Fin cfg0.N) (hc0 : ¬cond0_0 (grid0.coords t)) (hc1 : ¬cond0_1 (grid0.coords t)) (p : Pt Ideal) :
    (ptB V c t hc0 hc1 p).s11 = k0_pay53 (k0_pay32 (iblk0 V c 2 t)) (iblk0 V c 1 t) p.s11 :=
  sread_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 12 after a middle point. -/
theorem ptB_s12 (c : Dev nD) (t : Fin cfg0.N) (hc0 : ¬cond0_0 (grid0.coords t)) (hc1 : ¬cond0_1 (grid0.coords t)) (p : Pt Ideal) :
    (ptB V c t hc0 hc1 p).s12 = k0_pay55 p.s12 (k0_pay54 (k0_pay34 (iblk0 V c 2 t)) (iblk0 V c 1 t)) :=
  sread_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 13 after a middle point. -/
theorem ptB_s13 (c : Dev nD) (t : Fin cfg0.N) (hc0 : ¬cond0_0 (grid0.coords t)) (hc1 : ¬cond0_1 (grid0.coords t)) (p : Pt Ideal) :
    (ptB V c t hc0 hc1 p).s13 = k0_pay56 (k0_pay37 (iblk0 V c 2 t)) (iblk0 V c 1 t) p.s13 :=
  sread_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 14 after a middle point. -/
theorem ptB_s14 (c : Dev nD) (t : Fin cfg0.N) (hc0 : ¬cond0_0 (grid0.coords t)) (hc1 : ¬cond0_1 (grid0.coords t)) (p : Pt Ideal) :
    (ptB V c t hc0 hc1 p).s14 = k0_pay57 (k0_pay35 (iblk0 V c 2 t)) (iblk0 V c 1 t) p.s14 :=
  sread_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 15 after a middle point. -/
theorem ptB_s15 (c : Dev nD) (t : Fin cfg0.N) (hc0 : ¬cond0_0 (grid0.coords t)) (hc1 : ¬cond0_1 (grid0.coords t)) (p : Pt Ideal) :
    (ptB V c t hc0 hc1 p).s15 = k0_pay1 (k0_pay38 (iblk0 V c 2 t)) (iblk0 V c 1 t) p.s15 :=
  sread_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

end Cert.KernelIdeal.Hand

end
-- ==== Proof.ReducePointsC.lean ====
/-
  The sixteen running sums and the eight outputs after the last grid point of the reduction, as the stored terms over the
  point's three blocks and the sums the point before left; each output over the sums the same point leaves.
-/
import proofs.«117659_j43542378447212_2_alg».proof.Proof.ReduceRegion
import proofs.«117659_j43542378447212_2_alg».proof.Proof.ReducePieces

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- Running sum 0 after a last point. -/
theorem ptC_s0 (c : Dev nD) (t : Fin cfg0.N) (hc0 : ¬cond0_0 (grid0.coords t)) (hc1 : cond0_1 (grid0.coords t)) (p : Pt Ideal) :
    (ptC V c t hc0 hc1 p).s0 = k0_pay39 (iblk0 V c 2 t) p.s0 :=
  sread_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 1 after a last point. -/
theorem ptC_s1 (c : Dev nD) (t : Fin cfg0.N) (hc0 : ¬cond0_0 (grid0.coords t)) (hc1 : cond0_1 (grid0.coords t)) (p : Pt Ideal) :
    (ptC V c t hc0 hc1 p).s1 = k0_pay41 (k0_pay40 (iblk0 V c 2 t) p.s1) :=
  sread_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 2 after a last point. -/
theorem ptC_s2 (c : Dev nD) (t : Fin cfg0.N) (hc0 : ¬cond0_0 (grid0.coords t)) (hc1 : cond0_1 (grid0.coords t)) (p : Pt Ideal) :
    (ptC V c t hc0 hc1 p).s2 = k0_pay42 (k0_pay33 (iblk0 V c 2 t)) p.s2 :=
  sread_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 3 after a last point. -/
theorem ptC_s3 (c : Dev nD) (t : Fin cfg0.N) (hc0 : ¬cond0_0 (grid0.coords t)) (hc1 : cond0_1 (grid0.coords t)) (p : Pt Ideal) :
    (ptC V c t hc0 hc1 p).s3 = k0_pay43 (k0_pay36 (iblk0 V c 2 t)) p.s3 :=
  sread_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 4 after a last point. -/
theorem ptC_s4 (c : Dev nD) (t : Fin cfg0.N) (hc0 : ¬cond0_0 (grid0.coords t)) (hc1 : cond0_1 (grid0.coords t)) (p : Pt Ideal) :
    (ptC V c t hc0 hc1 p).s4 = k0_pay45 p.s4 (k0_pay44 (k0_pay31 (iblk0 V c 2 t)) (iblk0 V c 0 t)) :=
  sread_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 5 after a last point. -/
theorem ptC_s5 (c : Dev nD) (t : Fin cfg0.N) (hc0 : ¬cond0_0 (grid0.coords t)) (hc1 : cond0_1 (grid0.coords t)) (p : Pt Ideal) :
    (ptC V c t hc0 hc1 p).s5 = k0_pay46 (k0_pay32 (iblk0 V c 2 t)) (iblk0 V c 0 t) p.s5 :=
  sread_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 6 after a last point. -/
theorem ptC_s6 (c : Dev nD) (t : Fin cfg0.N) (hc0 : ¬cond0_0 (grid0.coords t)) (hc1 : cond0_1 (grid0.coords t)) (p : Pt Ideal) :
    (ptC V c t hc0 hc1 p).s6 = k0_pay47 (k0_pay34 (iblk0 V c 2 t)) (iblk0 V c 0 t) p.s6 :=
  sread_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 7 after a last point. -/
theorem ptC_s7 (c : Dev nD) (t : Fin cfg0.N) (hc0 : ¬cond0_0 (grid0.coords t)) (hc1 : cond0_1 (grid0.coords t)) (p : Pt Ideal) :
    (ptC V c t hc0 hc1 p).s7 = k0_pay49 p.s7 (k0_pay48 (k0_pay37 (iblk0 V c 2 t)) (iblk0 V c 0 t)) :=
  sread_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 8 after a last point. -/
theorem ptC_s8 (c : Dev nD) (t : Fin cfg0.N) (hc0 : ¬cond0_0 (grid0.coords t)) (hc1 : cond0_1 (grid0.coords t)) (p : Pt Ideal) :
    (ptC V c t hc0 hc1 p).s8 = k0_pay50 (k0_pay35 (iblk0 V c 2 t)) (iblk0 V c 0 t) p.s8 :=
  sread_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 9 after a last point. -/
theorem ptC_s9 (c : Dev nD) (t : Fin cfg0.N) (hc0 : ¬cond0_0 (grid0.coords t)) (hc1 : cond0_1 (grid0.coords t)) (p : Pt Ideal) :
    (ptC V c t hc0 hc1 p).s9 = k0_pay51 (k0_pay38 (iblk0 V c 2 t)) (iblk0 V c 0 t) p.s9 :=
  sread_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 10 after a last point. -/
theorem ptC_s10 (c : Dev nD) (t : Fin cfg0.N) (hc0 : ¬cond0_0 (grid0.coords t)) (hc1 : cond0_1 (grid0.coords t)) (p : Pt Ideal) :
    (ptC V c t hc0 hc1 p).s10 = k0_pay52 (k0_pay31 (iblk0 V c 2 t)) (iblk0 V c 1 t) p.s10 :=
  sread_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 11 after a last point. -/
theorem ptC_s11 (c : Dev nD) (t : Fin cfg0.N) (hc0 : ¬cond0_0 (grid0.coords t)) (hc1 : cond0_1 (grid0.coords t)) (p : Pt Ideal) :
    (ptC V c t hc0 hc1 p).s11 = k0_pay53 (k0_pay32 (iblk0 V c 2 t)) (iblk0 V c 1 t) p.s11 :=
  sread_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 12 after a last point. -/
theorem ptC_s12 (c : Dev nD) (t : Fin cfg0.N) (hc0 : ¬cond0_0 (grid0.coords t)) (hc1 : cond0_1 (grid0.coords t)) (p : Pt Ideal) :
    (ptC V c t hc0 hc1 p).s12 = k0_pay55 p.s12 (k0_pay54 (k0_pay34 (iblk0 V c 2 t)) (iblk0 V c 1 t)) :=
  sread_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 13 after a last point. -/
theorem ptC_s13 (c : Dev nD) (t : Fin cfg0.N) (hc0 : ¬cond0_0 (grid0.coords t)) (hc1 : cond0_1 (grid0.coords t)) (p : Pt Ideal) :
    (ptC V c t hc0 hc1 p).s13 = k0_pay56 (k0_pay37 (iblk0 V c 2 t)) (iblk0 V c 1 t) p.s13 :=
  sread_C_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 14 after a last point. -/
theorem ptC_s14 (c : Dev nD) (t : Fin cfg0.N) (hc0 : ¬cond0_0 (grid0.coords t)) (hc1 : cond0_1 (grid0.coords t)) (p : Pt Ideal) :
    (ptC V c t hc0 hc1 p).s14 = k0_pay57 (k0_pay35 (iblk0 V c 2 t)) (iblk0 V c 1 t) p.s14 :=
  sread_C_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Running sum 15 after a last point. -/
theorem ptC_s15 (c : Dev nD) (t : Fin cfg0.N) (hc0 : ¬cond0_0 (grid0.coords t)) (hc1 : cond0_1 (grid0.coords t)) (p : Pt Ideal) :
    (ptC V c t hc0 hc1 p).s15 = k0_pay1 (k0_pay38 (iblk0 V c 2 t)) (iblk0 V c 1 t) p.s15 :=
  sread_C_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 3 after the last point, over the running sums the same point leaves. -/
theorem ptC_o3 (c : Dev nD) (t : Fin cfg0.N) (hc0 : ¬cond0_0 (grid0.coords t)) (hc1 : cond0_1 (grid0.coords t)) (p : Pt Ideal) :
    (ptC V c t hc0 hc1 p).o3 = k0_pay18 (ptC V c t hc0 hc1 p).s0 (ptC V c t hc0 hc1 p).s4 := by
  rw [ptC_s0, ptC_s4]
  exact oread_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 4 after the last point, over the running sums the same point leaves. -/
theorem ptC_o4 (c : Dev nD) (t : Fin cfg0.N) (hc0 : ¬cond0_0 (grid0.coords t)) (hc1 : cond0_1 (grid0.coords t)) (p : Pt Ideal) :
    (ptC V c t hc0 hc1 p).o4 = k0_pay21 (k0_pay20 (ptC V c t hc0 hc1 p).s0 (ptC V c t hc0 hc1 p).s4 (ptC V c t hc0 hc1 p).s8 (ptC V c t hc0 hc1 p).s6 (ptC V c t hc0 hc1 p).s2) := by
  rw [ptC_s0, ptC_s4, ptC_s8, ptC_s6, ptC_s2]
  exact oread_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 5 after the last point, over the running sums the same point leaves. -/
theorem ptC_o5 (c : Dev nD) (t : Fin cfg0.N) (hc0 : ¬cond0_0 (grid0.coords t)) (hc1 : cond0_1 (grid0.coords t)) (p : Pt Ideal) :
    (ptC V c t hc0 hc1 p).o5 = k0_pay23 (k0_pay16 (ptC V c t hc0 hc1 p).s0) (ptC V c t hc0 hc1 p).s10 := by
  rw [ptC_s0, ptC_s10]
  exact oread_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 6 after the last point, over the running sums the same point leaves. -/
theorem ptC_o6 (c : Dev nD) (t : Fin cfg0.N) (hc0 : ¬cond0_0 (grid0.coords t)) (hc1 : cond0_1 (grid0.coords t)) (p : Pt Ideal) :
    (ptC V c t hc0 hc1 p).o6 = k0_pay2 (k0_pay25 (k0_pay16 (ptC V c t hc0 hc1 p).s0) (k0_pay23 (k0_pay16 (ptC V c t hc0 hc1 p).s0) (ptC V c t hc0 hc1 p).s10) (ptC V c t hc0 hc1 p).s14 (ptC V c t hc0 hc1 p).s12 (ptC V c t hc0 hc1 p).s2) := by
  rw [ptC_s0, ptC_s10, ptC_s14, ptC_s12, ptC_s2]
  exact oread_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 7 after the last point, over the running sums the same point leaves. -/
theorem ptC_o7 (c : Dev nD) (t : Fin cfg0.N) (hc0 : ¬cond0_0 (grid0.coords t)) (hc1 : cond0_1 (grid0.coords t)) (p : Pt Ideal) :
    (ptC V c t hc0 hc1 p).o7 = k0_pay19 (ptC V c t hc0 hc1 p).s1 (ptC V c t hc0 hc1 p).s5 := by
  rw [ptC_s1, ptC_s5]
  exact oread_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 8 after the last point, over the running sums the same point leaves. -/
theorem ptC_o8 (c : Dev nD) (t : Fin cfg0.N) (hc0 : ¬cond0_0 (grid0.coords t)) (hc1 : cond0_1 (grid0.coords t)) (p : Pt Ideal) :
    (ptC V c t hc0 hc1 p).o8 = k0_pay22 (k0_pay17 (ptC V c t hc0 hc1 p).s1) (k0_pay19 (ptC V c t hc0 hc1 p).s1 (ptC V c t hc0 hc1 p).s5) (ptC V c t hc0 hc1 p).s9 (ptC V c t hc0 hc1 p).s7 (ptC V c t hc0 hc1 p).s3 := by
  rw [ptC_s1, ptC_s5, ptC_s9, ptC_s7, ptC_s3]
  exact oread_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 9 after the last point, over the running sums the same point leaves. -/
theorem ptC_o9 (c : Dev nD) (t : Fin cfg0.N) (hc0 : ¬cond0_0 (grid0.coords t)) (hc1 : cond0_1 (grid0.coords t)) (p : Pt Ideal) :
    (ptC V c t hc0 hc1 p).o9 = k0_pay24 (k0_pay17 (ptC V c t hc0 hc1 p).s1) (ptC V c t hc0 hc1 p).s11 := by
  rw [ptC_s1, ptC_s11]
  exact oread_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

/-- Output 10 after the last point, over the running sums the same point leaves. -/
theorem ptC_o10 (c : Dev nD) (t : Fin cfg0.N) (hc0 : ¬cond0_0 (grid0.coords t)) (hc1 : cond0_1 (grid0.coords t)) (p : Pt Ideal) :
    (ptC V c t hc0 hc1 p).o10 = k0_pay3 (k0_pay26 (k0_pay17 (ptC V c t hc0 hc1 p).s1) (ptC V c t hc0 hc1 p).s11 (ptC V c t hc0 hc1 p).s15 (ptC V c t hc0 hc1 p).s13 (ptC V c t hc0 hc1 p).s3) := by
  rw [ptC_s1, ptC_s11, ptC_s15, ptC_s13, ptC_s3]
  exact oread_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) hc0 hc1 (iblk0 V c 0 t) (iblk0 V c 1 t) (iblk0 V c 2 t) p.s0 p.s1 p.s2 p.s3 p.s4 p.s5 p.s6 p.s7 p.s8 p.s9 p.s10 p.s11 p.s12 p.s13 p.s14 p.s15

end Cert.KernelIdeal.Hand

end
-- ==== Proof.ReduceFlush.lean ====
/-
  The reduction region's eight statistics arrays after the region: each output window is written back at the last grid
  point only, its block is the whole array, and so the array ends holding what the body leaves in the window's staging
  buffer at the last point.
-/
import proofs.«117659_j43542378447212_2_alg».proof.Proof.ReduceRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The output windows' index maps, decided over the grid -/

/-- Every output window's block index is zero on every axis at every point: its one block is its whole array. -/
theorem idx_facts0_out : ∀ t : Fin cfg0.N,
    (win0_3.index t (0 : Fin 4) = 0 ∧ win0_3.index t (1 : Fin 4) = 0 ∧ win0_3.index t (2 : Fin 4) = 0 ∧ win0_3.index t (3 : Fin 4) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 4) = 0 ∧ win0_5.index t (1 : Fin 4) = 0 ∧ win0_5.index t (2 : Fin 4) = 0 ∧ win0_5.index t (3 : Fin 4) = 0)
    ∧ (win0_6.index t (0 : Fin 4) = 0 ∧ win0_6.index t (1 : Fin 4) = 0 ∧ win0_6.index t (2 : Fin 4) = 0 ∧ win0_6.index t (3 : Fin 4) = 0)
    ∧ (win0_7.index t (0 : Fin 4) = 0 ∧ win0_7.index t (1 : Fin 4) = 0 ∧ win0_7.index t (2 : Fin 4) = 0 ∧ win0_7.index t (3 : Fin 4) = 0)
    ∧ (win0_8.index t (0 : Fin 4) = 0 ∧ win0_8.index t (1 : Fin 4) = 0 ∧ win0_8.index t (2 : Fin 4) = 0 ∧ win0_8.index t (3 : Fin 4) = 0)
    ∧ (win0_9.index t (0 : Fin 4) = 0 ∧ win0_9.index t (1 : Fin 4) = 0 ∧ win0_9.index t (2 : Fin 4) = 0 ∧ win0_9.index t (3 : Fin 4) = 0)
    ∧ (win0_10.index t (0 : Fin 4) = 0 ∧ win0_10.index t (1 : Fin 4) = 0 ∧ win0_10.index t (2 : Fin 4) = 0 ∧ win0_10.index t (3 : Fin 4) = 0) :=
  (by decide +kernel : ∀ t : Fin grid0.N, _)

theorem reduce_point_lt (t : Fin cfg0.N) : t.val < 16 := lt_of_lt_of_eq t.isLt N_0

/-- The last grid point's position is below the number of points. -/
theorem h15 : 15 < cfg0.N := by rw [show cfg0.N = 16 from N_0]; decide

variable (V : (c : Dev nD) → (b : Ref sig .tc) → Buf (Elt F) ((c : Thread nD τ).loc b))

/-! ## Output window 3 (`main_v4_0`) -/

/-- The one write-back, at the last point, writes what the body leaves there: block 0 of the array is the array. -/
theorem flushed0_3_eq (c : Dev nD) (t : Fin cfg0.N) (hf : (cfg0.win 3).flush t = true) :
    (dat0 V c).flushed 3 t = ((cfg0.win 3).blk t).view.read (Elt F) ((outsAt0 V c 15 h15).o3) := by
  have h1 : t.val = 15 := by have := (flush0_3 t).mp hf; have := reduce_point_lt t; omega
  obtain rfl : t = t0_15 := Fin.ext h1
  obtain ⟨⟨e0, e1, e2, e3⟩, -⟩ := idx_facts0_out t0_15
  show (cfg0.win 3).cut (grid0.coords t0_15) ((dat0 V c).after 3 t0_15) = _
  rw [after0_3]
  funext j
  rw [View.read_apply]
  show (outsAt0 V c 15 h15).o3 j = (outsAt0 V c 15 h15).o3 _
  congr 1
  funext a
  apply Fin.ext
  match a with
  | ⟨0, _⟩ => show (j 0).val = win0_3.index t0_15 (0 : Fin 4) * 4 + 1 * (j 0).val; rw [e0]; omega
  | ⟨1, _⟩ => show (j 1).val = win0_3.index t0_15 (1 : Fin 4) * 128 + 1 * (j 1).val; rw [e1]; omega
  | ⟨2, _⟩ => show (j 2).val = win0_3.index t0_15 (2 : Fin 4) * 1 + 1 * (j 2).val; rw [e2]; omega
  | ⟨3, _⟩ => show (j 3).val = win0_3.index t0_15 (3 : Fin 4) * 1 + 1 * (j 3).val; rw [e3]; omega

/-- Every index of the array is in the last point's block. -/
theorem covered0_3 (i : S4x128x1x1.Idx) :
    ∃ t : Fin cfg0.N, (cfg0.win 3).flush t = true ∧ i ∈ ((cfg0.win 3).blk t).view.set := by
  obtain ⟨⟨e0, e1, e2, e3⟩, -⟩ := idx_facts0_out t0_15
  refine ⟨t0_15, (flush0_3 t0_15).mpr rfl, ?_⟩
  show i ∈ ((View.whole main_v4_0).slice (win0_3.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_3.index t0_15 (0 : Fin 4) * 4 ≤ (i 0).val ∧ (i 0).val < win0_3.index t0_15 (0 : Fin 4) * 4 + 4; rw [e0]; omega
  | ⟨1, _⟩ => show win0_3.index t0_15 (1 : Fin 4) * 128 ≤ (i 1).val ∧ (i 1).val < win0_3.index t0_15 (1 : Fin 4) * 128 + 128; rw [e1]; omega
  | ⟨2, _⟩ => show win0_3.index t0_15 (2 : Fin 4) * 1 ≤ (i 2).val ∧ (i 2).val < win0_3.index t0_15 (2 : Fin 4) * 1 + 1; rw [e2]; omega
  | ⟨3, _⟩ => show win0_3.index t0_15 (3 : Fin 4) * 1 ≤ (i 3).val ∧ (i 3).val < win0_3.index t0_15 (3 : Fin 4) * 1 + 1; rw [e3]; omega

/-- The array after the region is what the body leaves in the window's buffer at the last point. -/
theorem arrAt0_3 (c : Dev nD) : (dat0 V c).arrAt 3 cfg0.N = (outsAt0 V c 15 h15).o3 :=
  (dat0 V c).arrAt_eq_of_cover 3 ((outsAt0 V c 15 h15).o3) (flushed0_3_eq V c) covered0_3

/-! ## Output window 4 (`main_v4_1`) -/

/-- The one write-back, at the last point, writes what the body leaves there: block 0 of the array is the array. -/
theorem flushed0_4_eq (c : Dev nD) (t : Fin cfg0.N) (hf : (cfg0.win 4).flush t = true) :
    (dat0 V c).flushed 4 t = ((cfg0.win 4).blk t).view.read (Elt F) ((outsAt0 V c 15 h15).o4) := by
  have h1 : t.val = 15 := by have := (flush0_4 t).mp hf; have := reduce_point_lt t; omega
  obtain rfl : t = t0_15 := Fin.ext h1
  obtain ⟨-, ⟨e0, e1, e2, e3⟩, -⟩ := idx_facts0_out t0_15
  show (cfg0.win 4).cut (grid0.coords t0_15) ((dat0 V c).after 4 t0_15) = _
  rw [after0_4]
  funext j
  rw [View.read_apply]
  show (outsAt0 V c 15 h15).o4 j = (outsAt0 V c 15 h15).o4 _
  congr 1
  funext a
  apply Fin.ext
  match a with
  | ⟨0, _⟩ => show (j 0).val = win0_4.index t0_15 (0 : Fin 4) * 4 + 1 * (j 0).val; rw [e0]; omega
  | ⟨1, _⟩ => show (j 1).val = win0_4.index t0_15 (1 : Fin 4) * 128 + 1 * (j 1).val; rw [e1]; omega
  | ⟨2, _⟩ => show (j 2).val = win0_4.index t0_15 (2 : Fin 4) * 1 + 1 * (j 2).val; rw [e2]; omega
  | ⟨3, _⟩ => show (j 3).val = win0_4.index t0_15 (3 : Fin 4) * 1 + 1 * (j 3).val; rw [e3]; omega

/-- Every index of the array is in the last point's block. -/
theorem covered0_4 (i : S4x128x1x1.Idx) :
    ∃ t : Fin cfg0.N, (cfg0.win 4).flush t = true ∧ i ∈ ((cfg0.win 4).blk t).view.set := by
  obtain ⟨-, ⟨e0, e1, e2, e3⟩, -⟩ := idx_facts0_out t0_15
  refine ⟨t0_15, (flush0_4 t0_15).mpr rfl, ?_⟩
  show i ∈ ((View.whole main_v4_1).slice (win0_4.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_4.index t0_15 (0 : Fin 4) * 4 ≤ (i 0).val ∧ (i 0).val < win0_4.index t0_15 (0 : Fin 4) * 4 + 4; rw [e0]; omega
  | ⟨1, _⟩ => show win0_4.index t0_15 (1 : Fin 4) * 128 ≤ (i 1).val ∧ (i 1).val < win0_4.index t0_15 (1 : Fin 4) * 128 + 128; rw [e1]; omega
  | ⟨2, _⟩ => show win0_4.index t0_15 (2 : Fin 4) * 1 ≤ (i 2).val ∧ (i 2).val < win0_4.index t0_15 (2 : Fin 4) * 1 + 1; rw [e2]; omega
  | ⟨3, _⟩ => show win0_4.index t0_15 (3 : Fin 4) * 1 ≤ (i 3).val ∧ (i 3).val < win0_4.index t0_15 (3 : Fin 4) * 1 + 1; rw [e3]; omega

/-- The array after the region is what the body leaves in the window's buffer at the last point. -/
theorem arrAt0_4 (c : Dev nD) : (dat0 V c).arrAt 4 cfg0.N = (outsAt0 V c 15 h15).o4 :=
  (dat0 V c).arrAt_eq_of_cover 4 ((outsAt0 V c 15 h15).o4) (flushed0_4_eq V c) covered0_4

/-! ## Output window 5 (`main_v4_2`) -/

/-- The one write-back, at the last point, writes what the body leaves there: block 0 of the array is the array. -/
theorem flushed0_5_eq (c : Dev nD) (t : Fin cfg0.N) (hf : (cfg0.win 5).flush t = true) :
    (dat0 V c).flushed 5 t = ((cfg0.win 5).blk t).view.read (Elt F) ((outsAt0 V c 15 h15).o5) := by
  have h1 : t.val = 15 := by have := (flush0_5 t).mp hf; have := reduce_point_lt t; omega
  obtain rfl : t = t0_15 := Fin.ext h1
  obtain ⟨-, -, ⟨e0, e1, e2, e3⟩, -⟩ := idx_facts0_out t0_15
  show (cfg0.win 5).cut (grid0.coords t0_15) ((dat0 V c).after 5 t0_15) = _
  rw [after0_5]
  funext j
  rw [View.read_apply]
  show (outsAt0 V c 15 h15).o5 j = (outsAt0 V c 15 h15).o5 _
  congr 1
  funext a
  apply Fin.ext
  match a with
  | ⟨0, _⟩ => show (j 0).val = win0_5.index t0_15 (0 : Fin 4) * 4 + 1 * (j 0).val; rw [e0]; omega
  | ⟨1, _⟩ => show (j 1).val = win0_5.index t0_15 (1 : Fin 4) * 128 + 1 * (j 1).val; rw [e1]; omega
  | ⟨2, _⟩ => show (j 2).val = win0_5.index t0_15 (2 : Fin 4) * 1 + 1 * (j 2).val; rw [e2]; omega
  | ⟨3, _⟩ => show (j 3).val = win0_5.index t0_15 (3 : Fin 4) * 1 + 1 * (j 3).val; rw [e3]; omega

/-- Every index of the array is in the last point's block. -/
theorem covered0_5 (i : S4x128x1x1.Idx) :
    ∃ t : Fin cfg0.N, (cfg0.win 5).flush t = true ∧ i ∈ ((cfg0.win 5).blk t).view.set := by
  obtain ⟨-, -, ⟨e0, e1, e2, e3⟩, -⟩ := idx_facts0_out t0_15
  refine ⟨t0_15, (flush0_5 t0_15).mpr rfl, ?_⟩
  show i ∈ ((View.whole main_v4_2).slice (win0_5.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_5.index t0_15 (0 : Fin 4) * 4 ≤ (i 0).val ∧ (i 0).val < win0_5.index t0_15 (0 : Fin 4) * 4 + 4; rw [e0]; omega
  | ⟨1, _⟩ => show win0_5.index t0_15 (1 : Fin 4) * 128 ≤ (i 1).val ∧ (i 1).val < win0_5.index t0_15 (1 : Fin 4) * 128 + 128; rw [e1]; omega
  | ⟨2, _⟩ => show win0_5.index t0_15 (2 : Fin 4) * 1 ≤ (i 2).val ∧ (i 2).val < win0_5.index t0_15 (2 : Fin 4) * 1 + 1; rw [e2]; omega
  | ⟨3, _⟩ => show win0_5.index t0_15 (3 : Fin 4) * 1 ≤ (i 3).val ∧ (i 3).val < win0_5.index t0_15 (3 : Fin 4) * 1 + 1; rw [e3]; omega

/-- The array after the region is what the body leaves in the window's buffer at the last point. -/
theorem arrAt0_5 (c : Dev nD) : (dat0 V c).arrAt 5 cfg0.N = (outsAt0 V c 15 h15).o5 :=
  (dat0 V c).arrAt_eq_of_cover 5 ((outsAt0 V c 15 h15).o5) (flushed0_5_eq V c) covered0_5

/-! ## Output window 6 (`main_v4_3`) -/

/-- The one write-back, at the last point, writes what the body leaves there: block 0 of the array is the array. -/
theorem flushed0_6_eq (c : Dev nD) (t : Fin cfg0.N) (hf : (cfg0.win 6).flush t = true) :
    (dat0 V c).flushed 6 t = ((cfg0.win 6).blk t).view.read (Elt F) ((outsAt0 V c 15 h15).o6) := by
  have h1 : t.val = 15 := by have := (flush0_6 t).mp hf; have := reduce_point_lt t; omega
  obtain rfl : t = t0_15 := Fin.ext h1
  obtain ⟨-, -, -, ⟨e0, e1, e2, e3⟩, -⟩ := idx_facts0_out t0_15
  show (cfg0.win 6).cut (grid0.coords t0_15) ((dat0 V c).after 6 t0_15) = _
  rw [after0_6]
  funext j
  rw [View.read_apply]
  show (outsAt0 V c 15 h15).o6 j = (outsAt0 V c 15 h15).o6 _
  congr 1
  funext a
  apply Fin.ext
  match a with
  | ⟨0, _⟩ => show (j 0).val = win0_6.index t0_15 (0 : Fin 4) * 4 + 1 * (j 0).val; rw [e0]; omega
  | ⟨1, _⟩ => show (j 1).val = win0_6.index t0_15 (1 : Fin 4) * 128 + 1 * (j 1).val; rw [e1]; omega
  | ⟨2, _⟩ => show (j 2).val = win0_6.index t0_15 (2 : Fin 4) * 1 + 1 * (j 2).val; rw [e2]; omega
  | ⟨3, _⟩ => show (j 3).val = win0_6.index t0_15 (3 : Fin 4) * 1 + 1 * (j 3).val; rw [e3]; omega

/-- Every index of the array is in the last point's block. -/
theorem covered0_6 (i : S4x128x1x1.Idx) :
    ∃ t : Fin cfg0.N, (cfg0.win 6).flush t = true ∧ i ∈ ((cfg0.win 6).blk t).view.set := by
  obtain ⟨-, -, -, ⟨e0, e1, e2, e3⟩, -⟩ := idx_facts0_out t0_15
  refine ⟨t0_15, (flush0_6 t0_15).mpr rfl, ?_⟩
  show i ∈ ((View.whole main_v4_3).slice (win0_6.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_6.index t0_15 (0 : Fin 4) * 4 ≤ (i 0).val ∧ (i 0).val < win0_6.index t0_15 (0 : Fin 4) * 4 + 4; rw [e0]; omega
  | ⟨1, _⟩ => show win0_6.index t0_15 (1 : Fin 4) * 128 ≤ (i 1).val ∧ (i 1).val < win0_6.index t0_15 (1 : Fin 4) * 128 + 128; rw [e1]; omega
  | ⟨2, _⟩ => show win0_6.index t0_15 (2 : Fin 4) * 1 ≤ (i 2).val ∧ (i 2).val < win0_6.index t0_15 (2 : Fin 4) * 1 + 1; rw [e2]; omega
  | ⟨3, _⟩ => show win0_6.index t0_15 (3 : Fin 4) * 1 ≤ (i 3).val ∧ (i 3).val < win0_6.index t0_15 (3 : Fin 4) * 1 + 1; rw [e3]; omega

/-- The array after the region is what the body leaves in the window's buffer at the last point. -/
theorem arrAt0_6 (c : Dev nD) : (dat0 V c).arrAt 6 cfg0.N = (outsAt0 V c 15 h15).o6 :=
  (dat0 V c).arrAt_eq_of_cover 6 ((outsAt0 V c 15 h15).o6) (flushed0_6_eq V c) covered0_6

/-! ## Output window 7 (`main_v4_4`) -/

/-- The one write-back, at the last point, writes what the body leaves there: block 0 of the array is the array. -/
theorem flushed0_7_eq (c : Dev nD) (t : Fin cfg0.N) (hf : (cfg0.win 7).flush t = true) :
    (dat0 V c).flushed 7 t = ((cfg0.win 7).blk t).view.read (Elt F) ((outsAt0 V c 15 h15).o7) := by
  have h1 : t.val = 15 := by have := (flush0_7 t).mp hf; have := reduce_point_lt t; omega
  obtain rfl : t = t0_15 := Fin.ext h1
  obtain ⟨-, -, -, -, ⟨e0, e1, e2, e3⟩, -⟩ := idx_facts0_out t0_15
  show (cfg0.win 7).cut (grid0.coords t0_15) ((dat0 V c).after 7 t0_15) = _
  rw [after0_7]
  funext j
  rw [View.read_apply]
  show (outsAt0 V c 15 h15).o7 j = (outsAt0 V c 15 h15).o7 _
  congr 1
  funext a
  apply Fin.ext
  match a with
  | ⟨0, _⟩ => show (j 0).val = win0_7.index t0_15 (0 : Fin 4) * 4 + 1 * (j 0).val; rw [e0]; omega
  | ⟨1, _⟩ => show (j 1).val = win0_7.index t0_15 (1 : Fin 4) * 128 + 1 * (j 1).val; rw [e1]; omega
  | ⟨2, _⟩ => show (j 2).val = win0_7.index t0_15 (2 : Fin 4) * 1 + 1 * (j 2).val; rw [e2]; omega
  | ⟨3, _⟩ => show (j 3).val = win0_7.index t0_15 (3 : Fin 4) * 1 + 1 * (j 3).val; rw [e3]; omega

/-- Every index of the array is in the last point's block. -/
theorem covered0_7 (i : S4x128x1x1.Idx) :
    ∃ t : Fin cfg0.N, (cfg0.win 7).flush t = true ∧ i ∈ ((cfg0.win 7).blk t).view.set := by
  obtain ⟨-, -, -, -, ⟨e0, e1, e2, e3⟩, -⟩ := idx_facts0_out t0_15
  refine ⟨t0_15, (flush0_7 t0_15).mpr rfl, ?_⟩
  show i ∈ ((View.whole main_v4_4).slice (win0_7.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_7.index t0_15 (0 : Fin 4) * 4 ≤ (i 0).val ∧ (i 0).val < win0_7.index t0_15 (0 : Fin 4) * 4 + 4; rw [e0]; omega
  | ⟨1, _⟩ => show win0_7.index t0_15 (1 : Fin 4) * 128 ≤ (i 1).val ∧ (i 1).val < win0_7.index t0_15 (1 : Fin 4) * 128 + 128; rw [e1]; omega
  | ⟨2, _⟩ => show win0_7.index t0_15 (2 : Fin 4) * 1 ≤ (i 2).val ∧ (i 2).val < win0_7.index t0_15 (2 : Fin 4) * 1 + 1; rw [e2]; omega
  | ⟨3, _⟩ => show win0_7.index t0_15 (3 : Fin 4) * 1 ≤ (i 3).val ∧ (i 3).val < win0_7.index t0_15 (3 : Fin 4) * 1 + 1; rw [e3]; omega

/-- The array after the region is what the body leaves in the window's buffer at the last point. -/
theorem arrAt0_7 (c : Dev nD) : (dat0 V c).arrAt 7 cfg0.N = (outsAt0 V c 15 h15).o7 :=
  (dat0 V c).arrAt_eq_of_cover 7 ((outsAt0 V c 15 h15).o7) (flushed0_7_eq V c) covered0_7

/-! ## Output window 8 (`main_v4_5`) -/

/-- The one write-back, at the last point, writes what the body leaves there: block 0 of the array is the array. -/
theorem flushed0_8_eq (c : Dev nD) (t : Fin cfg0.N) (hf : (cfg0.win 8).flush t = true) :
    (dat0 V c).flushed 8 t = ((cfg0.win 8).blk t).view.read (Elt F) ((outsAt0 V c 15 h15).o8) := by
  have h1 : t.val = 15 := by have := (flush0_8 t).mp hf; have := reduce_point_lt t; omega
  obtain rfl : t = t0_15 := Fin.ext h1
  obtain ⟨-, -, -, -, -, ⟨e0, e1, e2, e3⟩, -⟩ := idx_facts0_out t0_15
  show (cfg0.win 8).cut (grid0.coords t0_15) ((dat0 V c).after 8 t0_15) = _
  rw [after0_8]
  funext j
  rw [View.read_apply]
  show (outsAt0 V c 15 h15).o8 j = (outsAt0 V c 15 h15).o8 _
  congr 1
  funext a
  apply Fin.ext
  match a with
  | ⟨0, _⟩ => show (j 0).val = win0_8.index t0_15 (0 : Fin 4) * 4 + 1 * (j 0).val; rw [e0]; omega
  | ⟨1, _⟩ => show (j 1).val = win0_8.index t0_15 (1 : Fin 4) * 128 + 1 * (j 1).val; rw [e1]; omega
  | ⟨2, _⟩ => show (j 2).val = win0_8.index t0_15 (2 : Fin 4) * 1 + 1 * (j 2).val; rw [e2]; omega
  | ⟨3, _⟩ => show (j 3).val = win0_8.index t0_15 (3 : Fin 4) * 1 + 1 * (j 3).val; rw [e3]; omega

/-- Every index of the array is in the last point's block. -/
theorem covered0_8 (i : S4x128x1x1.Idx) :
    ∃ t : Fin cfg0.N, (cfg0.win 8).flush t = true ∧ i ∈ ((cfg0.win 8).blk t).view.set := by
  obtain ⟨-, -, -, -, -, ⟨e0, e1, e2, e3⟩, -⟩ := idx_facts0_out t0_15
  refine ⟨t0_15, (flush0_8 t0_15).mpr rfl, ?_⟩
  show i ∈ ((View.whole main_v4_5).slice (win0_8.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_8.index t0_15 (0 : Fin 4) * 4 ≤ (i 0).val ∧ (i 0).val < win0_8.index t0_15 (0 : Fin 4) * 4 + 4; rw [e0]; omega
  | ⟨1, _⟩ => show win0_8.index t0_15 (1 : Fin 4) * 128 ≤ (i 1).val ∧ (i 1).val < win0_8.index t0_15 (1 : Fin 4) * 128 + 128; rw [e1]; omega
  | ⟨2, _⟩ => show win0_8.index t0_15 (2 : Fin 4) * 1 ≤ (i 2).val ∧ (i 2).val < win0_8.index t0_15 (2 : Fin 4) * 1 + 1; rw [e2]; omega
  | ⟨3, _⟩ => show win0_8.index t0_15 (3 : Fin 4) * 1 ≤ (i 3).val ∧ (i 3).val < win0_8.index t0_15 (3 : Fin 4) * 1 + 1; rw [e3]; omega

/-- The array after the region is what the body leaves in the window's buffer at the last point. -/
theorem arrAt0_8 (c : Dev nD) : (dat0 V c).arrAt 8 cfg0.N = (outsAt0 V c 15 h15).o8 :=
  (dat0 V c).arrAt_eq_of_cover 8 ((outsAt0 V c 15 h15).o8) (flushed0_8_eq V c) covered0_8

/-! ## Output window 9 (`main_v4_6`) -/

/-- The one write-back, at the last point, writes what the body leaves there: block 0 of the array is the array. -/
theorem flushed0_9_eq (c : Dev nD) (t : Fin cfg0.N) (hf : (cfg0.win 9).flush t = true) :
    (dat0 V c).flushed 9 t = ((cfg0.win 9).blk t).view.read (Elt F) ((outsAt0 V c 15 h15).o9) := by
  have h1 : t.val = 15 := by have := (flush0_9 t).mp hf; have := reduce_point_lt t; omega
  obtain rfl : t = t0_15 := Fin.ext h1
  obtain ⟨-, -, -, -, -, -, ⟨e0, e1, e2, e3⟩, -⟩ := idx_facts0_out t0_15
  show (cfg0.win 9).cut (grid0.coords t0_15) ((dat0 V c).after 9 t0_15) = _
  rw [after0_9]
  funext j
  rw [View.read_apply]
  show (outsAt0 V c 15 h15).o9 j = (outsAt0 V c 15 h15).o9 _
  congr 1
  funext a
  apply Fin.ext
  match a with
  | ⟨0, _⟩ => show (j 0).val = win0_9.index t0_15 (0 : Fin 4) * 4 + 1 * (j 0).val; rw [e0]; omega
  | ⟨1, _⟩ => show (j 1).val = win0_9.index t0_15 (1 : Fin 4) * 128 + 1 * (j 1).val; rw [e1]; omega
  | ⟨2, _⟩ => show (j 2).val = win0_9.index t0_15 (2 : Fin 4) * 1 + 1 * (j 2).val; rw [e2]; omega
  | ⟨3, _⟩ => show (j 3).val = win0_9.index t0_15 (3 : Fin 4) * 1 + 1 * (j 3).val; rw [e3]; omega

/-- Every index of the array is in the last point's block. -/
theorem covered0_9 (i : S4x128x1x1.Idx) :
    ∃ t : Fin cfg0.N, (cfg0.win 9).flush t = true ∧ i ∈ ((cfg0.win 9).blk t).view.set := by
  obtain ⟨-, -, -, -, -, -, ⟨e0, e1, e2, e3⟩, -⟩ := idx_facts0_out t0_15
  refine ⟨t0_15, (flush0_9 t0_15).mpr rfl, ?_⟩
  show i ∈ ((View.whole main_v4_6).slice (win0_9.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_9.index t0_15 (0 : Fin 4) * 4 ≤ (i 0).val ∧ (i 0).val < win0_9.index t0_15 (0 : Fin 4) * 4 + 4; rw [e0]; omega
  | ⟨1, _⟩ => show win0_9.index t0_15 (1 : Fin 4) * 128 ≤ (i 1).val ∧ (i 1).val < win0_9.index t0_15 (1 : Fin 4) * 128 + 128; rw [e1]; omega
  | ⟨2, _⟩ => show win0_9.index t0_15 (2 : Fin 4) * 1 ≤ (i 2).val ∧ (i 2).val < win0_9.index t0_15 (2 : Fin 4) * 1 + 1; rw [e2]; omega
  | ⟨3, _⟩ => show win0_9.index t0_15 (3 : Fin 4) * 1 ≤ (i 3).val ∧ (i 3).val < win0_9.index t0_15 (3 : Fin 4) * 1 + 1; rw [e3]; omega

/-- The array after the region is what the body leaves in the window's buffer at the last point. -/
theorem arrAt0_9 (c : Dev nD) : (dat0 V c).arrAt 9 cfg0.N = (outsAt0 V c 15 h15).o9 :=
  (dat0 V c).arrAt_eq_of_cover 9 ((outsAt0 V c 15 h15).o9) (flushed0_9_eq V c) covered0_9

/-! ## Output window 10 (`main_v4_7`) -/

/-- The one write-back, at the last point, writes what the body leaves there: block 0 of the array is the array. -/
theorem flushed0_10_eq (c : Dev nD) (t : Fin cfg0.N) (hf : (cfg0.win 10).flush t = true) :
    (dat0 V c).flushed 10 t = ((cfg0.win 10).blk t).view.read (Elt F) ((outsAt0 V c 15 h15).o10) := by
  have h1 : t.val = 15 := by have := (flush0_10 t).mp hf; have := reduce_point_lt t; omega
  obtain rfl : t = t0_15 := Fin.ext h1
  obtain ⟨-, -, -, -, -, -, -, ⟨e0, e1, e2, e3⟩⟩ := idx_facts0_out t0_15
  show (cfg0.win 10).cut (grid0.coords t0_15) ((dat0 V c).after 10 t0_15) = _
  rw [after0_10]
  funext j
  rw [View.read_apply]
  show (outsAt0 V c 15 h15).o10 j = (outsAt0 V c 15 h15).o10 _
  congr 1
  funext a
  apply Fin.ext
  match a with
  | ⟨0, _⟩ => show (j 0).val = win0_10.index t0_15 (0 : Fin 4) * 4 + 1 * (j 0).val; rw [e0]; omega
  | ⟨1, _⟩ => show (j 1).val = win0_10.index t0_15 (1 : Fin 4) * 128 + 1 * (j 1).val; rw [e1]; omega
  | ⟨2, _⟩ => show (j 2).val = win0_10.index t0_15 (2 : Fin 4) * 1 + 1 * (j 2).val; rw [e2]; omega
  | ⟨3, _⟩ => show (j 3).val = win0_10.index t0_15 (3 : Fin 4) * 1 + 1 * (j 3).val; rw [e3]; omega

/-- Every index of the array is in the last point's block. -/
theorem covered0_10 (i : S4x128x1x1.Idx) :
    ∃ t : Fin cfg0.N, (cfg0.win 10).flush t = true ∧ i ∈ ((cfg0.win 10).blk t).view.set := by
  obtain ⟨-, -, -, -, -, -, -, ⟨e0, e1, e2, e3⟩⟩ := idx_facts0_out t0_15
  refine ⟨t0_15, (flush0_10 t0_15).mpr rfl, ?_⟩
  show i ∈ ((View.whole main_v4_7).slice (win0_10.rect t0_15)).set
  rw [View.set_slice_whole, Rect.mem_set_unit]
  intro a
  have h0 : (i 0).val < 4 := (i 0).isLt
  have h1 : (i 1).val < 128 := (i 1).isLt
  have h2 : (i 2).val < 1 := (i 2).isLt
  have h3 : (i 3).val < 1 := (i 3).isLt
  match a with
  | ⟨0, _⟩ => show win0_10.index t0_15 (0 : Fin 4) * 4 ≤ (i 0).val ∧ (i 0).val < win0_10.index t0_15 (0 : Fin 4) * 4 + 4; rw [e0]; omega
  | ⟨1, _⟩ => show win0_10.index t0_15 (1 : Fin 4) * 128 ≤ (i 1).val ∧ (i 1).val < win0_10.index t0_15 (1 : Fin 4) * 128 + 128; rw [e1]; omega
  | ⟨2, _⟩ => show win0_10.index t0_15 (2 : Fin 4) * 1 ≤ (i 2).val ∧ (i 2).val < win0_10.index t0_15 (2 : Fin 4) * 1 + 1; rw [e2]; omega
  | ⟨3, _⟩ => show win0_10.index t0_15 (3 : Fin 4) * 1 ≤ (i 3).val ∧ (i 3).val < win0_10.index t0_15 (3 : Fin 4) * 1 + 1; rw [e3]; omega

/-- The array after the region is what the body leaves in the window's buffer at the last point. -/
theorem arrAt0_10 (c : Dev nD) : (dat0 V c).arrAt 10 cfg0.N = (outsAt0 V c 15 h15).o10 :=
  (dat0 V c).arrAt_eq_of_cover 10 ((outsAt0 V c 15 h15).o10) (flushed0_10_eq V c) covered0_10

end Cert.KernelIdeal.Hand

end
-- ==== Proof.LibTileSum16.lean ====
/-
  The sum over the 256 rows regrouped into 16 tiles of 16 rows, and a running sum over the tiles.

  The extended reals are an additive commutative monoid, so a finite sum may be re-indexed and regrouped freely (no
  finiteness of the terms is needed): row 16 t + h is row h of tile t, and the sum over the pixels is the sum over the
  tiles of the tile sums. A sequence that starts at 0 + g 0 and adds g (n + 1) at each step is at step 15 the sum of all
  sixteen g.
-/
import Mathlib.Algebra.BigOperators.Fin
import Mathlib.Logic.Equiv.Fin.Basic
import proofs.«117659_j43542378447212_2_alg».proof.Proof.Spec

noncomputable section

namespace Cert.MaskedAdaIN

open scoped BigOperators

/-- The sum of one tile of 16 rows and 256 columns. -/
def tile (f : Fin 16 → Fin 256 → EReal) : EReal := ∑ h : Fin 16, ∑ w : Fin 256, f h w

/-- Row `h` of tile `t` among the 256 rows. -/
def row16 (t : Fin 16) (h : Fin 16) : Fin 256 := ⟨16 * t.val + h.val, by omega⟩

/-- A sum over the 256 rows is the sum over the 16 tiles of the sums over each tile's 16 rows. -/
theorem sum_rows_eq_tiles (F : Fin 256 → EReal) : ∑ r : Fin 256, F r = ∑ t : Fin 16, ∑ h : Fin 16, F (row16 t h) := by
  have e : Fin 16 × Fin 16 ≃ Fin 256 := (finProdFinEquiv : Fin 16 × Fin 16 ≃ Fin (16 * 16))
  rw [← Equiv.sum_comp (finProdFinEquiv : Fin 16 × Fin 16 ≃ Fin (16 * 16)) F, Fintype.sum_prod_type]
  refine Finset.sum_congr rfl fun t _ => Finset.sum_congr rfl fun h _ => congrArg F (Fin.ext ?_)
  show h.val + 16 * t.val = 16 * t.val + h.val
  omega

/-- The sum over the pixels is the sum of the sixteen tile sums. -/
theorem pix_eq_tiles (f : Fin 256 → Fin 256 → EReal) : pix f = ∑ t : Fin 16, tile (fun h w => f (row16 t h) w) := by
  unfold pix tile
  exact sum_rows_eq_tiles fun r => ∑ w : Fin 256, f r w

/-- A running sum started at 0 + g 0 and extended by + g (n + 1) is, at the last step, the whole sum. -/
theorem fold_tiles (g : Fin 16 → EReal) (s : ℕ → EReal) (h0 : s 0 = 0 + g 0)
    (hs : ∀ (n : ℕ) (hn : n + 1 < 16), s (n + 1) = s n + g ⟨n + 1, hn⟩) : s 15 = ∑ t : Fin 16, g t := by
  have key : ∀ (n : ℕ), n < 16 → s n = ∑ t ∈ Finset.range (n + 1), (if ht : t < 16 then g ⟨t, ht⟩ else 0) := by
    intro n
    induction n with
    | zero =>
      intro _
      rw [h0, zero_add, Finset.sum_range_one, dif_pos (by omega)]
      rfl
    | succ n ih =>
      intro hn
      rw [hs n hn, ih (by omega), Finset.sum_range_succ _ (n + 1), dif_pos hn]
  rw [key 15 (by omega), Finset.sum_range]
  exact Finset.sum_congr rfl fun t _ => by rw [dif_pos t.isLt]

end Cert.MaskedAdaIN

end
-- ==== Proof.ReduceBlocks.lean ====
/-
  The reduction region's three input blocks read off their arrays: at grid point `t` the two feature windows hold rows
  16 t … 16 t + 15 of their feature arrays and the mask window the same rows of the mask — row `r` of the block is row
  `r` of tile `t` among the 256 rows.
-/
import proofs.«117659_j43542378447212_2_alg».proof.Proof.ReduceShared
import proofs.«117659_j43542378447212_2_alg».proof.Proof.LibTileSum16
import Idealize.ShloMosaic.Lib.Pipeline.Value
import Idealize.ShloMosaic.Lib.ValueIdx

set_option maxRecDepth 16384

noncomputable section

namespace Cert.KernelIdeal.Hand

open Cert.KernelIdeal Cert.KernelIdeal.Gen Cert.MaskedAdaIN
open Idealize.ShloMosaic Idealize.ShloMosaic.TcCoe Idealize.ShloMosaic.ValueIdx Idealize.SL.Sem
open Idealize.ShloMosaic.Pipeline (Dat)

variable {F : FTy → Type} [FloatOps F]

/-! ## The index maps, decided over the grid -/

/-- The two feature windows and the mask window move along the rows with the grid point. -/
theorem idx_facts0 : ∀ t : Fin cfg0.N,
    (win0_0.index t (0 : Fin 4) = 0 ∧ win0_0.index t (1 : Fin 4) = 0 ∧ win0_0.index t (2 : Fin 4) = t.val ∧ win0_0.index t (3 : Fin 4) = 0)
    ∧ (win0_1.index t (0 : Fin 4) = 0 ∧ win0_1.index t (1 : Fin 4) = 0 ∧ win0_1.index t (2 : Fin 4) = t.val ∧ win0_1.index t (3 : Fin 4) = 0)
    ∧ (win0_2.index t (0 : Fin 4) = 0 ∧ win0_2.index t (1 : Fin 4) = 0 ∧ win0_2.index t (2 : Fin 4) = t.val ∧ win0_2.index t (3 : Fin 4) = 0) :=
  (by decide +kernel : ∀ t : Fin grid0.N, _)

/-- A grid point of the reduction as a tile number. -/
abbrev tileOf (t : Fin cfg0.N) : Fin 16 := Fin.cast N_0 t

/-! ## Each input block read off its array -/

variable (V : (c : Dev nD) → (b : Ref sig .tc) → Buf (Elt F) ((c : Thread nD τ).loc b))

/-- The first feature window's block at point `t` is tile `t` of its feature array. -/
theorem iblk0_0_apply (c : Dev nD) (t : Fin cfg0.N) (b : Fin 4) (ch : Fin 128) (r : Fin 16) (w : Fin 256) :
    (iblk0 V c 0 t : Vec F S4x128x16x256 .f32) (ix4 b ch r w)
      = (V c main_arg0 : S4x128x256x256.Idx → Elt F .f32) (ix4 b ch (row16 (tileOf t) r) w) := by
  obtain ⟨⟨e0, e1, e2, e3⟩, -⟩ := idx_facts0 t
  unfold iblk0
  rw [View.read_apply]
  show V c main_arg0 _ = V c main_arg0 _
  congr 1
  funext a
  apply Fin.ext
  match a with
  | ⟨0, _⟩ => show win0_0.index t (0 : Fin 4) * 4 + 1 * b.val = b.val; rw [e0]; omega
  | ⟨1, _⟩ => show win0_0.index t (1 : Fin 4) * 128 + 1 * ch.val = ch.val; rw [e1]; omega
  | ⟨2, _⟩ => show win0_0.index t (2 : Fin 4) * 16 + 1 * r.val = 16 * t.val + r.val; rw [e2]; omega
  | ⟨3, _⟩ => show win0_0.index t (3 : Fin 4) * 256 + 1 * w.val = w.val; rw [e3]; omega

/-- The second feature window's block at point `t` is tile `t` of its feature array. -/
theorem iblk0_1_apply (c : Dev nD) (t : Fin cfg0.N) (b : Fin 4) (ch : Fin 128) (r : Fin 16) (w : Fin 256) :
    (iblk0 V c 1 t : Vec F S4x128x16x256 .f32) (ix4 b ch r w)
      = (V c main_arg1 : S4x128x256x256.Idx → Elt F .f32) (ix4 b ch (row16 (tileOf t) r) w) := by
  obtain ⟨-, ⟨e0, e1, e2, e3⟩, -⟩ := idx_facts0 t
  unfold iblk0
  rw [View.read_apply]
  show V c main_arg1 _ = V c main_arg1 _
  congr 1
  funext a
  apply Fin.ext
  match a with
  | ⟨0, _⟩ => show win0_1.index t (0 : Fin 4) * 4 + 1 * b.val = b.val; rw [e0]; omega
  | ⟨1, _⟩ => show win0_1.index t (1 : Fin 4) * 128 + 1 * ch.val = ch.val; rw [e1]; omega
  | ⟨2, _⟩ => show win0_1.index t (2 : Fin 4) * 16 + 1 * r.val = 16 * t.val + r.val; rw [e2]; omega
  | ⟨3, _⟩ => show win0_1.index t (3 : Fin 4) * 256 + 1 * w.val = w.val; rw [e3]; omega

/-- The mask window's block at point `t` is tile `t` of the mask. -/
theorem iblk0_2_apply (c : Dev nD) (t : Fin cfg0.N) (b : Fin 4) (r : Fin 16) (w : Fin 256) :
    (iblk0 V c 2 t : Vec F S4x1x16x256 .f32) (ix4 b (0 : Fin 1) r w)
      = (V c main_v3 : S4x1x256x256.Idx → Elt F .f32) (ix4 b (0 : Fin 1) (row16 (tileOf t) r) w) := by
  obtain ⟨-, -, ⟨e0, e1, e2, e3⟩⟩ := idx_facts0 t
  unfold iblk0
  rw [View.read_apply]
  show V c main_v3 _ = V c main_v3 _
  congr 1
  funext a
  apply Fin.ext
  match a with
  | ⟨0, _⟩ => show win0_2.index t (0 : Fin 4) * 4 + 1 * b.val = b.val; rw [e0]; omega
  | ⟨1, _⟩ => show win0_2.index t (1 : Fin 4) * 1 + 1 * (0 : Fin 1).val = (0 : Fin 1).val; rw [e1]; omega
  | ⟨2, _⟩ => show win0_2.index t (2 : Fin 4) * 16 + 1 * r.val = 16 * t.val + r.val; rw [e2]; omega
  | ⟨3, _⟩ => show win0_2.index t (3 : Fin 4) * 256 + 1 * w.val = w.val; rw [e3]; omega

end Cert.KernelIdeal.Hand

end
-- ==== Proof.ReducePayloads.lean ====
/-
  The reduction kernel's arithmetic at the extended reals, read at an index.

  At every grid point the kernel loads a mask block [4, 1, 16, 256] and two feature blocks [4, 128, 16, 256] and adds to
  each of sixteen running sums the block's partial sum of one monomial: the mask m, its complement om = 1 - m, their
  squares, and, for each feature array x, x * m, x * om, x * m^3, x * om^3, x^2 * m^4 and x^2 * om^4. A partial sum is
  taken over the columns, then over the rows, each time keeping the reduced axis with extent one; read at (b, c) it is
  the double sum over the block's 16 rows and 256 columns. Everything here is stated over variables standing for the
  loaded blocks and the old value of the running sum.
-/
import proofs.«117659_j43542378447212_2_alg».proof.Proof.Gen.KernelIdeal.Skeleton
import proofs.«117659_j43542378447212_2_alg».proof.Proof.Spec
import proofs.«117659_j43542378447212_2_alg».proof.Proof.LibTileSum16
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.MaskedAdaIN Idealize.ShloMosaic Idealize.ShloMosaic.ValueIdx

/-! ## The sum of a [4, 1, 16, 256] block over its columns, then its rows, kept as [4, 1, 1, 1] -/

/-- The sum over the columns at (b, c, h). -/
theorem laneSum1_at (f : FVec Ideal S4x1x16x256 .f32) (b : Fin 4) (c : Fin 1) (h : Fin 16) :
    multiReduction (F := Ideal) .add [3] S4x1x16 f 0x00000000#32 reduces_S4x1x16x256_S4x1x16 (.inl rfl) rfl (ix3 b c h)
      = ∑ w : Fin 256, f (ix4 b c h w) := by
  refine (Ideal.multiReduction_add_single f 0x00000000#32 reduces_S4x1x16x256_S4x1x16 (.inl rfl) rfl (ix3 b c h)).trans ?_
  refine Finset.sum_congr rfl fun w _ => congrArg f ?_
  funext a; match a with | ⟨0, _⟩ => rfl | ⟨1, _⟩ => rfl | ⟨2, _⟩ => rfl | ⟨3, _⟩ => rfl

/-- A trailing unit axis added to [4, 1, 16]. -/
theorem keepRows1_at (v : FVec Ideal S4x1x16 .f32) (b : Fin 4) (c : Fin 1) (h : Fin 16) :
    shapeCast S4x1x16x1 v shapeCasts_S4x1x16_S4x1x16x1 (ix4 b c h (0 : Fin 1)) = v (ix3 b c h) := by
  refine shapeCast_apply v _ _ _ ?_
  rw [Shape.rowMajor_val_three, Shape.rowMajor_val_four]
  show ((b.val * 1 + c.val) * 16 + h.val) = (((b.val * 1 + c.val) * 16 + h.val) * 1 + 0)
  omega

/-- The sum over the rows at (b, c). -/
theorem rowSum1_at (v : FVec Ideal S4x1x16x1 .f32) (b : Fin 4) (c : Fin 1) :
    multiReduction (F := Ideal) .add [2] S4x1x1 v 0x00000000#32 reduces_S4x1x16x1_S4x1x1 (.inl rfl) rfl (ix3 b c (0 : Fin 1))
      = ∑ h : Fin 16, v (ix4 b c h (0 : Fin 1)) := by
  refine (Ideal.multiReduction_add_single v 0x00000000#32 reduces_S4x1x16x1_S4x1x1 (.inl rfl) rfl (ix3 b c (0 : Fin 1))).trans ?_
  refine Finset.sum_congr rfl fun h _ => congrArg v ?_
  funext a; match a with | ⟨0, _⟩ => rfl | ⟨1, _⟩ => rfl | ⟨2, _⟩ => rfl | ⟨3, _⟩ => rfl

/-- A trailing unit axis added to [4, 1, 1]. -/
theorem keepCols1_at (v : FVec Ideal S4x1x1 .f32) (b : Fin 4) (c : Fin 1) :
    shapeCast S4x1x1x1 v shapeCasts_S4x1x1_S4x1x1x1 (ix4 b c (0 : Fin 1) (0 : Fin 1)) = v (ix3 b c (0 : Fin 1)) := by
  refine shapeCast_apply v _ _ _ ?_
  rw [Shape.rowMajor_val_three, Shape.rowMajor_val_four]
  show ((b.val * 1 + c.val) * 1 + 0) = (((b.val * 1 + c.val) * 1 + 0) * 1 + 0)
  omega

/-- The block's partial sum at (b, c): the double sum over its rows and columns. -/
theorem blockSum1_at (f : FVec Ideal S4x1x16x256 .f32) (b : Fin 4) (c : Fin 1) :
    shapeCast S4x1x1x1
        (multiReduction (F := Ideal) .add [2] S4x1x1
          (shapeCast S4x1x16x1
            (multiReduction (F := Ideal) .add [3] S4x1x16 f 0x00000000#32 reduces_S4x1x16x256_S4x1x16 (.inl rfl) rfl)
            shapeCasts_S4x1x16_S4x1x16x1)
          0x00000000#32 reduces_S4x1x16x1_S4x1x1 (.inl rfl) rfl)
        shapeCasts_S4x1x1_S4x1x1x1 (ix4 b c (0 : Fin 1) (0 : Fin 1))
      = tile (fun h w => f (ix4 b c h w)) := by
  rw [keepCols1_at, rowSum1_at]
  unfold tile
  refine Finset.sum_congr rfl fun h _ => ?_
  rw [keepRows1_at, laneSum1_at]

/-! ## The sum of a [4, 128, 16, 256] block over its columns, then its rows, kept as [4, 128, 1, 1] -/

/-- The sum over the columns at (b, c, h). -/
theorem laneSum128_at (f : FVec Ideal S4x128x16x256 .f32) (b : Fin 4) (c : Fin 128) (h : Fin 16) :
    multiReduction (F := Ideal) .add [3] S4x128x16 f 0x00000000#32 reduces_S4x128x16x256_S4x128x16 (.inl rfl) rfl (ix3 b c h)
      = ∑ w : Fin 256, f (ix4 b c h w) := by
  refine (Ideal.multiReduction_add_single f 0x00000000#32 reduces_S4x128x16x256_S4x128x16 (.inl rfl) rfl (ix3 b c h)).trans ?_
  refine Finset.sum_congr rfl fun w _ => congrArg f ?_
  funext a; match a with | ⟨0, _⟩ => rfl | ⟨1, _⟩ => rfl | ⟨2, _⟩ => rfl | ⟨3, _⟩ => rfl

/-- A trailing unit axis added to [4, 128, 16]. -/
theorem keepRows128_at (v : FVec Ideal S4x128x16 .f32) (b : Fin 4) (c : Fin 128) (h : Fin 16) :
    shapeCast S4x128x16x1 v shapeCasts_S4x128x16_S4x128x16x1 (ix4 b c h (0 : Fin 1)) = v (ix3 b c h) := by
  refine shapeCast_apply v _ _ _ ?_
  rw [Shape.rowMajor_val_three, Shape.rowMajor_val_four]
  show ((b.val * 128 + c.val) * 16 + h.val) = (((b.val * 128 + c.val) * 16 + h.val) * 1 + 0)
  omega

/-- The sum over the rows at (b, c). -/
theorem rowSum128_at (v : FVec Ideal S4x128x16x1 .f32) (b : Fin 4) (c : Fin 128) :
    multiReduction (F := Ideal) .add [2] S4x128x1 v 0x00000000#32 reduces_S4x128x16x1_S4x128x1 (.inl rfl) rfl (ix3 b c (0 : Fin 1))
      = ∑ h : Fin 16, v (ix4 b c h (0 : Fin 1)) := by
  refine (Ideal.multiReduction_add_single v 0x00000000#32 reduces_S4x128x16x1_S4x128x1 (.inl rfl) rfl (ix3 b c (0 : Fin 1))).trans ?_
  refine Finset.sum_congr rfl fun h _ => congrArg v ?_
  funext a; match a with | ⟨0, _⟩ => rfl | ⟨1, _⟩ => rfl | ⟨2, _⟩ => rfl | ⟨3, _⟩ => rfl

/-- A trailing unit axis added to [4, 128, 1]. -/
theorem keepCols128_at (v : FVec Ideal S4x128x1 .f32) (b : Fin 4) (c : Fin 128) :
    shapeCast S4x128x1x1 v shapeCasts_S4x128x1_S4x128x1x1 (ix4 b c (0 : Fin 1) (0 : Fin 1)) = v (ix3 b c (0 : Fin 1)) := by
  refine shapeCast_apply v _ _ _ ?_
  rw [Shape.rowMajor_val_three, Shape.rowMajor_val_four]
  show ((b.val * 128 + c.val) * 1 + 0) = (((b.val * 128 + c.val) * 1 + 0) * 1 + 0)
  omega

/-- The block's partial sum at (b, c): the double sum over its rows and columns. -/
theorem blockSum128_at (f : FVec Ideal S4x128x16x256 .f32) (b : Fin 4) (c : Fin 128) :
    shapeCast S4x128x1x1
        (multiReduction (F := Ideal) .add [2] S4x128x1
          (shapeCast S4x128x16x1
            (multiReduction (F := Ideal) .add [3] S4x128x16 f 0x00000000#32 reduces_S4x128x16x256_S4x128x16 (.inl rfl) rfl)
            shapeCasts_S4x128x16_S4x128x16x1)
          0x00000000#32 reduces_S4x128x16x1_S4x128x1 (.inl rfl) rfl)
        shapeCasts_S4x128x1_S4x128x1x1 (ix4 b c (0 : Fin 1) (0 : Fin 1))
      = tile (fun h w => f (ix4 b c h w)) := by
  rw [keepCols128_at, rowSum128_at]
  unfold tile
  refine Finset.sum_congr rfl fun h _ => ?_
  rw [keepRows128_at, laneSum128_at]

/-! ## The mask's monomials at an index -/

variable (m : Vec Ideal S4x1x16x256 .f32)

theorem pay31_eq : k0_pay31 (F := Ideal) m = m := shapeCast_self m _

theorem pay32_at (i : S4x1x16x256.Idx) : k0_pay32 (F := Ideal) m i = one - m i := by
  unfold k0_pay32; rw [pay31_eq]; rfl

theorem pay33_at (i : S4x1x16x256.Idx) : k0_pay33 (F := Ideal) m i = m i * m i := by
  unfold k0_pay33; rw [pay31_eq]; rfl

theorem pay34_at (i : S4x1x16x256.Idx) : k0_pay34 (F := Ideal) m i = (m i * m i) * m i := by
  unfold k0_pay34; rw [pay31_eq]; exact congrArg (· * m i) (pay33_at m i)

theorem pay35_at (i : S4x1x16x256.Idx) : k0_pay35 (F := Ideal) m i = (m i * m i) * (m i * m i) := by
  unfold k0_pay35; exact congrArg₂ (· * ·) (pay33_at m i) (pay33_at m i)

theorem pay36_at (i : S4x1x16x256.Idx) : k0_pay36 (F := Ideal) m i = (one - m i) * (one - m i) := by
  unfold k0_pay36; exact congrArg₂ (· * ·) (pay32_at m i) (pay32_at m i)

theorem pay37_at (i : S4x1x16x256.Idx) : k0_pay37 (F := Ideal) m i = ((one - m i) * (one - m i)) * (one - m i) := by
  unfold k0_pay37; exact congrArg₂ (· * ·) (pay36_at m i) (pay32_at m i)

theorem pay38_at (i : S4x1x16x256.Idx) :
    k0_pay38 (F := Ideal) m i = ((one - m i) * (one - m i)) * ((one - m i) * (one - m i)) := by
  unfold k0_pay38; exact congrArg₂ (· * ·) (pay36_at m i) (pay36_at m i)

/-! ## A feature block against a mask monomial -/

/-- A one-channel block repeated along the channel axis. -/
theorem bcastChan_at (g : FVec Ideal S4x1x16x256 .f32) (b : Fin 4) (c : Fin 128) (h : Fin 16) (w : Fin 256) :
    broadcastTo S4x128x16x256 g broadcasts_S4x1x16x256_S4x128x16x256 (ix4 b c h w) = g (ix4 b (0 : Fin 1) h w) := by
  refine broadcastTo_apply g _ _ _ fun a => ?_
  match a with
  | ⟨0, _⟩ => rfl
  | ⟨1, _⟩ => rfl
  | ⟨2, _⟩ => rfl
  | ⟨3, _⟩ => rfl

/-- The partial sum of feature times weight at (b, c). -/
theorem prodSum_at (g : FVec Ideal S4x1x16x256 .f32) (x : Vec Ideal S4x128x16x256 .f32) (b : Fin 4) (c : Fin 128) :
    shapeCast S4x128x1x1
        (multiReduction (F := Ideal) .add [2] S4x128x1
          (shapeCast S4x128x16x1
            (multiReduction (F := Ideal) .add [3] S4x128x16
              (mulf x (broadcastTo S4x128x16x256 g broadcasts_S4x1x16x256_S4x128x16x256))
              0x00000000#32 reduces_S4x128x16x256_S4x128x16 (.inl rfl) rfl)
            shapeCasts_S4x128x16_S4x128x16x1)
          0x00000000#32 reduces_S4x128x16x1_S4x128x1 (.inl rfl) rfl)
        shapeCasts_S4x128x1_S4x128x1x1 (ix4 b c (0 : Fin 1) (0 : Fin 1))
      = tile (fun h w => x (ix4 b c h w) * g (ix4 b (0 : Fin 1) h w)) := by
  rw [blockSum128_at]
  refine congrArg tile (funext fun h => funext fun w => ?_)
  rw [mulf_apply, bcastChan_at]

/-- The partial sum of squared feature times weight at (b, c). -/
theorem sqSum_at (g : FVec Ideal S4x1x16x256 .f32) (x : Vec Ideal S4x128x16x256 .f32) (b : Fin 4) (c : Fin 128) :
    shapeCast S4x128x1x1
        (multiReduction (F := Ideal) .add [2] S4x128x1
          (shapeCast S4x128x16x1
            (multiReduction (F := Ideal) .add [3] S4x128x16
              (mulf (mulf x x) (broadcastTo S4x128x16x256 g broadcasts_S4x1x16x256_S4x128x16x256))
              0x00000000#32 reduces_S4x128x16x256_S4x128x16 (.inl rfl) rfl)
            shapeCasts_S4x128x16_S4x128x16x1)
          0x00000000#32 reduces_S4x128x16x1_S4x128x1 (.inl rfl) rfl)
        shapeCasts_S4x128x1_S4x128x1x1 (ix4 b c (0 : Fin 1) (0 : Fin 1))
      = tile (fun h w => (x (ix4 b c h w) * x (ix4 b c h w)) * g (ix4 b (0 : Fin 1) h w)) := by
  rw [blockSum128_at]
  refine congrArg tile (funext fun h => funext fun w => ?_)
  rw [mulf_apply, mulf_apply, bcastChan_at]

/-! ## The sixteen running sums: old value plus the block's partial sum -/

/-- The mask's sum. -/
theorem acc_sm_at (old : Vec Ideal S4x1x1x1 .f32) (b : Fin 4) :
    k0_pay39 (F := Ideal) m old (ix4 b (0 : Fin 1) (0 : Fin 1) (0 : Fin 1))
      = old (ix4 b (0 : Fin 1) (0 : Fin 1) (0 : Fin 1)) + tile (fun h w => m (ix4 b (0 : Fin 1) h w)) := by
  unfold k0_pay39
  rw [shapeCast_self, pay31_eq]
  exact congrArg (old _ + ·) (blockSum1_at m b (0 : Fin 1))

/-- The complementary mask's sum. -/
theorem acc_som_at (old : Vec Ideal S4x1x1x1 .f32) (b : Fin 4) :
    k0_pay41 (F := Ideal) (k0_pay40 m old) (ix4 b (0 : Fin 1) (0 : Fin 1) (0 : Fin 1))
      = old (ix4 b (0 : Fin 1) (0 : Fin 1) (0 : Fin 1)) + tile (fun h w => one - m (ix4 b (0 : Fin 1) h w)) := by
  unfold k0_pay41 k0_pay40
  rw [shapeCast_self]
  refine (congrArg (old _ + ·) (blockSum1_at (k0_pay32 m) b (0 : Fin 1))).trans ?_
  simp only [pay32_at]

/-- The sum of the squared mask. -/
theorem acc_sm2_at (old : Vec Ideal S4x1x1x1 .f32) (b : Fin 4) :
    k0_pay42 (F := Ideal) (k0_pay33 m) old (ix4 b (0 : Fin 1) (0 : Fin 1) (0 : Fin 1))
      = old (ix4 b (0 : Fin 1) (0 : Fin 1) (0 : Fin 1)) + tile (fun h w => m (ix4 b (0 : Fin 1) h w) * m (ix4 b (0 : Fin 1) h w)) := by
  unfold k0_pay42
  rw [shapeCast_self]
  refine (congrArg (old _ + ·) (blockSum1_at (k0_pay33 m) b (0 : Fin 1))).trans ?_
  simp only [pay33_at]

/-- The sum of the squared complementary mask. -/
theorem acc_som2_at (old : Vec Ideal S4x1x1x1 .f32) (b : Fin 4) :
    k0_pay43 (F := Ideal) (k0_pay36 m) old (ix4 b (0 : Fin 1) (0 : Fin 1) (0 : Fin 1))
      = old (ix4 b (0 : Fin 1) (0 : Fin 1) (0 : Fin 1)) + tile (fun h w => (one - m (ix4 b (0 : Fin 1) h w)) * (one - m (ix4 b (0 : Fin 1) h w))) := by
  unfold k0_pay43
  rw [shapeCast_self]
  refine (congrArg (old _ + ·) (blockSum1_at (k0_pay36 m) b (0 : Fin 1))).trans ?_
  simp only [pay36_at]

/-- The first feature array against the mask. -/
theorem acc_x1_m_at (x : Vec Ideal S4x128x16x256 .f32) (old : Vec Ideal S4x128x1x1 .f32) (b : Fin 4) (c : Fin 128) :
    k0_pay45 (F := Ideal) old (k0_pay44 (k0_pay31 m) x) (ix4 b c (0 : Fin 1) (0 : Fin 1))
      = old (ix4 b c (0 : Fin 1) (0 : Fin 1)) + tile (fun h w => x (ix4 b c h w) * m (ix4 b (0 : Fin 1) h w)) := by
  unfold k0_pay45 k0_pay44
  rw [shapeCast_self, pay31_eq]
  exact congrArg (old _ + ·) (prodSum_at m x b c)

/-- The first feature array against the complementary mask. -/
theorem acc_x1_om_at (x : Vec Ideal S4x128x16x256 .f32) (old : Vec Ideal S4x128x1x1 .f32) (b : Fin 4) (c : Fin 128) :
    k0_pay46 (F := Ideal) (k0_pay32 m) x old (ix4 b c (0 : Fin 1) (0 : Fin 1))
      = old (ix4 b c (0 : Fin 1) (0 : Fin 1)) + tile (fun h w => x (ix4 b c h w) * (one - m (ix4 b (0 : Fin 1) h w))) := by
  unfold k0_pay46
  rw [shapeCast_self]
  refine (congrArg (old _ + ·) (prodSum_at (k0_pay32 m) x b c)).trans ?_
  simp only [pay32_at]

/-- The first feature array against the cubed mask. -/
theorem acc_x1_m3_at (x : Vec Ideal S4x128x16x256 .f32) (old : Vec Ideal S4x128x1x1 .f32) (b : Fin 4) (c : Fin 128) :
    k0_pay47 (F := Ideal) (k0_pay34 m) x old (ix4 b c (0 : Fin 1) (0 : Fin 1))
      = old (ix4 b c (0 : Fin 1) (0 : Fin 1)) + tile (fun h w => x (ix4 b c h w) * ((m (ix4 b (0 : Fin 1) h w) * m (ix4 b (0 : Fin 1) h w)) * m (ix4 b (0 : Fin 1) h w))) := by
  unfold k0_pay47
  rw [shapeCast_self]
  refine (congrArg (old _ + ·) (prodSum_at (k0_pay34 m) x b c)).trans ?_
  simp only [pay34_at]

/-- The first feature array against the cubed complementary mask. -/
theorem acc_x1_om3_at (x : Vec Ideal S4x128x16x256 .f32) (old : Vec Ideal S4x128x1x1 .f32) (b : Fin 4) (c : Fin 128) :
    k0_pay49 (F := Ideal) old (k0_pay48 (k0_pay37 m) x) (ix4 b c (0 : Fin 1) (0 : Fin 1))
      = old (ix4 b c (0 : Fin 1) (0 : Fin 1)) + tile (fun h w => x (ix4 b c h w) * (((one - m (ix4 b (0 : Fin 1) h w)) * (one - m (ix4 b (0 : Fin 1) h w))) * (one - m (ix4 b (0 : Fin 1) h w)))) := by
  unfold k0_pay49 k0_pay48
  rw [shapeCast_self]
  refine (congrArg (old _ + ·) (prodSum_at (k0_pay37 m) x b c)).trans ?_
  simp only [pay37_at]

/-- The squared first feature array against the fourth power of the mask. -/
theorem acc_x1sq_m4_at (x : Vec Ideal S4x128x16x256 .f32) (old : Vec Ideal S4x128x1x1 .f32) (b : Fin 4) (c : Fin 128) :
    k0_pay50 (F := Ideal) (k0_pay35 m) x old (ix4 b c (0 : Fin 1) (0 : Fin 1))
      = old (ix4 b c (0 : Fin 1) (0 : Fin 1)) + tile (fun h w => (x (ix4 b c h w) * x (ix4 b c h w)) * ((m (ix4 b (0 : Fin 1) h w) * m (ix4 b (0 : Fin 1) h w)) * (m (ix4 b (0 : Fin 1) h w) * m (ix4 b (0 : Fin 1) h w)))) := by
  unfold k0_pay50
  rw [shapeCast_self]
  refine (congrArg (old _ + ·) (sqSum_at (k0_pay35 m) x b c)).trans ?_
  simp only [pay35_at]

/-- The squared first feature array against the fourth power of the complementary mask. -/
theorem acc_x1sq_om4_at (x : Vec Ideal S4x128x16x256 .f32) (old : Vec Ideal S4x128x1x1 .f32) (b : Fin 4) (c : Fin 128) :
    k0_pay51 (F := Ideal) (k0_pay38 m) x old (ix4 b c (0 : Fin 1) (0 : Fin 1))
      = old (ix4 b c (0 : Fin 1) (0 : Fin 1)) + tile (fun h w => (x (ix4 b c h w) * x (ix4 b c h w)) * (((one - m (ix4 b (0 : Fin 1) h w)) * (one - m (ix4 b (0 : Fin 1) h w))) * ((one - m (ix4 b (0 : Fin 1) h w)) * (one - m (ix4 b (0 : Fin 1) h w))))) := by
  unfold k0_pay51
  rw [shapeCast_self]
  refine (congrArg (old _ + ·) (sqSum_at (k0_pay38 m) x b c)).trans ?_
  simp only [pay38_at]

/-- The second feature array against the mask. -/
theorem acc_x2_m_at (x : Vec Ideal S4x128x16x256 .f32) (old : Vec Ideal S4x128x1x1 .f32) (b : Fin 4) (c : Fin 128) :
    k0_pay52 (F := Ideal) (k0_pay31 m) x old (ix4 b c (0 : Fin 1) (0 : Fin 1))
      = old (ix4 b c (0 : Fin 1) (0 : Fin 1)) + tile (fun h w => x (ix4 b c h w) * m (ix4 b (0 : Fin 1) h w)) := by
  unfold k0_pay52
  rw [shapeCast_self, pay31_eq]
  exact congrArg (old _ + ·) (prodSum_at m x b c)

/-- The second feature array against the complementary mask. -/
theorem acc_x2_om_at (x : Vec Ideal S4x128x16x256 .f32) (old : Vec Ideal S4x128x1x1 .f32) (b : Fin 4) (c : Fin 128) :
    k0_pay53 (F := Ideal) (k0_pay32 m) x old (ix4 b c (0 : Fin 1) (0 : Fin 1))
      = old (ix4 b c (0 : Fin 1) (0 : Fin 1)) + tile (fun h w => x (ix4 b c h w) * (one - m (ix4 b (0 : Fin 1) h w))) := by
  unfold k0_pay53
  rw [shapeCast_self]
  refine (congrArg (old _ + ·) (prodSum_at (k0_pay32 m) x b c)).trans ?_
  simp only [pay32_at]

/-- The second feature array against the cubed mask. -/
theorem acc_x2_m3_at (x : Vec Ideal S4x128x16x256 .f32) (old : Vec Ideal S4x128x1x1 .f32) (b : Fin 4) (c : Fin 128) :
    k0_pay55 (F := Ideal) old (k0_pay54 (k0_pay34 m) x) (ix4 b c (0 : Fin 1) (0 : Fin 1))
      = old (ix4 b c (0 : Fin 1) (0 : Fin 1)) + tile (fun h w => x (ix4 b c h w) * ((m (ix4 b (0 : Fin 1) h w) * m (ix4 b (0 : Fin 1) h w)) * m (ix4 b (0 : Fin 1) h w))) := by
  unfold k0_pay55 k0_pay54
  rw [shapeCast_self]
  refine (congrArg (old _ + ·) (prodSum_at (k0_pay34 m) x b c)).trans ?_
  simp only [pay34_at]

/-- The second feature array against the cubed complementary mask. -/
theorem acc_x2_om3_at (x : Vec Ideal S4x128x16x256 .f32) (old : Vec Ideal S4x128x1x1 .f32) (b : Fin 4) (c : Fin 128) :
    k0_pay56 (F := Ideal) (k0_pay37 m) x old (ix4 b c (0 : Fin 1) (0 : Fin 1))
      = old (ix4 b c (0 : Fin 1) (0 : Fin 1)) + tile (fun h w => x (ix4 b c h w) * (((one - m (ix4 b (0 : Fin 1) h w)) * (one - m (ix4 b (0 : Fin 1) h w))) * (one - m (ix4 b (0 : Fin 1) h w)))) := by
  unfold k0_pay56
  rw [shapeCast_self]
  refine (congrArg (old _ + ·) (prodSum_at (k0_pay37 m) x b c)).trans ?_
  simp only [pay37_at]

/-- The squared second feature array against the fourth power of the mask. -/
theorem acc_x2sq_m4_at (x : Vec Ideal S4x128x16x256 .f32) (old : Vec Ideal S4x128x1x1 .f32) (b : Fin 4) (c : Fin 128) :
    k0_pay57 (F := Ideal) (k0_pay35 m) x old (ix4 b c (0 : Fin 1) (0 : Fin 1))
      = old (ix4 b c (0 : Fin 1) (0 : Fin 1)) + tile (fun h w => (x (ix4 b c h w) * x (ix4 b c h w)) * ((m (ix4 b (0 : Fin 1) h w) * m (ix4 b (0 : Fin 1) h w)) * (m (ix4 b (0 : Fin 1) h w) * m (ix4 b (0 : Fin 1) h w)))) := by
  unfold k0_pay57
  rw [shapeCast_self]
  refine (congrArg (old _ + ·) (sqSum_at (k0_pay35 m) x b c)).trans ?_
  simp only [pay35_at]

/-- The squared second feature array against the fourth power of the complementary mask. -/
theorem acc_x2sq_om4_at (x : Vec Ideal S4x128x16x256 .f32) (old : Vec Ideal S4x128x1x1 .f32) (b : Fin 4) (c : Fin 128) :
    k0_pay1 (F := Ideal) (k0_pay38 m) x old (ix4 b c (0 : Fin 1) (0 : Fin 1))
      = old (ix4 b c (0 : Fin 1) (0 : Fin 1)) + tile (fun h w => (x (ix4 b c h w) * x (ix4 b c h w)) * (((one - m (ix4 b (0 : Fin 1) h w)) * (one - m (ix4 b (0 : Fin 1) h w))) * ((one - m (ix4 b (0 : Fin 1) h w)) * (one - m (ix4 b (0 : Fin 1) h w))))) := by
  unfold k0_pay1
  rw [shapeCast_self]
  refine (congrArg (old _ + ·) (sqSum_at (k0_pay38 m) x b c)).trans ?_
  simp only [pay38_at]

end Cert.KernelIdeal.Hand

end
-- ==== Proof.ReduceFinalize.lean ====
/-
  The reduction's last step, read at an index of the extended reals: from the running sums over the pixels it stores,
  per feature array and per weight (the mask or its complement), the mean (sum of x g) / n and the variance
  max ((sum x^2 g^4 - (2 mean) sum x g^3 + (mean mean) sum g^2) / n) 0, with n = (sum of g) + eps held as [4, 1, 1, 1]
  and broadcast along the channels. Each stored array at (b, c, 0, 0) is that expression of the sums at (b, c, 0, 0) and
  (b, 0, 0, 0), in the order of operations in which the layer's statistics are written.
-/
import Idealize.ShloMosaic.Lib.ValueIdx
import Idealize.ShloMosaic.Lib.ValueLayout
import Idealize.ShloMosaic.Lib.Pipeline.Value
import Idealize.ShloMosaic.PureOps.Ideal.Laws
import proofs.«117659_j43542378447212_2_alg».proof.Proof.Gen.KernelIdeal.Skeleton
import proofs.«117659_j43542378447212_2_alg».proof.Proof.Spec

noncomputable section

namespace Cert.KernelIdeal.Hand

open Cert.KernelIdeal Cert.KernelIdeal.Gen Cert.MaskedAdaIN Idealize.ShloMosaic Idealize.ShloMosaic.ValueIdx

/-- A [4, 1, 1, 1] array broadcast along the channels, read at (b, c, 0, 0), is the array at (b, 0, 0, 0). -/
theorem bc_at (v : FVec Ideal S4x1x1x1 .f32) (b : Fin 4) (c : Fin 128) :
    broadcastTo S4x128x1x1 v Facts₀.broadcasts_S4x1x1x1_S4x128x1x1 (ix4 b c (0 : Fin 1) (0 : Fin 1))
      = v (ix4 b (0 : Fin 1) (0 : Fin 1) (0 : Fin 1)) :=
  broadcastTo_apply _ _ _ (ix4 b (0 : Fin 1) (0 : Fin 1) (0 : Fin 1)) fun a => by
    match a with
    | ⟨0, _⟩ => rfl
    | ⟨1, _⟩ => rfl
    | ⟨2, _⟩ => rfl
    | ⟨3, _⟩ => rfl

/-! ### The first feature array -/

/-- The stored mean under the mask: the sum of x m over the divisor. -/
theorem fin_mean_in_at_x1 (sm : Vec Ideal S4x1x1x1 .f32) (am : Vec Ideal S4x128x1x1 .f32) (b : Fin 4) (c : Fin 128) :
    k0_pay18 (F := Ideal) sm am (ix4 b c (0 : Fin 1) (0 : Fin 1))
      = Ideal.div (am (ix4 b c (0 : Fin 1) (0 : Fin 1))) (sm (ix4 b (0 : Fin 1) (0 : Fin 1) (0 : Fin 1)) + eps) := by
  dsimp only [k0_pay18, k0_pay16]
  rw [divf_apply, bc_at]
  rfl

/-- The stored variance under the mask: the three sums of monomials, over the divisor, clamped at zero. -/
theorem fin_var_in_at_x1 (sm sm2 : Vec Ideal S4x1x1x1 .f32) (am am3 asq : Vec Ideal S4x128x1x1 .f32) (b : Fin 4) (c : Fin 128) :
    k0_pay21 (F := Ideal) (k0_pay20 sm am asq am3 sm2) (ix4 b c (0 : Fin 1) (0 : Fin 1))
      = max (Ideal.div ((asq (ix4 b c (0 : Fin 1) (0 : Fin 1)) - (two * Ideal.div (am (ix4 b c (0 : Fin 1) (0 : Fin 1))) (sm (ix4 b (0 : Fin 1) (0 : Fin 1) (0 : Fin 1)) + eps)) * am3 (ix4 b c (0 : Fin 1) (0 : Fin 1))) + (Ideal.div (am (ix4 b c (0 : Fin 1) (0 : Fin 1))) (sm (ix4 b (0 : Fin 1) (0 : Fin 1) (0 : Fin 1)) + eps) * Ideal.div (am (ix4 b c (0 : Fin 1) (0 : Fin 1))) (sm (ix4 b (0 : Fin 1) (0 : Fin 1) (0 : Fin 1)) + eps)) * sm2 (ix4 b (0 : Fin 1) (0 : Fin 1) (0 : Fin 1))) (sm (ix4 b (0 : Fin 1) (0 : Fin 1) (0 : Fin 1)) + eps)) 0 := by
  dsimp only [k0_pay21, k0_pay20, k0_pay18, k0_pay16]
  simp only [maximumf_apply, divf_apply, addf_apply, subf_apply, mulf_apply, broadcast_apply, bc_at]
  rw [show Scalar.ofBits (F := Ideal) .f32 0x00000000#32 = (0 : EReal) from Ideal.ofBits_zero_f32]
  rfl

/-- The stored mean under the complementary mask. -/
theorem fin_mean_out_at_x1 (som : Vec Ideal S4x1x1x1 .f32) (aom : Vec Ideal S4x128x1x1 .f32) (b : Fin 4) (c : Fin 128) :
    k0_pay19 (F := Ideal) som aom (ix4 b c (0 : Fin 1) (0 : Fin 1))
      = Ideal.div (aom (ix4 b c (0 : Fin 1) (0 : Fin 1))) (som (ix4 b (0 : Fin 1) (0 : Fin 1) (0 : Fin 1)) + eps) := by
  dsimp only [k0_pay19, k0_pay17]
  rw [divf_apply, bc_at]
  rfl

/-- The stored variance under the complementary mask. -/
theorem fin_var_out_at_x1 (som som2 : Vec Ideal S4x1x1x1 .f32) (aom aom3 asqo : Vec Ideal S4x128x1x1 .f32) (b : Fin 4) (c : Fin 128) :
    k0_pay22 (F := Ideal) (k0_pay17 som) (k0_pay19 som aom) asqo aom3 som2 (ix4 b c (0 : Fin 1) (0 : Fin 1))
      = max (Ideal.div ((asqo (ix4 b c (0 : Fin 1) (0 : Fin 1)) - (two * Ideal.div (aom (ix4 b c (0 : Fin 1) (0 : Fin 1))) (som (ix4 b (0 : Fin 1) (0 : Fin 1) (0 : Fin 1)) + eps)) * aom3 (ix4 b c (0 : Fin 1) (0 : Fin 1))) + (Ideal.div (aom (ix4 b c (0 : Fin 1) (0 : Fin 1))) (som (ix4 b (0 : Fin 1) (0 : Fin 1) (0 : Fin 1)) + eps) * Ideal.div (aom (ix4 b c (0 : Fin 1) (0 : Fin 1))) (som (ix4 b (0 : Fin 1) (0 : Fin 1) (0 : Fin 1)) + eps)) * som2 (ix4 b (0 : Fin 1) (0 : Fin 1) (0 : Fin 1))) (som (ix4 b (0 : Fin 1) (0 : Fin 1) (0 : Fin 1)) + eps)) 0 := by
  dsimp only [k0_pay22, k0_pay19, k0_pay17]
  simp only [maximumf_apply, divf_apply, addf_apply, subf_apply, mulf_apply, broadcast_apply, bc_at]
  rw [show Scalar.ofBits (F := Ideal) .f32 0x00000000#32 = (0 : EReal) from Ideal.ofBits_zero_f32]
  rfl

/-! ### The second feature array -/

/-- The stored mean under the mask. -/
theorem fin_mean_in_at_x2 (sm : Vec Ideal S4x1x1x1 .f32) (am : Vec Ideal S4x128x1x1 .f32) (b : Fin 4) (c : Fin 128) :
    k0_pay23 (F := Ideal) (k0_pay16 sm) am (ix4 b c (0 : Fin 1) (0 : Fin 1))
      = Ideal.div (am (ix4 b c (0 : Fin 1) (0 : Fin 1))) (sm (ix4 b (0 : Fin 1) (0 : Fin 1) (0 : Fin 1)) + eps) := by
  dsimp only [k0_pay23, k0_pay16]
  rw [divf_apply, bc_at]
  rfl

/-- The stored variance under the mask. -/
theorem fin_var_in_at_x2 (sm sm2 : Vec Ideal S4x1x1x1 .f32) (am am3 asq : Vec Ideal S4x128x1x1 .f32) (b : Fin 4) (c : Fin 128) :
    k0_pay2 (F := Ideal) (k0_pay25 (k0_pay16 sm) (k0_pay23 (k0_pay16 sm) am) asq am3 sm2) (ix4 b c (0 : Fin 1) (0 : Fin 1))
      = max (Ideal.div ((asq (ix4 b c (0 : Fin 1) (0 : Fin 1)) - (two * Ideal.div (am (ix4 b c (0 : Fin 1) (0 : Fin 1))) (sm (ix4 b (0 : Fin 1) (0 : Fin 1) (0 : Fin 1)) + eps)) * am3 (ix4 b c (0 : Fin 1) (0 : Fin 1))) + (Ideal.div (am (ix4 b c (0 : Fin 1) (0 : Fin 1))) (sm (ix4 b (0 : Fin 1) (0 : Fin 1) (0 : Fin 1)) + eps) * Ideal.div (am (ix4 b c (0 : Fin 1) (0 : Fin 1))) (sm (ix4 b (0 : Fin 1) (0 : Fin 1) (0 : Fin 1)) + eps)) * sm2 (ix4 b (0 : Fin 1) (0 : Fin 1) (0 : Fin 1))) (sm (ix4 b (0 : Fin 1) (0 : Fin 1) (0 : Fin 1)) + eps)) 0 := by
  dsimp only [k0_pay2, k0_pay25, k0_pay23, k0_pay16]
  simp only [maximumf_apply, divf_apply, addf_apply, subf_apply, mulf_apply, broadcast_apply, bc_at]
  rw [show Scalar.ofBits (F := Ideal) .f32 0x00000000#32 = (0 : EReal) from Ideal.ofBits_zero_f32]
  rfl

/-- The stored mean under the complementary mask. -/
theorem fin_mean_out_at_x2 (som : Vec Ideal S4x1x1x1 .f32) (aom : Vec Ideal S4x128x1x1 .f32) (b : Fin 4) (c : Fin 128) :
    k0_pay24 (F := Ideal) (k0_pay17 som) aom (ix4 b c (0 : Fin 1) (0 : Fin 1))
      = Ideal.div (aom (ix4 b c (0 : Fin 1) (0 : Fin 1))) (som (ix4 b (0 : Fin 1) (0 : Fin 1) (0 : Fin 1)) + eps) := by
  dsimp only [k0_pay24, k0_pay17]
  rw [divf_apply, bc_at]
  rfl

/-- The stored variance under the complementary mask. -/
theorem fin_var_out_at_x2 (som som2 : Vec Ideal S4x1x1x1 .f32) (aom aom3 asqo : Vec Ideal S4x128x1x1 .f32) (b : Fin 4) (c : Fin 128) :
    k0_pay3 (F := Ideal) (k0_pay26 (k0_pay17 som) aom asqo aom3 som2) (ix4 b c (0 : Fin 1) (0 : Fin 1))
      = max (Ideal.div ((asqo (ix4 b c (0 : Fin 1) (0 : Fin 1)) - (two * Ideal.div (aom (ix4 b c (0 : Fin 1) (0 : Fin 1))) (som (ix4 b (0 : Fin 1) (0 : Fin 1) (0 : Fin 1)) + eps)) * aom3 (ix4 b c (0 : Fin 1) (0 : Fin 1))) + (Ideal.div (aom (ix4 b c (0 : Fin 1) (0 : Fin 1))) (som (ix4 b (0 : Fin 1) (0 : Fin 1) (0 : Fin 1)) + eps) * Ideal.div (aom (ix4 b c (0 : Fin 1) (0 : Fin 1))) (som (ix4 b (0 : Fin 1) (0 : Fin 1) (0 : Fin 1)) + eps)) * som2 (ix4 b (0 : Fin 1) (0 : Fin 1) (0 : Fin 1))) (som (ix4 b (0 : Fin 1) (0 : Fin 1) (0 : Fin 1)) + eps)) 0 := by
  dsimp only [k0_pay3, k0_pay26, k0_pay24, k0_pay17]
  simp only [maximumf_apply, divf_apply, addf_apply, subf_apply, mulf_apply, broadcast_apply, bc_at]
  rw [show Scalar.ofBits (F := Ideal) .f32 0x00000000#32 = (0 : EReal) from Ideal.ofBits_zero_f32]
  rfl

end Cert.KernelIdeal.Hand

end
-- ==== Proof.ReduceSums.lean ====
/-
  The reduction's running sums and its last step over VARIABLES: what one more tile adds to each of the sixteen running
  sums, with the tile's rows named as rows of the whole arrays; and the eight stored statistics once the sixteen sums are
  the sums over all the pixels: the weighted mean and the variance from the three sums of monomials, for the mask and
  for its complement.
-/
import proofs.«117659_j43542378447212_2_alg».proof.Proof.ReducePayloads
import proofs.«117659_j43542378447212_2_alg».proof.Proof.ReduceFinalize
import proofs.«117659_j43542378447212_2_alg».proof.Proof.LibTileSum16
import proofs.«117659_j43542378447212_2_alg».proof.Proof.Arrays

noncomputable section

namespace Cert.KernelIdeal.Hand

open Cert.KernelIdeal Cert.KernelIdeal.Gen Cert.MaskedAdaIN Idealize.ShloMosaic Idealize.ShloMosaic.ValueIdx
open scoped BigOperators

/-! ## One more tile -/

/-- Running sum 0 after one more tile: the tile's rows are rows 16 t … 16 t + 15 of the whole arrays. -/
theorem step_s0 (m : Vec Ideal S4x1x16x256 .f32) (old : Vec Ideal S4x1x1x1 .f32) (Mk : FVec Ideal SMask .f32) (t : Fin 16) (b : Fin 4)
    (hm : ∀ r w, m (ix4 b (0 : Fin 1) r w) = Mk (ix4 b (0 : Fin 1) (row16 t r) w)) :
    k0_pay39 m old (ix4 b (0 : Fin 1) (0 : Fin 1) (0 : Fin 1))
      = old (ix4 b (0 : Fin 1) (0 : Fin 1) (0 : Fin 1)) + tile (fun h w => (maskOf Mk) b (row16 t h) w) := by
  refine (acc_sm_at m old b).trans (congrArg (old (ix4 b (0 : Fin 1) (0 : Fin 1) (0 : Fin 1)) + ·) ?_)
  unfold tile
  refine Finset.sum_congr rfl fun h _ => Finset.sum_congr rfl fun w _ => ?_
  dsimp only
  rw [hm]
  rfl

/-- Running sum 1 after one more tile: the tile's rows are rows 16 t … 16 t + 15 of the whole arrays. -/
theorem step_s1 (m : Vec Ideal S4x1x16x256 .f32) (old : Vec Ideal S4x1x1x1 .f32) (Mk : FVec Ideal SMask .f32) (t : Fin 16) (b : Fin 4)
    (hm : ∀ r w, m (ix4 b (0 : Fin 1) r w) = Mk (ix4 b (0 : Fin 1) (row16 t r) w)) :
    k0_pay41 (k0_pay40 m old) (ix4 b (0 : Fin 1) (0 : Fin 1) (0 : Fin 1))
      = old (ix4 b (0 : Fin 1) (0 : Fin 1) (0 : Fin 1)) + tile (fun h w => (om (maskOf Mk)) b (row16 t h) w) := by
  refine (acc_som_at m old b).trans (congrArg (old (ix4 b (0 : Fin 1) (0 : Fin 1) (0 : Fin 1)) + ·) ?_)
  unfold tile
  refine Finset.sum_congr rfl fun h _ => Finset.sum_congr rfl fun w _ => ?_
  dsimp only
  rw [hm]
  rfl

/-- Running sum 2 after one more tile: the tile's rows are rows 16 t … 16 t + 15 of the whole arrays. -/
theorem step_s2 (m : Vec Ideal S4x1x16x256 .f32) (old : Vec Ideal S4x1x1x1 .f32) (Mk : FVec Ideal SMask .f32) (t : Fin 16) (b : Fin 4)
    (hm : ∀ r w, m (ix4 b (0 : Fin 1) r w) = Mk (ix4 b (0 : Fin 1) (row16 t r) w)) :
    k0_pay42 (k0_pay33 m) old (ix4 b (0 : Fin 1) (0 : Fin 1) (0 : Fin 1))
      = old (ix4 b (0 : Fin 1) (0 : Fin 1) (0 : Fin 1)) + tile (fun h w => (maskOf Mk) b (row16 t h) w * (maskOf Mk) b (row16 t h) w) := by
  refine (acc_sm2_at m old b).trans (congrArg (old (ix4 b (0 : Fin 1) (0 : Fin 1) (0 : Fin 1)) + ·) ?_)
  unfold tile
  refine Finset.sum_congr rfl fun h _ => Finset.sum_congr rfl fun w _ => ?_
  dsimp only
  rw [hm]
  rfl

/-- Running sum 3 after one more tile: the tile's rows are rows 16 t … 16 t + 15 of the whole arrays. -/
theorem step_s3 (m : Vec Ideal S4x1x16x256 .f32) (old : Vec Ideal S4x1x1x1 .f32) (Mk : FVec Ideal SMask .f32) (t : Fin 16) (b : Fin 4)
    (hm : ∀ r w, m (ix4 b (0 : Fin 1) r w) = Mk (ix4 b (0 : Fin 1) (row16 t r) w)) :
    k0_pay43 (k0_pay36 m) old (ix4 b (0 : Fin 1) (0 : Fin 1) (0 : Fin 1))
      = old (ix4 b (0 : Fin 1) (0 : Fin 1) (0 : Fin 1)) + tile (fun h w => (om (maskOf Mk)) b (row16 t h) w * (om (maskOf Mk)) b (row16 t h) w) := by
  refine (acc_som2_at m old b).trans (congrArg (old (ix4 b (0 : Fin 1) (0 : Fin 1) (0 : Fin 1)) + ·) ?_)
  unfold tile
  refine Finset.sum_congr rfl fun h _ => Finset.sum_congr rfl fun w _ => ?_
  dsimp only
  rw [hm]
  rfl

/-- Running sum 4 after one more tile: the tile's rows are rows 16 t … 16 t + 15 of the whole arrays. -/
theorem step_s4 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay45 old (k0_pay44 (k0_pay31 m) x) (ix4 b ch (0 : Fin 1) (0 : Fin 1))
      = old (ix4 b ch (0 : Fin 1) (0 : Fin 1)) + tile (fun h w => featOf X b ch (row16 t h) w * (maskOf Mk) b (row16 t h) w) := by
  refine (acc_x1_m_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 5 after one more tile: the tile's rows are rows 16 t … 16 t + 15 of the whole arrays. -/
theorem step_s5 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay46 (k0_pay32 m) x old (ix4 b ch (0 : Fin 1) (0 : Fin 1))
      = old (ix4 b ch (0 : Fin 1) (0 : Fin 1)) + tile (fun h w => featOf X b ch (row16 t h) w * (om (maskOf Mk)) b (row16 t h) w) := by
  refine (acc_x1_om_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 6 after one more tile: the tile's rows are rows 16 t … 16 t + 15 of the whole arrays. -/
theorem step_s6 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay47 (k0_pay34 m) x old (ix4 b ch (0 : Fin 1) (0 : Fin 1))
      = old (ix4 b ch (0 : Fin 1) (0 : Fin 1)) + tile (fun h w => featOf X b ch (row16 t h) w * (((maskOf Mk) b (row16 t h) w * (maskOf Mk) b (row16 t h) w) * (maskOf Mk) b (row16 t h) w)) := by
  refine (acc_x1_m3_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 7 after one more tile: the tile's rows are rows 16 t … 16 t + 15 of the whole arrays. -/
theorem step_s7 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay49 old (k0_pay48 (k0_pay37 m) x) (ix4 b ch (0 : Fin 1) (0 : Fin 1))
      = old (ix4 b ch (0 : Fin 1) (0 : Fin 1)) + tile (fun h w => featOf X b ch (row16 t h) w * (((om (maskOf Mk)) b (row16 t h) w * (om (maskOf Mk)) b (row16 t h) w) * (om (maskOf Mk)) b (row16 t h) w)) := by
  refine (acc_x1_om3_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 8 after one more tile: the tile's rows are rows 16 t … 16 t + 15 of the whole arrays. -/
theorem step_s8 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay50 (k0_pay35 m) x old (ix4 b ch (0 : Fin 1) (0 : Fin 1))
      = old (ix4 b ch (0 : Fin 1) (0 : Fin 1)) + tile (fun h w => (featOf X b ch (row16 t h) w * featOf X b ch (row16 t h) w) * (((maskOf Mk) b (row16 t h) w * (maskOf Mk) b (row16 t h) w) * ((maskOf Mk) b (row16 t h) w * (maskOf Mk) b (row16 t h) w))) := by
  refine (acc_x1sq_m4_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 9 after one more tile: the tile's rows are rows 16 t … 16 t + 15 of the whole arrays. -/
theorem step_s9 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay51 (k0_pay38 m) x old (ix4 b ch (0 : Fin 1) (0 : Fin 1))
      = old (ix4 b ch (0 : Fin 1) (0 : Fin 1)) + tile (fun h w => (featOf X b ch (row16 t h) w * featOf X b ch (row16 t h) w) * (((om (maskOf Mk)) b (row16 t h) w * (om (maskOf Mk)) b (row16 t h) w) * ((om (maskOf Mk)) b (row16 t h) w * (om (maskOf Mk)) b (row16 t h) w))) := by
  refine (acc_x1sq_om4_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 10 after one more tile: the tile's rows are rows 16 t … 16 t + 15 of the whole arrays. -/
theorem step_s10 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay52 (k0_pay31 m) x old (ix4 b ch (0 : Fin 1) (0 : Fin 1))
      = old (ix4 b ch (0 : Fin 1) (0 : Fin 1)) + tile (fun h w => featOf X b ch (row16 t h) w * (maskOf Mk) b (row16 t h) w) := by
  refine (acc_x2_m_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 11 after one more tile: the tile's rows are rows 16 t … 16 t + 15 of the whole arrays. -/
theorem step_s11 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay53 (k0_pay32 m) x old (ix4 b ch (0 : Fin 1) (0 : Fin 1))
      = old (ix4 b ch (0 : Fin 1) (0 : Fin 1)) + tile (fun h w => featOf X b ch (row16 t h) w * (om (maskOf Mk)) b (row16 t h) w) := by
  refine (acc_x2_om_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 12 after one more tile: the tile's rows are rows 16 t … 16 t + 15 of the whole arrays. -/
theorem step_s12 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay55 old (k0_pay54 (k0_pay34 m) x) (ix4 b ch (0 : Fin 1) (0 : Fin 1))
      = old (ix4 b ch (0 : Fin 1) (0 : Fin 1)) + tile (fun h w => featOf X b ch (row16 t h) w * (((maskOf Mk) b (row16 t h) w * (maskOf Mk) b (row16 t h) w) * (maskOf Mk) b (row16 t h) w)) := by
  refine (acc_x2_m3_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 13 after one more tile: the tile's rows are rows 16 t … 16 t + 15 of the whole arrays. -/
theorem step_s13 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay56 (k0_pay37 m) x old (ix4 b ch (0 : Fin 1) (0 : Fin 1))
      = old (ix4 b ch (0 : Fin 1) (0 : Fin 1)) + tile (fun h w => featOf X b ch (row16 t h) w * (((om (maskOf Mk)) b (row16 t h) w * (om (maskOf Mk)) b (row16 t h) w) * (om (maskOf Mk)) b (row16 t h) w)) := by
  refine (acc_x2_om3_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 14 after one more tile: the tile's rows are rows 16 t … 16 t + 15 of the whole arrays. -/
theorem step_s14 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay57 (k0_pay35 m) x old (ix4 b ch (0 : Fin 1) (0 : Fin 1))
      = old (ix4 b ch (0 : Fin 1) (0 : Fin 1)) + tile (fun h w => (featOf X b ch (row16 t h) w * featOf X b ch (row16 t h) w) * (((maskOf Mk) b (row16 t h) w * (maskOf Mk) b (row16 t h) w) * ((maskOf Mk) b (row16 t h) w * (maskOf Mk) b (row16 t h) w))) := by
  refine (acc_x2sq_m4_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-- Running sum 15 after one more tile: the tile's rows are rows 16 t … 16 t + 15 of the whole arrays. -/
theorem step_s15 (m : Vec Ideal S4x1x16x256 .f32) (x : Vec Ideal S4x128x16x256 .f32) (old : Vec Ideal S4x128x1x1 .f32)
    (X : FVec Ideal SFeat .f32) (Mk : FVec Ideal SMask .f32) (t : Fin 16) (b : Fin 4) (ch : Fin 128)
    (hx : ∀ r w, x (ix4 b ch r w) = X (ix4 b ch (row16 t r) w)) (hm : ∀ r w, m (ix4 b (0 : Fin 1) r w) = Mk (ix4 b (0 : Fin 1) (row16 t r) w)) :
    k0_pay1 (k0_pay38 m) x old (ix4 b ch (0 : Fin 1) (0 : Fin 1))
      = old (ix4 b ch (0 : Fin 1) (0 : Fin 1)) + tile (fun h w => (featOf X b ch (row16 t h) w * featOf X b ch (row16 t h) w) * (((om (maskOf Mk)) b (row16 t h) w * (om (maskOf Mk)) b (row16 t h) w) * ((om (maskOf Mk)) b (row16 t h) w * (om (maskOf Mk)) b (row16 t h) w))) := by
  refine (acc_x2sq_om4_at m x old b ch).trans (congrArg (old (ix4 b ch (0 : Fin 1) (0 : Fin 1)) + ·) ?_)
  unfold tile
  refine Finset.sum_congr rfl fun h _ => Finset.sum_congr rfl fun w _ => ?_
  dsimp only
  rw [hx, hm]
  rfl

/-! ## The stored statistics from the sums over all the pixels -/

/-- The stored mean, once the two sums it reads are the sums over all the pixels, is the weighted mean. -/
theorem out_mean_in_x1 (X : Feat) (G : Mask) (s0 : Vec Ideal S4x1x1x1 .f32) (a : Vec Ideal S4x128x1x1 .f32) (b : Fin 4) (ch : Fin 128)
    (h0 : s0 (ix4 b (0 : Fin 1) (0 : Fin 1) (0 : Fin 1)) = pix (G b)) (ha : a (ix4 b ch (0 : Fin 1) (0 : Fin 1)) = pix (fun h w => X b ch h w * G b h w)) :
    k0_pay18 (F := Ideal) s0 a (ix4 b ch (0 : Fin 1) (0 : Fin 1)) = mean X G b ch := by
  rw [fin_mean_in_at_x1, ha, h0]
  rfl

/-- The stored variance, once the five sums it reads are the sums over all the pixels, is the variance from the three sums of monomials. -/
theorem out_var_in_x1 (X : Feat) (G : Mask) (s0 s2 : Vec Ideal S4x1x1x1 .f32) (a a3 sq : Vec Ideal S4x128x1x1 .f32) (b : Fin 4) (ch : Fin 128)
    (h0 : s0 (ix4 b (0 : Fin 1) (0 : Fin 1) (0 : Fin 1)) = pix (G b)) (h2 : s2 (ix4 b (0 : Fin 1) (0 : Fin 1) (0 : Fin 1)) = pix (fun h w => G b h w * G b h w))
    (ha : a (ix4 b ch (0 : Fin 1) (0 : Fin 1)) = pix (fun h w => X b ch h w * G b h w))
    (ha3 : a3 (ix4 b ch (0 : Fin 1) (0 : Fin 1)) = pix (fun h w => X b ch h w * ((G b h w * G b h w) * G b h w)))
    (hsq : sq (ix4 b ch (0 : Fin 1) (0 : Fin 1)) = pix (fun h w => (X b ch h w * X b ch h w) * ((G b h w * G b h w) * (G b h w * G b h w)))) :
    k0_pay21 (F := Ideal) (k0_pay20 s0 a sq a3 s2) (ix4 b ch (0 : Fin 1) (0 : Fin 1)) = varMom X G b ch := by
  rw [fin_var_in_at_x1, hsq, ha3, h2, ha, h0]
  rfl

/-- The stored mean, once the two sums it reads are the sums over all the pixels, is the weighted mean. -/
theorem out_mean_out_x1 (X : Feat) (G : Mask) (s0 : Vec Ideal S4x1x1x1 .f32) (a : Vec Ideal S4x128x1x1 .f32) (b : Fin 4) (ch : Fin 128)
    (h0 : s0 (ix4 b (0 : Fin 1) (0 : Fin 1) (0 : Fin 1)) = pix (G b)) (ha : a (ix4 b ch (0 : Fin 1) (0 : Fin 1)) = pix (fun h w => X b ch h w * G b h w)) :
    k0_pay19 (F := Ideal) s0 a (ix4 b ch (0 : Fin 1) (0 : Fin 1)) = mean X G b ch := by
  rw [fin_mean_out_at_x1, ha, h0]
  rfl

/-- The stored variance, once the five sums it reads are the sums over all the pixels, is the variance from the three sums of monomials. -/
theorem out_var_out_x1 (X : Feat) (G : Mask) (s0 s2 : Vec Ideal S4x1x1x1 .f32) (a a3 sq : Vec Ideal S4x128x1x1 .f32) (b : Fin 4) (ch : Fin 128)
    (h0 : s0 (ix4 b (0 : Fin 1) (0 : Fin 1) (0 : Fin 1)) = pix (G b)) (h2 : s2 (ix4 b (0 : Fin 1) (0 : Fin 1) (0 : Fin 1)) = pix (fun h w => G b h w * G b h w))
    (ha : a (ix4 b ch (0 : Fin 1) (0 : Fin 1)) = pix (fun h w => X b ch h w * G b h w))
    (ha3 : a3 (ix4 b ch (0 : Fin 1) (0 : Fin 1)) = pix (fun h w => X b ch h w * ((G b h w * G b h w) * G b h w)))
    (hsq : sq (ix4 b ch (0 : Fin 1) (0 : Fin 1)) = pix (fun h w => (X b ch h w * X b ch h w) * ((G b h w * G b h w) * (G b h w * G b h w)))) :
    k0_pay22 (F := Ideal) (k0_pay17 s0) (k0_pay19 s0 a) sq a3 s2 (ix4 b ch (0 : Fin 1) (0 : Fin 1)) = varMom X G b ch := by
  rw [fin_var_out_at_x1, hsq, ha3, h2, ha, h0]
  rfl

/-- The stored mean, once the two sums it reads are the sums over all the pixels, is the weighted mean. -/
theorem out_mean_in_x2 (X : Feat) (G : Mask) (s0 : Vec Ideal S4x1x1x1 .f32) (a : Vec Ideal S4x128x1x1 .f32) (b : Fin 4) (ch : Fin 128)
    (h0 : s0 (ix4 b (0 : Fin 1) (0 : Fin 1) (0 : Fin 1)) = pix (G b)) (ha : a (ix4 b ch (0 : Fin 1) (0 : Fin 1)) = pix (fun h w => X b ch h w * G b h w)) :
    k0_pay23 (F := Ideal) (k0_pay16 s0) a (ix4 b ch (0 : Fin 1) (0 : Fin 1)) = mean X G b ch := by
  rw [fin_mean_in_at_x2, ha, h0]
  rfl

/-- The stored variance, once the five sums it reads are the sums over all the pixels, is the variance from the three sums of monomials. -/
theorem out_var_in_x2 (X : Feat) (G : Mask) (s0 s2 : Vec Ideal S4x1x1x1 .f32) (a a3 sq : Vec Ideal S4x128x1x1 .f32) (b : Fin 4) (ch : Fin 128)
    (h0 : s0 (ix4 b (0 : Fin 1) (0 : Fin 1) (0 : Fin 1)) = pix (G b)) (h2 : s2 (ix4 b (0 : Fin 1) (0 : Fin 1) (0 : Fin 1)) = pix (fun h w => G b h w * G b h w))
    (ha : a (ix4 b ch (0 : Fin 1) (0 : Fin 1)) = pix (fun h w => X b ch h w * G b h w))
    (ha3 : a3 (ix4 b ch (0 : Fin 1) (0 : Fin 1)) = pix (fun h w => X b ch h w * ((G b h w * G b h w) * G b h w)))
    (hsq : sq (ix4 b ch (0 : Fin 1) (0 : Fin 1)) = pix (fun h w => (X b ch h w * X b ch h w) * ((G b h w * G b h w) * (G b h w * G b h w)))) :
    k0_pay2 (F := Ideal) (k0_pay25 (k0_pay16 s0) (k0_pay23 (k0_pay16 s0) a) sq a3 s2) (ix4 b ch (0 : Fin 1) (0 : Fin 1)) = varMom X G b ch := by
  rw [fin_var_in_at_x2, hsq, ha3, h2, ha, h0]
  rfl

/-- The stored mean, once the two sums it reads are the sums over all the pixels, is the weighted mean. -/
theorem out_mean_out_x2 (X : Feat) (G : Mask) (s0 : Vec Ideal S4x1x1x1 .f32) (a : Vec Ideal S4x128x1x1 .f32) (b : Fin 4) (ch : Fin 128)
    (h0 : s0 (ix4 b (0 : Fin 1) (0 : Fin 1) (0 : Fin 1)) = pix (G b)) (ha : a (ix4 b ch (0 : Fin 1) (0 : Fin 1)) = pix (fun h w => X b ch h w * G b h w)) :
    k0_pay24 (F := Ideal) (k0_pay17 s0) a (ix4 b ch (0 : Fin 1) (0 : Fin 1)) = mean X G b ch := by
  rw [fin_mean_out_at_x2, ha, h0]
  rfl

/-- The stored variance, once the five sums it reads are the sums over all the pixels, is the variance from the three sums of monomials. -/
theorem out_var_out_x2 (X : Feat) (G : Mask) (s0 s2 : Vec Ideal S4x1x1x1 .f32) (a a3 sq : Vec Ideal S4x128x1x1 .f32) (b : Fin 4) (ch : Fin 128)
    (h0 : s0 (ix4 b (0 : Fin 1) (0 : Fin 1) (0 : Fin 1)) = pix (G b)) (h2 : s2 (ix4 b (0 : Fin 1) (0 : Fin 1) (0 : Fin 1)) = pix (fun h w => G b h w * G b h w))
    (ha : a (ix4 b ch (0 : Fin 1) (0 : Fin 1)) = pix (fun h w => X b ch h w * G b h w))
    (ha3 : a3 (ix4 b ch (0 : Fin 1) (0 : Fin 1)) = pix (fun h w => X b ch h w * ((G b h w * G b h w) * G b h w)))
    (hsq : sq (ix4 b ch (0 : Fin 1) (0 : Fin 1)) = pix (fun h w => (X b ch h w * X b ch h w) * ((G b h w * G b h w) * (G b h w * G b h w)))) :
    k0_pay3 (F := Ideal) (k0_pay26 (k0_pay17 s0) a sq a3 s2) (ix4 b ch (0 : Fin 1) (0 : Fin 1)) = varMom X G b ch := by
  rw [fin_var_out_at_x2, hsq, ha3, h2, ha, h0]
  rfl

end Cert.KernelIdeal.Hand

end
-- ==== Proof.ReduceValue.lean ====
/-
  The value of the reduction region at the extended reals. Over the sixteen grid points each of the sixteen running sums
  starts at zero plus the first tile's sum and gains one tile's sum per point, so after the last point it is the sum over
  all the pixels of its monomial in the feature array and the mask (or the complementary mask); the last point then stores,
  from those sums, the weighted means and the variances from the three sums of monomials, and the pipeline flushes exactly
  those eight arrays.
-/
import proofs.«117659_j43542378447212_2_alg».proof.Proof.ReducePointsA
import proofs.«117659_j43542378447212_2_alg».proof.Proof.ReducePointsB
import proofs.«117659_j43542378447212_2_alg».proof.Proof.ReducePointsC
import proofs.«117659_j43542378447212_2_alg».proof.Proof.ReduceFlush
import proofs.«117659_j43542378447212_2_alg».proof.Proof.ReduceBlocks
import proofs.«117659_j43542378447212_2_alg».proof.Proof.ReduceSums
import proofs.«117659_j43542378447212_2_alg».proof.Proof.LibTileSum16
import proofs.«117659_j43542378447212_2_alg».proof.Proof.Arrays
import Idealize.ShloMosaic.Lib.Pipeline.Value

set_option maxRecDepth 16384

noncomputable section

namespace Cert.KernelIdeal.Hand

open Cert.KernelIdeal Cert.KernelIdeal.Gen Cert.MaskedAdaIN
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The running sums start at zero -/

/-- The zero splat a running sum is started with is 0 at every index. -/
theorem zeroSplat_at {s : Shape} (h : s.ShapeCasts s) (i : s.Idx) :
    shapeCast s (broadcast s (Scalar.ofBits (F := Ideal) .f32 0x00000000#32)) h i = 0 := by
  rw [shapeCast_self]
  exact Ideal.ofBits_zero_f32

/-! ## A running sum over the sixteen grid points -/

/-- A quantity read off the buffers that the first point sets to 0 + g 0 and every later point increases by g of its
    tile is, after the last point, the sum of g over the sixteen tiles. -/
theorem total_of (c : Dev nD) (proj : Pt Ideal → EReal) (g : Fin 16 → EReal)
    (hA : ∀ t hc0 hc1, proj (ptA V c t hc0 hc1) = 0 + g (tileOf t))
    (hB : ∀ t hc0 hc1 p, proj (ptB V c t hc0 hc1 p) = proj p + g (tileOf t))
    (hC : ∀ t hc0 hc1 p, proj (ptC V c t hc0 hc1 p) = proj p + g (tileOf t)) :
    proj (outsAt0 V c 15 h15) = ∑ t : Fin 16, g t := by
  have hN : cfg0.N = 16 := N_0
  have key := fold_tiles g (fun n => if h : n < cfg0.N then proj (outsAt0 V c n h) else 0)
    (by
      have h00 : 0 < cfg0.N := by rw [hN]; decide
      show (if h : 0 < cfg0.N then proj (outsAt0 V c 0 h) else 0) = 0 + g 0
      rw [dif_pos h00]
      exact (congrArg proj (outsAt0_A V c ⟨0, h00⟩ rfl (show ¬ (0 : ℕ) = 15 by decide))).trans (hA _ _ _))
    (by
      intro n hn
      have hn1 : n + 1 < cfg0.N := by rw [hN]; exact hn
      have hn0 : n < cfg0.N := by omega
      show (if h : n + 1 < cfg0.N then proj (outsAt0 V c (n + 1) h) else 0)
        = (if h : n < cfg0.N then proj (outsAt0 V c n h) else 0) + g ⟨n + 1, hn⟩
      rw [dif_pos hn1, dif_pos hn0]
      by_cases h1 : n + 1 = 15
      · exact (congrArg proj (outsAt0_C V c ⟨n + 1, hn1⟩ (Nat.succ_ne_zero n) h1)).trans (hC _ _ _ _)
      · exact (congrArg proj (outsAt0_B V c ⟨n + 1, hn1⟩ (Nat.succ_ne_zero n) h1)).trans (hB _ _ _ _))
  rw [dif_pos h15] at key
  exact key

/-! ## The sixteen running sums after the last point -/

/-! ## The sixteen running sums after the last point -/

/-- Running sum 0 after the last point is its sum over all the pixels. -/
theorem total_s0 (c : Dev nD) (b : Fin 4) :
    (outsAt0 V c 15 h15).s0 (ix4 b (0 : Fin 1) (0 : Fin 1) (0 : Fin 1)) = pix ((maskOf (V c main_v3)) b) := by
  refine (total_of V c (fun p => p.s0 (ix4 b (0 : Fin 1) (0 : Fin 1) (0 : Fin 1))) (fun t => tile (fun h w => (maskOf (V c main_v3)) b (row16 t h) w)) ?_ ?_ ?_).trans (pix_eq_tiles ((maskOf (V c main_v3)) b)).symm
  · intro t hc0 hc1
    have hm := iblk0_2_apply V c t b
    show (ptA V c t hc0 hc1).s0 (ix4 b (0 : Fin 1) (0 : Fin 1) (0 : Fin 1)) = _
    rw [ptA_s0]
    refine (step_s0 _ _ _ (tileOf t) b hm).trans ?_
    exact congrArg (· + _) (zeroSplat_at _ _)
  · intro t hc0 hc1 p
    have hm := iblk0_2_apply V c t b
    show (ptB V c t hc0 hc1 p).s0 (ix4 b (0 : Fin 1) (0 : Fin 1) (0 : Fin 1)) = _
    rw [ptB_s0]
    exact step_s0 _ _ _ (tileOf t) b hm
  · intro t hc0 hc1 p
    have hm := iblk0_2_apply V c t b
    show (ptC V c t hc0 hc1 p).s0 (ix4 b (0 : Fin 1) (0 : Fin 1) (0 : Fin 1)) = _
    rw [ptC_s0]
    exact step_s0 _ _ _ (tileOf t) b hm

/-- Running sum 1 after the last point is its sum over all the pixels. -/
theorem total_s1 (c : Dev nD) (b : Fin 4) :
    (outsAt0 V c 15 h15).s1 (ix4 b (0 : Fin 1) (0 : Fin 1) (0 : Fin 1)) = pix ((om (maskOf (V c main_v3))) b) := by
  refine (total_of V c (fun p => p.s1 (ix4 b (0 : Fin 1) (0 : Fin 1) (0 : Fin 1))) (fun t => tile (fun h w => (om (maskOf (V c main_v3))) b (row16 t h) w)) ?_ ?_ ?_).trans (pix_eq_tiles ((om (maskOf (V c main_v3))) b)).symm
  · intro t hc0 hc1
    have hm := iblk0_2_apply V c t b
    show (ptA V c t hc0 hc1).s1 (ix4 b (0 : Fin 1) (0 : Fin 1) (0 : Fin 1)) = _
    rw [ptA_s1]
    refine (step_s1 _ _ _ (tileOf t) b hm).trans ?_
    exact congrArg (· + _) (zeroSplat_at _ _)
  · intro t hc0 hc1 p
    have hm := iblk0_2_apply V c t b
    show (ptB V c t hc0 hc1 p).s1 (ix4 b (0 : Fin 1) (0 : Fin 1) (0 : Fin 1)) = _
    rw [ptB_s1]
    exact step_s1 _ _ _ (tileOf t) b hm
  · intro t hc0 hc1 p
    have hm := iblk0_2_apply V c t b
    show (ptC V c t hc0 hc1 p).s1 (ix4 b (0 : Fin 1) (0 : Fin 1) (0 : Fin 1)) = _
    rw [ptC_s1]
    exact step_s1 _ _ _ (tileOf t) b hm

/-- Running sum 2 after the last point is its sum over all the pixels. -/
theorem total_s2 (c : Dev nD) (b : Fin 4) :
    (outsAt0 V c 15 h15).s2 (ix4 b (0 : Fin 1) (0 : Fin 1) (0 : Fin 1)) = pix (fun h w => (maskOf (V c main_v3)) b h w * (maskOf (V c main_v3)) b h w) := by
  refine (total_of V c (fun p => p.s2 (ix4 b (0 : Fin 1) (0 : Fin 1) (0 : Fin 1))) (fun t => tile (fun h w => (maskOf (V c main_v3)) b (row16 t h) w * (maskOf (V c main_v3)) b (row16 t h) w)) ?_ ?_ ?_).trans (pix_eq_tiles (fun h w => (maskOf (V c main_v3)) b h w * (maskOf (V c main_v3)) b h w)).symm
  · intro t hc0 hc1
    have hm := iblk0_2_apply V c t b
    show (ptA V c t hc0 hc1).s2 (ix4 b (0 : Fin 1) (0 : Fin 1) (0 : Fin 1)) = _
    rw [ptA_s2]
    refine (step_s2 _ _ _ (tileOf t) b hm).trans ?_
    exact congrArg (· + _) (zeroSplat_at _ _)
  · intro t hc0 hc1 p
    have hm := iblk0_2_apply V c t b
    show (ptB V c t hc0 hc1 p).s2 (ix4 b (0 : Fin 1) (0 : Fin 1) (0 : Fin 1)) = _
    rw [ptB_s2]
    exact step_s2 _ _ _ (tileOf t) b hm
  · intro t hc0 hc1 p
    have hm := iblk0_2_apply V c t b
    show (ptC V c t hc0 hc1 p).s2 (ix4 b (0 : Fin 1) (0 : Fin 1) (0 : Fin 1)) = _
    rw [ptC_s2]
    exact step_s2 _ _ _ (tileOf t) b hm

/-- Running sum 3 after the last point is its sum over all the pixels. -/
theorem total_s3 (c : Dev nD) (b : Fin 4) :
    (outsAt0 V c 15 h15).s3 (ix4 b (0 : Fin 1) (0 : Fin 1) (0 : Fin 1)) = pix (fun h w => (om (maskOf (V c main_v3))) b h w * (om (maskOf (V c main_v3))) b h w) := by
  refine (total_of V c (fun p => p.s3 (ix4 b (0 : Fin 1) (0 : Fin 1) (0 : Fin 1))) (fun t => tile (fun h w => (om (maskOf (V c main_v3))) b (row16 t h) w * (om (maskOf (V c main_v3))) b (row16 t h) w)) ?_ ?_ ?_).trans (pix_eq_tiles (fun h w => (om (maskOf (V c main_v3))) b h w * (om (maskOf (V c main_v3))) b h w)).symm
  · intro t hc0 hc1
    have hm := iblk0_2_apply V c t b
    show (ptA V c t hc0 hc1).s3 (ix4 b (0 : Fin 1) (0 : Fin 1) (0 : Fin 1)) = _
    rw [ptA_s3]
    refine (step_s3 _ _ _ (tileOf t) b hm).trans ?_
    exact congrArg (· + _) (zeroSplat_at _ _)
  · intro t hc0 hc1 p
    have hm := iblk0_2_apply V c t b
    show (ptB V c t hc0 hc1 p).s3 (ix4 b (0 : Fin 1) (0 : Fin 1) (0 : Fin 1)) = _
    rw [ptB_s3]
    exact step_s3 _ _ _ (tileOf t) b hm
  · intro t hc0 hc1 p
    have hm := iblk0_2_apply V c t b
    show (ptC V c t hc0 hc1 p).s3 (ix4 b (0 : Fin 1) (0 : Fin 1) (0 : Fin 1)) = _
    rw [ptC_s3]
    exact step_s3 _ _ _ (tileOf t) b hm

/-- Running sum 4 after the last point is its sum over all the pixels. -/
theorem total_s4 (c : Dev nD) (b : Fin 4) (ch : Fin 128) :
    (outsAt0 V c 15 h15).s4 (ix4 b ch (0 : Fin 1) (0 : Fin 1)) = pix (fun h w => featOf (V c main_arg0) b ch h w * (maskOf (V c main_v3)) b h w) := by
  refine (total_of V c (fun p => p.s4 (ix4 b ch (0 : Fin 1) (0 : Fin 1))) (fun t => tile (fun h w => featOf (V c main_arg0) b ch (row16 t h) w * (maskOf (V c main_v3)) b (row16 t h) w)) ?_ ?_ ?_).trans (pix_eq_tiles (fun h w => featOf (V c main_arg0) b ch h w * (maskOf (V c main_v3)) b h w)).symm
  · intro t hc0 hc1
    have hx := iblk0_0_apply V c t b ch
    have hm := iblk0_2_apply V c t b
    show (ptA V c t hc0 hc1).s4 (ix4 b ch (0 : Fin 1) (0 : Fin 1)) = _
    rw [ptA_s4]
    refine (step_s4 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s4 (ix4 b ch (0 : Fin 1) (0 : Fin 1)) = _
    rw [ptB_s4]
    exact step_s4 _ _ _ _ _ (tileOf t) b ch hx hm
  · intro t hc0 hc1 p
    have hx := iblk0_0_apply V c t b ch
    have hm := iblk0_2_apply V c t b
    show (ptC V c t hc0 hc1 p).s4 (ix4 b ch (0 : Fin 1) (0 : Fin 1)) = _
    rw [ptC_s4]
    exact step_s4 _ _ _ _ _ (tileOf t) b ch hx hm

/-- Running sum 5 after the last point is its sum over all the pixels. -/
theorem total_s5 (c : Dev nD) (b : Fin 4) (ch : Fin 128) :
    (outsAt0 V c 15 h15).s5 (ix4 b ch (0 : Fin 1) (0 : Fin 1)) = pix (fun h w => featOf (V c main_arg0) b ch h w * (om (maskOf (V c main_v3))) b h w) := by
  refine (total_of V c (fun p => p.s5 (ix4 b ch (0 : Fin 1) (0 : Fin 1))) (fun t => tile (fun h w => featOf (V c main_arg0) b ch (row16 t h) w * (om (maskOf (V c main_v3))) b (row16 t h) w)) ?_ ?_ ?_).trans (pix_eq_tiles (fun h w => featOf (V c main_arg0) b ch h w * (om (maskOf (V c main_v3))) b h w)).symm
  · intro t hc0 hc1
    have hx := iblk0_0_apply V c t b ch
    have hm := iblk0_2_apply V c t b
    show (ptA V c t hc0 hc1).s5 (ix4 b ch (0 : Fin 1) (0 : Fin 1)) = _
    rw [ptA_s5]
    refine (step_s5 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s5 (ix4 b ch (0 : Fin 1) (0 : Fin 1)) = _
    rw [ptB_s5]
    exact step_s5 _ _ _ _ _ (tileOf t) b ch hx hm
  · intro t hc0 hc1 p
    have hx := iblk0_0_apply V c t b ch
    have hm := iblk0_2_apply V c t b
    show (ptC V c t hc0 hc1 p).s5 (ix4 b ch (0 : Fin 1) (0 : Fin 1)) = _
    rw [ptC_s5]
    exact step_s5 _ _ _ _ _ (tileOf t) b ch hx hm

/-- Running sum 6 after the last point is its sum over all the pixels. -/
theorem total_s6 (c : Dev nD) (b : Fin 4) (ch : Fin 128) :
    (outsAt0 V c 15 h15).s6 (ix4 b ch (0 : Fin 1) (0 : Fin 1)) = pix (fun h w => featOf (V c main_arg0) b ch h w * (((maskOf (V c main_v3)) b h w * (maskOf (V c main_v3)) b h w) * (maskOf (V c main_v3)) b h w)) := by
  refine (total_of V c (fun p => p.s6 (ix4 b ch (0 : Fin 1) (0 : Fin 1))) (fun t => tile (fun h w => featOf (V c main_arg0) b ch (row16 t h) w * (((maskOf (V c main_v3)) b (row16 t h) w * (maskOf (V c main_v3)) b (row16 t h) w) * (maskOf (V c main_v3)) b (row16 t h) w))) ?_ ?_ ?_).trans (pix_eq_tiles (fun h w => featOf (V c main_arg0) b ch h w * (((maskOf (V c main_v3)) b h w * (maskOf (V c main_v3)) b h w) * (maskOf (V c main_v3)) b h w))).symm
  · intro t hc0 hc1
    have hx := iblk0_0_apply V c t b ch
    have hm := iblk0_2_apply V c t b
    show (ptA V c t hc0 hc1).s6 (ix4 b ch (0 : Fin 1) (0 : Fin 1)) = _
    rw [ptA_s6]
    refine (step_s6 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s6 (ix4 b ch (0 : Fin 1) (0 : Fin 1)) = _
    rw [ptB_s6]
    exact step_s6 _ _ _ _ _ (tileOf t) b ch hx hm
  · intro t hc0 hc1 p
    have hx := iblk0_0_apply V c t b ch
    have hm := iblk0_2_apply V c t b
    show (ptC V c t hc0 hc1 p).s6 (ix4 b ch (0 : Fin 1) (0 : Fin 1)) = _
    rw [ptC_s6]
    exact step_s6 _ _ _ _ _ (tileOf t) b ch hx hm

/-- Running sum 7 after the last point is its sum over all the pixels. -/
theorem total_s7 (c : Dev nD) (b : Fin 4) (ch : Fin 128) :
    (outsAt0 V c 15 h15).s7 (ix4 b ch (0 : Fin 1) (0 : Fin 1)) = pix (fun h w => featOf (V c main_arg0) b ch h w * (((om (maskOf (V c main_v3))) b h w * (om (maskOf (V c main_v3))) b h w) * (om (maskOf (V c main_v3))) b h w)) := by
  refine (total_of V c (fun p => p.s7 (ix4 b ch (0 : Fin 1) (0 : Fin 1))) (fun t => tile (fun h w => featOf (V c main_arg0) b ch (row16 t h) w * (((om (maskOf (V c main_v3))) b (row16 t h) w * (om (maskOf (V c main_v3))) b (row16 t h) w) * (om (maskOf (V c main_v3))) b (row16 t h) w))) ?_ ?_ ?_).trans (pix_eq_tiles (fun h w => featOf (V c main_arg0) b ch h w * (((om (maskOf (V c main_v3))) b h w * (om (maskOf (V c main_v3))) b h w) * (om (maskOf (V c main_v3))) b h w))).symm
  · intro t hc0 hc1
    have hx := iblk0_0_apply V c t b ch
    have hm := iblk0_2_apply V c t b
    show (ptA V c t hc0 hc1).s7 (ix4 b ch (0 : Fin 1) (0 : Fin 1)) = _
    rw [ptA_s7]
    refine (step_s7 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s7 (ix4 b ch (0 : Fin 1) (0 : Fin 1)) = _
    rw [ptB_s7]
    exact step_s7 _ _ _ _ _ (tileOf t) b ch hx hm
  · intro t hc0 hc1 p
    have hx := iblk0_0_apply V c t b ch
    have hm := iblk0_2_apply V c t b
    show (ptC V c t hc0 hc1 p).s7 (ix4 b ch (0 : Fin 1) (0 : Fin 1)) = _
    rw [ptC_s7]
    exact step_s7 _ _ _ _ _ (tileOf t) b ch hx hm

/-- Running sum 8 after the last point is its sum over all the pixels. -/
theorem total_s8 (c : Dev nD) (b : Fin 4) (ch : Fin 128) :
    (outsAt0 V c 15 h15).s8 (ix4 b ch (0 : Fin 1) (0 : Fin 1)) = pix (fun h w => (featOf (V c main_arg0) b ch h w * featOf (V c main_arg0) b ch h w) * (((maskOf (V c main_v3)) b h w * (maskOf (V c main_v3)) b h w) * ((maskOf (V c main_v3)) b h w * (maskOf (V c main_v3)) b h w))) := by
  refine (total_of V c (fun p => p.s8 (ix4 b ch (0 : Fin 1) (0 : Fin 1))) (fun t => tile (fun h w => (featOf (V c main_arg0) b ch (row16 t h) w * featOf (V c main_arg0) b ch (row16 t h) w) * (((maskOf (V c main_v3)) b (row16 t h) w * (maskOf (V c main_v3)) b (row16 t h) w) * ((maskOf (V c main_v3)) b (row16 t h) w * (maskOf (V c main_v3)) b (row16 t h) w)))) ?_ ?_ ?_).trans (pix_eq_tiles (fun h w => (featOf (V c main_arg0) b ch h w * featOf (V c main_arg0) b ch h w) * (((maskOf (V c main_v3)) b h w * (maskOf (V c main_v3)) b h w) * ((maskOf (V c main_v3)) b h w * (maskOf (V c main_v3)) b h w)))).symm
  · intro t hc0 hc1
    have hx := iblk0_0_apply V c t b ch
    have hm := iblk0_2_apply V c t b
    show (ptA V c t hc0 hc1).s8 (ix4 b ch (0 : Fin 1) (0 : Fin 1)) = _
    rw [ptA_s8]
    refine (step_s8 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s8 (ix4 b ch (0 : Fin 1) (0 : Fin 1)) = _
    rw [ptB_s8]
    exact step_s8 _ _ _ _ _ (tileOf t) b ch hx hm
  · intro t hc0 hc1 p
    have hx := iblk0_0_apply V c t b ch
    have hm := iblk0_2_apply V c t b
    show (ptC V c t hc0 hc1 p).s8 (ix4 b ch (0 : Fin 1) (0 : Fin 1)) = _
    rw [ptC_s8]
    exact step_s8 _ _ _ _ _ (tileOf t) b ch hx hm

/-- Running sum 9 after the last point is its sum over all the pixels. -/
theorem total_s9 (c : Dev nD) (b : Fin 4) (ch : Fin 128) :
    (outsAt0 V c 15 h15).s9 (ix4 b ch (0 : Fin 1) (0 : Fin 1)) = pix (fun h w => (featOf (V c main_arg0) b ch h w * featOf (V c main_arg0) b ch h w) * (((om (maskOf (V c main_v3))) b h w * (om (maskOf (V c main_v3))) b h w) * ((om (maskOf (V c main_v3))) b h w * (om (maskOf (V c main_v3))) b h w))) := by
  refine (total_of V c (fun p => p.s9 (ix4 b ch (0 : Fin 1) (0 : Fin 1))) (fun t => tile (fun h w => (featOf (V c main_arg0) b ch (row16 t h) w * featOf (V c main_arg0) b ch (row16 t h) w) * (((om (maskOf (V c main_v3))) b (row16 t h) w * (om (maskOf (V c main_v3))) b (row16 t h) w) * ((om (maskOf (V c main_v3))) b (row16 t h) w * (om (maskOf (V c main_v3))) b (row16 t h) w)))) ?_ ?_ ?_).trans (pix_eq_tiles (fun h w => (featOf (V c main_arg0) b ch h w * featOf (V c main_arg0) b ch h w) * (((om (maskOf (V c main_v3))) b h w * (om (maskOf (V c main_v3))) b h w) * ((om (maskOf (V c main_v3))) b h w * (om (maskOf (V c main_v3))) b h w)))).symm
  · intro t hc0 hc1
    have hx := iblk0_0_apply V c t b ch
    have hm := iblk0_2_apply V c t b
    show (ptA V c t hc0 hc1).s9 (ix4 b ch (0 : Fin 1) (0 : Fin 1)) = _
    rw [ptA_s9]
    refine (step_s9 _ _ _ _ _ (tileOf t) b ch hx hm).trans ?_
    exact congrArg (· + _) (zeroSplat_at _ _)
  · intro t hc0 hc1 p
    have hx := iblk0_0_apply V c t b ch
    have hm := iblk0_2_apply V c t b
    show (ptB V c t hc0 hc1 p).s9 (ix4 b ch (0 : Fin 1) (0 : Fin 1)) = _
    rw [ptB_s9]
    exact step_s9 _ _ _ _ _ (tileOf t) b ch hx hm
  · intro t hc0 hc1 p
    have hx := iblk0_0_apply V c t b ch
    have hm := iblk0_2_apply V c t b
    show (ptC V c t hc0 hc1 p).s9 (ix4 b ch (0 : Fin 1) (0 : Fin 1)) = _
    rw [ptC_s9]
    exact step_s9 _ _ _ _ _ (tileOf t) b ch hx hm

/-- Running sum 10 after the last point is its sum over all the pixels. -/
theorem total_s10 (c : Dev nD) (b : Fin 4) (ch : Fin 128) :
    (outsAt0 V c 15 h15).s10 (ix4 b ch (0 : Fin 1) (0 : Fin 1)) = pix (fun h w => featOf (V c main_arg1) b ch h w * (maskOf (V c main_v3)) b h w) := by
  refine (total_of V c (fun p => p.s10 (ix4 b ch (0 : Fin 1) (0 : Fin 1))) (fun t => tile (fun h w => featOf (V c main_arg1) b ch (row16 t h) w * (maskOf (V c main_v3)) b (row16 t h) w)) ?_ ?_ ?_).trans (pix_eq_tiles (fun h w => featOf (V c main_arg1) b ch h w * (maskOf (V c main_v3)) b h w)).symm
  · intro t hc0 hc1
    have hx := iblk0_1_apply V c t b ch
    have hm := iblk0_2_apply V c t b
    show (ptA V c t hc0 hc1).s10 (ix4 b ch (0 : Fin 1) (0 : Fin 1)) = _
    rw [ptA_s10]
    refine (step_s10 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s10 (ix4 b ch (0 : Fin 1) (0 : Fin 1)) = _
    rw [ptB_s10]
    exact step_s10 _ _ _ _ _ (tileOf t) b ch hx hm
  · intro t hc0 hc1 p
    have hx := iblk0_1_apply V c t b ch
    have hm := iblk0_2_apply V c t b
    show (ptC V c t hc0 hc1 p).s10 (ix4 b ch (0 : Fin 1) (0 : Fin 1)) = _
    rw [ptC_s10]
    exact step_s10 _ _ _ _ _ (tileOf t) b ch hx hm

/-- Running sum 11 after the last point is its sum over all the pixels. -/
theorem total_s11 (c : Dev nD) (b : Fin 4) (ch : Fin 128) :
    (outsAt0 V c 15 h15).s11 (ix4 b ch (0 : Fin 1) (0 : Fin 1)) = pix (fun h w => featOf (V c main_arg1) b ch h w * (om (maskOf (V c main_v3))) b h w) := by
  refine (total_of V c (fun p => p.s11 (ix4 b ch (0 : Fin 1) (0 : Fin 1))) (fun t => tile (fun h w => featOf (V c main_arg1) b ch (row16 t h) w * (om (maskOf (V c main_v3))) b (row16 t h) w)) ?_ ?_ ?_).trans (pix_eq_tiles (fun h w => featOf (V c main_arg1) b ch h w * (om (maskOf (V c main_v3))) b h w)).symm
  · intro t hc0 hc1
    have hx := iblk0_1_apply V c t b ch
    have hm := iblk0_2_apply V c t b
    show (ptA V c t hc0 hc1).s11 (ix4 b ch (0 : Fin 1) (0 : Fin 1)) = _
    rw [ptA_s11]
    refine (step_s11 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s11 (ix4 b ch (0 : Fin 1) (0 : Fin 1)) = _
    rw [ptB_s11]
    exact step_s11 _ _ _ _ _ (tileOf t) b ch hx hm
  · intro t hc0 hc1 p
    have hx := iblk0_1_apply V c t b ch
    have hm := iblk0_2_apply V c t b
    show (ptC V c t hc0 hc1 p).s11 (ix4 b ch (0 : Fin 1) (0 : Fin 1)) = _
    rw [ptC_s11]
    exact step_s11 _ _ _ _ _ (tileOf t) b ch hx hm

/-- Running sum 12 after the last point is its sum over all the pixels. -/
theorem total_s12 (c : Dev nD) (b : Fin 4) (ch : Fin 128) :
    (outsAt0 V c 15 h15).s12 (ix4 b ch (0 : Fin 1) (0 : Fin 1)) = pix (fun h w => featOf (V c main_arg1) b ch h w * (((maskOf (V c main_v3)) b h w * (maskOf (V c main_v3)) b h w) * (maskOf (V c main_v3)) b h w)) := by
  refine (total_of V c (fun p => p.s12 (ix4 b ch (0 : Fin 1) (0 : Fin 1))) (fun t => tile (fun h w => featOf (V c main_arg1) b ch (row16 t h) w * (((maskOf (V c main_v3)) b (row16 t h) w * (maskOf (V c main_v3)) b (row16 t h) w) * (maskOf (V c main_v3)) b (row16 t h) w))) ?_ ?_ ?_).trans (pix_eq_tiles (fun h w => featOf (V c main_arg1) b ch h w * (((maskOf (V c main_v3)) b h w * (maskOf (V c main_v3)) b h w) * (maskOf (V c main_v3)) b h w))).symm
  · intro t hc0 hc1
    have hx := iblk0_1_apply V c t b ch
    have hm := iblk0_2_apply V c t b
    show (ptA V c t hc0 hc1).s12 (ix4 b ch (0 : Fin 1) (0 : Fin 1)) = _
    rw [ptA_s12]
    refine (step_s12 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s12 (ix4 b ch (0 : Fin 1) (0 : Fin 1)) = _
    rw [ptB_s12]
    exact step_s12 _ _ _ _ _ (tileOf t) b ch hx hm
  · intro t hc0 hc1 p
    have hx := iblk0_1_apply V c t b ch
    have hm := iblk0_2_apply V c t b
    show (ptC V c t hc0 hc1 p).s12 (ix4 b ch (0 : Fin 1) (0 : Fin 1)) = _
    rw [ptC_s12]
    exact step_s12 _ _ _ _ _ (tileOf t) b ch hx hm

/-- Running sum 13 after the last point is its sum over all the pixels. -/
theorem total_s13 (c : Dev nD) (b : Fin 4) (ch : Fin 128) :
    (outsAt0 V c 15 h15).s13 (ix4 b ch (0 : Fin 1) (0 : Fin 1)) = pix (fun h w => featOf (V c main_arg1) b ch h w * (((om (maskOf (V c main_v3))) b h w * (om (maskOf (V c main_v3))) b h w) * (om (maskOf (V c main_v3))) b h w)) := by
  refine (total_of V c (fun p => p.s13 (ix4 b ch (0 : Fin 1) (0 : Fin 1))) (fun t => tile (fun h w => featOf (V c main_arg1) b ch (row16 t h) w * (((om (maskOf (V c main_v3))) b (row16 t h) w * (om (maskOf (V c main_v3))) b (row16 t h) w) * (om (maskOf (V c main_v3))) b (row16 t h) w))) ?_ ?_ ?_).trans (pix_eq_tiles (fun h w => featOf (V c main_arg1) b ch h w * (((om (maskOf (V c main_v3))) b h w * (om (maskOf (V c main_v3))) b h w) * (om (maskOf (V c main_v3))) b h w))).symm
  · intro t hc0 hc1
    have hx := iblk0_1_apply V c t b ch
    have hm := iblk0_2_apply V c t b
    show (ptA V c t hc0 hc1).s13 (ix4 b ch (0 : Fin 1) (0 : Fin 1)) = _
    rw [ptA_s13]
    refine (step_s13 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s13 (ix4 b ch (0 : Fin 1) (0 : Fin 1)) = _
    rw [ptB_s13]
    exact step_s13 _ _ _ _ _ (tileOf t) b ch hx hm
  · intro t hc0 hc1 p
    have hx := iblk0_1_apply V c t b ch
    have hm := iblk0_2_apply V c t b
    show (ptC V c t hc0 hc1 p).s13 (ix4 b ch (0 : Fin 1) (0 : Fin 1)) = _
    rw [ptC_s13]
    exact step_s13 _ _ _ _ _ (tileOf t) b ch hx hm

/-- Running sum 14 after the last point is its sum over all the pixels. -/
theorem total_s14 (c : Dev nD) (b : Fin 4) (ch : Fin 128) :
    (outsAt0 V c 15 h15).s14 (ix4 b ch (0 : Fin 1) (0 : Fin 1)) = pix (fun h w => (featOf (V c main_arg1) b ch h w * featOf (V c main_arg1) b ch h w) * (((maskOf (V c main_v3)) b h w * (maskOf (V c main_v3)) b h w) * ((maskOf (V c main_v3)) b h w * (maskOf (V c main_v3)) b h w))) := by
  refine (total_of V c (fun p => p.s14 (ix4 b ch (0 : Fin 1) (0 : Fin 1))) (fun t => tile (fun h w => (featOf (V c main_arg1) b ch (row16 t h) w * featOf (V c main_arg1) b ch (row16 t h) w) * (((maskOf (V c main_v3)) b (row16 t h) w * (maskOf (V c main_v3)) b (row16 t h) w) * ((maskOf (V c main_v3)) b (row16 t h) w * (maskOf (V c main_v3)) b (row16 t h) w)))) ?_ ?_ ?_).trans (pix_eq_tiles (fun h w => (featOf (V c main_arg1) b ch h w * featOf (V c main_arg1) b ch h w) * (((maskOf (V c main_v3)) b h w * (maskOf (V c main_v3)) b h w) * ((maskOf (V c main_v3)) b h w * (maskOf (V c main_v3)) b h w)))).symm
  · intro t hc0 hc1
    have hx := iblk0_1_apply V c t b ch
    have hm := iblk0_2_apply V c t b
    show (ptA V c t hc0 hc1).s14 (ix4 b ch (0 : Fin 1) (0 : Fin 1)) = _
    rw [ptA_s14]
    refine (step_s14 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s14 (ix4 b ch (0 : Fin 1) (0 : Fin 1)) = _
    rw [ptB_s14]
    exact step_s14 _ _ _ _ _ (tileOf t) b ch hx hm
  · intro t hc0 hc1 p
    have hx := iblk0_1_apply V c t b ch
    have hm := iblk0_2_apply V c t b
    show (ptC V c t hc0 hc1 p).s14 (ix4 b ch (0 : Fin 1) (0 : Fin 1)) = _
    rw [ptC_s14]
    exact step_s14 _ _ _ _ _ (tileOf t) b ch hx hm

/-- Running sum 15 after the last point is its sum over all the pixels. -/
theorem total_s15 (c : Dev nD) (b : Fin 4) (ch : Fin 128) :
    (outsAt0 V c 15 h15).s15 (ix4 b ch (0 : Fin 1) (0 : Fin 1)) = pix (fun h w => (featOf (V c main_arg1) b ch h w * featOf (V c main_arg1) b ch h w) * (((om (maskOf (V c main_v3))) b h w * (om (maskOf (V c main_v3))) b h w) * ((om (maskOf (V c main_v3))) b h w * (om (maskOf (V c main_v3))) b h w))) := by
  refine (total_of V c (fun p => p.s15 (ix4 b ch (0 : Fin 1) (0 : Fin 1))) (fun t => tile (fun h w => (featOf (V c main_arg1) b ch (row16 t h) w * featOf (V c main_arg1) b ch (row16 t h) w) * (((om (maskOf (V c main_v3))) b (row16 t h) w * (om (maskOf (V c main_v3))) b (row16 t h) w) * ((om (maskOf (V c main_v3))) b (row16 t h) w * (om (maskOf (V c main_v3))) b (row16 t h) w)))) ?_ ?_ ?_).trans (pix_eq_tiles (fun h w => (featOf (V c main_arg1) b ch h w * featOf (V c main_arg1) b ch h w) * (((om (maskOf (V c main_v3))) b h w * (om (maskOf (V c main_v3))) b h w) * ((om (maskOf (V c main_v3))) b h w * (om (maskOf (V c main_v3))) b h w)))).symm
  · intro t hc0 hc1
    have hx := iblk0_1_apply V c t b ch
    have hm := iblk0_2_apply V c t b
    show (ptA V c t hc0 hc1).s15 (ix4 b ch (0 : Fin 1) (0 : Fin 1)) = _
    rw [ptA_s15]
    refine (step_s15 _ _ _ _ _ (tileOf t) b ch hx hm).trans ?_
    exact congrArg (· + _) (zeroSplat_at _ _)
  · intro t hc0 hc1 p
    have hx := iblk0_1_apply V c t b ch
    have hm := iblk0_2_apply V c t b
    show (ptB V c t hc0 hc1 p).s15 (ix4 b ch (0 : Fin 1) (0 : Fin 1)) = _
    rw [ptB_s15]
    exact step_s15 _ _ _ _ _ (tileOf t) b ch hx hm
  · intro t hc0 hc1 p
    have hx := iblk0_1_apply V c t b ch
    have hm := iblk0_2_apply V c t b
    show (ptC V c t hc0 hc1 p).s15 (ix4 b ch (0 : Fin 1) (0 : Fin 1)) = _
    rw [ptC_s15]
    exact step_s15 _ _ _ _ _ (tileOf t) b ch hx hm

/-! ## The eight outputs -/

/-- After the last point output 3 is the last step's expression of the running sums after the last point. -/
theorem last_o3 (c : Dev nD) :
    (outsAt0 V c 15 h15).o3 = k0_pay18 (outsAt0 V c 15 h15).s0 (outsAt0 V c 15 h15).s4 := by
  have e : outsAt0 V c 15 h15 = _ := outsAt0_C V c ⟨15, h15⟩ (show ¬ (15 : ℕ) = 0 by decide) rfl
  rw [e]
  exact ptC_o3 V c _ _ _ _

/-- After the last point output 4 is the last step's expression of the running sums after the last point. -/
theorem last_o4 (c : Dev nD) :
    (outsAt0 V c 15 h15).o4 = k0_pay21 (k0_pay20 (outsAt0 V c 15 h15).s0 (outsAt0 V c 15 h15).s4 (outsAt0 V c 15 h15).s8 (outsAt0 V c 15 h15).s6 (outsAt0 V c 15 h15).s2) := by
  have e : outsAt0 V c 15 h15 = _ := outsAt0_C V c ⟨15, h15⟩ (show ¬ (15 : ℕ) = 0 by decide) rfl
  rw [e]
  exact ptC_o4 V c _ _ _ _

/-- After the last point output 5 is the last step's expression of the running sums after the last point. -/
theorem last_o5 (c : Dev nD) :
    (outsAt0 V c 15 h15).o5 = k0_pay23 (k0_pay16 (outsAt0 V c 15 h15).s0) (outsAt0 V c 15 h15).s10 := by
  have e : outsAt0 V c 15 h15 = _ := outsAt0_C V c ⟨15, h15⟩ (show ¬ (15 : ℕ) = 0 by decide) rfl
  rw [e]
  exact ptC_o5 V c _ _ _ _

/-- After the last point output 6 is the last step's expression of the running sums after the last point. -/
theorem last_o6 (c : Dev nD) :
    (outsAt0 V c 15 h15).o6 = k0_pay2 (k0_pay25 (k0_pay16 (outsAt0 V c 15 h15).s0) (k0_pay23 (k0_pay16 (outsAt0 V c 15 h15).s0) (outsAt0 V c 15 h15).s10) (outsAt0 V c 15 h15).s14 (outsAt0 V c 15 h15).s12 (outsAt0 V c 15 h15).s2) := by
  have e : outsAt0 V c 15 h15 = _ := outsAt0_C V c ⟨15, h15⟩ (show ¬ (15 : ℕ) = 0 by decide) rfl
  rw [e]
  exact ptC_o6 V c _ _ _ _

/-- After the last point output 7 is the last step's expression of the running sums after the last point. -/
theorem last_o7 (c : Dev nD) :
    (outsAt0 V c 15 h15).o7 = k0_pay19 (outsAt0 V c 15 h15).s1 (outsAt0 V c 15 h15).s5 := by
  have e : outsAt0 V c 15 h15 = _ := outsAt0_C V c ⟨15, h15⟩ (show ¬ (15 : ℕ) = 0 by decide) rfl
  rw [e]
  exact ptC_o7 V c _ _ _ _

/-- After the last point output 8 is the last step's expression of the running sums after the last point. -/
theorem last_o8 (c : Dev nD) :
    (outsAt0 V c 15 h15).o8 = k0_pay22 (k0_pay17 (outsAt0 V c 15 h15).s1) (k0_pay19 (outsAt0 V c 15 h15).s1 (outsAt0 V c 15 h15).s5) (outsAt0 V c 15 h15).s9 (outsAt0 V c 15 h15).s7 (outsAt0 V c 15 h15).s3 := by
  have e : outsAt0 V c 15 h15 = _ := outsAt0_C V c ⟨15, h15⟩ (show ¬ (15 : ℕ) = 0 by decide) rfl
  rw [e]
  exact ptC_o8 V c _ _ _ _

/-- After the last point output 9 is the last step's expression of the running sums after the last point. -/
theorem last_o9 (c : Dev nD) :
    (outsAt0 V c 15 h15).o9 = k0_pay24 (k0_pay17 (outsAt0 V c 15 h15).s1) (outsAt0 V c 15 h15).s11 := by
  have e : outsAt0 V c 15 h15 = _ := outsAt0_C V c ⟨15, h15⟩ (show ¬ (15 : ℕ) = 0 by decide) rfl
  rw [e]
  exact ptC_o9 V c _ _ _ _

/-- After the last point output 10 is the last step's expression of the running sums after the last point. -/
theorem last_o10 (c : Dev nD) :
    (outsAt0 V c 15 h15).o10 = k0_pay3 (k0_pay26 (k0_pay17 (outsAt0 V c 15 h15).s1) (outsAt0 V c 15 h15).s11 (outsAt0 V c 15 h15).s15 (outsAt0 V c 15 h15).s13 (outsAt0 V c 15 h15).s3) := by
  have e : outsAt0 V c 15 h15 = _ := outsAt0_C V c ⟨15, h15⟩ (show ¬ (15 : ℕ) = 0 by decide) rfl
  rw [e]
  exact ptC_o10 V c _ _ _ _

/-- Output 3 of the reduction: the weighted mean of the first feature array under the mask. -/
theorem reduce_out_3 (c : Dev nD) (b : Fin 4) (ch : Fin 128) :
    statOf ((dat0 (F := Ideal) V c).arrAt 3 cfg0.N) b ch = mean (featOf (V c main_arg0)) (maskOf (V c main_v3)) b ch := by
  rw [arrAt0_3]
  show (outsAt0 V c 15 h15).o3 (ix4 b ch (0 : Fin 1) (0 : Fin 1)) = _
  rw [last_o3]
  exact out_mean_in_x1 _ _ _ _ b ch (total_s0 V c b) (total_s4 V c b ch)

/-- Output 4 of the reduction: the variance from the three sums of monomials of the first feature array under the mask. -/
theorem reduce_out_4 (c : Dev nD) (b : Fin 4) (ch : Fin 128) :
    statOf ((dat0 (F := Ideal) V c).arrAt 4 cfg0.N) b ch = varMom (featOf (V c main_arg0)) (maskOf (V c main_v3)) b ch := by
  rw [arrAt0_4]
  show (outsAt0 V c 15 h15).o4 (ix4 b ch (0 : Fin 1) (0 : Fin 1)) = _
  rw [last_o4]
  exact out_var_in_x1 _ _ _ _ _ _ _ b ch (total_s0 V c b) (total_s2 V c b) (total_s4 V c b ch) (total_s6 V c b ch) (total_s8 V c b ch)

/-- Output 5 of the reduction: the weighted mean of the second feature array under the mask. -/
theorem reduce_out_5 (c : Dev nD) (b : Fin 4) (ch : Fin 128) :
    statOf ((dat0 (F := Ideal) V c).arrAt 5 cfg0.N) b ch = mean (featOf (V c main_arg1)) (maskOf (V c main_v3)) b ch := by
  rw [arrAt0_5]
  show (outsAt0 V c 15 h15).o5 (ix4 b ch (0 : Fin 1) (0 : Fin 1)) = _
  rw [last_o5]
  exact out_mean_in_x2 _ _ _ _ b ch (total_s0 V c b) (total_s10 V c b ch)

/-- Output 6 of the reduction: the variance from the three sums of monomials of the second feature array under the mask. -/
theorem reduce_out_6 (c : Dev nD) (b : Fin 4) (ch : Fin 128) :
    statOf ((dat0 (F := Ideal) V c).arrAt 6 cfg0.N) b ch = varMom (featOf (V c main_arg1)) (maskOf (V c main_v3)) b ch := by
  rw [arrAt0_6]
  show (outsAt0 V c 15 h15).o6 (ix4 b ch (0 : Fin 1) (0 : Fin 1)) = _
  rw [last_o6]
  exact out_var_in_x2 _ _ _ _ _ _ _ b ch (total_s0 V c b) (total_s2 V c b) (total_s10 V c b ch) (total_s12 V c b ch) (total_s14 V c b ch)

/-- Output 7 of the reduction: the weighted mean of the first feature array under the complementary mask. -/
theorem reduce_out_7 (c : Dev nD) (b : Fin 4) (ch : Fin 128) :
    statOf ((dat0 (F := Ideal) V c).arrAt 7 cfg0.N) b ch = mean (featOf (V c main_arg0)) (om (maskOf (V c main_v3))) b ch := by
  rw [arrAt0_7]
  show (outsAt0 V c 15 h15).o7 (ix4 b ch (0 : Fin 1) (0 : Fin 1)) = _
  rw [last_o7]
  exact out_mean_out_x1 _ _ _ _ b ch (total_s1 V c b) (total_s5 V c b ch)

/-- Output 8 of the reduction: the variance from the three sums of monomials of the first feature array under the complementary mask. -/
theorem reduce_out_8 (c : Dev nD) (b : Fin 4) (ch : Fin 128) :
    statOf ((dat0 (F := Ideal) V c).arrAt 8 cfg0.N) b ch = varMom (featOf (V c main_arg0)) (om (maskOf (V c main_v3))) b ch := by
  rw [arrAt0_8]
  show (outsAt0 V c 15 h15).o8 (ix4 b ch (0 : Fin 1) (0 : Fin 1)) = _
  rw [last_o8]
  exact out_var_out_x1 _ _ _ _ _ _ _ b ch (total_s1 V c b) (total_s3 V c b) (total_s5 V c b ch) (total_s7 V c b ch) (total_s9 V c b ch)

/-- Output 9 of the reduction: the weighted mean of the second feature array under the complementary mask. -/
theorem reduce_out_9 (c : Dev nD) (b : Fin 4) (ch : Fin 128) :
    statOf ((dat0 (F := Ideal) V c).arrAt 9 cfg0.N) b ch = mean (featOf (V c main_arg1)) (om (maskOf (V c main_v3))) b ch := by
  rw [arrAt0_9]
  show (outsAt0 V c 15 h15).o9 (ix4 b ch (0 : Fin 1) (0 : Fin 1)) = _
  rw [last_o9]
  exact out_mean_out_x2 _ _ _ _ b ch (total_s1 V c b) (total_s11 V c b ch)

/-- Output 10 of the reduction: the variance from the three sums of monomials of the second feature array under the complementary mask. -/
theorem reduce_out_10 (c : Dev nD) (b : Fin 4) (ch : Fin 128) :
    statOf ((dat0 (F := Ideal) V c).arrAt 10 cfg0.N) b ch = varMom (featOf (V c main_arg1)) (om (maskOf (V c main_v3))) b ch := by
  rw [arrAt0_10]
  show (outsAt0 V c 15 h15).o10 (ix4 b ch (0 : Fin 1) (0 : Fin 1)) = _
  rw [last_o10]
  exact out_var_out_x2 _ _ _ _ _ _ _ b ch (total_s1 V c b) (total_s3 V c b) (total_s11 V c b ch) (total_s13 V c b ch) (total_s15 V c b ch)

end Cert.KernelIdeal.Hand

end
-- ==== Proof.MomentLaw.lean ====
/-
  The algebra on the extended reals behind the two spellings of the masked variance.

  On real features and a real weight whose divisor n = (sum of the weight) + eps is not zero, every quantity of the
  statistics is a real number: the divisor, the mean mu = (sum of x g) / n, and both variances. The extended reals do
  not distribute at the infinities, so the comparison is made on real witnesses: there
    sum ((x g - mu) g)^2 = sum x^2 g^4 - 2 mu sum x g^3 + mu^2 sum g^2
  term by term, for any constant mu, and dividing by n and clamping at zero gives the same number on both sides.
-/
import Idealize.ShloMosaic.PureOps.Ideal
import proofs.«117659_j43542378447212_2_alg».proof.Proof.Spec

noncomputable section

namespace Cert.MaskedAdaIN

open Idealize.ShloMosaic
open scoped BigOperators

/-- Being a real number (neither infinity). -/
def IsReal (e : EReal) : Prop := ∃ r : ℝ, e = (r : EReal)

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem eps_real : IsReal eps := by
  simp [eps, IsReal, Ideal.ofBits, Ideal.ieee, -EReal.coe_mul]

/-- A finite sum of real numbers, read in the extended reals, is the sum of the readings. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over the pixels of a real array is real. -/
theorem pix_coe (f : Fin 256 → Fin 256 → ℝ) :
    pix (fun h w => ((f h w : ℝ) : EReal)) = ((∑ h, ∑ w, f h w : ℝ) : EReal) := by
  unfold pix
  simp only [coe_sum]

/-- The square of the re-masked deviation from any constant, summed: the three sums of monomials. -/
theorem real_moment (x g : Fin 256 → Fin 256 → ℝ) (μ : ℝ) :
    (∑ h, ∑ w, (x h w * x h w) * ((g h w * g h w) * (g h w * g h w)))
        - (2 * μ) * (∑ h, ∑ w, x h w * ((g h w * g h w) * g h w))
        + (μ * μ) * (∑ h, ∑ w, g h w * g h w)
      = ∑ h, ∑ w, ((x h w * g h w - μ) * g h w) * ((x h w * g h w - μ) * g h w) := by
  simp only [Finset.mul_sum, ← Finset.sum_sub_distrib, ← Finset.sum_add_distrib]
  exact Finset.sum_congr rfl fun h _ => Finset.sum_congr rfl fun w _ => by ring

/-- For real features and a real weight with a nonzero divisor, the variance from the three sums of monomials is the mean
    square of the re-masked deviations: ((x g - μ) g)^2 = x^2 g^4 - 2 μ x g^3 + μ^2 g^2 summed over the pixels. -/
theorem varMom_eq_varDev (x : Feat) (g : Mask) (b : Fin 4) (c : Fin 128)
    (hx : ∀ h w, IsReal (x b c h w)) (hg : ∀ h w, IsReal (g b h w)) (hn : cnt g b ≠ 0) :
    varMom x g b c = varDev x g b c := by
  choose xr hxr using hx
  choose gr hgr using hg
  obtain ⟨e, he⟩ := eps_real
  -- the divisor is a nonzero real number
  have hcnt : cnt g b = (((∑ h, ∑ w, gr h w) + e : ℝ) : EReal) := by
    show pix (fun h w => g b h w) + eps = _
    simp only [hgr, pix_coe, he, ← EReal.coe_add]
  have hN : (∑ h, ∑ w, gr h w) + e ≠ 0 := by
    intro h0
    apply hn
    rw [hcnt, h0]
    rfl
  -- the mean is a real number
  have hmean : mean x g b c
      = (((∑ h, ∑ w, xr h w * gr h w) * (1 / ((∑ h, ∑ w, gr h w) + e)) : ℝ) : EReal) := by
    unfold mean
    rw [hcnt, Ideal.div_coe hN]
    simp only [hxr, hgr, ← EReal.coe_mul, pix_coe]
  unfold varMom varDev
  rw [hmean, hcnt, Ideal.div_coe hN, Ideal.div_coe hN, two_eq]
  simp only [hxr, hgr, ← EReal.coe_mul, ← EReal.coe_sub, ← EReal.coe_add, pix_coe]
  rw [real_moment]

/-- The complementary mask of a real mask is real. -/
theorem om_real (m : Mask) (hm : ∀ b h w, IsReal (m b h w)) : ∀ b h w, IsReal (om m b h w) := by
  intro b h w
  obtain ⟨r, hr⟩ := hm b h w
  exact ⟨1 - r, by rw [om, hr, one_eq, EReal.coe_sub]⟩

/-- The layer does not depend on which of the two spellings of the variance it is given, on real arguments with nonzero
    divisors. -/
theorem layer_varMom_eq_varDev (x1 x2 : Feat) (m : Mask) (w1 w2 w3 w4 : Wgt)
    (hx1 : ∀ b c h w, IsReal (x1 b c h w)) (hx2 : ∀ b c h w, IsReal (x2 b c h w)) (hm : ∀ b h w, IsReal (m b h w))
    (hin : ∀ b, cnt m b ≠ 0) (hout : ∀ b, cnt (om m) b ≠ 0) :
    layer varMom x1 x2 m w1 w2 w3 w4 = layer varDev x1 x2 m w1 w2 w3 w4 := by
  have hom := om_real m hm
  have h1 : varMom x1 m = varDev x1 m :=
    funext fun b => funext fun c => varMom_eq_varDev x1 m b c (hx1 b c) (hm b) (hin b)
  have h2 : varMom x2 m = varDev x2 m :=
    funext fun b => funext fun c => varMom_eq_varDev x2 m b c (hx2 b c) (hm b) (hin b)
  have h3 : varMom x1 (om m) = varDev x1 (om m) :=
    funext fun b => funext fun c => varMom_eq_varDev x1 (om m) b c (hx1 b c) (hom b) (hout b)
  have h4 : varMom x2 (om m) = varDev x2 (om m) :=
    funext fun b => funext fun c => varMom_eq_varDev x2 (om m) b c (hx2 b c) (hom b) (hout b)
  funext b c h w
  simp only [layer, branch, h1, h2, h3, h4]

end Cert.MaskedAdaIN

end
-- ==== Proof.LibSumAxes23.lean ====
/-
  The sum over the two trailing axes of a rank-4 array, read at an index: the host's sum over axes 2 and 3 of an array
  [n0, n1, 256, 256], taken from a scalar initial value, is at (b, c) that value plus the double sum over the rows and
  columns of the array at (b, c, row, column).
-/
import Idealize.ShloMosaic.Lib.IdealHost
import Idealize.ShloMosaic.Lib.ValueIdx
import proofs.«117659_j43542378447212_2_alg».proof.Proof.Spec

noncomputable section

namespace Cert.MaskedAdaIN

open Idealize.ShloMosaic Idealize.ShloMosaic.ValueIdx
open scoped BigOperators

/-- The axes of a rank-4 shape outside 2 and 3 are 0 and 1. -/
theorem kept23 {n0 n1 : Nat} : (⟨4, ![n0, n1, 256, 256]⟩ : Shape).kept [2, 3] = [0, 1] := rfl

/-- Dropping axes 2 and 3 of a rank-4 index keeps its first two coordinates. -/
theorem drop23_eq {n0 n1 : Nat} (hR : (⟨4, ![n0, n1, 256, 256]⟩ : Shape).ReducesTo [2, 3] ⟨2, ![n0, n1]⟩)
    (i : (⟨4, ![n0, n1, 256, 256]⟩ : Shape).Idx) : hR.drop i = ix2 (i 0) (i 1) := by
  funext d
  match d with
  | ⟨0, _⟩ => exact Fin.ext (hR.drop_apply_val_of_eq i 0 0 (by rw [kept23]; exact Nat.zero_lt_two) (by simp only [kept23]; rfl))
  | ⟨1, _⟩ => exact Fin.ext (hR.drop_apply_val_of_eq i 1 1 (by rw [kept23]; exact Nat.one_lt_two) (by simp only [kept23]; rfl))

/-- The host's sum over axes 2 and 3, at (b, c): the initial value plus the sum over the pixels. -/
theorem reduceAdd23_apply {n0 n1 : Nat} (hR : (⟨4, ![n0, n1, 256, 256]⟩ : Shape).ReducesTo [2, 3] ⟨2, ![n0, n1]⟩)
    (hz : 0 < (⟨0, ![]⟩ : Shape).numel) (f : FVec Ideal ⟨4, ![n0, n1, 256, 256]⟩ .f32) (z : FVec Ideal ⟨0, ![]⟩ .f32)
    (b : Fin n0) (c : Fin n1) :
    Host.reduceAdd (F := Ideal) f z hR hz (ix2 b c) = z ix0 + pix (fun h w => f (ix4 b c h w)) := by
  rw [hostReduceAdd_apply]
  unfold Ideal.hostReduceAdd pix
  rw [show Shape.Idx.first hz = ix0 from eq_ix0 _]
  congr 1
  rw [← Finset.sum_product']
  symm
  refine Finset.sum_nbij' (fun p : Fin 256 × Fin 256 => ix4 b c p.1 p.2) (fun i => (i 2, i 3)) ?_ ?_ ?_ ?_ ?_
  · intro p _
    rw [Finset.mem_filter]
    exact ⟨Finset.mem_univ _, drop23_eq hR _⟩
  · intro i _
    exact Finset.mem_univ _
  · intro p _
    rfl
  · intro i hi
    rw [Finset.mem_filter, drop23_eq] at hi
    have h0 : i 0 = b := congrFun hi.2 0
    have h1 : i 1 = c := congrFun hi.2 1
    rw [← h0, ← h1]
    exact (eq_ix4 i).symm
  · intro p _
    rfl

end Cert.MaskedAdaIN

end
-- ==== Proof.PreFacts.lean ====
/-
  The precondition read back at the extended reals. The printed predicate is a conjunction of nine tests joined by "and":
  for each of the seven float arrays, that every entry has absolute value below +infinity; and for the mask repeated
  twice along each spatial axis and for its complement 1 - mask, that at every batch entry the sum over the pixels plus
  eps is not zero. Read at the extended reals, an entry with |x| < +infinity is a real number, and the two sums plus
  eps are the divisors of the layer's two weights.
-/
import Idealize.ShloMosaic.Lib.ReduceAll
import Idealize.ShloMosaic.Lib.ValueIdx
import Idealize.ShloMosaic.Lib.IdealHost
import Idealize.ShloMosaic.Lib.Pipeline.Value
import proofs.«117659_j43542378447212_2_alg».proof.Pre_finite_inputs
import proofs.«117659_j43542378447212_2_alg».proof.Proof.Arrays
import proofs.«117659_j43542378447212_2_alg».proof.Proof.MomentLaw
import proofs.«117659_j43542378447212_2_alg».proof.Proof.LibSumAxes23

noncomputable section

namespace Cert.MaskedAdaIN

open Idealize.ShloMosaic Idealize.ShloMosaic.ValueIdx
open scoped BigOperators

/-- The one index of the rank-0 shape. -/
instance : Subsingleton (⟨0, ![]⟩ : Shape).Idx := ⟨fun _ _ => funext fun d => d.elim0⟩

/-- The f32 pattern of +infinity is the top of the extended reals. -/
theorem ofBits_inf : Ideal.ofBits .f32 0x7F800000#32 = ⊤ := by simp [Ideal.ofBits, Ideal.ieee]

/-- An extended real whose absolute value is below +infinity is a real number. -/
theorem isReal_of_abs_lt (x : EReal)
    (h : FloatOps.cmpf (F := Ideal) (φ := .f32) .olt (FloatOps.hostAbsf x) (Ideal.ofBits .f32 0x7F800000#32) = 1#1) :
    IsReal x := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

/-- Two extended reals the comparison "not equal" answers 1 on are different. -/
theorem ne_of_une (x y : EReal) (h : FloatOps.cmpf (F := Ideal) (φ := .f32) .une x y = 1#1) : x ≠ y := by
  change Ideal.cmp .une x y = 1#1 at h
  unfold Ideal.cmp at h
  intro hxy
  subst hxy
  simp at h

/-- "Every entry has absolute value below +infinity", as the host spells it, says every entry is a real number. -/
theorem all_real {s : Shape} {axes : List (Fin s.rank)} (a : FVec Ideal s .f32)
    (hB : (⟨0, ![]⟩ : Shape).BroadcastsInDim s ![]) (hR : s.ReducesTo axes ⟨0, ![]⟩) (hu : 0 < (⟨0, ![]⟩ : Shape).numel)
    (e : Host.reduce IntOp.andi
        (cmpf .olt (Host.absf a) (broadcastInDim s ![] hB (constant (F := Ideal) ⟨0, ![]⟩ .f32 0x7F800000#32)))
        (constantI ⟨0, ![]⟩ 1 1#1) hR hu ix0 = 1#1) :
    ∀ i, IsReal (a i) := by
  intro i
  have hi := Host.reduce_andi_all _ _ hR hu ix0 e i
  rw [cmpf_apply, broadcastInDim_scalar_apply, constant_apply] at hi
  exact isReal_of_abs_lt _ hi

/-- "The sum of a mask over its pixels plus eps is not zero at any batch entry", as the host spells it (the sum over axes
    2 and 3 kept as [4, 1, 1, 1], eps and zero broadcast to that shape), says no divisor of the mask is zero. -/
theorem cnt_ne_zero (u : FVec Ideal SMask .f32)
    (hR : SMask.ReducesTo [2, 3] ⟨2, ![4, 1]⟩) (hz : 0 < (⟨0, ![]⟩ : Shape).numel)
    (hB : (⟨2, ![4, 1]⟩ : Shape).BroadcastsInDim ⟨4, ![4, 1, 1, 1]⟩ ![0, 1])
    (hB' : (⟨0, ![]⟩ : Shape).BroadcastsInDim ⟨4, ![4, 1, 1, 1]⟩ ![])
    (hR' : (⟨4, ![4, 1, 1, 1]⟩ : Shape).ReducesTo [0, 1, 2, 3] ⟨0, ![]⟩)
    (e : Host.reduce IntOp.andi
        (cmpf .une
          (addf (broadcastInDim ⟨4, ![4, 1, 1, 1]⟩ ![0, 1] hB (Host.reduceAdd u (constant (F := Ideal) ⟨0, ![]⟩ .f32 0x00000000#32) hR hz))
            (broadcastInDim ⟨4, ![4, 1, 1, 1]⟩ ![] hB' (constant (F := Ideal) ⟨0, ![]⟩ .f32 0x322BCC77#32)))
          (broadcastInDim ⟨4, ![4, 1, 1, 1]⟩ ![] hB' (constant (F := Ideal) ⟨0, ![]⟩ .f32 0x00000000#32)))
        (constantI ⟨0, ![]⟩ 1 1#1) hR' hz ix0 = 1#1) :
    ∀ b, cnt (maskOf u) b ≠ 0 := by
  intro b
  have hi := Host.reduce_andi_all _ _ hR' hz ix0 e (ix4 b (0 : Fin 1) (0 : Fin 1) (0 : Fin 1))
  rw [cmpf_apply, addf_apply, broadcastInDim_scalar_apply, broadcastInDim_scalar_apply, constant_apply, constant_apply,
    broadcastInDim_apply _ hB _ _ (ix2 b (0 : Fin 1)) (fun a => by match a with | ⟨0, _⟩ => rfl | ⟨1, _⟩ => rfl),
    reduceAdd23_apply, constant_apply, Ideal.ofBits_zero_f32, zero_add] at hi
  exact ne_of_une _ _ hi

/-- Every entry of the repeated mask is an entry of the mask: a broadcast into a new axis and a reshape only re-index. -/
theorem rep_real (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask)
    (a2 : FVec Ideal SMaskIn .f32) (hr : ∀ i, IsReal (a2 i)) : ∀ b h w, IsReal (maskOf (rep h1 h2 h3 h4 a2) b h w) := by
  intro b h w
  unfold maskOf rep shapeCast broadcastInDim
  exact hr _

/-- The precondition read back: every entry of the seven arrays is a real number, and at no batch entry is the divisor of
    the repeated mask or of its complement zero. -/
theorem pre_decode [Cert.Pre_finite_inputs.Facts] (a0 a1 : FVec Ideal SFeat .f32) (a2 : FVec Ideal SMaskIn .f32) (a3 a4 a5 a6 : FVec Ideal SWgt .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i))
    ∧ (∀ b, cnt (maskOf (rep Cert.Pre_finite_inputs.Facts.bcast_S4x1x128x128_S4x1x128x2x128_0_1_2_4 Cert.Pre_finite_inputs.Facts.shapeCasts_S4x1x128x2x128_S4x1x256x128 Cert.Pre_finite_inputs.Facts.bcast_S4x1x256x128_S4x1x256x128x2_0_1_2_3 Cert.Pre_finite_inputs.Facts.shapeCasts_S4x1x256x128x2_S4x1x256x256 a2)) b ≠ 0)
    ∧ (∀ b, cnt (om (maskOf (rep Cert.Pre_finite_inputs.Facts.bcast_S4x1x128x128_S4x1x128x2x128_0_1_2_4 Cert.Pre_finite_inputs.Facts.shapeCasts_S4x1x128x2x128_S4x1x256x128 Cert.Pre_finite_inputs.Facts.bcast_S4x1x256x128_S4x1x256x128x2_0_1_2_3 Cert.Pre_finite_inputs.Facts.shapeCasts_S4x1x256x128x2_S4x1x256x256 a2))) b ≠ 0) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨e0, e1⟩, e2⟩, e3⟩, e4⟩, e5⟩, e6⟩, e7⟩, e8⟩ := h0
  refine ⟨all_real a0 _ _ _ e0, all_real a1 _ _ _ e1, all_real a2 _ _ _ e2, all_real a3 _ _ _ e3, all_real a4 _ _ _ e4,
    all_real a5 _ _ _ e5, all_real a6 _ _ _ e6, cnt_ne_zero _ _ _ _ _ _ e7, ?_⟩
  -- the complement's array, read at (batch, row, column), is one minus the repeated mask there
  exact cnt_ne_zero _ _ _ _ _ _ e8

end Cert.MaskedAdaIN

end
-- ==== Proof.RefStats.lean ====
/-
  The reference program's statistics read at an index.

  The mask array is repeated twice along each spatial axis; from it the program forms the complementary mask (one minus
  the mask), the two divisors (the sum of a weight over the pixels plus eps), and, for each of the two feature arrays and
  each of the two weights, the weighted mean (the sum over the pixels of feature times weight, over the divisor) and the
  variance of the re-masked deviations (the sum of ((feature * weight - mean) * weight)^2 over the divisor, clamped at 0).

  A sum over the two spatial axes of a [4, C, 256, 256] array, read at (batch, channel), is the initial value plus the
  double sum over rows and columns: the indices that drop to (b, c) are exactly the (b, c, h, w), so the sum over that
  set re-indexes through the pairs (h, w). The zero word is 0, so the initial value disappears. Every other operation
  reads one element of each operand, at an index computed from the literal shapes; a broadcast axis of extent one reads
  coordinate 0.
-/
import proofs.«117659_j43542378447212_2_alg».proof.Proof.Gen.ReferenceIdeal.Read
import proofs.«117659_j43542378447212_2_alg».proof.Proof.Arrays
import Idealize.ShloMosaic.Lib.ValueIdx
import Idealize.ShloMosaic.Lib.IdealHost
import Idealize.ShloMosaic.PureOps.Ideal.Laws

noncomputable section

namespace Cert.MaskedAdaIN.Ref

open Cert.ReferenceIdeal Cert.ReferenceIdeal.Gen Cert.MaskedAdaIN Idealize.ShloMosaic Idealize.ShloMosaic.ValueIdx

variable [Cert.ReferenceIdeal.Facts]

/-! ## A sum over the two spatial axes, read at (batch, channel) -/

/-- Dropping axes 2 and 3 of (b, c, h, w) leaves (b, c). -/
theorem drop23 (hR : S4x128x256x256.ReducesTo [2, 3] S4x128) (b : Fin 4) (c : Fin 128) (h w : Fin 256) :
    hR.drop (ix4 b c h w) = ix2 b c := by
  funext a
  match a with
  | ⟨0, _⟩ => exact Fin.ext rfl
  | ⟨1, _⟩ => exact Fin.ext rfl

/-- An index that drops to (b, c) is (b, c, h, w) for its own two spatial coordinates. -/
theorem of_drop23 (hR : S4x128x256x256.ReducesTo [2, 3] S4x128) (b : Fin 4) (c : Fin 128) (i : S4x128x256x256.Idx)
    (hi : hR.drop i = ix2 b c) : i = ix4 b c (i 2 : Fin 256) (i 3 : Fin 256) := by
  have h0 : (i 0 : Fin 4) = b := Fin.ext (congrArg (fun j : S4x128.Idx => (j 0).val) hi)
  have h1 : (i 1 : Fin 128) = c := Fin.ext (congrArg (fun j : S4x128.Idx => (j 1).val) hi)
  subst h0; subst h1
  exact eq_ix4 i

/-- The exact sum over axes 2 and 3 at (b, c): the initial value plus the double sum over rows and columns. -/
theorem sum23g (hR : S4x128x256x256.ReducesTo [2, 3] S4x128) (f : S4x128x256x256.Idx → EReal) (init : EReal)
    (b : Fin 4) (c : Fin 128) :
    Ideal.hostReduceAdd hR f init (ix2 b c) = init + pix (fun h w => f (ix4 b c h w)) := by
  unfold Ideal.hostReduceAdd pix
  refine congrArg (init + ·) ?_
  rw [← Finset.sum_product']
  refine Finset.sum_nbij' (fun i => ((i 2 : Fin 256), (i 3 : Fin 256))) (fun p => ix4 b c p.1 p.2) ?_ ?_ ?_ ?_ ?_
  · intro i _; exact Finset.mem_product.mpr ⟨Finset.mem_univ _, Finset.mem_univ _⟩
  · intro p _; exact Finset.mem_filter.mpr ⟨Finset.mem_univ _, drop23 hR b c p.1 p.2⟩
  · intro i hi; exact (of_drop23 hR b c i (Finset.mem_filter.mp hi).2).symm
  · intro p _; rfl
  · intro i hi; exact congrArg f (of_drop23 hR b c i (Finset.mem_filter.mp hi).2)

/-- The same for the one-channel shape. -/
theorem drop23m (hR : S4x1x256x256.ReducesTo [2, 3] S4x1) (b : Fin 4) (c : Fin 1) (h w : Fin 256) :
    hR.drop (ix4 b c h w) = ix2 b c := by
  funext a
  match a with
  | ⟨0, _⟩ => exact Fin.ext rfl
  | ⟨1, _⟩ => exact Fin.ext rfl

theorem of_drop23m (hR : S4x1x256x256.ReducesTo [2, 3] S4x1) (b : Fin 4) (c : Fin 1) (i : S4x1x256x256.Idx)
    (hi : hR.drop i = ix2 b c) : i = ix4 b c (i 2 : Fin 256) (i 3 : Fin 256) := by
  have h0 : (i 0 : Fin 4) = b := Fin.ext (congrArg (fun j : S4x1.Idx => (j 0).val) hi)
  have h1 : (i 1 : Fin 1) = c := Fin.ext (congrArg (fun j : S4x1.Idx => (j 1).val) hi)
  subst h0; subst h1
  exact eq_ix4 i

theorem sum23mg (hR : S4x1x256x256.ReducesTo [2, 3] S4x1) (f : S4x1x256x256.Idx → EReal) (init : EReal)
    (b : Fin 4) (c : Fin 1) :
    Ideal.hostReduceAdd hR f init (ix2 b c) = init + pix (fun h w => f (ix4 b c h w)) := by
  unfold Ideal.hostReduceAdd pix
  refine congrArg (init + ·) ?_
  rw [← Finset.sum_product']
  refine Finset.sum_nbij' (fun i => ((i 2 : Fin 256), (i 3 : Fin 256))) (fun p => ix4 b c p.1 p.2) ?_ ?_ ?_ ?_ ?_
  · intro i _; exact Finset.mem_product.mpr ⟨Finset.mem_univ _, Finset.mem_univ _⟩
  · intro p _; exact Finset.mem_filter.mpr ⟨Finset.mem_univ _, drop23m hR b c p.1 p.2⟩
  · intro i hi; exact (of_drop23m hR b c i (Finset.mem_filter.mp hi).2).symm
  · intro p _; rfl
  · intro i hi; exact congrArg f (of_drop23m hR b c i (Finset.mem_filter.mp hi).2)

/-- The host's sum of a feature-shaped array over its two spatial axes, started from the zero constant, at (b, c). -/
theorem sum23 (f : (⟨S4x128x256x256, .f32⟩ : BufTy).Contents (Elt Ideal)) (b : Fin 4) (c : Fin 128) :
    Host.reduceAdd (F := Ideal) (φ := .f32) f (Read.val_main_cst_4 (F := Ideal)) reducesTo_S4x128x256x256_S4x128_d2_3 h_S_ (ix2 b c)
      = pix (fun h w => f (ix4 b c h w)) := by
  rw [hostReduceAdd_apply, sum23g]
  show Ideal.ofBits .f32 0x00000000#32 + _ = _
  rw [Ideal.ofBits_zero_f32, zero_add]

/-- The host's sum of a one-channel array over its two spatial axes, started from the zero constant, at (b, 0). -/
theorem sum23m (f : (⟨S4x1x256x256, .f32⟩ : BufTy).Contents (Elt Ideal)) (b : Fin 4) :
    Host.reduceAdd (F := Ideal) (φ := .f32) f (Read.val_main_cst_0 (F := Ideal)) reducesTo_S4x1x256x256_S4x1_d2_3 h_S_ (ix2 b (0 : Fin 1))
      = pix (fun h w => f (ix4 b (0 : Fin 1) h w)) := by
  rw [hostReduceAdd_apply, sum23mg]
  show Ideal.ofBits .f32 0x00000000#32 + _ = _
  rw [Ideal.ofBits_zero_f32, zero_add]

/-! ## The mask, its complement and the two divisors -/

variable (x0 x1 : (⟨S4x128x256x256, .f32⟩ : BufTy).Contents (Elt Ideal)) (x2 : (⟨S4x1x128x128, .f32⟩ : BufTy).Contents (Elt Ideal)) (b : Fin 4) (c : Fin 128)

/-- The one constant broadcast over the mask's shape. -/
theorem v4_at (i : S4x1x256x256.Idx) : Read.val_main_v4 (F := Ideal) i = one := by
  rw [Read.val_main_v4_apply]; rfl

/-- The complementary mask at (b, h, w). -/
theorem v5_at (h w : Fin 256) :
    Read.val_main_v5 (F := Ideal) x2 (ix4 b (0 : Fin 1) h w) = om (maskOf (Read.val_main_v3 (F := Ideal) x2)) b h w := by
  rw [Read.val_main_v5_apply, v4_at]; rfl

/-- The complementary mask array is the complement of the mask array. -/
theorem maskOf_v5 : maskOf (Read.val_main_v5 (F := Ideal) x2) = om (maskOf (Read.val_main_v3 (F := Ideal) x2)) := by
  funext b h w; exact v5_at x2 b h w

theorem v6_at : Read.val_main_v6 (F := Ideal) x2 (ix2 b (0 : Fin 1)) = pix (maskOf (Read.val_main_v3 (F := Ideal) x2) b) := by
  unfold Read.val_main_v6; rw [sum23m]; rfl

theorem v10_at : Read.val_main_v10 (F := Ideal) x2 (ix2 b (0 : Fin 1)) = pix (om (maskOf (Read.val_main_v3 (F := Ideal) x2)) b) := by
  unfold Read.val_main_v10
  refine (sum23m (Read.val_main_v5 (F := Ideal) x2) b).trans ?_
  rw [← maskOf_v5]; rfl

theorem v8_at (i : S4x1x1x1.Idx) : Read.val_main_v8 (F := Ideal) i = eps := by
  rw [Read.val_main_v8_apply]; rfl

theorem v12_at (i : S4x1x1x1.Idx) : Read.val_main_v12 (F := Ideal) i = eps := by
  rw [Read.val_main_v12_apply]; rfl

/-- The mask's divisor. -/
theorem v9_at : Read.val_main_v9 (F := Ideal) x2 (ix4 b (0 : Fin 1) (0 : Fin 1) (0 : Fin 1))
    = cnt (maskOf (Read.val_main_v3 (F := Ideal) x2)) b := by
  rw [Read.val_main_v9_apply, Read.val_main_v7_apply, v8_at]
  have hi : Read.idx_main_v7 (ix4 b (0 : Fin 1) (0 : Fin 1) (0 : Fin 1)) = ix2 b (0 : Fin 1) := by funext a; match a with | ⟨0, _⟩ => rfl | ⟨1, _⟩ => rfl
  rw [hi, v6_at]; rfl

/-- The complementary mask's divisor. -/
theorem v13_at : Read.val_main_v13 (F := Ideal) x2 (ix4 b (0 : Fin 1) (0 : Fin 1) (0 : Fin 1))
    = cnt (om (maskOf (Read.val_main_v3 (F := Ideal) x2))) b := by
  rw [Read.val_main_v13_apply, Read.val_main_v11_apply, v12_at]
  have hi : Read.idx_main_v11 (ix4 b (0 : Fin 1) (0 : Fin 1) (0 : Fin 1)) = ix2 b (0 : Fin 1) := by funext a; match a with | ⟨0, _⟩ => rfl | ⟨1, _⟩ => rfl
  rw [hi, v10_at]; rfl

/-! ## The statistics of x0 under the weight maskOf (Read.val_main_v3 (F := Ideal) x2) -/

theorem v14_at (h w : Fin 256) : Read.val_main_v14 (F := Ideal) x2 (ix4 b c h w) = maskOf (Read.val_main_v3 (F := Ideal) x2) b h w := by
  rw [Read.val_main_v14_apply]
  have hi : Read.idx_main_v14 (ix4 b c h w) = ix4 b (0 : Fin 1) h w := by funext a; match a with | ⟨0, _⟩ => rfl | ⟨1, _⟩ => rfl | ⟨2, _⟩ => rfl | ⟨3, _⟩ => rfl
  rw [hi]; rfl

theorem v15_at (h w : Fin 256) : Read.val_main_v15 (F := Ideal) x0 x2 (ix4 b c h w) = featOf x0 b c h w * maskOf (Read.val_main_v3 (F := Ideal) x2) b h w := by
  rw [Read.val_main_v15_apply, v14_at]; rfl

theorem v22_at : Read.val_main_v22 (F := Ideal) x0 x2 (ix2 b c) = pix (fun h w => featOf x0 b c h w * maskOf (Read.val_main_v3 (F := Ideal) x2) b h w) := by
  unfold Read.val_main_v22
  refine (sum23 (Read.val_main_v15 (F := Ideal) x0 x2) b c).trans ?_
  exact congrArg pix (funext fun h => funext fun w => v15_at x0 x2 b c h w)

theorem v23_at : Read.val_main_v23 (F := Ideal) x0 x2 (ix4 b c (0 : Fin 1) (0 : Fin 1)) = Read.val_main_v22 (F := Ideal) x0 x2 (ix2 b c) := by
  rw [Read.val_main_v23_apply]
  exact congrArg _ (by funext a; match a with | ⟨0, _⟩ => rfl | ⟨1, _⟩ => rfl)

theorem v24_at : Read.val_main_v24 (F := Ideal) x2 (ix4 b c (0 : Fin 1) (0 : Fin 1)) = cnt (maskOf (Read.val_main_v3 (F := Ideal) x2)) b := by
  rw [Read.val_main_v24_apply]
  have hi : Read.idx_main_v24 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v9_at]

/-- The weighted mean. -/
theorem v25_at : Read.val_main_v25 (F := Ideal) x0 x2 (ix4 b c (0 : Fin 1) (0 : Fin 1)) = mean (featOf x0) (maskOf (Read.val_main_v3 (F := Ideal) x2)) b c := by
  rw [Read.val_main_v25_apply, v23_at, v22_at, v24_at]; rfl

theorem v26_at (h w : Fin 256) : Read.val_main_v26 (F := Ideal) x0 x2 (ix4 b c h w) = mean (featOf x0) (maskOf (Read.val_main_v3 (F := Ideal) x2)) b c := by
  rw [Read.val_main_v26_apply]
  have hi : Read.idx_main_v26 (ix4 b c h w) = ix4 b c (0 : Fin 1) (0 : Fin 1) := by funext a; match a with | ⟨0, _⟩ => rfl | ⟨1, _⟩ => rfl | ⟨2, _⟩ => rfl | ⟨3, _⟩ => rfl
  rw [hi, v25_at]

theorem v28_at (h w : Fin 256) : Read.val_main_v28 (F := Ideal) x2 (ix4 b c h w) = maskOf (Read.val_main_v3 (F := Ideal) x2) b h w := by
  rw [Read.val_main_v28_apply]
  have hi : Read.idx_main_v28 (ix4 b c h w) = ix4 b (0 : Fin 1) h w := by funext a; match a with | ⟨0, _⟩ => rfl | ⟨1, _⟩ => rfl | ⟨2, _⟩ => rfl | ⟨3, _⟩ => rfl
  rw [hi]; rfl

theorem v29_at (h w : Fin 256) : Read.val_main_v29 (F := Ideal) x0 x2 (ix4 b c h w) = ((featOf x0 b c h w * maskOf (Read.val_main_v3 (F := Ideal) x2) b h w - mean (featOf x0) (maskOf (Read.val_main_v3 (F := Ideal) x2)) b c) * maskOf (Read.val_main_v3 (F := Ideal) x2) b h w) := by
  rw [Read.val_main_v29_apply, Read.val_main_v27_apply, v15_at, v26_at, v28_at]; rfl

theorem v30_at (h w : Fin 256) : Read.val_main_v30 (F := Ideal) x0 x2 (ix4 b c h w) = ((featOf x0 b c h w * maskOf (Read.val_main_v3 (F := Ideal) x2) b h w - mean (featOf x0) (maskOf (Read.val_main_v3 (F := Ideal) x2)) b c) * maskOf (Read.val_main_v3 (F := Ideal) x2) b h w) * ((featOf x0 b c h w * maskOf (Read.val_main_v3 (F := Ideal) x2) b h w - mean (featOf x0) (maskOf (Read.val_main_v3 (F := Ideal) x2)) b c) * maskOf (Read.val_main_v3 (F := Ideal) x2) b h w) := by
  rw [Read.val_main_v30_apply, v29_at]; rfl

theorem v31_at : Read.val_main_v31 (F := Ideal) x0 x2 (ix2 b c) = pix (fun h w => ((featOf x0 b c h w * maskOf (Read.val_main_v3 (F := Ideal) x2) b h w - mean (featOf x0) (maskOf (Read.val_main_v3 (F := Ideal) x2)) b c) * maskOf (Read.val_main_v3 (F := Ideal) x2) b h w) * ((featOf x0 b c h w * maskOf (Read.val_main_v3 (F := Ideal) x2) b h w - mean (featOf x0) (maskOf (Read.val_main_v3 (F := Ideal) x2)) b c) * maskOf (Read.val_main_v3 (F := Ideal) x2) b h w)) := by
  unfold Read.val_main_v31
  refine (sum23 (Read.val_main_v30 (F := Ideal) x0 x2) b c).trans ?_
  exact congrArg pix (funext fun h => funext fun w => v30_at x0 x2 b c h w)

theorem v32_at : Read.val_main_v32 (F := Ideal) x0 x2 (ix4 b c (0 : Fin 1) (0 : Fin 1)) = Read.val_main_v31 (F := Ideal) x0 x2 (ix2 b c) := by
  rw [Read.val_main_v32_apply]
  exact congrArg _ (by funext a; match a with | ⟨0, _⟩ => rfl | ⟨1, _⟩ => rfl)

theorem v33_at : Read.val_main_v33 (F := Ideal) x2 (ix4 b c (0 : Fin 1) (0 : Fin 1)) = cnt (maskOf (Read.val_main_v3 (F := Ideal) x2)) b := by
  rw [Read.val_main_v33_apply]
  have hi : Read.idx_main_v33 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v9_at]

theorem v35_at (i : S4x128x1x1.Idx) : Read.val_main_v35 (F := Ideal) i = 0 := by
  rw [Read.val_main_v35_apply]
  show Ideal.ofBits .f32 0x00000000#32 = 0
  exact Ideal.ofBits_zero_f32

/-- The variance of the re-masked deviations, clamped at zero. -/
theorem v36_at : Read.val_main_v36 (F := Ideal) x0 x2 (ix4 b c (0 : Fin 1) (0 : Fin 1)) = varDev (featOf x0) (maskOf (Read.val_main_v3 (F := Ideal) x2)) b c := by
  rw [Read.val_main_v36_apply, Read.val_main_v34_apply, v32_at, v31_at, v33_at, v35_at]; rfl

/-! ## The statistics of x1 under the weight maskOf (Read.val_main_v3 (F := Ideal) x2) -/

theorem v16_at (h w : Fin 256) : Read.val_main_v16 (F := Ideal) x2 (ix4 b c h w) = maskOf (Read.val_main_v3 (F := Ideal) x2) b h w := by
  rw [Read.val_main_v16_apply]
  have hi : Read.idx_main_v16 (ix4 b c h w) = ix4 b (0 : Fin 1) h w := by funext a; match a with | ⟨0, _⟩ => rfl | ⟨1, _⟩ => rfl | ⟨2, _⟩ => rfl | ⟨3, _⟩ => rfl
  rw [hi]; rfl

theorem v17_at (h w : Fin 256) : Read.val_main_v17 (F := Ideal) x1 x2 (ix4 b c h w) = featOf x1 b c h w * maskOf (Read.val_main_v3 (F := Ideal) x2) b h w := by
  rw [Read.val_main_v17_apply, v16_at]; rfl

theorem v37_at : Read.val_main_v37 (F := Ideal) x1 x2 (ix2 b c) = pix (fun h w => featOf x1 b c h w * maskOf (Read.val_main_v3 (F := Ideal) x2) b h w) := by
  unfold Read.val_main_v37
  refine (sum23 (Read.val_main_v17 (F := Ideal) x1 x2) b c).trans ?_
  exact congrArg pix (funext fun h => funext fun w => v17_at x1 x2 b c h w)

theorem v38_at : Read.val_main_v38 (F := Ideal) x1 x2 (ix4 b c (0 : Fin 1) (0 : Fin 1)) = Read.val_main_v37 (F := Ideal) x1 x2 (ix2 b c) := by
  rw [Read.val_main_v38_apply]
  exact congrArg _ (by funext a; match a with | ⟨0, _⟩ => rfl | ⟨1, _⟩ => rfl)

theorem v39_at : Read.val_main_v39 (F := Ideal) x2 (ix4 b c (0 : Fin 1) (0 : Fin 1)) = cnt (maskOf (Read.val_main_v3 (F := Ideal) x2)) b := by
  rw [Read.val_main_v39_apply]
  have hi : Read.idx_main_v39 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v9_at]

/-- The weighted mean. -/
theorem v40_at : Read.val_main_v40 (F := Ideal) x1 x2 (ix4 b c (0 : Fin 1) (0 : Fin 1)) = mean (featOf x1) (maskOf (Read.val_main_v3 (F := Ideal) x2)) b c := by
  rw [Read.val_main_v40_apply, v38_at, v37_at, v39_at]; rfl

theorem v41_at (h w : Fin 256) : Read.val_main_v41 (F := Ideal) x1 x2 (ix4 b c h w) = mean (featOf x1) (maskOf (Read.val_main_v3 (F := Ideal) x2)) b c := by
  rw [Read.val_main_v41_apply]
  have hi : Read.idx_main_v41 (ix4 b c h w) = ix4 b c (0 : Fin 1) (0 : Fin 1) := by funext a; match a with | ⟨0, _⟩ => rfl | ⟨1, _⟩ => rfl | ⟨2, _⟩ => rfl | ⟨3, _⟩ => rfl
  rw [hi, v40_at]

theorem v43_at (h w : Fin 256) : Read.val_main_v43 (F := Ideal) x2 (ix4 b c h w) = maskOf (Read.val_main_v3 (F := Ideal) x2) b h w := by
  rw [Read.val_main_v43_apply]
  have hi : Read.idx_main_v43 (ix4 b c h w) = ix4 b (0 : Fin 1) h w := by funext a; match a with | ⟨0, _⟩ => rfl | ⟨1, _⟩ => rfl | ⟨2, _⟩ => rfl | ⟨3, _⟩ => rfl
  rw [hi]; rfl

theorem v44_at (h w : Fin 256) : Read.val_main_v44 (F := Ideal) x1 x2 (ix4 b c h w) = ((featOf x1 b c h w * maskOf (Read.val_main_v3 (F := Ideal) x2) b h w - mean (featOf x1) (maskOf (Read.val_main_v3 (F := Ideal) x2)) b c) * maskOf (Read.val_main_v3 (F := Ideal) x2) b h w) := by
  rw [Read.val_main_v44_apply, Read.val_main_v42_apply, v17_at, v41_at, v43_at]; rfl

theorem v45_at (h w : Fin 256) : Read.val_main_v45 (F := Ideal) x1 x2 (ix4 b c h w) = ((featOf x1 b c h w * maskOf (Read.val_main_v3 (F := Ideal) x2) b h w - mean (featOf x1) (maskOf (Read.val_main_v3 (F := Ideal) x2)) b c) * maskOf (Read.val_main_v3 (F := Ideal) x2) b h w) * ((featOf x1 b c h w * maskOf (Read.val_main_v3 (F := Ideal) x2) b h w - mean (featOf x1) (maskOf (Read.val_main_v3 (F := Ideal) x2)) b c) * maskOf (Read.val_main_v3 (F := Ideal) x2) b h w) := by
  rw [Read.val_main_v45_apply, v44_at]; rfl

theorem v46_at : Read.val_main_v46 (F := Ideal) x1 x2 (ix2 b c) = pix (fun h w => ((featOf x1 b c h w * maskOf (Read.val_main_v3 (F := Ideal) x2) b h w - mean (featOf x1) (maskOf (Read.val_main_v3 (F := Ideal) x2)) b c) * maskOf (Read.val_main_v3 (F := Ideal) x2) b h w) * ((featOf x1 b c h w * maskOf (Read.val_main_v3 (F := Ideal) x2) b h w - mean (featOf x1) (maskOf (Read.val_main_v3 (F := Ideal) x2)) b c) * maskOf (Read.val_main_v3 (F := Ideal) x2) b h w)) := by
  unfold Read.val_main_v46
  refine (sum23 (Read.val_main_v45 (F := Ideal) x1 x2) b c).trans ?_
  exact congrArg pix (funext fun h => funext fun w => v45_at x1 x2 b c h w)

theorem v47_at : Read.val_main_v47 (F := Ideal) x1 x2 (ix4 b c (0 : Fin 1) (0 : Fin 1)) = Read.val_main_v46 (F := Ideal) x1 x2 (ix2 b c) := by
  rw [Read.val_main_v47_apply]
  exact congrArg _ (by funext a; match a with | ⟨0, _⟩ => rfl | ⟨1, _⟩ => rfl)

theorem v48_at : Read.val_main_v48 (F := Ideal) x2 (ix4 b c (0 : Fin 1) (0 : Fin 1)) = cnt (maskOf (Read.val_main_v3 (F := Ideal) x2)) b := by
  rw [Read.val_main_v48_apply]
  have hi : Read.idx_main_v48 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v9_at]

theorem v50_at (i : S4x128x1x1.Idx) : Read.val_main_v50 (F := Ideal) i = 0 := by
  rw [Read.val_main_v50_apply]
  show Ideal.ofBits .f32 0x00000000#32 = 0
  exact Ideal.ofBits_zero_f32

/-- The variance of the re-masked deviations, clamped at zero. -/
theorem v51_at : Read.val_main_v51 (F := Ideal) x1 x2 (ix4 b c (0 : Fin 1) (0 : Fin 1)) = varDev (featOf x1) (maskOf (Read.val_main_v3 (F := Ideal) x2)) b c := by
  rw [Read.val_main_v51_apply, Read.val_main_v49_apply, v47_at, v46_at, v48_at, v50_at]; rfl

/-! ## The statistics of x0 under the weight om (maskOf (Read.val_main_v3 (F := Ideal) x2)) -/

theorem v18_at (h w : Fin 256) : Read.val_main_v18 (F := Ideal) x2 (ix4 b c h w) = om (maskOf (Read.val_main_v3 (F := Ideal) x2)) b h w := by
  rw [Read.val_main_v18_apply]
  have hi : Read.idx_main_v18 (ix4 b c h w) = ix4 b (0 : Fin 1) h w := by funext a; match a with | ⟨0, _⟩ => rfl | ⟨1, _⟩ => rfl | ⟨2, _⟩ => rfl | ⟨3, _⟩ => rfl
  rw [hi]; exact v5_at x2 b h w

theorem v19_at (h w : Fin 256) : Read.val_main_v19 (F := Ideal) x0 x2 (ix4 b c h w) = featOf x0 b c h w * om (maskOf (Read.val_main_v3 (F := Ideal) x2)) b h w := by
  rw [Read.val_main_v19_apply, v18_at]; rfl

theorem v52_at : Read.val_main_v52 (F := Ideal) x0 x2 (ix2 b c) = pix (fun h w => featOf x0 b c h w * om (maskOf (Read.val_main_v3 (F := Ideal) x2)) b h w) := by
  unfold Read.val_main_v52
  refine (sum23 (Read.val_main_v19 (F := Ideal) x0 x2) b c).trans ?_
  exact congrArg pix (funext fun h => funext fun w => v19_at x0 x2 b c h w)

theorem v53_at : Read.val_main_v53 (F := Ideal) x0 x2 (ix4 b c (0 : Fin 1) (0 : Fin 1)) = Read.val_main_v52 (F := Ideal) x0 x2 (ix2 b c) := by
  rw [Read.val_main_v53_apply]
  exact congrArg _ (by funext a; match a with | ⟨0, _⟩ => rfl | ⟨1, _⟩ => rfl)

theorem v54_at : Read.val_main_v54 (F := Ideal) x2 (ix4 b c (0 : Fin 1) (0 : Fin 1)) = cnt (om (maskOf (Read.val_main_v3 (F := Ideal) x2))) b := by
  rw [Read.val_main_v54_apply]
  have hi : Read.idx_main_v54 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v13_at]

/-- The weighted mean. -/
theorem v55_at : Read.val_main_v55 (F := Ideal) x0 x2 (ix4 b c (0 : Fin 1) (0 : Fin 1)) = mean (featOf x0) (om (maskOf (Read.val_main_v3 (F := Ideal) x2))) b c := by
  rw [Read.val_main_v55_apply, v53_at, v52_at, v54_at]; rfl

theorem v56_at (h w : Fin 256) : Read.val_main_v56 (F := Ideal) x0 x2 (ix4 b c h w) = mean (featOf x0) (om (maskOf (Read.val_main_v3 (F := Ideal) x2))) b c := by
  rw [Read.val_main_v56_apply]
  have hi : Read.idx_main_v56 (ix4 b c h w) = ix4 b c (0 : Fin 1) (0 : Fin 1) := by funext a; match a with | ⟨0, _⟩ => rfl | ⟨1, _⟩ => rfl | ⟨2, _⟩ => rfl | ⟨3, _⟩ => rfl
  rw [hi, v55_at]

theorem v58_at (h w : Fin 256) : Read.val_main_v58 (F := Ideal) x2 (ix4 b c h w) = om (maskOf (Read.val_main_v3 (F := Ideal) x2)) b h w := by
  rw [Read.val_main_v58_apply]
  have hi : Read.idx_main_v58 (ix4 b c h w) = ix4 b (0 : Fin 1) h w := by funext a; match a with | ⟨0, _⟩ => rfl | ⟨1, _⟩ => rfl | ⟨2, _⟩ => rfl | ⟨3, _⟩ => rfl
  rw [hi]; exact v5_at x2 b h w

theorem v59_at (h w : Fin 256) : Read.val_main_v59 (F := Ideal) x0 x2 (ix4 b c h w) = ((featOf x0 b c h w * om (maskOf (Read.val_main_v3 (F := Ideal) x2)) b h w - mean (featOf x0) (om (maskOf (Read.val_main_v3 (F := Ideal) x2))) b c) * om (maskOf (Read.val_main_v3 (F := Ideal) x2)) b h w) := by
  rw [Read.val_main_v59_apply, Read.val_main_v57_apply, v19_at, v56_at, v58_at]; rfl

theorem v60_at (h w : Fin 256) : Read.val_main_v60 (F := Ideal) x0 x2 (ix4 b c h w) = ((featOf x0 b c h w * om (maskOf (Read.val_main_v3 (F := Ideal) x2)) b h w - mean (featOf x0) (om (maskOf (Read.val_main_v3 (F := Ideal) x2))) b c) * om (maskOf (Read.val_main_v3 (F := Ideal) x2)) b h w) * ((featOf x0 b c h w * om (maskOf (Read.val_main_v3 (F := Ideal) x2)) b h w - mean (featOf x0) (om (maskOf (Read.val_main_v3 (F := Ideal) x2))) b c) * om (maskOf (Read.val_main_v3 (F := Ideal) x2)) b h w) := by
  rw [Read.val_main_v60_apply, v59_at]; rfl

theorem v61_at : Read.val_main_v61 (F := Ideal) x0 x2 (ix2 b c) = pix (fun h w => ((featOf x0 b c h w * om (maskOf (Read.val_main_v3 (F := Ideal) x2)) b h w - mean (featOf x0) (om (maskOf (Read.val_main_v3 (F := Ideal) x2))) b c) * om (maskOf (Read.val_main_v3 (F := Ideal) x2)) b h w) * ((featOf x0 b c h w * om (maskOf (Read.val_main_v3 (F := Ideal) x2)) b h w - mean (featOf x0) (om (maskOf (Read.val_main_v3 (F := Ideal) x2))) b c) * om (maskOf (Read.val_main_v3 (F := Ideal) x2)) b h w)) := by
  unfold Read.val_main_v61
  refine (sum23 (Read.val_main_v60 (F := Ideal) x0 x2) b c).trans ?_
  exact congrArg pix (funext fun h => funext fun w => v60_at x0 x2 b c h w)

theorem v62_at : Read.val_main_v62 (F := Ideal) x0 x2 (ix4 b c (0 : Fin 1) (0 : Fin 1)) = Read.val_main_v61 (F := Ideal) x0 x2 (ix2 b c) := by
  rw [Read.val_main_v62_apply]
  exact congrArg _ (by funext a; match a with | ⟨0, _⟩ => rfl | ⟨1, _⟩ => rfl)

theorem v63_at : Read.val_main_v63 (F := Ideal) x2 (ix4 b c (0 : Fin 1) (0 : Fin 1)) = cnt (om (maskOf (Read.val_main_v3 (F := Ideal) x2))) b := by
  rw [Read.val_main_v63_apply]
  have hi : Read.idx_main_v63 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v13_at]

theorem v65_at (i : S4x128x1x1.Idx) : Read.val_main_v65 (F := Ideal) i = 0 := by
  rw [Read.val_main_v65_apply]
  show Ideal.ofBits .f32 0x00000000#32 = 0
  exact Ideal.ofBits_zero_f32

/-- The variance of the re-masked deviations, clamped at zero. -/
theorem v66_at : Read.val_main_v66 (F := Ideal) x0 x2 (ix4 b c (0 : Fin 1) (0 : Fin 1)) = varDev (featOf x0) (om (maskOf (Read.val_main_v3 (F := Ideal) x2))) b c := by
  rw [Read.val_main_v66_apply, Read.val_main_v64_apply, v62_at, v61_at, v63_at, v65_at]; rfl

/-! ## The statistics of x1 under the weight om (maskOf (Read.val_main_v3 (F := Ideal) x2)) -/

theorem v20_at (h w : Fin 256) : Read.val_main_v20 (F := Ideal) x2 (ix4 b c h w) = om (maskOf (Read.val_main_v3 (F := Ideal) x2)) b h w := by
  rw [Read.val_main_v20_apply]
  have hi : Read.idx_main_v20 (ix4 b c h w) = ix4 b (0 : Fin 1) h w := by funext a; match a with | ⟨0, _⟩ => rfl | ⟨1, _⟩ => rfl | ⟨2, _⟩ => rfl | ⟨3, _⟩ => rfl
  rw [hi]; exact v5_at x2 b h w

theorem v21_at (h w : Fin 256) : Read.val_main_v21 (F := Ideal) x1 x2 (ix4 b c h w) = featOf x1 b c h w * om (maskOf (Read.val_main_v3 (F := Ideal) x2)) b h w := by
  rw [Read.val_main_v21_apply, v20_at]; rfl

theorem v67_at : Read.val_main_v67 (F := Ideal) x1 x2 (ix2 b c) = pix (fun h w => featOf x1 b c h w * om (maskOf (Read.val_main_v3 (F := Ideal) x2)) b h w) := by
  unfold Read.val_main_v67
  refine (sum23 (Read.val_main_v21 (F := Ideal) x1 x2) b c).trans ?_
  exact congrArg pix (funext fun h => funext fun w => v21_at x1 x2 b c h w)

theorem v68_at : Read.val_main_v68 (F := Ideal) x1 x2 (ix4 b c (0 : Fin 1) (0 : Fin 1)) = Read.val_main_v67 (F := Ideal) x1 x2 (ix2 b c) := by
  rw [Read.val_main_v68_apply]
  exact congrArg _ (by funext a; match a with | ⟨0, _⟩ => rfl | ⟨1, _⟩ => rfl)

theorem v69_at : Read.val_main_v69 (F := Ideal) x2 (ix4 b c (0 : Fin 1) (0 : Fin 1)) = cnt (om (maskOf (Read.val_main_v3 (F := Ideal) x2))) b := by
  rw [Read.val_main_v69_apply]
  have hi : Read.idx_main_v69 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v13_at]

/-- The weighted mean. -/
theorem v70_at : Read.val_main_v70 (F := Ideal) x1 x2 (ix4 b c (0 : Fin 1) (0 : Fin 1)) = mean (featOf x1) (om (maskOf (Read.val_main_v3 (F := Ideal) x2))) b c := by
  rw [Read.val_main_v70_apply, v68_at, v67_at, v69_at]; rfl

theorem v71_at (h w : Fin 256) : Read.val_main_v71 (F := Ideal) x1 x2 (ix4 b c h w) = mean (featOf x1) (om (maskOf (Read.val_main_v3 (F := Ideal) x2))) b c := by
  rw [Read.val_main_v71_apply]
  have hi : Read.idx_main_v71 (ix4 b c h w) = ix4 b c (0 : Fin 1) (0 : Fin 1) := by funext a; match a with | ⟨0, _⟩ => rfl | ⟨1, _⟩ => rfl | ⟨2, _⟩ => rfl | ⟨3, _⟩ => rfl
  rw [hi, v70_at]

theorem v73_at (h w : Fin 256) : Read.val_main_v73 (F := Ideal) x2 (ix4 b c h w) = om (maskOf (Read.val_main_v3 (F := Ideal) x2)) b h w := by
  rw [Read.val_main_v73_apply]
  have hi : Read.idx_main_v73 (ix4 b c h w) = ix4 b (0 : Fin 1) h w := by funext a; match a with | ⟨0, _⟩ => rfl | ⟨1, _⟩ => rfl | ⟨2, _⟩ => rfl | ⟨3, _⟩ => rfl
  rw [hi]; exact v5_at x2 b h w

theorem v74_at (h w : Fin 256) : Read.val_main_v74 (F := Ideal) x1 x2 (ix4 b c h w) = ((featOf x1 b c h w * om (maskOf (Read.val_main_v3 (F := Ideal) x2)) b h w - mean (featOf x1) (om (maskOf (Read.val_main_v3 (F := Ideal) x2))) b c) * om (maskOf (Read.val_main_v3 (F := Ideal) x2)) b h w) := by
  rw [Read.val_main_v74_apply, Read.val_main_v72_apply, v21_at, v71_at, v73_at]; rfl

theorem v75_at (h w : Fin 256) : Read.val_main_v75 (F := Ideal) x1 x2 (ix4 b c h w) = ((featOf x1 b c h w * om (maskOf (Read.val_main_v3 (F := Ideal) x2)) b h w - mean (featOf x1) (om (maskOf (Read.val_main_v3 (F := Ideal) x2))) b c) * om (maskOf (Read.val_main_v3 (F := Ideal) x2)) b h w) * ((featOf x1 b c h w * om (maskOf (Read.val_main_v3 (F := Ideal) x2)) b h w - mean (featOf x1) (om (maskOf (Read.val_main_v3 (F := Ideal) x2))) b c) * om (maskOf (Read.val_main_v3 (F := Ideal) x2)) b h w) := by
  rw [Read.val_main_v75_apply, v74_at]; rfl

theorem v76_at : Read.val_main_v76 (F := Ideal) x1 x2 (ix2 b c) = pix (fun h w => ((featOf x1 b c h w * om (maskOf (Read.val_main_v3 (F := Ideal) x2)) b h w - mean (featOf x1) (om (maskOf (Read.val_main_v3 (F := Ideal) x2))) b c) * om (maskOf (Read.val_main_v3 (F := Ideal) x2)) b h w) * ((featOf x1 b c h w * om (maskOf (Read.val_main_v3 (F := Ideal) x2)) b h w - mean (featOf x1) (om (maskOf (Read.val_main_v3 (F := Ideal) x2))) b c) * om (maskOf (Read.val_main_v3 (F := Ideal) x2)) b h w)) := by
  unfold Read.val_main_v76
  refine (sum23 (Read.val_main_v75 (F := Ideal) x1 x2) b c).trans ?_
  exact congrArg pix (funext fun h => funext fun w => v75_at x1 x2 b c h w)

theorem v77_at : Read.val_main_v77 (F := Ideal) x1 x2 (ix4 b c (0 : Fin 1) (0 : Fin 1)) = Read.val_main_v76 (F := Ideal) x1 x2 (ix2 b c) := by
  rw [Read.val_main_v77_apply]
  exact congrArg _ (by funext a; match a with | ⟨0, _⟩ => rfl | ⟨1, _⟩ => rfl)

theorem v78_at : Read.val_main_v78 (F := Ideal) x2 (ix4 b c (0 : Fin 1) (0 : Fin 1)) = cnt (om (maskOf (Read.val_main_v3 (F := Ideal) x2))) b := by
  rw [Read.val_main_v78_apply]
  have hi : Read.idx_main_v78 (ix4 b c (0 : Fin 1) (0 : Fin 1)) = ix4 b (0 : Fin 1) (0 : Fin 1) (0 : Fin 1) := by funext a; match a with | ⟨0, _⟩ => rfl | ⟨1, _⟩ => rfl | ⟨2, _⟩ => rfl | ⟨3, _⟩ => rfl
  rw [hi, v13_at]

theorem v80_at (i : S4x128x1x1.Idx) : Read.val_main_v80 (F := Ideal) i = 0 := by
  rw [Read.val_main_v80_apply]
  show Ideal.ofBits .f32 0x00000000#32 = 0
  exact Ideal.ofBits_zero_f32

/-- The variance of the re-masked deviations, clamped at zero. -/
theorem v81_at : Read.val_main_v81 (F := Ideal) x1 x2 (ix4 b c (0 : Fin 1) (0 : Fin 1)) = varDev (featOf x1) (om (maskOf (Read.val_main_v3 (F := Ideal) x2))) b c := by
  rw [Read.val_main_v81_apply, Read.val_main_v79_apply, v77_at, v76_at, v78_at, v80_at]; rfl

end Cert.MaskedAdaIN.Ref

end
-- ==== Proof.RefLayer.lean ====
/-
  The reference program's modulation and final blend, read at an index.

  The host joins two per-channel statistics arrays [4, 128, 1, 1] along the channel axis, flattens the result to [4, 256],
  contracts it against the transposed weight matrix [128, 256] and puts the product back in keepdims form: at
  (batch b, channel j) that is the sum over k < 256 of (the first array at k, or the second at k - 128) times the weight at
  (j, k) — Spec's `modulate`. With the statistics read as Spec's `mean` and `varDev`, the program's last operations are
  the two normalised, modulated branches blended by the mask and its complement: Spec's `layer varDev`.
-/
import proofs.«117659_j43542378447212_2_alg».proof.Proof.Gen.ReferenceIdeal.Read
import proofs.«117659_j43542378447212_2_alg».proof.Proof.Arrays
import proofs.«117659_j43542378447212_2_alg».proof.Proof.RefStats

noncomputable section

namespace Cert.MaskedAdaIN.Ref

open Cert.ReferenceIdeal Cert.ReferenceIdeal.Gen Cert.MaskedAdaIN Idealize.ShloMosaic Idealize.ShloMosaic.ValueIdx

/-- The modulation chain of the host program over any two statistics arrays and a weight matrix: the two arrays joined
    along the channel axis, flattened to [4, 256], contracted against the transposed weights, and put back in
    keepdims form [4, 128, 1, 1]. -/
def modArr (a a' : FVec Ideal S4x128x1x1 .f32) (wt : FVec Ideal S128x256 .f32) : FVec Ideal S4x128x1x1 .f32 :=
  broadcastInDim S4x128x1x1 ![0, 1] bcast_S4x128_S4x128x1x1_0_1
    (Host.dotGeneral (F := Ideal) dot_S4x256_S256x128_S4x128_1_0_0_1_n_n none
      (shapeCast S4x256 (concatenate S4x256x1x1 1 [⟨S4x128x1x1, a⟩, ⟨S4x128x1x1, a'⟩]
        concatenates_S4x128x1x1_S4x128x1x1_S4x256x1x1_d1) shapeCasts_S4x256x1x1_S4x256)
      (transpose S256x128 [1, 0] wt transposes_S128x256_S256x128_1_0))

theorem v86_eq (x0 x1 : FVec Ideal S4x128x256x256 .f32) (x2 : FVec Ideal S4x1x128x128 .f32) (x3 : FVec Ideal S128x256 .f32) :
    Cert.ReferenceIdeal.Read.val_main_v86 (F := Ideal) x0 x1 x2 x3
      = modArr (Cert.ReferenceIdeal.Read.val_main_v25 (F := Ideal) x0 x2) (Cert.ReferenceIdeal.Read.val_main_v40 (F := Ideal) x1 x2) x3 := rfl

/-- The modulation chain read at (batch, output channel): the concatenated statistics against a row of the weights. -/
theorem modulate_at (a a' : FVec Ideal S4x128x1x1 .f32) (wt : FVec Ideal S128x256 .f32) (b : Fin 4) (j : Fin 128) :
    modArr a a' wt (ix4 b j 0 0) = modulate (wgtOf wt) (statOf a) (statOf a') b j := by
  unfold modArr
  rw [broadcastInDim_apply _ bcast_S4x128_S4x128x1x1_0_1 _ (ix4 b j 0 0) (ix2 b j) (fun c => match c with
    | ⟨0, _⟩ => by show b.val = if (4 : Nat) = 1 then 0 else b.val; rw [if_neg (by decide)]
    | ⟨1, _⟩ => by show j.val = if (128 : Nat) = 1 then 0 else j.val; rw [if_neg (by decide)])]
  simp only [Host.dotGeneral]
  rw [Ideal.dotGeneral_apply, ← Equiv.sum_comp (ValueIdx.contrEquiv1 dot_S4x256_S256x128_S4x128_1_0_0_1_n_n 256 rfl rfl).symm]
  unfold modulate
  refine Finset.sum_congr rfl fun k _ => ?_
  have hk := ValueIdx.contrEquiv1_symm_val dot_S4x256_S256x128_S4x128_1_0_0_1_n_n 256 rfl rfl k
  have el : dot_S4x256_S256x128_S4x128_1_0_0_1_n_n.lhsIdx (ix2 b j) ((ValueIdx.contrEquiv1 dot_S4x256_S256x128_S4x128_1_0_0_1_n_n 256 rfl rfl).symm k) = ix2 b k := funext fun c => Fin.ext (by
    match c with
    | ⟨0, _⟩ => exact Read.lhs_main_v85_0 _ _
    | ⟨1, _⟩ => exact (Read.lhs_main_v85_1 _ _).trans hk)
  have er : dot_S4x256_S256x128_S4x128_1_0_0_1_n_n.rhsIdx (ix2 b j) ((ValueIdx.contrEquiv1 dot_S4x256_S256x128_S4x128_1_0_0_1_n_n 256 rfl rfl).symm k) = ix2 k j := funext fun c => Fin.ext (by
    match c with
    | ⟨0, _⟩ => exact (Read.rhs_main_v85_0 _ _).trans hk
    | ⟨1, _⟩ => exact Read.rhs_main_v85_1 _ _)
  rw [el, er]
  -- the transposed weights at (k, j) are the weights at (j, k)
  rw [transpose_apply [1, 0] wt transposes_S128x256_S256x128_1_0 (ix2 k j) (ix2 j k) (fun c => match c with
    | ⟨0, _⟩ => rfl
    | ⟨1, _⟩ => rfl)]
  -- the flattened array at (b, k) is the joined one at (b, k, 0, 0)
  rw [shapeCast_apply _ shapeCasts_S4x256x1x1_S4x256 (ix2 b k) (ix4 b k 0 0)
    (by rewrite [Shape.rowMajor_val_four, Shape.rowMajor_val_two]; show ((b.val * 256 + k.val) * 1 + 0) * 1 + 0 = b.val * 256 + k.val; omega)]
  refine congrArg (· * wt (ix2 j k)) ?_
  unfold side
  by_cases hlt : k.val < 128
  · rw [dif_pos hlt]
    exact concatenate_pair_apply_left 1 a a' concatenates_S4x128x1x1_S4x128x1x1_S4x256x1x1_d1 (ix4 b k 0 0) rfl
      (ix4 b ⟨k.val, hlt⟩ 0 0) (fun c => match c with
        | ⟨0, _⟩ => rfl
        | ⟨1, _⟩ => rfl
        | ⟨2, _⟩ => rfl
        | ⟨3, _⟩ => rfl)
  · rw [dif_neg hlt]
    exact concatenate_pair_apply_right 1 a a' concatenates_S4x128x1x1_S4x128x1x1_S4x256x1x1_d1 (ix4 b k 0 0) rfl rfl
      (ix4 b ⟨k.val - 128, by omega⟩ 0 0) (fun c hc => match c, hc with
        | ⟨0, _⟩, _ => rfl
        | ⟨1, _⟩, hc => absurd rfl hc
        | ⟨2, _⟩, _ => rfl
        | ⟨3, _⟩, _ => rfl)
      (by show (k.val - 128) + 128 = k.val; omega)

section Layer

variable (x0 x1 : FVec Ideal S4x128x256x256 .f32) (x2 : FVec Ideal S4x1x128x128 .f32)
  (x3 x4 x5 x6 : FVec Ideal S128x256 .f32)

/-- The repeated mask, as the host computes it. -/
local notation "u" => Read.val_main_v3 (F := Ideal) x2

/-- The mask is the input mask repeated twice along each spatial axis. -/
theorem mask_rep (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask) :
    Read.val_main_v3 (F := Ideal) x2 = rep h1 h2 h3 h4 x2 := rfl

/-! ### The statistics arrays as functions of (batch, channel) -/

theorem stat_v25 : statOf (Read.val_main_v25 (F := Ideal) x0 x2) = mean (featOf x0) (maskOf u) := by
  funext b c
  show Read.val_main_v25 (F := Ideal) x0 x2 (ix4 b c 0 0) = _
  rw [v25_at]
theorem stat_v40 : statOf (Read.val_main_v40 (F := Ideal) x1 x2) = mean (featOf x1) (maskOf u) := by
  funext b c
  show Read.val_main_v40 (F := Ideal) x1 x2 (ix4 b c 0 0) = _
  rw [v40_at]
theorem stat_v55 : statOf (Read.val_main_v55 (F := Ideal) x0 x2) = mean (featOf x0) (om (maskOf u)) := by
  funext b c
  show Read.val_main_v55 (F := Ideal) x0 x2 (ix4 b c 0 0) = _
  rw [v55_at]
theorem stat_v70 : statOf (Read.val_main_v70 (F := Ideal) x1 x2) = mean (featOf x1) (om (maskOf u)) := by
  funext b c
  show Read.val_main_v70 (F := Ideal) x1 x2 (ix4 b c 0 0) = _
  rw [v70_at]
theorem stat_v36 : statOf (Read.val_main_v36 (F := Ideal) x0 x2) = varDev (featOf x0) (maskOf u) := by
  funext b c
  show Read.val_main_v36 (F := Ideal) x0 x2 (ix4 b c 0 0) = _
  rw [v36_at]
theorem stat_v51 : statOf (Read.val_main_v51 (F := Ideal) x1 x2) = varDev (featOf x1) (maskOf u) := by
  funext b c
  show Read.val_main_v51 (F := Ideal) x1 x2 (ix4 b c 0 0) = _
  rw [v51_at]
theorem stat_v66 : statOf (Read.val_main_v66 (F := Ideal) x0 x2) = varDev (featOf x0) (om (maskOf u)) := by
  funext b c
  show Read.val_main_v66 (F := Ideal) x0 x2 (ix4 b c 0 0) = _
  rw [v66_at]
theorem stat_v81 : statOf (Read.val_main_v81 (F := Ideal) x1 x2) = varDev (featOf x1) (om (maskOf u)) := by
  funext b c
  show Read.val_main_v81 (F := Ideal) x1 x2 (ix4 b c 0 0) = _
  rw [v81_at]

/-! ### The four modulations -/

theorem v86_at (b : Fin 4) (c : Fin 128) : Read.val_main_v86 (F := Ideal) x0 x1 x2 x3 (ix4 b c 0 0)
    = modulate (wgtOf x3) (mean (featOf x0) (maskOf u)) (mean (featOf x1) (maskOf u)) b c := by
  rw [← stat_v25 x0 x2, ← stat_v40 x1 x2]
  exact modulate_at _ _ x3 b c
theorem v91_at (b : Fin 4) (c : Fin 128) : Read.val_main_v91 (F := Ideal) x0 x1 x2 x4 (ix4 b c 0 0)
    = modulate (wgtOf x4) (varDev (featOf x0) (maskOf u)) (varDev (featOf x1) (maskOf u)) b c := by
  rw [← stat_v36 x0 x2, ← stat_v51 x1 x2]
  exact modulate_at _ _ x4 b c
theorem v96_at (b : Fin 4) (c : Fin 128) : Read.val_main_v96 (F := Ideal) x0 x1 x2 x5 (ix4 b c 0 0)
    = modulate (wgtOf x5) (mean (featOf x0) (om (maskOf u))) (mean (featOf x1) (om (maskOf u))) b c := by
  rw [← stat_v55 x0 x2, ← stat_v70 x1 x2]
  exact modulate_at _ _ x5 b c
theorem v101_at (b : Fin 4) (c : Fin 128) : Read.val_main_v101 (F := Ideal) x0 x1 x2 x6 (ix4 b c 0 0)
    = modulate (wgtOf x6) (varDev (featOf x0) (om (maskOf u))) (varDev (featOf x1) (om (maskOf u))) b c := by
  rw [← stat_v66 x0 x2, ← stat_v81 x1 x2]
  exact modulate_at _ _ x6 b c

/-! ### The two reciprocal standard deviations -/

theorem v106_at (b : Fin 4) (c : Fin 128) : Read.val_main_v106 (F := Ideal) x0 x2 (ix4 b c 0 0)
    = Ideal.rsqrt (varDev (featOf x0) (maskOf u) b c + eps) := by
  rw [Read.val_main_v106_apply, Read.val_main_v105_apply, v36_at, Read.val_main_v104_apply, Read.val_main_cst_16_apply]
  rfl
theorem v113_at (b : Fin 4) (c : Fin 128) : Read.val_main_v113 (F := Ideal) x0 x2 (ix4 b c 0 0)
    = Ideal.rsqrt (varDev (featOf x0) (om (maskOf u)) b c + eps) := by
  rw [Read.val_main_v113_apply, Read.val_main_v112_apply, v66_at, Read.val_main_v111_apply, Read.val_main_cst_17_apply]
  rfl

/-! ### The broadcasts back to the feature shape: a per-channel array at (b, c, 0, 0), a mask at (b, 0, h, w) -/

/-- The operand index of a broadcast from [4, 128, 1, 1] or [4, 1, 256, 256], coordinate by coordinate. -/
local macro "bcast_ix" : tactic =>
  `(tactic| exact congrArg _ (funext fun a => match a with
    | ⟨0, _⟩ => rfl
    | ⟨1, _⟩ => rfl
    | ⟨2, _⟩ => rfl
    | ⟨3, _⟩ => rfl))

variable (b : Fin 4) (c : Fin 128) (h w : Fin 256)

theorem v102_at : Read.val_main_v102 (F := Ideal) x0 x2 (ix4 b c h w) = Read.val_main_v25 (F := Ideal) x0 x2 (ix4 b c 0 0) := by
  rw [Read.val_main_v102_apply]; bcast_ix
theorem v107_at : Read.val_main_v107 (F := Ideal) x0 x2 (ix4 b c h w) = Read.val_main_v106 (F := Ideal) x0 x2 (ix4 b c 0 0) := by
  rw [Read.val_main_v107_apply]; bcast_ix
theorem v109_at : Read.val_main_v109 (F := Ideal) x0 x2 (ix4 b c h w) = Read.val_main_v55 (F := Ideal) x0 x2 (ix4 b c 0 0) := by
  rw [Read.val_main_v109_apply]; bcast_ix
theorem v114_at : Read.val_main_v114 (F := Ideal) x0 x2 (ix4 b c h w) = Read.val_main_v113 (F := Ideal) x0 x2 (ix4 b c 0 0) := by
  rw [Read.val_main_v114_apply]; bcast_ix
theorem v116_at : Read.val_main_v116 (F := Ideal) x0 x1 x2 x4 (ix4 b c h w) = Read.val_main_v91 (F := Ideal) x0 x1 x2 x4 (ix4 b c 0 0) := by
  rw [Read.val_main_v116_apply]; bcast_ix
theorem v118_at : Read.val_main_v118 (F := Ideal) x0 x1 x2 x3 (ix4 b c h w) = Read.val_main_v86 (F := Ideal) x0 x1 x2 x3 (ix4 b c 0 0) := by
  rw [Read.val_main_v118_apply]; bcast_ix
theorem v120_at : Read.val_main_v120 (F := Ideal) x0 x1 x2 x6 (ix4 b c h w) = Read.val_main_v101 (F := Ideal) x0 x1 x2 x6 (ix4 b c 0 0) := by
  rw [Read.val_main_v120_apply]; bcast_ix
theorem v122_at : Read.val_main_v122 (F := Ideal) x0 x1 x2 x5 (ix4 b c h w) = Read.val_main_v96 (F := Ideal) x0 x1 x2 x5 (ix4 b c 0 0) := by
  rw [Read.val_main_v122_apply]; bcast_ix
theorem v124_at : Read.val_main_v124 (F := Ideal) x2 (ix4 b c h w) = maskOf u b h w := by
  rw [Read.val_main_v124_apply]; bcast_ix
theorem v126_at : Read.val_main_v126 (F := Ideal) x2 (ix4 b c h w) = om (maskOf u) b h w := by
  have e : Read.val_main_v5 (F := Ideal) x2 (ix4 b 0 h w) = om (maskOf u) b h w := by rw [v5_at]
  rw [Read.val_main_v126_apply, ← e]; bcast_ix

/-- The reference program's result at an index is the layer, with the variance as the mean square of the re-masked
    deviations. -/
theorem ref_layer (i : S4x128x256x256.Idx) :
    Read.val_main_v128 (F := Ideal) x0 x1 x2 x3 x4 x5 x6 i
      = layer varDev (featOf x0) (featOf x1) (maskOf u) (wgtOf x3) (wgtOf x4) (wgtOf x5) (wgtOf x6) (i 0) (i 1) (i 2) (i 3) := by
  obtain ⟨b, c, h, w, rfl⟩ : ∃ b c h w, i = ix4 b c h w := ⟨i 0, i 1, i 2, i 3, eq_ix4 i⟩
  show _ = layer varDev (featOf x0) (featOf x1) (maskOf u) (wgtOf x3) (wgtOf x4) (wgtOf x5) (wgtOf x6) b c h w
  rw [Read.val_main_v128_apply, Read.val_main_v125_apply, Read.val_main_v127_apply, Read.val_main_v119_apply,
    Read.val_main_v123_apply, Read.val_main_v117_apply, Read.val_main_v121_apply, Read.val_main_v108_apply,
    Read.val_main_v115_apply, Read.val_main_v103_apply, Read.val_main_v110_apply,
    v124_at, v126_at, v118_at, v122_at, v116_at, v120_at, v107_at, v114_at, v102_at, v109_at,
    v86_at, v96_at, v91_at, v101_at, v106_at, v113_at, v25_at, v55_at, v15_at, v19_at]
  rfl

end Layer

end Cert.MaskedAdaIN.Ref
end
-- ==== Proof.Bridge.lean ====
/-
  The bridge between the two programs at the extended reals: the buffer the kernel program's blend region leaves is the
  reference program's result over the launched arrays.

  The buffers at the blend region's entry are traced back to the launch: the first feature array and the weights are as
  launched (no host operation writes them, a region only reads them); the mask buffer is the input mask repeated twice along
  each spatial axis; the eight statistics arrays are what the reduction region left — the means and the moment-form
  variances of the two feature arrays under the mask and under its complement —; the four modulation buffers are the
  concatenated statistics against the rows of the four weight matrices. The blend region's output is the layer's last step
  over these, which is the layer with the moment-form variance; the precondition makes every input a real number and no
  divisor zero, where the moment form equals the deviation form; and the layer with the deviation form is the reference
  program's result read at an index.
-/
import proofs.«117659_j43542378447212_2_alg».proof.Defs
import proofs.«117659_j43542378447212_2_alg».proof.Proof.FrameRun
import proofs.«117659_j43542378447212_2_alg».proof.Proof.BlendValue
import proofs.«117659_j43542378447212_2_alg».proof.Proof.BlendSpec
import proofs.«117659_j43542378447212_2_alg».proof.Proof.HostModulate
import proofs.«117659_j43542378447212_2_alg».proof.Proof.ReduceValue
import proofs.«117659_j43542378447212_2_alg».proof.Proof.MomentLaw
import proofs.«117659_j43542378447212_2_alg».proof.Proof.PreFacts
import proofs.«117659_j43542378447212_2_alg».proof.Proof.RefLayer

set_option maxRecDepth 16384

noncomputable section

namespace Cert.KernelIdeal.Hand

open Cert.KernelIdeal Cert.KernelIdeal.Gen Cert.MaskedAdaIN
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What each boundary holds, buffer by buffer -/

/-- The first host stretch leaves every buffer it does not write as launched. -/
theorem W1_of (b : Ref sig .tc) (hb : b ∉ hostOps0_W) :
    W1 (F := Ideal) m ρ c (Proc.devRef .tc b) = m ((c : Thread nD τ).loc b) :=
  StableHlo.after_of_writes_sub hostOps0 _ hostOps0_writes hb

/-- The second host stretch leaves every buffer it does not write as the reduction region left it. -/
theorem W3_of (b : Ref sig .tc) (hb : b ∉ hostOps1_W) :
    W3 (F := Ideal) m ρ c (Proc.devRef .tc b) = W2 (F := Ideal) m ρ c (Proc.devRef .tc b) :=
  StableHlo.after_of_writes_sub hostOps1 _ hostOps1_writes hb

/-- An array the reduction region only reads leaves it as it entered. -/
theorem W2_in (w : Fin cfg0.W) (hin : (cfg0.win w).isOut = false) :
    W2 (F := Ideal) m ρ c (Proc.devRef .tc (Pipeline.arrRef spec0 w)) = W1 (F := Ideal) m ρ c (Proc.devRef .tc (Pipeline.arrRef spec0 w)) :=
  (W2_arr m ρ c w).trans (((dat0 (E1 m ρ) c).arrAt_in w hin _).trans (A_eq0 (E1 m ρ) c w))

/-- The mask buffer when the reduction region is entered: the input mask repeated twice along each spatial axis. -/
theorem W1_v3 (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask) :
    (W1 (F := Ideal) m ρ c (Proc.devRef .tc main_v3) : FVec Ideal S4x1x256x256 .f32)
      = rep (F := Ideal) h1 h2 h3 h4 (m ((c : Thread nD τ).loc main_arg2) : FVec Ideal S4x1x128x128 .f32) :=
  host0_v3 (W0 m ρ c) h1 h2 h3 h4

/-- … and it is still that when the blend region is entered. -/
theorem W3_v3 : W3 (F := Ideal) m ρ c (Proc.devRef .tc main_v3) = W1 (F := Ideal) m ρ c (Proc.devRef .tc main_v3) :=
  (W3_of m ρ c main_v3 (by decide)).trans (W2_in m ρ c 2 rfl)

/-- The first feature array is as launched when the blend region is entered. -/
theorem W3_arg0 : W3 (F := Ideal) m ρ c (Proc.devRef .tc main_arg0) = m ((c : Thread nD τ).loc main_arg0) :=
  (W3_of m ρ c main_arg0 (by decide)).trans ((W2_in m ρ c 0 rfl).trans (W1_of m ρ c main_arg0 (by decide)))

/-- A weight matrix is as launched after the reduction region. -/
theorem W2_wgt (b : Ref sig .tc) (h0 : b ∉ hostOps0_W) (hb : ∀ w, Pipeline.arrRef spec0 w ≠ b) :
    W2 (F := Ideal) m ρ c (Proc.devRef .tc b) = m ((c : Thread nD τ).loc b) :=
  (W2_of_ne m ρ c b hb).trans (W1_of m ρ c b h0)

/-- A statistics array is, when the blend region is entered, what the reduction region left. -/
theorem W3_stat (w : Fin cfg0.W) (hb : Pipeline.arrRef spec0 w ∉ hostOps1_W) :
    W3 (F := Ideal) m ρ c (Proc.devRef .tc (Pipeline.arrRef spec0 w)) = (dat0 (E1 m ρ) c).arrAt w cfg0.N :=
  (W3_of m ρ c _ hb).trans (W2_arr m ρ c w)

/-! ### The statistics arrays: what the reduction region leaves, still there when the blend region is entered -/

theorem W2_v4_0 : W2 (F := Ideal) m ρ c (Proc.devRef .tc main_v4_0) = (dat0 (E1 m ρ) c).arrAt 3 cfg0.N := W2_arr m ρ c 3
theorem W2_v4_1 : W2 (F := Ideal) m ρ c (Proc.devRef .tc main_v4_1) = (dat0 (E1 m ρ) c).arrAt 4 cfg0.N := W2_arr m ρ c 4
theorem W2_v4_2 : W2 (F := Ideal) m ρ c (Proc.devRef .tc main_v4_2) = (dat0 (E1 m ρ) c).arrAt 5 cfg0.N := W2_arr m ρ c 5
theorem W2_v4_3 : W2 (F := Ideal) m ρ c (Proc.devRef .tc main_v4_3) = (dat0 (E1 m ρ) c).arrAt 6 cfg0.N := W2_arr m ρ c 6
theorem W2_v4_4 : W2 (F := Ideal) m ρ c (Proc.devRef .tc main_v4_4) = (dat0 (E1 m ρ) c).arrAt 7 cfg0.N := W2_arr m ρ c 7
theorem W2_v4_5 : W2 (F := Ideal) m ρ c (Proc.devRef .tc main_v4_5) = (dat0 (E1 m ρ) c).arrAt 8 cfg0.N := W2_arr m ρ c 8
theorem W2_v4_6 : W2 (F := Ideal) m ρ c (Proc.devRef .tc main_v4_6) = (dat0 (E1 m ρ) c).arrAt 9 cfg0.N := W2_arr m ρ c 9
theorem W2_v4_7 : W2 (F := Ideal) m ρ c (Proc.devRef .tc main_v4_7) = (dat0 (E1 m ρ) c).arrAt 10 cfg0.N := W2_arr m ρ c 10
theorem W3_v4_0 : W3 (F := Ideal) m ρ c (Proc.devRef .tc main_v4_0) = (dat0 (E1 m ρ) c).arrAt 3 cfg0.N :=
  (W3_of m ρ c main_v4_0 (by decide)).trans (W2_v4_0 m ρ c)
theorem W3_v4_1 : W3 (F := Ideal) m ρ c (Proc.devRef .tc main_v4_1) = (dat0 (E1 m ρ) c).arrAt 4 cfg0.N :=
  (W3_of m ρ c main_v4_1 (by decide)).trans (W2_v4_1 m ρ c)
theorem W3_v4_4 : W3 (F := Ideal) m ρ c (Proc.devRef .tc main_v4_4) = (dat0 (E1 m ρ) c).arrAt 7 cfg0.N :=
  (W3_of m ρ c main_v4_4 (by decide)).trans (W2_v4_4 m ρ c)
theorem W3_v4_5 : W3 (F := Ideal) m ρ c (Proc.devRef .tc main_v4_5) = (dat0 (E1 m ρ) c).arrAt 8 cfg0.N :=
  (W3_of m ρ c main_v4_5 (by decide)).trans (W2_v4_5 m ρ c)

/-! ### The reduction region's entry contents over the launched arrays -/

theorem E1_arg0 : E1 (F := Ideal) m ρ c main_arg0 = m ((c : Thread nD τ).loc main_arg0) := W1_of m ρ c main_arg0 (by decide)
theorem E1_arg1 : E1 (F := Ideal) m ρ c main_arg1 = m ((c : Thread nD τ).loc main_arg1) := W1_of m ρ c main_arg1 (by decide)
theorem E1_v3 (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask) :
    (E1 (F := Ideal) m ρ c main_v3 : FVec Ideal S4x1x256x256 .f32) = (rep (F := Ideal) h1 h2 h3 h4 (m ((c : Thread nD τ).loc main_arg2) : FVec Ideal S4x1x128x128 .f32)) :=
  W1_v3 m ρ c h1 h2 h3 h4

/-! ### The eight statistics over the launched arrays -/

section Stats
variable (h1 : SMaskIn.BroadcastsInDim SRepA (![0, 1, 2, 4] : Fin 4 → Fin SRepA.rank)) (h2 : SRepA.ShapeCasts SRepB)
    (h3 : SRepB.BroadcastsInDim SRepC (![0, 1, 2, 3] : Fin 4 → Fin SRepC.rank)) (h4 : SRepC.ShapeCasts SMask)

theorem red3 : statOf ((dat0 (F := Ideal) (E1 m ρ) c).arrAt 3 cfg0.N)
    = mean (featOf (m ((c : Thread nD τ).loc main_arg0) : FVec Ideal S4x128x256x256 .f32)) (maskOf (rep (F := Ideal) h1 h2 h3 h4 (m ((c : Thread nD τ).loc main_arg2) : FVec Ideal S4x1x128x128 .f32))) := by
  funext b ch
  rw [reduce_out_3, E1_arg0, E1_v3 m ρ c h1 h2 h3 h4]
theorem red4 : statOf ((dat0 (F := Ideal) (E1 m ρ) c).arrAt 4 cfg0.N)
    = varMom (featOf (m ((c : Thread nD τ).loc main_arg0) : FVec Ideal S4x128x256x256 .f32)) (maskOf (rep (F := Ideal) h1 h2 h3 h4 (m ((c : Thread nD τ).loc main_arg2) : FVec Ideal S4x1x128x128 .f32))) := by
  funext b ch
  rw [reduce_out_4, E1_arg0, E1_v3 m ρ c h1 h2 h3 h4]
theorem red5 : statOf ((dat0 (F := Ideal) (E1 m ρ) c).arrAt 5 cfg0.N)
    = mean (featOf (m ((c : Thread nD τ).loc main_arg1) : FVec Ideal S4x128x256x256 .f32)) (maskOf (rep (F := Ideal) h1 h2 h3 h4 (m ((c : Thread nD τ).loc main_arg2) : FVec Ideal S4x1x128x128 .f32))) := by
  funext b ch
  rw [reduce_out_5, E1_arg1, E1_v3 m ρ c h1 h2 h3 h4]
theorem red6 : statOf ((dat0 (F := Ideal) (E1 m ρ) c).arrAt 6 cfg0.N)
    = varMom (featOf (m ((c : Thread nD τ).loc main_arg1) : FVec Ideal S4x128x256x256 .f32)) (maskOf (rep (F := Ideal) h1 h2 h3 h4 (m ((c : Thread nD τ).loc main_arg2) : FVec Ideal S4x1x128x128 .f32))) := by
  funext b ch
  rw [reduce_out_6, E1_arg1, E1_v3 m ρ c h1 h2 h3 h4]
theorem red7 : statOf ((dat0 (F := Ideal) (E1 m ρ) c).arrAt 7 cfg0.N)
    = mean (featOf (m ((c : Thread nD τ).loc main_arg0) : FVec Ideal S4x128x256x256 .f32)) (om (maskOf (rep (F := Ideal) h1 h2 h3 h4 (m ((c : Thread nD τ).loc main_arg2) : FVec Ideal S4x1x128x128 .f32)))) := by
  funext b ch
  rw [reduce_out_7, E1_arg0, E1_v3 m ρ c h1 h2 h3 h4]
theorem red8 : statOf ((dat0 (F := Ideal) (E1 m ρ) c).arrAt 8 cfg0.N)
    = varMom (featOf (m ((c : Thread nD τ).loc main_arg0) : FVec Ideal S4x128x256x256 .f32)) (om (maskOf (rep (F := Ideal) h1 h2 h3 h4 (m ((c : Thread nD τ).loc main_arg2) : FVec Ideal S4x1x128x128 .f32)))) := by
  funext b ch
  rw [reduce_out_8, E1_arg0, E1_v3 m ρ c h1 h2 h3 h4]
theorem red9 : statOf ((dat0 (F := Ideal) (E1 m ρ) c).arrAt 9 cfg0.N)
    = mean (featOf (m ((c : Thread nD τ).loc main_arg1) : FVec Ideal S4x128x256x256 .f32)) (om (maskOf (rep (F := Ideal) h1 h2 h3 h4 (m ((c : Thread nD τ).loc main_arg2) : FVec Ideal S4x1x128x128 .f32)))) := by
  funext b ch
  rw [reduce_out_9, E1_arg1, E1_v3 m ρ c h1 h2 h3 h4]
theorem red10 : statOf ((dat0 (F := Ideal) (E1 m ρ) c).arrAt 10 cfg0.N)
    = varMom (featOf (m ((c : Thread nD τ).loc main_arg1) : FVec Ideal S4x128x256x256 .f32)) (om (maskOf (rep (F := Ideal) h1 h2 h3 h4 (m ((c : Thread nD τ).loc main_arg2) : FVec Ideal S4x1x128x128 .f32)))) := by
  funext b ch
  rw [reduce_out_10, E1_arg1, E1_v3 m ρ c h1 h2 h3 h4]

/-! ### The blend region's entry contents over the launched arrays -/

theorem E3_arg0 : E3 (F := Ideal) m ρ c main_arg0 = m ((c : Thread nD τ).loc main_arg0) := W3_arg0 m ρ c
theorem E3_v3 : (E3 (F := Ideal) m ρ c main_v3 : FVec Ideal S4x1x256x256 .f32) = (rep (F := Ideal) h1 h2 h3 h4 (m ((c : Thread nD τ).loc main_arg2) : FVec Ideal S4x1x128x128 .f32)) :=
  (W3_v3 m ρ c).trans (W1_v3 m ρ c h1 h2 h3 h4)

/-- The modulation in buffer 10, over the statistics the reduction region left and the launched weights. -/
theorem E3_v10 : statOf (E3 (F := Ideal) m ρ c main_v10)
    = modulate (wgtOf (m ((c : Thread nD τ).loc main_arg3) : FVec Ideal S128x256 .f32)) (statOf ((dat0 (F := Ideal) (E1 m ρ) c).arrAt 3 cfg0.N)) (statOf ((dat0 (F := Ideal) (E1 m ρ) c).arrAt 5 cfg0.N)) := by
  funext b j
  refine (host1_v10 (W2 m ρ c) b j).trans ?_
  rw [W2_wgt m ρ c main_arg3 (by decide) (by decide), W2_v4_0 m ρ c, W2_v4_2 m ρ c]
/-- The modulation in buffer 16, over the statistics the reduction region left and the launched weights. -/
theorem E3_v16 : statOf (E3 (F := Ideal) m ρ c main_v16)
    = modulate (wgtOf (m ((c : Thread nD τ).loc main_arg4) : FVec Ideal S128x256 .f32)) (statOf ((dat0 (F := Ideal) (E1 m ρ) c).arrAt 4 cfg0.N)) (statOf ((dat0 (F := Ideal) (E1 m ρ) c).arrAt 6 cfg0.N)) := by
  funext b j
  refine (host1_v16 (W2 m ρ c) b j).trans ?_
  rw [W2_wgt m ρ c main_arg4 (by decide) (by decide), W2_v4_1 m ρ c, W2_v4_3 m ρ c]
/-- The modulation in buffer 22, over the statistics the reduction region left and the launched weights. -/
theorem E3_v22 : statOf (E3 (F := Ideal) m ρ c main_v22)
    = modulate (wgtOf (m ((c : Thread nD τ).loc main_arg5) : FVec Ideal S128x256 .f32)) (statOf ((dat0 (F := Ideal) (E1 m ρ) c).arrAt 7 cfg0.N)) (statOf ((dat0 (F := Ideal) (E1 m ρ) c).arrAt 9 cfg0.N)) := by
  funext b j
  refine (host1_v22 (W2 m ρ c) b j).trans ?_
  rw [W2_wgt m ρ c main_arg5 (by decide) (by decide), W2_v4_4 m ρ c, W2_v4_6 m ρ c]
/-- The modulation in buffer 28, over the statistics the reduction region left and the launched weights. -/
theorem E3_v28 : statOf (E3 (F := Ideal) m ρ c main_v28)
    = modulate (wgtOf (m ((c : Thread nD τ).loc main_arg6) : FVec Ideal S128x256 .f32)) (statOf ((dat0 (F := Ideal) (E1 m ρ) c).arrAt 8 cfg0.N)) (statOf ((dat0 (F := Ideal) (E1 m ρ) c).arrAt 10 cfg0.N)) := by
  funext b j
  refine (host1_v28 (W2 m ρ c) b j).trans ?_
  rw [W2_wgt m ρ c main_arg6 (by decide) (by decide), W2_v4_5 m ρ c, W2_v4_7 m ρ c]

end Stats

section Entry3
theorem E3_v4_0 : E3 (F := Ideal) m ρ c main_v4_0 = (dat0 (E1 m ρ) c).arrAt 3 cfg0.N := W3_v4_0 m ρ c
theorem E3_v4_1 : E3 (F := Ideal) m ρ c main_v4_1 = (dat0 (E1 m ρ) c).arrAt 4 cfg0.N := W3_v4_1 m ρ c
theorem E3_v4_4 : E3 (F := Ideal) m ρ c main_v4_4 = (dat0 (E1 m ρ) c).arrAt 7 cfg0.N := W3_v4_4 m ρ c
theorem E3_v4_5 : E3 (F := Ideal) m ρ c main_v4_5 = (dat0 (E1 m ρ) c).arrAt 8 cfg0.N := W3_v4_5 m ρ c
end Entry3

end Cert.KernelIdeal.Hand

namespace Cert.KernelIdeal.Hand

open Cert.KernelIdeal Cert.KernelIdeal.Gen Cert.MaskedAdaIN
open Idealize.ShloMosaic Idealize.ShloMosaic.TcCoe Idealize.ShloMosaic.ValueIdx Idealize.SL.Sem

/-! ## The bridge -/

/-- THE RESULT: the buffer the blend region leaves is the reference program's result over the launched arrays. Index by
    index it is the layer's last step over the means and the moment-form variances and their modulations, that is the
    layer with the moment form; on real inputs with non-zero divisors the moment form is the deviation form, and the
    layer with the deviation form is what the reference program computes. -/
theorem result_eq [Cert.Pre_finite_inputs.Facts] (m : (ℓ : Loc nD τ sig) → Buf (Elt Ideal) ℓ) (ρ : Dev nD → PrngReg)
    (hpre : Cert.Pre_KernelIdeal m) (c : Dev nD) :
    W4 (F := Ideal) m ρ c (Proc.devRef .tc main_v29)
      = Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain ⟨r0, r1, r2, -, -, -, -, hin, hout⟩ := pre_decode _ _ _ _ _ _ _ (hpre c)
  funext i
  refine ((congrFun (W4_arr m ρ c 10) i).trans (blend_arr (E3 m ρ) c i)).trans ?_
  rw [E3_arg0 m ρ c, E3_v3 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    E3_v4_0 m ρ c, E3_v4_1 m ρ c, E3_v4_4 m ρ c, E3_v4_5 m ρ c, E3_v10 m ρ c, E3_v16 m ρ c, E3_v22 m ρ c, E3_v28 m ρ c,
    red3 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red4 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red5 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red6 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red7 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red8 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red9 m ρ c bcast_S4x1x128x128_S4x1x128x2x128_0_1_2_4 shapeCasts_S4x1x128x2x128_S4x1x256x128
      bcast_S4x1x256x128_S4x1x256x128x2_0_1_2_3 shapeCasts_S4x1x256x128x2_S4x1x256x256,
    red10 m ρ c bcast_S4x1x128x128_S4x1x128x2x128_0_1_2_4 shapeCasts_S4x1x128x2x128_S4x1x256x128
      bcast_S4x1x256x128_S4x1x256x128x2_0_1_2_3 shapeCasts_S4x1x256x128x2_S4x1x256x256]
  have hL := layer_varMom_eq_varDev (featOf (m ((c.tc : Thread nD τ).loc main_arg0))) (featOf (m ((c.tc : Thread nD τ).loc main_arg1)))
    (maskOf (rep (F := Ideal) bcast_S4x1x128x128_S4x1x128x2x128_0_1_2_4 shapeCasts_S4x1x128x2x128_S4x1x256x128
      bcast_S4x1x256x128_S4x1x256x128x2_0_1_2_3 shapeCasts_S4x1x256x128x2_S4x1x256x256 (m ((c.tc : Thread nD τ).loc main_arg2))))
    (wgtOf (m ((c.tc : Thread nD τ).loc main_arg3))) (wgtOf (m ((c.tc : Thread nD τ).loc main_arg4))) (wgtOf (m ((c.tc : Thread nD τ).loc main_arg5))) (wgtOf (m ((c.tc : Thread nD τ).loc main_arg6)))
    (fun b ch h w => r0 (ix4 b ch h w)) (fun b ch h w => r1 (ix4 b ch h w)) (rep_real _ _ _ _ _ r2) hin hout
  refine Eq.trans ?_ (Cert.MaskedAdaIN.Ref.ref_layer _ _ _ _ _ _ _ i).symm
  rw [Cert.MaskedAdaIN.Ref.mask_rep (m ((c.tc : Thread nD τ).loc main_arg2)) bcast_S4x1x128x128_S4x1x128x2x128_0_1_2_4 shapeCasts_S4x1x128x2x128_S4x1x256x128
      bcast_S4x1x256x128_S4x1x256x128x2_0_1_2_3 shapeCasts_S4x1x256x128x2_S4x1x256x256]
  exact congrFun (congrFun (congrFun (congrFun hL (i 0)) (i 1)) (i 2)) (i 3)

end Cert.KernelIdeal.Hand

end
-- ==== Proof.lean ====
/-
  The proof of `Cert.Claim` for the masked adaptive-instance-normalisation layer.

  The layer takes two feature arrays [4, 128, 256, 256], a soft mask [4, 1, 128, 128] and four weight matrices [128, 256].
  The mask is repeated twice along each spatial axis; for the mask m and for its complement 1 - m, each channel of each
  feature array has a weighted mean (the sum of x * g over the pixels divided by the sum of g plus eps) and a variance of the
  re-masked deviations, clamped at zero; the first feature array, masked, is normalised by its statistics, scaled and shifted
  by linear maps of the two arrays' concatenated statistics, and the two branches are blended by m and 1 - m.

  The kernel program computes this in two regions with host operations in between: a reduction region that leaves the
  eight statistics, the variance as three sums of monomials that do not mention the mean (the moment form); four small
  matrix products for the modulations; and a blend region for the last step. The reference program computes the variance
  from the deviations themselves (the deviation form). At the extended reals the two agree on inputs whose entries are all
  real numbers and whose divisors are not zero, which is what the precondition says: the square of the re-masked deviation
  expands into the three monomials, and finite sums of real numbers distribute.

  The claims: each of the three programs runs to the end from any memory the precondition holds of, nothing faulting, and
  leaves its seven arguments as launched; the idealized kernel program is the kernel program's own text (the idealization
  rewrote nothing); and at the extended reals the idealized kernel program and the reference program, from memories that
  agree on the arguments, end with equal results. The run of the kernel program is the fold of its buffers' contents over
  its four stretches (`run_all`), the run of the reference program the composed term of its operations
  (`Cert.ReferenceIdeal.Value.run`), and the two results are one function of the launched arrays (`result_eq`).
-/
import proofs.«117659_j43542378447212_2_alg».proof.Defs
import proofs.«117659_j43542378447212_2_alg».proof.Proof.Gen.Kernel
import proofs.«117659_j43542378447212_2_alg».proof.Proof.Gen.KernelIdeal
import proofs.«117659_j43542378447212_2_alg».proof.Proof.Gen.ReferenceIdeal
import proofs.«117659_j43542378447212_2_alg».proof.Proof.Gen.Pre_finite_inputs
import proofs.«117659_j43542378447212_2_alg».proof.Proof.Gen.ReferenceIdeal.Run
import proofs.«117659_j43542378447212_2_alg».proof.Proof.KFrameRun
import proofs.«117659_j43542378447212_2_alg».proof.Proof.FrameRun
import proofs.«117659_j43542378447212_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run Cert.Kernel.defs _ _).mono (fun _ h c => (h c).2) (Cert.Kernel.Hand.run_all (F := Bits) m ρ)

/-- The same program read at the extended reals runs and leaves its arguments as launched. -/
theorem frame_ki : Cert.frame_KernelIdeal := fun m ρ _ =>
  (θ_run Cert.KernelIdeal.defs _ _).mono (fun _ h c => (h c).2) (Cert.KernelIdeal.Hand.run_all (F := Ideal) m ρ)

/-- The reference program runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals, from memories that agree on the seven arguments, both programs run, end with equal results
    and leave their arguments as launched: the kernel program's result buffer is what its blend region leaves, which is
    the reference program's result term over the launched arrays (`result_eq`). -/
theorem algebraic : Cert.algebraic_KernelIdeal_ReferenceIdeal := by
  intro m g m' g' hpre hagree
  refine ⟨fun c => Cert.KernelIdeal.Hand.W4 (F := Ideal) m g c (Proc.devRef .tc Cert.KernelIdeal.main_v29),
    Cert.KernelIdeal.Hand.run_all (F := Ideal) m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v128_eq, (hagree c).1, (hagree c).2.1, (hagree c).2.2.1, (hagree c).2.2.2.1,
    (hagree c).2.2.2.2.1, (hagree c).2.2.2.2.2.1, (hagree c).2.2.2.2.2.2]
  exact (Cert.KernelIdeal.Hand.result_eq m g hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
